-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2562x512 : Shape := ⟨2, ![2562, 512]⟩
abbrev S16384x512 : Shape := ⟨2, ![16384, 512]⟩
abbrev S49152x4 : Shape := ⟨2, ![49152, 4]⟩
abbrev S2x49152 : Shape := ⟨2, ![2, 49152]⟩
abbrev S4x512 : Shape := ⟨2, ![4, 512]⟩
abbrev S512 : Shape := ⟨1, ![512]⟩
abbrev S512x512 : Shape := ⟨2, ![512, 512]⟩
abbrev S1536x512 : Shape := ⟨2, ![1536, 512]⟩
abbrev S1024x512 : Shape := ⟨2, ![1024, 512]⟩
abbrev S512x128 : Shape := ⟨2, ![512, 128]⟩
abbrev S128 : Shape := ⟨1, ![128]⟩
abbrev S_ : Shape := ⟨0, ![]⟩

class Facts : Prop where
  bcast_S_S2562x512 : S_.BroadcastsInDim S2562x512 (![] : Fin 0 → Fin S2562x512.rank)
  reducesTo_S2562x512_S_d0_1 : S2562x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S49152x4 : S_.BroadcastsInDim S49152x4 (![] : Fin 0 → Fin S49152x4.rank)
  reducesTo_S49152x4_S_d0_1 : S49152x4.ReducesTo [0, 1] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1536x512 : S_.BroadcastsInDim S1536x512 (![] : Fin 0 → Fin S1536x512.rank)
  reducesTo_S1536x512_S_d0_1 : S1536x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_arg26 : FVec F S128 .f32) (main_arg27 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg22 : FVec F S512x512 .f32) (main_arg23 : FVec F S512 .f32) (main_arg24 : FVec F S512x128 .f32) (main_arg25 : FVec F S128 .f32) (main_arg26 : FVec F S128 .f32) (main_arg27 : FVec F S128 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512x512 .f32 := Host.absf main_arg22
  let main_cst_40 : FVec F S_ .f32 := constant S_ .f32 0x7F800000#32
  let main_v105 : FVec F S512x512 .f32 := broadcastInDim S512x512 ![] bcast_S_S512x512 main_cst_40
  let main_v106 : IVec S512x512 1 := cmpf .olt main_v104 main_v105
  let main_c_41 : IVec S_ 1 := constantI S_ 1 1#1
  let main_v107 : IVec S_ 1 := (fun x v => Host.reduce IntOp.andi x v reducesTo_S512x512_S_d0_1 h_S_) main_v106 main_c_41
  let main_v108 : IVec S_ 1 := andi main_v103 main_v107
  let main_v109 : FVec F S512 .f32 := Host.absf main_arg23
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x128 .f32 := Host.absf main_arg24
  let main_cst_44 : FVec F S_ .f32 := constant S_ .f32 0x7F800000#32
  let main_v115 : FVec F S512x128 .f32 := broadcastInDim S512x128 ![] bcast_S_S512x128 main_cst_44
  let main_v116 : IVec S512x128 1 := cmpf .olt main_v114 main_v115
  let main_c_45 : IVec S_ 1 := constantI S_ 1 1#1
  let main_v117 : IVec S_ 1 := (fun x v => Host.reduce IntOp.andi x v reducesTo_S512x128_S_d0_1 h_S_) main_v116 main_c_45
  let main_v118 : IVec S_ 1 := andi main_v113 main_v117
  let main_v119 : FVec F S128 .f32 := Host.absf main_arg25
  fn_part7 (F := F) main_arg26 main_arg27 main_v118 main_v119

def fn_part5 {F : FTy → Type} [FloatOps F] (main_arg19 : FVec F S512 .f32) (main_arg20 : FVec F S512 .f32) (main_arg21 : FVec F S512 .f32) (main_arg22 : FVec F S512x512 .f32) (main_arg23 : FVec F S512 .f32) (main_arg24 : FVec F S512x128 .f32) (main_arg25 : FVec F S128 .f32) (main_arg26 : FVec F S128 .f32) (main_arg27 : FVec F S128 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg19
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg21
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S512 .f32) (main_arg16 : FVec F S1024x512 .f32) (main_arg17 : FVec F S512 .f32) (main_arg18 : FVec F S512x512 .f32) (main_arg19 : FVec F S512 .f32) (main_arg20 : FVec F S512 .f32) (main_arg21 : FVec F S512 .f32) (main_arg22 : FVec F S512x512 .f32) (main_arg23 : FVec F S512 .f32) (main_arg24 : FVec F S512x128 .f32) (main_arg25 : FVec F S128 .f32) (main_arg26 : FVec F S128 .f32) (main_arg27 : FVec F S128 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S1024x512 .f32 := Host.absf main_arg16
  let main_cst_28 : FVec F S_ .f32 := constant S_ .f32 0x7F800000#32
  let main_v75 : FVec F S1024x512 .f32 := broadcastInDim S1024x512 ![] bcast_S_S1024x512 main_cst_28
  let main_v76 : IVec S1024x512 1 := cmpf .olt main_v74 main_v75
  let main_c_29 : IVec S_ 1 := constantI S_ 1 1#1
  let main_v77 : IVec S_ 1 := (fun x v => Host.reduce IntOp.andi x v reducesTo_S1024x512_S_d0_1 h_S_) main_v76 main_c_29
  let main_v78 : IVec S_ 1 := andi main_v73 main_v77
  let main_v79 : FVec F S512 .f32 := Host.absf main_arg17
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S512x512 .f32) (main_arg13 : FVec F S512 .f32) (main_arg14 : FVec F S512 .f32) (main_arg15 : FVec F S512 .f32) (main_arg16 : FVec F S1024x512 .f32) (main_arg17 : FVec F S512 .f32) (main_arg18 : FVec F S512x512 .f32) (main_arg19 : FVec F S512 .f32) (main_arg20 : FVec F S512 .f32) (main_arg21 : FVec F S512 .f32) (main_arg22 : FVec F S512x512 .f32) (main_arg23 : FVec F S512 .f32) (main_arg24 : FVec F S512x128 .f32) (main_arg25 : FVec F S128 .f32) (main_arg26 : FVec F S128 .f32) (main_arg27 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S512 .f32) (main_arg9 : FVec F S512 .f32) (main_arg10 : FVec F S1536x512 .f32) (main_arg11 : FVec F S512 .f32) (main_arg12 : FVec F S512x512 .f32) (main_arg13 : FVec F S512 .f32) (main_arg14 : FVec F S512 .f32) (main_arg15 : FVec F S512 .f32) (main_arg16 : FVec F S1024x512 .f32) (main_arg17 : FVec F S512 .f32) (main_arg18 : FVec F S512x512 .f32) (main_arg19 : FVec F S512 .f32) (main_arg20 : FVec F S512 .f32) (main_arg21 : FVec F S512 .f32) (main_arg22 : FVec F S512x512 .f32) (main_arg23 : FVec F S512 .f32) (main_arg24 : FVec F S512x128 .f32) (main_arg25 : FVec F S128 .f32) (main_arg26 : FVec F S128 .f32) (main_arg27 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1536x512 .f32 := Host.absf main_arg10
  let main_cst_16 : FVec F S_ .f32 := constant S_ .f32 0x7F800000#32
  let main_v45 : FVec F S1536x512 .f32 := broadcastInDim S1536x512 ![] bcast_S_S1536x512 main_cst_16
  let main_v46 : IVec S1536x512 1 := cmpf .olt main_v44 main_v45
  let main_c_17 : IVec S_ 1 := constantI S_ 1 1#1
  let main_v47 : IVec S_ 1 := (fun x v => Host.reduce IntOp.andi x v reducesTo_S1536x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S512 .f32) (main_arg6 : FVec F S512x512 .f32) (main_arg7 : FVec F S512 .f32) (main_arg8 : FVec F S512 .f32) (main_arg9 : FVec F S512 .f32) (main_arg10 : FVec F S1536x512 .f32) (main_arg11 : FVec F S512 .f32) (main_arg12 : FVec F S512x512 .f32) (main_arg13 : FVec F S512 .f32) (main_arg14 : FVec F S512 .f32) (main_arg15 : FVec F S512 .f32) (main_arg16 : FVec F S1024x512 .f32) (main_arg17 : FVec F S512 .f32) (main_arg18 : FVec F S512x512 .f32) (main_arg19 : FVec F S512 .f32) (main_arg20 : FVec F S512 .f32) (main_arg21 : FVec F S512 .f32) (main_arg22 : FVec F S512x512 .f32) (main_arg23 : FVec F S512 .f32) (main_arg24 : FVec F S512x128 .f32) (main_arg25 : FVec F S128 .f32) (main_arg26 : FVec F S128 .f32) (main_arg27 : FVec F S128 .f32) (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S2562x512 .f32) (main_arg1 : FVec F S16384x512 .f32) (main_arg2 : FVec F S49152x4 .f32) (main_arg3 : IVec S2x49152 32) (main_arg4 : FVec F S4x512 .f32) (main_arg5 : FVec F S512 .f32) (main_arg6 : FVec F S512x512 .f32) (main_arg7 : FVec F S512 .f32) (main_arg8 : FVec F S512 .f32) (main_arg9 : FVec F S512 .f32) (main_arg10 : FVec F S1536x512 .f32) (main_arg11 : FVec F S512 .f32) (main_arg12 : FVec F S512x512 .f32) (main_arg13 : FVec F S512 .f32) (main_arg14 : FVec F S512 .f32) (main_arg15 : FVec F S512 .f32) (main_arg16 : FVec F S1024x512 .f32) (main_arg17 : FVec F S512 .f32) (main_arg18 : FVec F S512x512 .f32) (main_arg19 : FVec F S512 .f32) (main_arg20 : FVec F S512 .f32) (main_arg21 : FVec F S512 .f32) (main_arg22 : FVec F S512x512 .f32) (main_arg23 : FVec F S512 .f32) (main_arg24 : FVec F S512x128 .f32) (main_arg25 : FVec F S128 .f32) (main_arg26 : FVec F S128 .f32) (main_arg27 : FVec F S128 .f32) : IVec S_ 1 :=
  let main_v0 : FVec F S2562x512 .f32 := Host.absf main_arg0
  let main_cst : FVec F S_ .f32 := constant S_ .f32 0x7F800000#32
  let main_v1 : FVec F S2562x512 .f32 := broadcastInDim S2562x512 ![] bcast_S_S2562x512 main_cst
  let main_v2 : IVec S2562x512 1 := cmpf .olt main_v0 main_v1
  let main_c : IVec S_ 1 := constantI S_ 1 1#1
  let main_v3 : IVec S_ 1 := (fun x v => Host.reduce IntOp.andi x v reducesTo_S2562x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S49152x4 .f32 := Host.absf main_arg2
  let main_cst_2 : FVec F S_ .f32 := constant S_ .f32 0x7F800000#32
  let main_v10 : FVec F S49152x4 .f32 := broadcastInDim S49152x4 ![] bcast_S_S49152x4 main_cst_2
  let main_v11 : IVec S49152x4 1 := cmpf .olt main_v9 main_v10
  let main_c_3 : IVec S_ 1 := constantI S_ 1 1#1
  let main_v12 : IVec S_ 1 := (fun x v => Host.reduce IntOp.andi x v reducesTo_S49152x4_S_d0_1 h_S_) main_v11 main_c_3
  let main_v13 : IVec S_ 1 := andi main_v8 main_v12
  let main_v14 : FVec F S4x512 .f32 := Host.absf main_arg4
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S2562x512 : Shape := ⟨2, ![2562, 512]⟩
abbrev S16384x512 : Shape := ⟨2, ![16384, 512]⟩
abbrev S49152x4 : Shape := ⟨2, ![49152, 4]⟩
abbrev S2x49152 : Shape := ⟨2, ![2, 49152]⟩
abbrev S4x512 : Shape := ⟨2, ![4, 512]⟩
abbrev S512 : Shape := ⟨1, ![512]⟩
abbrev S512x512 : Shape := ⟨2, ![512, 512]⟩
abbrev S1536x512 : Shape := ⟨2, ![1536, 512]⟩
abbrev S1024x512 : Shape := ⟨2, ![1024, 512]⟩
abbrev S512x128 : Shape := ⟨2, ![512, 128]⟩
abbrev S128 : Shape := ⟨1, ![128]⟩
abbrev S1x49152 : Shape := ⟨2, ![1, 49152]⟩
abbrev S49152 : Shape := ⟨1, ![49152]⟩
abbrev S_ : Shape := ⟨0, ![]⟩
abbrev S49152x1 : Shape := ⟨2, ![49152, 1]⟩
abbrev S49152x512 : Shape := ⟨2, ![49152, 512]⟩
abbrev S512x4 : Shape := ⟨2, ![512, 4]⟩
abbrev S1x512 : Shape := ⟨2, ![1, 512]⟩
abbrev S512x1 : Shape := ⟨2, ![512, 1]⟩
abbrev S512x1536 : Shape := ⟨2, ![512, 1536]⟩
abbrev S16384x128 : Shape := ⟨2, ![16384, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x128 : Shape := ⟨2, ![1, 128]⟩

abbrev nBuf : Space → Nat
  | .hbm => 56
  | .vmem => 38
  | .smem => 0
  | _ => 0

abbrev bufTy : (tb : Table) → Fin (tcTables nBuf tb) → BufTy
  | .hbm, ⟨0, _⟩ => ⟨S2562x512, .f32⟩
  | .hbm, ⟨1, _⟩ => ⟨S16384x512, .f32⟩
  | .hbm, ⟨2, _⟩ => ⟨S49152x4, .f32⟩
  | .hbm, ⟨3, _⟩ => ⟨S2x49152, .i32⟩
  | .hbm, ⟨4, _⟩ => ⟨S4x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1536x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S1024x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S512x128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x49152, .i32⟩
  | .hbm, ⟨29, _⟩ => ⟨S49152, .i32⟩
  | .hbm, ⟨30, _⟩ => ⟨S1x49152, .i32⟩
  | .hbm, ⟨31, _⟩ => ⟨S49152, .i32⟩
  | .hbm, ⟨32, _⟩ => ⟨S_, .i32⟩
  | .hbm, ⟨33, _⟩ => ⟨S49152, .i32⟩
  | .hbm, ⟨34, _⟩ => ⟨S49152, .i1⟩
  | .hbm, ⟨35, _⟩ => ⟨S_, .i32⟩
  | .hbm, ⟨36, _⟩ => ⟨S49152, .i32⟩
  | .hbm, ⟨37, _⟩ => ⟨S49152, .i32⟩
  | .hbm, ⟨38, _⟩ => ⟨S49152, .i32⟩
  | .hbm, ⟨39, _⟩ => ⟨S49152x1, .i32⟩
  | .hbm, ⟨40, _⟩ => ⟨S49152x512, .f32⟩
  | .hbm, ⟨41, _⟩ => ⟨S_, .i32⟩
  | .hbm, ⟨42, _⟩ => ⟨S49152, .i32⟩
  | .hbm, ⟨43, _⟩ => ⟨S49152, .i1⟩
  | .hbm, ⟨44, _⟩ => ⟨S_, .i32⟩
  | .hbm, ⟨45, _⟩ => ⟨S49152, .i32⟩
  | .hbm, ⟨46, _⟩ => ⟨S49152, .i32⟩
  | .hbm, ⟨47, _⟩ => ⟨S49152, .i32⟩
  | .hbm, ⟨48, _⟩ => ⟨S49152x1, .i32⟩
  | .hbm, ⟨49, _⟩ => ⟨S49152x512, .f32⟩
  | .hbm, ⟨50, _⟩ => ⟨S49152x512, .f32⟩
  | .hbm, ⟨51, _⟩ => ⟨S_, .f32⟩
  | .hbm, ⟨52, _⟩ => ⟨S16384x512, .f32⟩
  | .hbm, ⟨53, _⟩ => ⟨S49152x1, .i32⟩
  | .hbm, ⟨54, _⟩ => ⟨S16384x512, .f32⟩
  | .hbm, ⟨55, _⟩ => ⟨S16384x128, .f32⟩
  | .local _ .vmem, ⟨0, _⟩ => ⟨S512x4, .f32⟩
  | .local _ .vmem, ⟨1, _⟩ => ⟨S512x4, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S1536x512, .f32⟩
  | .local _ .vmem, ⟨13, _⟩ => ⟨S512, .f32⟩
  | .local _ .vmem, ⟨14, _⟩ => ⟨S512x512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512x512, .f32⟩
  | .local _ .vmem, ⟨19, _⟩ => ⟨S512x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S512, .f32⟩
  | .local _ .vmem, ⟨26, _⟩ => ⟨S512x512, .f32⟩
  | .local _ .vmem, ⟨27, _⟩ => ⟨S512, .f32⟩
  | .local _ .vmem, ⟨28, _⟩ => ⟨S512, .f32⟩
  | .local _ .vmem, ⟨29, _⟩ => ⟨S512, .f32⟩
  | .local _ .vmem, ⟨30, _⟩ => ⟨S512x512, .f32⟩
  | .local _ .vmem, ⟨31, _⟩ => ⟨S512, .f32⟩
  | .local _ .vmem, ⟨32, _⟩ => ⟨S512x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S1024x128, .f32⟩
  | .local _ .vmem, ⟨37, _⟩ => ⟨S1024x128, .f32⟩
  | _, _ => ⟨S2562x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg14_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem14_1 : DmaSem sig := 37

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S1024x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  slices_S2x49152_S1x49152_0_0 : S2x49152.Slices ![0, 0] S1x49152
  shapeCasts_S1x49152_S49152 : S1x49152.ShapeCasts S49152
  slices_S2x49152_S1x49152_1_0 : S2x49152.Slices ![1, 0] S1x49152
  bcast_S_S49152 : S_.BroadcastsInDim S49152 (![] : Fin 0 → Fin S49152.rank)
  bcast_S49152_S49152x1_0 : S49152.BroadcastsInDim S49152x1 (![0] : Fin 1 → Fin S49152x1.rank)
  inb_S512x4_S512x4_0_0 : ∀ a, (![0, 0] : Fin 2 → Nat) a + S512x4.size a ≤ S512x4.size a
  h_S512x4 : 0 < S512x4.numel
  inb_S4x512_S4x512_0_0 : ∀ a, (![0, 0] : Fin 2 → Nat) a + S4x512.size a ≤ S4x512.size a
  h_S4x512 : 0 < S4x512.numel
  inb_S512_S512_0 : ∀ a, (![0] : Fin 1 → Nat) a + S512.size a ≤ S512.size a
  h_S512 : 0 < S512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  shapeCasts_S512x512_S512x512 : S512x512.ShapeCasts S512x512
  concatenates_S512x512_S512x512_S512x512_S512x1536_d1 : Shape.Concatenates [S512x512, S512x512, S512x512] S512x1536 1
  inb_S1536x512_S1536x512_0_0 : ∀ a, (![0, 0] : Fin 2 → Nat) a + S1536x512.size a ≤ S1536x512.size a
  h_S1536x512 : 0 < S1536x512.numel
  bcast_S_S16384x512 : S_.BroadcastsInDim S16384x512 (![] : Fin 0 → Fin S16384x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  concatenates_S1024x512_S1024x512_S1024x1024_d1 : Shape.Concatenates [S1024x512, S1024x512] S1024x1024 1
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  gather_S16384x512_S49152x1_S49152x512_1_0_n_n_0_1_1512_wf : GatherDims.WF S16384x512 S49152x1 S49152x512 [1] [0] [] [0] [] 1 ![1, 512]
  gather_S2562x512_S49152x1_S49152x512_1_0_n_n_0_1_1512_wf : GatherDims.WF S2562x512 S49152x1 S49152x512 [1] [0] [] [0] [] 1 ![1, 512]
  dot_S512x4_S4x512_S512x512_1_0_0_1_n_n_wf : DotDims.WF S512x4 S4x512 S512x512 [1] [0] [0] [1] [] []
  dot_S512x512_S512x512_S512x512_1_0_0_1_n_n_wf : DotDims.WF S512x512 S512x512 S512x512 [1] [0] [0] [1] [] []
  dot_S512x1536_S1536x512_S512x512_1_0_0_1_n_n_wf : DotDims.WF S512x1536 S1536x512 S512x512 [1] [0] [0] [1] [] []
  scatter_S16384x512_S49152x1_S49152x512_1_0_0_1_wf : ScatterDims.WF S16384x512 S49152x1 S49152x512 [1] [0] [0] 1
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S49152x4.size a
  hwx0_0 : ∀ i : grid0.Coords, EltTy.bits .f32 = 32 ∨ (Rect.block (s := S49152x4) S512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S49152x512.size a
  hwx0_1 : ∀ i : grid0.Coords, EltTy.bits .f32 = 32 ∨ (Rect.block (s := S49152x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S49152x512.size a
  hwx0_2 : ∀ i : grid0.Coords, EltTy.bits .f32 = 32 ∨ (Rect.block (s := S49152x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .f32 = 32 ∨ (Rect.block (s := S4x512) S4x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1536x512.size a ≤ S1536x512.size a
  hwx0_9 : ∀ i : grid0.Coords, EltTy.bits .f32 = 32 ∨ (Rect.block (s := S1536x512) S1536x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S49152x512.size a
  hwx0_15 : ∀ i : grid0.Coords, EltTy.bits .f32 = 32 ∨ (Rect.block (s := S49152x512) S512x512.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .f32 = 32 ∨ (Rect.block (s := S1024x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S512x512.size a
  hwx1_8 : ∀ i : grid1.Coords, EltTy.bits .f32 = 32 ∨ (Rect.block (s := S512x512) S512x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512.size a ≤ S512.size a
  hwx1_9 : ∀ i : grid1.Coords, EltTy.bits .f32 = 32 ∨ (Rect.block (s := S512) S512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x128.size a ≤ S512x128.size a
  hwx1_10 : ∀ i : grid1.Coords, EltTy.bits .f32 = 32 ∨ (Rect.block (s := S512x128) S512x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1024x128.size a ≤ S16384x128.size a
  hwx1_14 : ∀ i : grid1.Coords, EltTy.bits .f32 = 32 ∨ (Rect.block (s := S16384x128) S1024x128.size (cc1_transform_14 i) (hinb1_14 i)).WholeWords (EltTy.packing .f32)

variable [Facts₀]

def gather_S16384x512_S49152x1_S49152x512_1_0_n_n_0_1_1512 : GatherDims S16384x512 S49152x1 S49152x512 where
  offsetDims := [1]
  collapsedSliceDims := [0]
  operandBatchingDims := []
  startIndicesBatchingDims := []
  startIndexMap := [0]
  indexVectorDim := 1
  sliceSizes := ![1, 512]
  wf := gather_S16384x512_S49152x1_S49152x512_1_0_n_n_0_1_1512_wf
def gather_S2562x512_S49152x1_S49152x512_1_0_n_n_0_1_1512 : GatherDims S2562x512 S49152x1 S49152x512 where
  offsetDims := [1]
  collapsedSliceDims := [0]
  operandBatchingDims := []
  startIndicesBatchingDims := []
  startIndexMap := [0]
  indexVectorDim := 1
  sliceSizes := ![1, 512]
  wf := gather_S2562x512_S49152x1_S49152x512_1_0_n_n_0_1_1512_wf
def dot_S512x4_S4x512_S512x512_1_0_0_1_n_n : DotDims S512x4 S4x512 S512x512 where
  lhsContracting := [1]
  rhsContracting := [0]
  lhsNonContracting := [0]
  rhsNonContracting := [1]
  lhsBatch := []
  rhsBatch := []
  wf := dot_S512x4_S4x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def scatter_S16384x512_S49152x1_S49152x512_1_0_0_1 : ScatterDims S16384x512 S49152x1 S49152x512 where
  updateWindowDims := [1]
  insertedWindowDims := [0]
  scatterDimsToOperandDims := [0]
  indexVectorDim := 1
  wf := scatter_S16384x512_S49152x1_S49152x512_1_0_0_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg2) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1536x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18) S512x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg16) S1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg17) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg18) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg19) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg20) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg21) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg22) S512x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg23) S512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg24) S512x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg25) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg26) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg27) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v22) S1024x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S2562x512 : Shape := ⟨2, ![2562, 512]⟩
abbrev S16384x512 : Shape := ⟨2, ![16384, 512]⟩
abbrev S49152x4 : Shape := ⟨2, ![49152, 4]⟩
abbrev S2x49152 : Shape := ⟨2, ![2, 49152]⟩
abbrev S4x512 : Shape := ⟨2, ![4, 512]⟩
abbrev S512 : Shape := ⟨1, ![512]⟩
abbrev S512x512 : Shape := ⟨2, ![512, 512]⟩
abbrev S1536x512 : Shape := ⟨2, ![1536, 512]⟩
abbrev S1024x512 : Shape := ⟨2, ![1024, 512]⟩
abbrev S512x128 : Shape := ⟨2, ![512, 128]⟩
abbrev S128 : Shape := ⟨1, ![128]⟩
abbrev S49152x512 : Shape := ⟨2, ![49152, 512]⟩
abbrev S1x512 : Shape := ⟨2, ![1, 512]⟩
abbrev S_ : Shape := ⟨0, ![]⟩
abbrev S49152 : Shape := ⟨1, ![49152]⟩
abbrev S49152x1 : Shape := ⟨2, ![49152, 1]⟩
abbrev S1x49152 : Shape := ⟨2, ![1, 49152]⟩
abbrev S49152x1536 : Shape := ⟨2, ![49152, 1536]⟩
abbrev S16384x1024 : Shape := ⟨2, ![16384, 1024]⟩
abbrev S16384 : Shape := ⟨1, ![16384]⟩
abbrev S16384x1 : Shape := ⟨2, ![16384, 1]⟩
abbrev S16384x128 : Shape := ⟨2, ![16384, 128]⟩
abbrev S1x128 : Shape := ⟨2, ![1, 128]⟩

abbrev nBuf : Space → Nat
  | .hbm => 277
  | .vmem => 0
  | .smem => 0
  | _ => 0

abbrev hbmTy0_0 (i : Nat) : BufTy := match i % 128 with
  | 0 => ⟨S2562x512, .f32⟩
  | 1 => ⟨S16384x512, .f32⟩
  | 2 => ⟨S49152x4, .f32⟩
  | 3 => ⟨S2x49152, .i32⟩
  | 4 => ⟨S4x512, .f32⟩
  | 5 => ⟨S512, .f32⟩
  | 6 => ⟨S512x512, .f32⟩
  | 7 => ⟨S512, .f32⟩
  | 8 => ⟨S512, .f32⟩
  | 9 => ⟨S512, .f32⟩
  | 10 => ⟨S1536x512, .f32⟩
  | 11 => ⟨S512, .f32⟩
  | 12 => ⟨S512x512, .f32⟩
  | 13 => ⟨S512, .f32⟩
  | 14 => ⟨S512, .f32⟩
  | 15 => ⟨S512, .f32⟩
  | 16 => ⟨S1024x512, .f32⟩
  | 17 => ⟨S512, .f32⟩
  | 18 => ⟨S512x512, .f32⟩
  | 19 => ⟨S512, .f32⟩
  | 20 => ⟨S512, .f32⟩
  | 21 => ⟨S512, .f32⟩
  | 22 => ⟨S512x512, .f32⟩
  | 23 => ⟨S512, .f32⟩
  | 24 => ⟨S512x128, .f32⟩
  | 25 => ⟨S128, .f32⟩
  | 26 => ⟨S128, .f32⟩
  | 27 => ⟨S128, .f32⟩
  | 28 => ⟨S49152x512, .f32⟩
  | 29 => ⟨S1x512, .f32⟩
  | 30 => ⟨S49152x512, .f32⟩
  | 31 => ⟨S49152x512, .f32⟩
  | 32 => ⟨S_, .f32⟩
  | 33 => ⟨S49152x512, .f32⟩
  | 34 => ⟨S49152x512, .f32⟩
  | 35 => ⟨S49152x512, .f32⟩
  | 36 => ⟨S1x512, .f32⟩
  | 37 => ⟨S49152x512, .f32⟩
  | 38 => ⟨S49152x512, .f32⟩
  | 39 => ⟨S_, .f32⟩
  | 40 => ⟨S49152, .f32⟩
  | 41 => ⟨S49152x1, .f32⟩
  | 42 => ⟨S_, .f32⟩
  | 43 => ⟨S49152x1, .f32⟩
  | 44 => ⟨S49152x1, .f32⟩
  | 45 => ⟨S_, .i32⟩
  | 46 => ⟨S_, .f32⟩
  | 47 => ⟨S49152, .f32⟩
  | 48 => ⟨S49152x1, .f32⟩
  | 49 => ⟨S_, .f32⟩
  | 50 => ⟨S49152x1, .f32⟩
  | 51 => ⟨S49152x1, .f32⟩
  | 52 => ⟨S49152x512, .f32⟩
  | 53 => ⟨S49152x512, .f32⟩
  | 54 => ⟨S49152x512, .f32⟩
  | 55 => ⟨S_, .f32⟩
  | 56 => ⟨S_, .f32⟩
  | 57 => ⟨S_, .f32⟩
  | 58 => ⟨S_, .f32⟩
  | 59 => ⟨S49152, .f32⟩
  | 60 => ⟨S49152x1, .f32⟩
  | 61 => ⟨S49152x1, .f32⟩
  | 62 => ⟨S49152x1, .f32⟩
  | 63 => ⟨S_, .f32⟩
  | 64 => ⟨S_, .i1⟩
  | 65 => ⟨S_, .f32⟩
  | 66 => ⟨S_, .f32⟩
  | 67 => ⟨S49152x1, .f32⟩
  | 68 => ⟨S49152x1, .f32⟩
  | 69 => ⟨S49152x512, .f32⟩
  | 70 => ⟨S49152x512, .f32⟩
  | 71 => ⟨S_, .f32⟩
  | 72 => ⟨S49152x1, .f32⟩
  | 73 => ⟨S49152x1, .f32⟩
  | 74 => ⟨S49152x1, .f32⟩
  | 75 => ⟨S49152x512, .f32⟩
  | 76 => ⟨S49152x512, .f32⟩
  | 77 => ⟨S1x512, .f32⟩
  | 78 => ⟨S49152x512, .f32⟩
  | 79 => ⟨S49152x512, .f32⟩
  | 80 => ⟨S1x512, .f32⟩
  | 81 => ⟨S49152x512, .f32⟩
  | 82 => ⟨S49152x512, .f32⟩
  | 83 => ⟨S1x49152, .i32⟩
  | 84 => ⟨S49152, .i32⟩
  | 85 => ⟨S1x49152, .i32⟩
  | 86 => ⟨S49152, .i32⟩
  | 87 => ⟨S_, .i32⟩
  | 88 => ⟨S49152, .i32⟩
  | 89 => ⟨S49152, .i1⟩
  | 90 => ⟨S_, .i32⟩
  | 91 => ⟨S49152, .i32⟩
  | 92 => ⟨S49152, .i32⟩
  | 93 => ⟨S49152, .i32⟩
  | 94 => ⟨S49152x1, .i32⟩
  | 95 => ⟨S49152x512, .f32⟩
  | 96 => ⟨S_, .i32⟩
  | 97 => ⟨S49152, .i32⟩
  | 98 => ⟨S49152, .i1⟩
  | 99 => ⟨S_, .i32⟩
  | 100 => ⟨S49152, .i32⟩
  | 101 => ⟨S49152, .i32⟩
  | 102 => ⟨S49152, .i32⟩
  | 103 => ⟨S49152x1, .i32⟩
  | 104 => ⟨S49152x512, .f32⟩
  | 105 => ⟨S49152x1536, .f32⟩
  | 106 => ⟨S49152x512, .f32⟩
  | 107 => ⟨S1x512, .f32⟩
  | 108 => ⟨S49152x512, .f32⟩
  | 109 => ⟨S49152x512, .f32⟩
  | 110 => ⟨S_, .f32⟩
  | 111 => ⟨S49152x512, .f32⟩
  | 112 => ⟨S49152x512, .f32⟩
  | 113 => ⟨S49152x512, .f32⟩
  | 114 => ⟨S1x512, .f32⟩
  | 115 => ⟨S49152x512, .f32⟩
  | 116 => ⟨S49152x512, .f32⟩
  | 117 => ⟨S_, .f32⟩
  | 118 => ⟨S49152, .f32⟩
  | 119 => ⟨S49152x1, .f32⟩
  | 120 => ⟨S_, .f32⟩
  | 121 => ⟨S49152x1, .f32⟩
  | 122 => ⟨S49152x1, .f32⟩
  | 123 => ⟨S_, .i32⟩
  | 124 => ⟨S_, .f32⟩
  | 125 => ⟨S49152, .f32⟩
  | 126 => ⟨S49152x1, .f32⟩
  | 127 => ⟨S_, .f32⟩
  | _ => ⟨S2562x512, .f32⟩

abbrev hbmTy0_1 (i : Nat) : BufTy := match i % 128 with
  | 0 => ⟨S49152x1, .f32⟩
  | 1 => ⟨S49152x1, .f32⟩
  | 2 => ⟨S49152x512, .f32⟩
  | 3 => ⟨S49152x512, .f32⟩
  | 4 => ⟨S49152x512, .f32⟩
  | 5 => ⟨S_, .f32⟩
  | 6 => ⟨S_, .f32⟩
  | 7 => ⟨S_, .f32⟩
  | 8 => ⟨S_, .f32⟩
  | 9 => ⟨S49152, .f32⟩
  | 10 => ⟨S49152x1, .f32⟩
  | 11 => ⟨S49152x1, .f32⟩
  | 12 => ⟨S49152x1, .f32⟩
  | 13 => ⟨S_, .f32⟩
  | 14 => ⟨S_, .i1⟩
  | 15 => ⟨S_, .f32⟩
  | 16 => ⟨S_, .f32⟩
  | 17 => ⟨S49152x1, .f32⟩
  | 18 => ⟨S49152x1, .f32⟩
  | 19 => ⟨S49152x512, .f32⟩
  | 20 => ⟨S49152x512, .f32⟩
  | 21 => ⟨S_, .f32⟩
  | 22 => ⟨S49152x1, .f32⟩
  | 23 => ⟨S49152x1, .f32⟩
  | 24 => ⟨S49152x1, .f32⟩
  | 25 => ⟨S49152x512, .f32⟩
  | 26 => ⟨S49152x512, .f32⟩
  | 27 => ⟨S1x512, .f32⟩
  | 28 => ⟨S49152x512, .f32⟩
  | 29 => ⟨S49152x512, .f32⟩
  | 30 => ⟨S1x512, .f32⟩
  | 31 => ⟨S49152x512, .f32⟩
  | 32 => ⟨S49152x512, .f32⟩
  | 33 => ⟨S_, .f32⟩
  | 34 => ⟨S16384x512, .f32⟩
  | 35 => ⟨S49152x1, .i32⟩
  | 36 => ⟨S16384x512, .f32⟩
  | 37 => ⟨S16384x1024, .f32⟩
  | 38 => ⟨S16384x512, .f32⟩
  | 39 => ⟨S1x512, .f32⟩
  | 40 => ⟨S16384x512, .f32⟩
  | 41 => ⟨S16384x512, .f32⟩
  | 42 => ⟨S_, .f32⟩
  | 43 => ⟨S16384x512, .f32⟩
  | 44 => ⟨S16384x512, .f32⟩
  | 45 => ⟨S16384x512, .f32⟩
  | 46 => ⟨S1x512, .f32⟩
  | 47 => ⟨S16384x512, .f32⟩
  | 48 => ⟨S16384x512, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .i32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x512, .f32⟩
  | 63 => ⟨S16384x512, .f32⟩
  | 64 => ⟨S16384x512, .f32⟩
  | 65 => ⟨S_, .f32⟩
  | 66 => ⟨S_, .f32⟩
  | 67 => ⟨S_, .f32⟩
  | 68 => ⟨S_, .f32⟩
  | 69 => ⟨S16384, .f32⟩
  | 70 => ⟨S16384x1, .f32⟩
  | 71 => ⟨S16384x1, .f32⟩
  | 72 => ⟨S16384x1, .f32⟩
  | 73 => ⟨S_, .f32⟩
  | 74 => ⟨S_, .i1⟩
  | 75 => ⟨S_, .f32⟩
  | 76 => ⟨S_, .f32⟩
  | 77 => ⟨S16384x1, .f32⟩
  | 78 => ⟨S16384x1, .f32⟩
  | 79 => ⟨S16384x512, .f32⟩
  | 80 => ⟨S16384x512, .f32⟩
  | 81 => ⟨S_, .f32⟩
  | 82 => ⟨S16384x1, .f32⟩
  | 83 => ⟨S16384x1, .f32⟩
  | 84 => ⟨S16384x1, .f32⟩
  | 85 => ⟨S16384x512, .f32⟩
  | 86 => ⟨S16384x512, .f32⟩
  | 87 => ⟨S1x512, .f32⟩
  | 88 => ⟨S16384x512, .f32⟩
  | 89 => ⟨S16384x512, .f32⟩
  | 90 => ⟨S1x512, .f32⟩
  | 91 => ⟨S16384x512, .f32⟩
  | 92 => ⟨S16384x512, .f32⟩
  | 93 => ⟨S16384x512, .f32⟩
  | 94 => ⟨S16384x512, .f32⟩
  | 95 => ⟨S1x512, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x128, .f32⟩
  | 102 => ⟨S1x128, .f32⟩
  | 103 => ⟨S16384x128, .f32⟩
  | 104 => ⟨S16384x128, .f32⟩
  | 105 => ⟨S_, .f32⟩
  | 106 => ⟨S16384, .f32⟩
  | 107 => ⟨S16384x1, .f32⟩
  | 108 => ⟨S_, .f32⟩
  | 109 => ⟨S16384x1, .f32⟩
  | 110 => ⟨S16384x1, .f32⟩
  | 111 => ⟨S_, .i32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S16384x128, .f32⟩
  | 119 => ⟨S16384x128, .f32⟩
  | 120 => ⟨S16384x128, .f32⟩
  | 121 => ⟨S_, .f32⟩
  | 122 => ⟨S_, .f32⟩
  | 123 => ⟨S_, .f32⟩
  | 124 => ⟨S_, .f32⟩
  | 125 => ⟨S16384, .f32⟩
  | 126 => ⟨S16384x1, .f32⟩
  | 127 => ⟨S16384x1, .f32⟩
  | _ => ⟨S2562x512, .f32⟩

abbrev hbmTy0_2 (i : Nat) : BufTy := match i % 128 with
  | 0 => ⟨S16384x1, .f32⟩
  | 1 => ⟨S_, .f32⟩
  | 2 => ⟨S_, .i1⟩
  | 3 => ⟨S_, .f32⟩
  | 4 => ⟨S_, .f32⟩
  | 5 => ⟨S16384x1, .f32⟩
  | 6 => ⟨S16384x1, .f32⟩
  | 7 => ⟨S16384x128, .f32⟩
  | 8 => ⟨S16384x128, .f32⟩
  | 9 => ⟨S_, .f32⟩
  | 10 => ⟨S16384x1, .f32⟩
  | 11 => ⟨S16384x1, .f32⟩
  | 12 => ⟨S16384x1, .f32⟩
  | 13 => ⟨S16384x128, .f32⟩
  | 14 => ⟨S16384x128, .f32⟩
  | 15 => ⟨S1x128, .f32⟩
  | 16 => ⟨S16384x128, .f32⟩
  | 17 => ⟨S16384x128, .f32⟩
  | 18 => ⟨S1x128, .f32⟩
  | 19 => ⟨S16384x128, .f32⟩
  | 20 => ⟨S16384x128, .f32⟩
  | _ => ⟨S2562x512, .f32⟩

abbrev hbmTy (i : Nat) : BufTy := match i / 128 with
  | 0 => hbmTy0_0 i
  | 1 => hbmTy0_1 i
  | 2 => hbmTy0_2 i
  | _ => ⟨S2562x512, .f32⟩

abbrev bufTy : (tb : Table) → Fin (tcTables nBuf tb) → BufTy
  | .hbm, ⟨i, _⟩ => hbmTy i
  | _, _ => ⟨S2562x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_cst : Ref sig .tc := ⟨.hbm, 32, rfl⟩
abbrev main_call0_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_cst_0 : Ref sig .tc := ⟨.hbm, 42, rfl⟩
abbrev main_v11 : Ref sig .tc := ⟨.hbm, 43, rfl⟩
abbrev main_v12 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_cst_3 : Ref sig .tc := ⟨.hbm, 63, rfl⟩
abbrev main_call1_v13 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst_1 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_2 : Ref sig .tc := ⟨.hbm, 87, rfl⟩
abbrev main_v31 : Ref sig .tc := ⟨.hbm, 88, rfl⟩
abbrev main_v32 : Ref sig .tc := ⟨.hbm, 89, rfl⟩
abbrev main_c_3 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_c_4 : Ref sig .tc := ⟨.hbm, 96, rfl⟩
abbrev main_v38 : Ref sig .tc := ⟨.hbm, 97, rfl⟩
abbrev main_v39 : Ref sig .tc := ⟨.hbm, 98, rfl⟩
abbrev main_c_5 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_call2_cst : Ref sig .tc := ⟨.hbm, 110, rfl⟩
abbrev main_call2_v0 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_6 : Ref sig .tc := ⟨.hbm, 117, rfl⟩
abbrev main_v55 : Ref sig .tc := ⟨.hbm, 118, rfl⟩
abbrev main_v56 : Ref sig .tc := ⟨.hbm, 119, rfl⟩
abbrev main_cst_7 : Ref sig .tc := ⟨.hbm, 120, rfl⟩
abbrev main_v57 : Ref sig .tc := ⟨.hbm, 121, rfl⟩
abbrev main_v58 : Ref sig .tc := ⟨.hbm, 122, rfl⟩
abbrev main_c_8 : Ref sig .tc := ⟨.hbm, 123, rfl⟩
abbrev main_call3_cst : Ref sig .tc := ⟨.hbm, 124, rfl⟩
abbrev main_call3_v0 : Ref sig .tc := ⟨.hbm, 125, rfl⟩
abbrev main_call3_v1 : Ref sig .tc := ⟨.hbm, 126, rfl⟩
abbrev main_call3_cst_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_cst_1 : Ref sig .tc := ⟨.hbm, 134, rfl⟩
abbrev main_call3_v8 : Ref sig .tc := ⟨.hbm, 135, rfl⟩
abbrev main_call3_cst_2 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_v12 : Ref sig .tc := ⟨.hbm, 140, rfl⟩
abbrev main_call3_cst_3 : Ref sig .tc := ⟨.hbm, 141, rfl⟩
abbrev main_call3_v13 : Ref sig .tc := ⟨.hbm, 142, rfl⟩
abbrev main_call3_cst_4 : Ref sig .tc := ⟨.hbm, 143, rfl⟩
abbrev main_call3_call0_v0 : Ref sig .tc := ⟨.hbm, 144, rfl⟩
abbrev main_call3_call0_v1 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_cst_9 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_cst_10 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_call4_cst : Ref sig .tc := ⟨.hbm, 170, rfl⟩
abbrev main_call4_v0 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_cst_11 : Ref sig .tc := ⟨.hbm, 177, rfl⟩
abbrev main_v86 : Ref sig .tc := ⟨.hbm, 178, rfl⟩
abbrev main_v87 : Ref sig .tc := ⟨.hbm, 179, rfl⟩
abbrev main_cst_12 : Ref sig .tc := ⟨.hbm, 180, rfl⟩
abbrev main_v88 : Ref sig .tc := ⟨.hbm, 181, rfl⟩
abbrev main_v89 : Ref sig .tc := ⟨.hbm, 182, rfl⟩
abbrev main_c_13 : Ref sig .tc := ⟨.hbm, 183, rfl⟩
abbrev main_call5_cst : Ref sig .tc := ⟨.hbm, 184, rfl⟩
abbrev main_call5_v0 : Ref sig .tc := ⟨.hbm, 185, rfl⟩
abbrev main_call5_v1 : Ref sig .tc := ⟨.hbm, 186, rfl⟩
abbrev main_call5_cst_0 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_v7 : Ref sig .tc := ⟨.hbm, 193, rfl⟩
abbrev main_call5_cst_1 : Ref sig .tc := ⟨.hbm, 194, rfl⟩
abbrev main_call5_v8 : Ref sig .tc := ⟨.hbm, 195, rfl⟩
abbrev main_call5_cst_2 : Ref sig .tc := ⟨.hbm, 196, rfl⟩
abbrev main_call5_v9 : Ref sig .tc := ⟨.hbm, 197, rfl⟩
abbrev main_call5_v10 : Ref sig .tc := ⟨.hbm, 198, rfl⟩
abbrev main_call5_v11 : Ref sig .tc := ⟨.hbm, 199, rfl⟩
abbrev main_call5_v12 : Ref sig .tc := ⟨.hbm, 200, rfl⟩
abbrev main_call5_cst_3 : Ref sig .tc := ⟨.hbm, 201, rfl⟩
abbrev main_call5_v13 : Ref sig .tc := ⟨.hbm, 202, rfl⟩
abbrev main_call5_cst_4 : Ref sig .tc := ⟨.hbm, 203, rfl⟩
abbrev main_call5_call0_v0 : Ref sig .tc := ⟨.hbm, 204, rfl⟩
abbrev main_call5_call0_v1 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_cst_14 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_call6_cst : Ref sig .tc := ⟨.hbm, 226, rfl⟩
abbrev main_call6_v0 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_cst_15 : Ref sig .tc := ⟨.hbm, 233, rfl⟩
abbrev main_v114 : Ref sig .tc := ⟨.hbm, 234, rfl⟩
abbrev main_v115 : Ref sig .tc := ⟨.hbm, 235, rfl⟩
abbrev main_cst_16 : Ref sig .tc := ⟨.hbm, 236, rfl⟩
abbrev main_v116 : Ref sig .tc := ⟨.hbm, 237, rfl⟩
abbrev main_v117 : Ref sig .tc := ⟨.hbm, 238, rfl⟩
abbrev main_c_17 : Ref sig .tc := ⟨.hbm, 239, rfl⟩
abbrev main_call7_cst : Ref sig .tc := ⟨.hbm, 240, rfl⟩
abbrev main_call7_v0 : Ref sig .tc := ⟨.hbm, 241, rfl⟩
abbrev main_call7_v1 : Ref sig .tc := ⟨.hbm, 242, rfl⟩
abbrev main_call7_cst_0 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_call7_v5 : Ref sig .tc := ⟨.hbm, 247, rfl⟩
abbrev main_call7_v6 : Ref sig .tc := ⟨.hbm, 248, rfl⟩
abbrev main_call7_v7 : Ref sig .tc := ⟨.hbm, 249, rfl⟩
abbrev main_call7_cst_1 : Ref sig .tc := ⟨.hbm, 250, rfl⟩
abbrev main_call7_v8 : Ref sig .tc := ⟨.hbm, 251, rfl⟩
abbrev main_call7_cst_2 : Ref sig .tc := ⟨.hbm, 252, rfl⟩
abbrev main_call7_v9 : Ref sig .tc := ⟨.hbm, 253, rfl⟩
abbrev main_call7_v10 : Ref sig .tc := ⟨.hbm, 254, rfl⟩
abbrev main_call7_v11 : Ref sig .tc := ⟨.hbm, 255, rfl⟩
abbrev main_call7_v12 : Ref sig .tc := ⟨.hbm, 256, rfl⟩
abbrev main_call7_cst_3 : Ref sig .tc := ⟨.hbm, 257, rfl⟩
abbrev main_call7_v13 : Ref sig .tc := ⟨.hbm, 258, rfl⟩
abbrev main_call7_cst_4 : Ref sig .tc := ⟨.hbm, 259, rfl⟩
abbrev main_call7_call0_v0 : Ref sig .tc := ⟨.hbm, 260, rfl⟩
abbrev main_call7_call0_v1 : Ref sig .tc := ⟨.hbm, 261, rfl⟩
abbrev main_v118 : Ref sig .tc := ⟨.hbm, 262, rfl⟩
abbrev main_v119 : Ref sig .tc := ⟨.hbm, 263, rfl⟩
abbrev main_v120 : Ref sig .tc := ⟨.hbm, 264, rfl⟩
abbrev main_cst_18 : Ref sig .tc := ⟨.hbm, 265, rfl⟩
abbrev main_v121 : Ref sig .tc := ⟨.hbm, 266, rfl⟩
abbrev main_v122 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_v127 : Ref sig .tc := ⟨.hbm, 272, rfl⟩
abbrev main_v128 : Ref sig .tc := ⟨.hbm, 273, rfl⟩
abbrev main_v129 : Ref sig .tc := ⟨.hbm, 274, rfl⟩
abbrev main_v130 : Ref sig .tc := ⟨.hbm, 275, rfl⟩
abbrev main_v131 : Ref sig .tc := ⟨.hbm, 276, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S49152x512_0_1 : S1x512.BroadcastsInDim S49152x512 (![0, 1] : Fin 2 → Fin S49152x512.rank)
  bcast_S_S49152x512 : S_.BroadcastsInDim S49152x512 (![] : Fin 0 → Fin S49152x512.rank)
  reducesTo_S49152x512_S49152_d1 : S49152x512.ReducesTo [1] S49152
  h_S_ : 0 < S_.numel
  bcast_S49152_S49152x1_0 : S49152.BroadcastsInDim S49152x1 (![0] : Fin 1 → Fin S49152x1.rank)
  bcast_S_S49152x1 : S_.BroadcastsInDim S49152x1 (![] : Fin 0 → Fin S49152x1.rank)
  bcast_S49152x1_S49152x512_0_1 : S49152x1.BroadcastsInDim S49152x512 (![0, 1] : Fin 2 → Fin S49152x512.rank)
  slices_S2x49152_S1x49152_0_0 : S2x49152.Slices ![0, 0] S1x49152
  shapeCasts_S1x49152_S49152 : S1x49152.ShapeCasts S49152
  slices_S2x49152_S1x49152_1_0 : S2x49152.Slices ![1, 0] S1x49152
  bcast_S_S49152 : S_.BroadcastsInDim S49152 (![] : Fin 0 → Fin S49152.rank)
  concatenates_S49152x512_S49152x512_S49152x512_S49152x1536_d1 : Shape.Concatenates [S49152x512, S49152x512, S49152x512] S49152x1536 1
  bcast_S_S16384x512 : S_.BroadcastsInDim S16384x512 (![] : Fin 0 → Fin S16384x512.rank)
  concatenates_S16384x512_S16384x512_S16384x1024_d1 : Shape.Concatenates [S16384x512, S16384x512] S16384x1024 1
  bcast_S1x512_S16384x512_0_1 : S1x512.BroadcastsInDim S16384x512 (![0, 1] : Fin 2 → Fin S16384x512.rank)
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  bcast_S16384x1_S16384x128_0_1 : S16384x1.BroadcastsInDim S16384x128 (![0, 1] : Fin 2 → Fin S16384x128.rank)
  dot_S49152x4_S4x512_S49152x512_1_0_0_1_n_n_wf : DotDims.WF S49152x4 S4x512 S49152x512 [1] [0] [0] [1] [] []
  dot_S49152x512_S512x512_S49152x512_1_0_0_1_n_n_wf : DotDims.WF S49152x512 S512x512 S49152x512 [1] [0] [0] [1] [] []
  gather_S16384x512_S49152x1_S49152x512_1_0_n_n_0_1_1512_wf : GatherDims.WF S16384x512 S49152x1 S49152x512 [1] [0] [] [0] [] 1 ![1, 512]
  gather_S2562x512_S49152x1_S49152x512_1_0_n_n_0_1_1512_wf : GatherDims.WF S2562x512 S49152x1 S49152x512 [1] [0] [] [0] [] 1 ![1, 512]
  dot_S49152x1536_S1536x512_S49152x512_1_0_0_1_n_n_wf : DotDims.WF S49152x1536 S1536x512 S49152x512 [1] [0] [0] [1] [] []
  scatter_S16384x512_S49152x1_S49152x512_1_0_0_1_wf : ScatterDims.WF S16384x512 S49152x1 S49152x512 [1] [0] [0] 1
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []
  dot_S16384x512_S512x128_S16384x128_1_0_0_1_n_n_wf : DotDims.WF S16384x512 S512x128 S16384x128 [1] [0] [0] [1] [] []

variable [Facts₀]

def dot_S49152x4_S4x512_S49152x512_1_0_0_1_n_n : DotDims S49152x4 S4x512 S49152x512 where
  lhsContracting := [1]
  rhsContracting := [0]
  lhsNonContracting := [0]
  rhsNonContracting := [1]
  lhsBatch := []
  rhsBatch := []
  wf := dot_S49152x4_S4x512_S49152x512_1_0_0_1_n_n_wf
def dot_S49152x512_S512x512_S49152x512_1_0_0_1_n_n : DotDims S49152x512 S512x512 S49152x512 where
  lhsContracting := [1]
  rhsContracting := [0]
  lhsNonContracting := [0]
  rhsNonContracting := [1]
  lhsBatch := []
  rhsBatch := []
  wf := dot_S49152x512_S512x512_S49152x512_1_0_0_1_n_n_wf
def gather_S16384x512_S49152x1_S49152x512_1_0_n_n_0_1_1512 : GatherDims S16384x512 S49152x1 S49152x512 where
  offsetDims := [1]
  collapsedSliceDims := [0]
  operandBatchingDims := []
  startIndicesBatchingDims := []
  startIndexMap := [0]
  indexVectorDim := 1
  sliceSizes := ![1, 512]
  wf := gather_S16384x512_S49152x1_S49152x512_1_0_n_n_0_1_1512_wf
def gather_S2562x512_S49152x1_S49152x512_1_0_n_n_0_1_1512 : GatherDims S2562x512 S49152x1 S49152x512 where
  offsetDims := [1]
  collapsedSliceDims := [0]
  operandBatchingDims := []
  startIndicesBatchingDims := []
  startIndexMap := [0]
  indexVectorDim := 1
  sliceSizes := ![1, 512]
  wf := gather_S2562x512_S49152x1_S49152x512_1_0_n_n_0_1_1512_wf
def dot_S49152x1536_S1536x512_S49152x512_1_0_0_1_n_n : DotDims S49152x1536 S1536x512 S49152x512 where
  lhsContracting := [1]
  rhsContracting := [0]
  lhsNonContracting := [0]
  rhsNonContracting := [1]
  lhsBatch := []
  rhsBatch := []
  wf := dot_S49152x1536_S1536x512_S49152x512_1_0_0_1_n_n_wf
def scatter_S16384x512_S49152x1_S49152x512_1_0_0_1 : ScatterDims S16384x512 S49152x1 S49152x512 where
  updateWindowDims := [1]
  insertedWindowDims := [0]
  scatterDimsToOperandDims := [0]
  indexVectorDim := 1
  wf := scatter_S16384x512_S49152x1_S49152x512_1_0_0_1_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf

class Facts : Prop extends Facts₀ where

variable [Facts]
-- ==== Proof.KernRun.lean ====
/-
  The kernel program's run, with its result kept. The program is four stretches: host operations (the two row gathers),
  the message region, host operations (the segment sum), the node region. After the last stretch every buffer that
  outlives a region holds the contents the stretches leave one after another — a fold from the launch memory — and the
  run's final state can be read at ANY of them: here at the result buffer as well as at the 28 arguments.
-/
import proofs.«111695_j88261577933428_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; its result buffer ends at the contents the
    last stretch leaves there, and every argument as launched. -/
theorem run_result : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c),
       (h c _ (mem_uc main_arg23 (by decide))).trans (W4_main_arg23 m ρ c),
       (h c _ (mem_uc main_arg24 (by decide))).trans (W4_main_arg24 m ρ c),
       (h c _ (mem_uc main_arg25 (by decide))).trans (W4_main_arg25 m ρ c),
       (h c _ (mem_uc main_arg26 (by decide))).trans (W4_main_arg26 m ρ c),
       (h c _ (mem_uc main_arg27 (by decide))).trans (W4_main_arg27 m ρ c)⟩)

end Cert.KernelIdeal.Whole

end
-- ==== Proof.Spec.lean ====
/-
  The function both programs compute, row by row, on the extended reals.

  Every stage works on ONE row of its input: a linear layer `x ↦ x·W + b`, the rectifier `max(·, 0)`, a second linear
  layer, and a layer normalisation over the row's `N` features — with mean `μ = (Σ_c h_c) / N`, centred row `d = h − μ`
  and variance `(Σ_c d_c · d_c) / N`, the result is `d_j · rsqrt(var + ε) · g_j + β_j`. The feature count `N` enters
  as the float word the programs divide by (512.0 or 128.0), and `ε` as the word of the f32 nearest 1e-5; neither
  is ever evaluated.

  An edge's message is that four-stage block applied to the concatenation of the receiver's row, the sender's row and
  the edge's embedding (itself such a block of the edge's four attributes). A grid node's output is the block applied to
  `x + block(x ‖ aggregate)`, `x` the node's own row and `aggregate` the sum of the messages arriving at it.
-/
import Idealize.ShloMosaic.PureOps.Ideal
import Idealize.ShloMosaic.Lib.ValueIdx

noncomputable section

namespace Cert.Spec

open Idealize.ShloMosaic Idealize.ShloMosaic.ValueIdx

/-- The float word 512.0, the feature count of the three wide normalisations. -/
abbrev w512 : EReal := Ideal.ofBits .f32 0x44000000#32
/-- The float word 128.0, the feature count of the last normalisation. -/
abbrev w128 : EReal := Ideal.ofBits .f32 0x43000000#32
/-- The float word nearest 1e-5, the normalisations' ε. -/
abbrev wEps : EReal := Ideal.ofBits .f32 0x3727C5AC#32

/-- A rank-2 array and a rank-1 array of extended reals over literal extents. -/
abbrev Mat (a b : ℕ) := (⟨2, ![a, b]⟩ : Shape).Idx → EReal
abbrev Vc (a : ℕ) := (⟨1, ![a]⟩ : Shape).Idx → EReal

/-- Row `i` of a matrix, the matrix as a function of two coordinates, a vector as a function of one. -/
def rowOf {a b : ℕ} (X : Mat a b) (i : Fin a) : Fin b → EReal := fun k => X (ix2 i k)
def matOf {a b : ℕ} (W : Mat a b) : Fin a → Fin b → EReal := fun k j => W (ix2 k j)
def vecOf {a : ℕ} (v : Vc a) : Fin a → EReal := fun j => v (ix1 j)

/-- A linear layer on one row: `(x·W + b)_j = Σ_k x_k · W_kj + b_j`. -/
def lin {K N : ℕ} (x : Fin K → EReal) (w : Fin K → Fin N → EReal) (b : Fin N → EReal) : Fin N → EReal :=
  fun j => (∑ k : Fin K, x k * w k j) + b j

/-- The rectifier on one row. -/
def relu {N : ℕ} (h : Fin N → EReal) : Fin N → EReal := fun j => max (h j) 0

/-- The mean of a row whose length is the float word `nf`. -/
def mean {N : ℕ} (nf : EReal) (h : Fin N → EReal) : EReal := Ideal.div (∑ c : Fin N, h c) nf

/-- Layer normalisation of one row. -/
def layerNorm {N : ℕ} (nf : EReal) (h g beta : Fin N → EReal) : Fin N → EReal :=
  fun j => (h j - mean nf h) * Ideal.rsqrt (mean nf (fun c => (h c - mean nf h) * (h c - mean nf h)) + wEps) * g j + beta j

/-- Linear, rectifier, linear, layer normalisation: one block on one row. -/
def mlpLn {K H N : ℕ} (nf : EReal) (x : Fin K → EReal) (w1 : Fin K → Fin H → EReal) (b1 : Fin H → EReal)
    (w2 : Fin H → Fin N → EReal) (b2 g beta : Fin N → EReal) : Fin N → EReal :=
  layerNorm nf (lin (relu (lin x w1 b1)) w2 b2) g beta

/-- Three rows of 512 laid end to end, and two. -/
def cat3 (x y z : Fin 512 → EReal) : Fin 1536 → EReal := fun k =>
  if h : k.val < 512 then x ⟨k.val, h⟩
  else if h2 : k.val < 1024 then y ⟨k.val - 512, by omega⟩
  else z ⟨k.val - 1024, by omega⟩
def cat2 (x y : Fin 512 → EReal) : Fin 1024 → EReal := fun k =>
  if h : k.val < 512 then x ⟨k.val, h⟩ else y ⟨k.val - 512, by omega⟩

/-- One edge's message from its four attributes `ea`, its receiver's row `xi` and its sender's row `xj`. -/
def edgeRow (ea : Fin 4 → EReal) (xi xj : Fin 512 → EReal)
    (ew1 : Mat 4 512) (eb1 : Vc 512) (ew2 : Mat 512 512) (eb2 eg ebeta : Vc 512)
    (gw1 : Mat 1536 512) (gb1 : Vc 512) (gw2 : Mat 512 512) (gb2 gg gbeta : Vc 512) : Fin 512 → EReal :=
  mlpLn w512 (cat3 xi xj (mlpLn w512 ea (matOf ew1) (vecOf eb1) (matOf ew2) (vecOf eb2) (vecOf eg) (vecOf ebeta)))
    (matOf gw1) (vecOf gb1) (matOf gw2) (vecOf gb2) (vecOf gg) (vecOf gbeta)

/-- One grid node's output from its own row `gx` and the sum `ag` of the messages arriving at it. -/
def nodeRow (gx ag : Fin 512 → EReal)
    (nw1 : Mat 1024 512) (nb1 : Vc 512) (nw2 : Mat 512 512) (nb2 ng nbeta : Vc 512)
    (fw1 : Mat 512 512) (fb1 : Vc 512) (fw2 : Mat 512 128) (fb2 fg fbeta : Vc 128) : Fin 128 → EReal :=
  mlpLn w128
    (fun k => gx k + mlpLn w512 (cat2 gx ag) (matOf nw1) (vecOf nb1) (matOf nw2) (vecOf nb2) (vecOf ng) (vecOf nbeta) k)
    (matOf fw1) (vecOf fb1) (matOf fw2) (vecOf fb2) (vecOf fg) (vecOf fbeta)

/-- Every edge's message: row `e` is `edgeRow` of row `e` of the attributes and of the two gathered arrays. -/
def edgeMsg (ea : Mat 49152 4) (xi xj : Mat 49152 512)
    (ew1 : Mat 4 512) (eb1 : Vc 512) (ew2 : Mat 512 512) (eb2 eg ebeta : Vc 512)
    (gw1 : Mat 1536 512) (gb1 : Vc 512) (gw2 : Mat 512 512) (gb2 gg gbeta : Vc 512) : Mat 49152 512 :=
  fun idx => edgeRow (rowOf ea (idx 0)) (rowOf xi (idx 0)) (rowOf xj (idx 0)) ew1 eb1 ew2 eb2 eg ebeta gw1 gb1 gw2 gb2 gg gbeta (idx 1)

/-- Every grid node's output: row `n` is `nodeRow` of row `n` of the grid array and of the aggregated messages. -/
def nodeOut (gx ag : Mat 16384 512)
    (nw1 : Mat 1024 512) (nb1 : Vc 512) (nw2 : Mat 512 512) (nb2 ng nbeta : Vc 512)
    (fw1 : Mat 512 512) (fb1 : Vc 512) (fw2 : Mat 512 128) (fb2 fg fbeta : Vc 128) : Mat 16384 128 :=
  fun idx => nodeRow (rowOf gx (idx 0)) (rowOf ag (idx 0)) nw1 nb1 nw2 nb2 ng nbeta fw1 fb1 fw2 fb2 fg fbeta (idx 1)

theorem edgeMsg_apply (ea : Mat 49152 4) (xi xj : Mat 49152 512)
    (ew1 : Mat 4 512) (eb1 : Vc 512) (ew2 : Mat 512 512) (eb2 eg ebeta : Vc 512)
    (gw1 : Mat 1536 512) (gb1 : Vc 512) (gw2 : Mat 512 512) (gb2 gg gbeta : Vc 512) (e : Fin 49152) (j : Fin 512) :
    edgeMsg ea xi xj ew1 eb1 ew2 eb2 eg ebeta gw1 gb1 gw2 gb2 gg gbeta (ix2 e j)
      = edgeRow (rowOf ea e) (rowOf xi e) (rowOf xj e) ew1 eb1 ew2 eb2 eg ebeta gw1 gb1 gw2 gb2 gg gbeta j := rfl

theorem nodeOut_apply (gx ag : Mat 16384 512)
    (nw1 : Mat 1024 512) (nb1 : Vc 512) (nw2 : Mat 512 512) (nb2 ng nbeta : Vc 512)
    (fw1 : Mat 512 512) (fb1 : Vc 512) (fw2 : Mat 512 128) (fb2 fg fbeta : Vc 128) (n : Fin 16384) (j : Fin 128) :
    nodeOut gx ag nw1 nb1 nw2 nb2 ng nbeta fw1 fb1 fw2 fb2 fg fbeta (ix2 n j)
      = nodeRow (rowOf gx n) (rowOf ag n) nw1 nb1 nw2 nb2 ng nbeta fw1 fb1 fw2 fb2 fg fbeta j := rfl

end Cert.Spec

end
-- ==== Proof.KernEdge.lean ====
/-
  The first region: the messages. Its grid has 96 points; point `t` reads rows `512·t … 512·t + 511` of the edge
  attributes and of the two gathered arrays, every weight and bias whole, and writes rows `512·t … 512·t + 511` of the
  message array. Since the body works row by row, what point `t` writes is block `t` of ONE function of the whole arrays
  (`Cert.Spec.edgeMsg`), the 96 blocks tile the array, and so the array the region leaves is that function of the arrays
  it found — whatever those are (`V`: the contents at the region's entry, a parameter here).
-/
import proofs.«111695_j88261577933428_1_alg».proof.Proof.Gen.KernelIdeal.Frame
import proofs.«111695_j88261577933428_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen Cert.Spec

/-- What the body's result is at one entry of its block: the row function of the block's rows and the weights. -/
def RowLaw : Prop :=
  ∀ (x0 : Vec Ideal S512x4 .f32) (x1 x2 : Vec Ideal S512x512 .f32) (x3 : Vec Ideal S4x512 .f32) (x4 : Vec Ideal S512 .f32) (x5 : Vec Ideal S512x512 .f32) (x6 x7 x8 : Vec Ideal S512 .f32) (x9 : Vec Ideal S1536x512 .f32) (x10 : Vec Ideal S512 .f32) (x11 : Vec Ideal S512x512 .f32) (x12 x13 x14 : Vec Ideal S512 .f32) (r j : Fin 512),
    out0_15 (F := Ideal) x0 x1 x2 x3 x4 x5 x6 x7 x8 x9 x10 x11 x12 x13 x14 (ix2 r j) = edgeRow (rowOf x0 r) (rowOf x1 r) (rowOf x2 r) x3 x4 x5 x6 x7 x8 x9 x10 x11 x12 x13 x14 j

variable (V : (c : Dev nD) → (b : Ref sig .tc) → Buf (Elt Ideal) ((c : Thread nD τ).loc b))

/-- The printed index maps, decided once over the grid's 96 points: the row-tiled windows sit at block row `t`, column block 0;
    every weight and bias window sits at block 0 of its array at every point. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 1) = 0
    ∧ win0_14.index t (0 : Fin 1) = 0
    ∧ win0_15.index t (0 : Fin 2) = t.val
    ∧ win0_15.index t (1 : Fin 2) = 0 :=
  (by decide +kernel : ∀ t : Fin grid0.N, _)

/-- Row `r` of point `t`'s block is row `512·t + r` of the array. -/
def rowIx (t : Fin cfg0.N) (r : Fin 512) : Fin 49152 :=
  ⟨t.val * 512 + r.val, by have h := t.isLt; have hN : cfg0.N = 96 := N_0; have := r.isLt; omega⟩

/-- Window 0's block at point `t` is rows `512·t … 512·t + 511` of its array as the region finds it. -/
theorem rows_0 (c : Dev nD) (t : Fin cfg0.N) (r : Fin 512) (k : Fin 4) :
    (iblk0 V c 0 t : Vec Ideal S512x4 .f32) (ix2 r k) = (V c main_arg2 : Mat 49152 4) (ix2 (rowIx t r) k) := by
  obtain ⟨f0, f1, f2, f3, f4, f5, f6, f7, f8, f9, f10, f11, f12, f13, f14, f15, f16, f17, f18, f19, f20, f21, f22, f23⟩ := idx_facts t
  unfold iblk0
  rw [View.read_apply]
  show V c main_arg2 _ = V c main_arg2 _
  refine congrArg (V c main_arg2) ?_
  funext a
  apply Fin.ext
  match a with
  | ⟨0, _⟩ => show win0_0.index t (0 : Fin 2) * 512 + 1 * r.val = t.val * 512 + r.val; rw [f0]; omega
  | ⟨1, _⟩ => show win0_0.index t (1 : Fin 2) * 4 + 1 * k.val = k.val; rw [f1]; omega

/-- Window 1's block at point `t` is rows `512·t … 512·t + 511` of its array as the region finds it. -/
theorem rows_1 (c : Dev nD) (t : Fin cfg0.N) (r : Fin 512) (k : Fin 512) :
    (iblk0 V c 1 t : Vec Ideal S512x512 .f32) (ix2 r k) = (V c main_v10 : Mat 49152 512) (ix2 (rowIx t r) k) := by
  obtain ⟨f0, f1, f2, f3, f4, f5, f6, f7, f8, f9, f10, f11, f12, f13, f14, f15, f16, f17, f18, f19, f20, f21, f22, f23⟩ := idx_facts t
  unfold iblk0
  rw [View.read_apply]
  show V c main_v10 _ = V c main_v10 _
  refine congrArg (V c main_v10) ?_
  funext a
  apply Fin.ext
  match a with
  | ⟨0, _⟩ => show win0_1.index t (0 : Fin 2) * 512 + 1 * r.val = t.val * 512 + r.val; rw [f2]; omega
  | ⟨1, _⟩ => show win0_1.index t (1 : Fin 2) * 512 + 1 * k.val = k.val; rw [f3]; omega

/-- Window 2's block at point `t` is rows `512·t … 512·t + 511` of its array as the region finds it. -/
theorem rows_2 (c : Dev nD) (t : Fin cfg0.N) (r : Fin 512) (k : Fin 512) :
    (iblk0 V c 2 t : Vec Ideal S512x512 .f32) (ix2 r k) = (V c main_v17 : Mat 49152 512) (ix2 (rowIx t r) k) := by
  obtain ⟨f0, f1, f2, f3, f4, f5, f6, f7, f8, f9, f10, f11, f12, f13, f14, f15, f16, f17, f18, f19, f20, f21, f22, f23⟩ := idx_facts t
  unfold iblk0
  rw [View.read_apply]
  show V c main_v17 _ = V c main_v17 _
  refine congrArg (V c main_v17) ?_
  funext a
  apply Fin.ext
  match a with
  | ⟨0, _⟩ => show win0_2.index t (0 : Fin 2) * 512 + 1 * r.val = t.val * 512 + r.val; rw [f4]; omega
  | ⟨1, _⟩ => show win0_2.index t (1 : Fin 2) * 512 + 1 * k.val = k.val; rw [f5]; omega

/-- Window 3's block is its whole array at every point. -/
theorem whole_3 (c : Dev nD) (t : Fin cfg0.N) :
    (iblk0 V c 3 t : Vec Ideal S4x512 .f32) = (V c main_arg4 : Vec Ideal S4x512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg4 _ = V c main_arg4 y
  refine congrArg (V c main_arg4) ?_
  funext a
  apply Fin.ext
  match a with
  | ⟨0, _⟩ => show win0_3.index t (0 : Fin 2) * 4 + 1 * (y 0).val = (y 0).val; rw [f6]; omega
  | ⟨1, _⟩ => show win0_3.index t (1 : Fin 2) * 512 + 1 * (y 1).val = (y 1).val; rw [f7]; omega

/-- Window 4's block is its whole array at every point. -/
theorem whole_4 (c : Dev nD) (t : Fin cfg0.N) :
    (iblk0 V c 4 t : Vec Ideal S512 .f32) = (V c main_arg5 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg5 _ = V c main_arg5 y
  refine congrArg (V c main_arg5) ?_
  funext a
  apply Fin.ext
  match a with
  | ⟨0, _⟩ => show win0_4.index t (0 : Fin 1) * 512 + 1 * (y 0).val = (y 0).val; rw [f8]; omega

/-- Window 5's block is its whole array at every point. -/
theorem whole_5 (c : Dev nD) (t : Fin cfg0.N) :
    (iblk0 V c 5 t : Vec Ideal S512x512 .f32) = (V c main_arg6 : Vec Ideal S512x512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg6 _ = V c main_arg6 y
  refine congrArg (V c main_arg6) ?_
  funext a
  apply Fin.ext
  match a with
  | ⟨0, _⟩ => show win0_5.index t (0 : Fin 2) * 512 + 1 * (y 0).val = (y 0).val; rw [f9]; omega
  | ⟨1, _⟩ => show win0_5.index t (1 : Fin 2) * 512 + 1 * (y 1).val = (y 1).val; rw [f10]; omega

/-- Window 6's block is its whole array at every point. -/
theorem whole_6 (c : Dev nD) (t : Fin cfg0.N) :
    (iblk0 V c 6 t : Vec Ideal S512 .f32) = (V c main_arg7 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg7 _ = V c main_arg7 y
  refine congrArg (V c main_arg7) ?_
  funext a
  apply Fin.ext
  match a with
  | ⟨0, _⟩ => show win0_6.index t (0 : Fin 1) * 512 + 1 * (y 0).val = (y 0).val; rw [f11]; omega

/-- Window 7's block is its whole array at every point. -/
theorem whole_7 (c : Dev nD) (t : Fin cfg0.N) :
    (iblk0 V c 7 t : Vec Ideal S512 .f32) = (V c main_arg8 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg8 _ = V c main_arg8 y
  refine congrArg (V c main_arg8) ?_
  funext a
  apply Fin.ext
  match a with
  | ⟨0, _⟩ => show win0_7.index t (0 : Fin 1) * 512 + 1 * (y 0).val = (y 0).val; rw [f12]; omega

/-- Window 8's block is its whole array at every point. -/
theorem whole_8 (c : Dev nD) (t : Fin cfg0.N) :
    (iblk0 V c 8 t : Vec Ideal S512 .f32) = (V c main_arg9 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg9 _ = V c main_arg9 y
  refine congrArg (V c main_arg9) ?_
  funext a
  apply Fin.ext
  match a with
  | ⟨0, _⟩ => show win0_8.index t (0 : Fin 1) * 512 + 1 * (y 0).val = (y 0).val; rw [f13]; omega

/-- Window 9's block is its whole array at every point. -/
theorem whole_9 (c : Dev nD) (t : Fin cfg0.N) :
    (iblk0 V c 9 t : Vec Ideal S1536x512 .f32) = (V c main_arg10 : Vec Ideal S1536x512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg10 _ = V c main_arg10 y
  refine congrArg (V c main_arg10) ?_
  funext a
  apply Fin.ext
  match a with
  | ⟨0, _⟩ => show win0_9.index t (0 : Fin 2) * 1536 + 1 * (y 0).val = (y 0).val; rw [f14]; omega
  | ⟨1, _⟩ => show win0_9.index t (1 : Fin 2) * 512 + 1 * (y 1).val = (y 1).val; rw [f15]; omega

/-- Window 10's block is its whole array at every point. -/
theorem whole_10 (c : Dev nD) (t : Fin cfg0.N) :
    (iblk0 V c 10 t : Vec Ideal S512 .f32) = (V c main_arg11 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg11 _ = V c main_arg11 y
  refine congrArg (V c main_arg11) ?_
  funext a
  apply Fin.ext
  match a with
  | ⟨0, _⟩ => show win0_10.index t (0 : Fin 1) * 512 + 1 * (y 0).val = (y 0).val; rw [f16]; omega

/-- Window 11's block is its whole array at every point. -/
theorem whole_11 (c : Dev nD) (t : Fin cfg0.N) :
    (iblk0 V c 11 t : Vec Ideal S512x512 .f32) = (V c main_arg12 : Vec Ideal S512x512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg12 _ = V c main_arg12 y
  refine congrArg (V c main_arg12) ?_
  funext a
  apply Fin.ext
  match a with
  | ⟨0, _⟩ => show win0_11.index t (0 : Fin 2) * 512 + 1 * (y 0).val = (y 0).val; rw [f17]; omega
  | ⟨1, _⟩ => show win0_11.index t (1 : Fin 2) * 512 + 1 * (y 1).val = (y 1).val; rw [f18]; omega

/-- Window 12's block is its whole array at every point. -/
theorem whole_12 (c : Dev nD) (t : Fin cfg0.N) :
    (iblk0 V c 12 t : Vec Ideal S512 .f32) = (V c main_arg13 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg13 _ = V c main_arg13 y
  refine congrArg (V c main_arg13) ?_
  funext a
  apply Fin.ext
  match a with
  | ⟨0, _⟩ => show win0_12.index t (0 : Fin 1) * 512 + 1 * (y 0).val = (y 0).val; rw [f19]; omega

/-- Window 13's block is its whole array at every point. -/
theorem whole_13 (c : Dev nD) (t : Fin cfg0.N) :
    (iblk0 V c 13 t : Vec Ideal S512 .f32) = (V c main_arg14 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg14 _ = V c main_arg14 y
  refine congrArg (V c main_arg14) ?_
  funext a
  apply Fin.ext
  match a with
  | ⟨0, _⟩ => show win0_13.index t (0 : Fin 1) * 512 + 1 * (y 0).val = (y 0).val; rw [f20]; omega

/-- Window 14's block is its whole array at every point. -/
theorem whole_14 (c : Dev nD) (t : Fin cfg0.N) :
    (iblk0 V c 14 t : Vec Ideal S512 .f32) = (V c main_arg15 : Vec Ideal S512 .f32) := by
  obtain ⟨f0, f1, f2, f3, f4, f5, f6, f7, f8, f9, f10, f11, f12, f13, f14, f15, f16, f17, f18, f19, f20, f21, f22, f23⟩ := idx_facts t
  funext y
  unfold iblk0
  rw [View.read_apply]
  show V c main_arg15 _ = V c main_arg15 y
  refine congrArg (V c main_arg15) ?_
  funext a
  apply Fin.ext
  match a with
  | ⟨0, _⟩ => show win0_14.index t (0 : Fin 1) * 512 + 1 * (y 0).val = (y 0).val; rw [f21]; omega

/-- The array the region leaves, as one function of the arrays it finds. -/
def arrayOut (c : Dev nD) : Mat 49152 512 :=
  edgeMsg (V c main_arg2) (V c main_v10) (V c main_v17) (V c main_arg4) (V c main_arg5) (V c main_arg6) (V c main_arg7) (V c main_arg8) (V c main_arg9) (V c main_arg10) (V c main_arg11) (V c main_arg12) (V c main_arg13) (V c main_arg14) (V c main_arg15)

/-- One entry of a point's result, when the row-tiled blocks are the rows `base r` of their arrays: the array function's
    entry at row `base r` — every operation of the body works row by row, so a block's row sees only its own row. -/
theorem point_eq (hpay : RowLaw) (x0 : Vec Ideal S512x4 .f32) (x1 : Vec Ideal S512x512 .f32) (x2 : Vec Ideal S512x512 .f32) (x3 : Vec Ideal S4x512 .f32) (x4 : Vec Ideal S512 .f32) (x5 : Vec Ideal S512x512 .f32) (x6 : Vec Ideal S512 .f32) (x7 : Vec Ideal S512 .f32) (x8 : Vec Ideal S512 .f32) (x9 : Vec Ideal S1536x512 .f32) (x10 : Vec Ideal S512 .f32) (x11 : Vec Ideal S512x512 .f32) (x12 : Vec Ideal S512 .f32) (x13 : Vec Ideal S512 .f32) (x14 : Vec Ideal S512 .f32)
    (A0 : Mat 49152 4) (A1 : Mat 49152 512) (A2 : Mat 49152 512) (base : Fin 512 → Fin 49152)
    (h0 : ∀ (r : Fin 512) (k : Fin 4), x0 (ix2 r k) = A0 (ix2 (base r) k))
    (h1 : ∀ (r : Fin 512) (k : Fin 512), x1 (ix2 r k) = A1 (ix2 (base r) k))
    (h2 : ∀ (r : Fin 512) (k : Fin 512), x2 (ix2 r k) = A2 (ix2 (base r) k))
    (r : Fin 512) (j : Fin 512) :
    out0_15 (F := Ideal) x0 x1 x2 x3 x4 x5 x6 x7 x8 x9 x10 x11 x12 x13 x14 (ix2 r j) = edgeMsg A0 A1 A2 x3 x4 x5 x6 x7 x8 x9 x10 x11 x12 x13 x14 (ix2 (base r) j) := by
  have e0 : rowOf x0 r = rowOf A0 (base r) := funext fun k => h0 r k
  have e1 : rowOf x1 r = rowOf A1 (base r) := funext fun k => h1 r k
  have e2 : rowOf x2 r = rowOf A2 (base r) := funext fun k => h2 r k
  refine (hpay x0 x1 x2 x3 x4 x5 x6 x7 x8 x9 x10 x11 x12 x13 x14 r j).trans ?_
  rw [edgeMsg_apply, e0, e1, e2]

/-- WHAT POINT `t` WRITES BACK is block `t` of the array function of the arrays as the region finds them. -/
theorem flushed_eq (hpay : RowLaw) (c : Dev nD) (t : Fin cfg0.N) :
    (dat0 V c).flushed 15 t = ((cfg0.win 15).blk t).view.read (Elt Ideal) (arrayOut V c) := by
  obtain ⟨f0, f1, f2, f3, f4, f5, f6, f7, f8, f9, f10, f11, f12, f13, f14, f15, f16, f17, f18, f19, f20, f21, f22, f23⟩ := idx_facts t
  show (cfg0.win 15).cut (grid0.coords t) ((dat0 V c).after 15 t) = _
  rw [after0_15]
  refine funext fun (y : S512x512.Idx) => ?_
  obtain ⟨r, j, rfl⟩ : ∃ (r : Fin 512) (j : Fin 512), y = ix2 r j := ⟨y 0, y 1, eq_ix2 y⟩
  have hemb : ((cfg0.win 15).blk t).view.emb (ix2 r j) = (ix2 (rowIx t r) j : S49152x512.Idx) := by
    funext a
    apply Fin.ext
    match a with
    | ⟨0, _⟩ => show win0_15.index t (0 : Fin 2) * 512 + 1 * r.val = t.val * 512 + r.val; rw [f22]; omega
    | ⟨1, _⟩ => show win0_15.index t (1 : Fin 2) * 512 + 1 * j.val = j.val; rw [f23]; omega
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 r j) = arrayOut V c (((cfg0.win 15).blk t).view.emb (ix2 r j))
  rw [hemb, whole_3 V c t, whole_4 V c t, whole_5 V c t, whole_6 V c t, whole_7 V c t, whole_8 V c t, whole_9 V c t, whole_10 V c t, whole_11 V c t, whole_12 V c t, whole_13 V c t, whole_14 V c t]
  exact point_eq hpay (iblk0 V c 0 t) (iblk0 V c 1 t) (iblk0 V c 2 t) (V c main_arg4) (V c main_arg5) (V c main_arg6) (V c main_arg7) (V c main_arg8) (V c main_arg9) (V c main_arg10) (V c main_arg11) (V c main_arg12) (V c main_arg13) (V c main_arg14) (V c main_arg15)
    (V c main_arg2) (V c main_v10) (V c main_v17) (rowIx t)
    (rows_0 V c t) (rows_1 V c t) (rows_2 V c t) r j

/-- Every entry of the array is in some point's block: row `n` lies in block `n / 512`. -/
theorem covered (c : Dev nD) (i : S49152x512.Idx) :
    ∃ t : Fin cfg0.N, (cfg0.win 15).flush t = true ∧ i ∈ ((cfg0.win 15).blk t).view.set := by
  have hi0 : (i 0).val < 49152 := (i 0).isLt
  have hi1 : (i 1).val < 512 := (i 1).isLt
  have hN : cfg0.N = 96 := N_0
  have ht : (i 0).val / 512 < cfg0.N := by rw [hN]; omega
  refine ⟨⟨(i 0).val / 512, ht⟩, flush0_15 _, ?_⟩
  obtain ⟨f0, f1, f2, f3, f4, f5, f6, f7, f8, f9, f10, f11, f12, f13, f14, f15, f16, f17, f18, f19, f20, f21, f22, f23⟩ := idx_facts ⟨(i 0).val / 512, ht⟩
  show i ∈ ((View.whole main_v18).slice (win0_15.rect ⟨(i 0).val / 512, ht⟩)).set
  rw [View.set_slice_whole, Rect.mem_set_unit]
  intro a
  match a with
  | ⟨0, _⟩ =>
    show win0_15.index ⟨(i 0).val / 512, ht⟩ (0 : Fin 2) * 512 ≤ (i 0).val
      ∧ (i 0).val < win0_15.index ⟨(i 0).val / 512, ht⟩ (0 : Fin 2) * 512 + 512
    rw [f22]; show (i 0).val / 512 * 512 ≤ (i 0).val ∧ (i 0).val < (i 0).val / 512 * 512 + 512; omega
  | ⟨1, _⟩ =>
    show win0_15.index ⟨(i 0).val / 512, ht⟩ (1 : Fin 2) * 512 ≤ (i 1).val
      ∧ (i 1).val < win0_15.index ⟨(i 0).val / 512, ht⟩ (1 : Fin 2) * 512 + 512
    rw [f23]; omega

/-- THE ARRAY the region leaves in its result buffer: the array function of what it found. -/
theorem final (hpay : RowLaw) (c : Dev nD) : (dat0 V c).arrAt 15 cfg0.N = arrayOut V c :=
  (dat0 V c).arrAt_eq_of_cover 15 (arrayOut V c) (fun t _ => flushed_eq V hpay c t) (covered c)

end Cert.KernelIdeal.Edge

end
-- ==== Proof.KernNode.lean ====
/-
  The second region: the grid nodes' outputs. Its grid has 16 points; point `t` reads rows `1024·t … 1024·t + 1023` of
  the grid array and of the aggregated messages, every weight and bias whole, and writes rows `1024·t … 1024·t + 1023` of
  the result. The body works row by row, so what point `t` writes is block `t` of ONE function of the whole arrays
  (`Cert.Spec.nodeOut`), the 16 blocks tile the result, and the array the region leaves is that function of the arrays
  it found (`V`: the contents at the region's entry, a parameter here).
-/
import proofs.«111695_j88261577933428_1_alg».proof.Proof.Gen.KernelIdeal.Frame
import proofs.«111695_j88261577933428_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Node

open Cert.KernelIdeal Cert.KernelIdeal.Gen Cert.Spec

/-- What the body's result is at one entry of its block: the row function of the block's rows and the weights. -/
def RowLaw : Prop :=
  ∀ (x0 x1 : Vec Ideal S1024x512 .f32) (x2 : Vec Ideal S1024x512 .f32) (x3 : Vec Ideal S512 .f32) (x4 : Vec Ideal S512x512 .f32) (x5 x6 x7 : Vec Ideal S512 .f32) (x8 : Vec Ideal S512x512 .f32) (x9 : Vec Ideal S512 .f32) (x10 : Vec Ideal S512x128 .f32) (x11 x12 x13 : Vec Ideal S128 .f32) (r : Fin 1024) (j : Fin 128),
    out1_14 (F := Ideal) x0 x1 x2 x3 x4 x5 x6 x7 x8 x9 x10 x11 x12 x13 (ix2 r j) = nodeRow (rowOf x0 r) (rowOf x1 r) x2 x3 x4 x5 x6 x7 x8 x9 x10 x11 x12 x13 j

variable (V : (c : Dev nD) → (b : Ref sig .tc) → Buf (Elt Ideal) ((c : Thread nD τ).loc b))

/-- The printed index maps, decided once over the grid's 16 points: the row-tiled windows sit at block row `t`, column block 0;
    every weight and bias window sits at block 0 of its array at every point. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 1) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = 0
    ∧ win1_10.index t (1 : Fin 2) = 0
    ∧ win1_11.index t (0 : Fin 1) = 0
    ∧ win1_12.index t (0 : Fin 1) = 0
    ∧ win1_13.index t (0 : Fin 1) = 0
    ∧ win1_14.index t (0 : Fin 2) = t.val
    ∧ win1_14.index t (1 : Fin 2) = 0 :=
  (by decide +kernel : ∀ t : Fin grid1.N, _)

/-- Row `r` of point `t`'s block is row `1024·t + r` of the array. -/
def rowIx (t : Fin cfg1.N) (r : Fin 1024) : Fin 16384 :=
  ⟨t.val * 1024 + r.val, by have h := t.isLt; have hN : cfg1.N = 16 := N_1; have := r.isLt; omega⟩

/-- Window 0's block at point `t` is rows `1024·t … 1024·t + 1023` of its array as the region finds it. -/
theorem rows_0 (c : Dev nD) (t : Fin cfg1.N) (r : Fin 1024) (k : Fin 512) :
    (iblk1 V c 0 t : Vec Ideal S1024x512 .f32) (ix2 r k) = (V c main_arg1 : Mat 16384 512) (ix2 (rowIx t r) k) := by
  obtain ⟨f0, f1, f2, f3, f4, f5, f6, f7, f8, f9, f10, f11, f12, f13, f14, f15, f16, f17, f18, f19, f20, f21⟩ := idx_facts t
  unfold iblk1
  rw [View.read_apply]
  show V c main_arg1 _ = V c main_arg1 _
  refine congrArg (V c main_arg1) ?_
  funext a
  apply Fin.ext
  match a with
  | ⟨0, _⟩ => show win1_0.index t (0 : Fin 2) * 1024 + 1 * r.val = t.val * 1024 + r.val; rw [f0]; omega
  | ⟨1, _⟩ => show win1_0.index t (1 : Fin 2) * 512 + 1 * k.val = k.val; rw [f1]; omega

/-- Window 1's block at point `t` is rows `1024·t … 1024·t + 1023` of its array as the region finds it. -/
theorem rows_1 (c : Dev nD) (t : Fin cfg1.N) (r : Fin 1024) (k : Fin 512) :
    (iblk1 V c 1 t : Vec Ideal S1024x512 .f32) (ix2 r k) = (V c main_v21 : Mat 16384 512) (ix2 (rowIx t r) k) := by
  obtain ⟨f0, f1, f2, f3, f4, f5, f6, f7, f8, f9, f10, f11, f12, f13, f14, f15, f16, f17, f18, f19, f20, f21⟩ := idx_facts t
  unfold iblk1
  rw [View.read_apply]
  show V c main_v21 _ = V c main_v21 _
  refine congrArg (V c main_v21) ?_
  funext a
  apply Fin.ext
  match a with
  | ⟨0, _⟩ => show win1_1.index t (0 : Fin 2) * 1024 + 1 * r.val = t.val * 1024 + r.val; rw [f2]; omega
  | ⟨1, _⟩ => show win1_1.index t (1 : Fin 2) * 512 + 1 * k.val = k.val; rw [f3]; omega

/-- Window 2's block is its whole array at every point. -/
theorem whole_2 (c : Dev nD) (t : Fin cfg1.N) :
    (iblk1 V c 2 t : Vec Ideal S1024x512 .f32) = (V c main_arg16 : Vec Ideal S1024x512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg16 _ = V c main_arg16 y
  refine congrArg (V c main_arg16) ?_
  funext a
  apply Fin.ext
  match a with
  | ⟨0, _⟩ => show win1_2.index t (0 : Fin 2) * 1024 + 1 * (y 0).val = (y 0).val; rw [f4]; omega
  | ⟨1, _⟩ => show win1_2.index t (1 : Fin 2) * 512 + 1 * (y 1).val = (y 1).val; rw [f5]; omega

/-- Window 3's block is its whole array at every point. -/
theorem whole_3 (c : Dev nD) (t : Fin cfg1.N) :
    (iblk1 V c 3 t : Vec Ideal S512 .f32) = (V c main_arg17 : Vec Ideal S512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg17 _ = V c main_arg17 y
  refine congrArg (V c main_arg17) ?_
  funext a
  apply Fin.ext
  match a with
  | ⟨0, _⟩ => show win1_3.index t (0 : Fin 1) * 512 + 1 * (y 0).val = (y 0).val; rw [f6]; omega

/-- Window 4's block is its whole array at every point. -/
theorem whole_4 (c : Dev nD) (t : Fin cfg1.N) :
    (iblk1 V c 4 t : Vec Ideal S512x512 .f32) = (V c main_arg18 : Vec Ideal S512x512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg18 _ = V c main_arg18 y
  refine congrArg (V c main_arg18) ?_
  funext a
  apply Fin.ext
  match a with
  | ⟨0, _⟩ => show win1_4.index t (0 : Fin 2) * 512 + 1 * (y 0).val = (y 0).val; rw [f7]; omega
  | ⟨1, _⟩ => show win1_4.index t (1 : Fin 2) * 512 + 1 * (y 1).val = (y 1).val; rw [f8]; omega

/-- Window 5's block is its whole array at every point. -/
theorem whole_5 (c : Dev nD) (t : Fin cfg1.N) :
    (iblk1 V c 5 t : Vec Ideal S512 .f32) = (V c main_arg19 : Vec Ideal S512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg19 _ = V c main_arg19 y
  refine congrArg (V c main_arg19) ?_
  funext a
  apply Fin.ext
  match a with
  | ⟨0, _⟩ => show win1_5.index t (0 : Fin 1) * 512 + 1 * (y 0).val = (y 0).val; rw [f9]; omega

/-- Window 6's block is its whole array at every point. -/
theorem whole_6 (c : Dev nD) (t : Fin cfg1.N) :
    (iblk1 V c 6 t : Vec Ideal S512 .f32) = (V c main_arg20 : Vec Ideal S512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg20 _ = V c main_arg20 y
  refine congrArg (V c main_arg20) ?_
  funext a
  apply Fin.ext
  match a with
  | ⟨0, _⟩ => show win1_6.index t (0 : Fin 1) * 512 + 1 * (y 0).val = (y 0).val; rw [f10]; omega

/-- Window 7's block is its whole array at every point. -/
theorem whole_7 (c : Dev nD) (t : Fin cfg1.N) :
    (iblk1 V c 7 t : Vec Ideal S512 .f32) = (V c main_arg21 : Vec Ideal S512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg21 _ = V c main_arg21 y
  refine congrArg (V c main_arg21) ?_
  funext a
  apply Fin.ext
  match a with
  | ⟨0, _⟩ => show win1_7.index t (0 : Fin 1) * 512 + 1 * (y 0).val = (y 0).val; rw [f11]; omega

/-- Window 8's block is its whole array at every point. -/
theorem whole_8 (c : Dev nD) (t : Fin cfg1.N) :
    (iblk1 V c 8 t : Vec Ideal S512x512 .f32) = (V c main_arg22 : Vec Ideal S512x512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg22 _ = V c main_arg22 y
  refine congrArg (V c main_arg22) ?_
  funext a
  apply Fin.ext
  match a with
  | ⟨0, _⟩ => show win1_8.index t (0 : Fin 2) * 512 + 1 * (y 0).val = (y 0).val; rw [f12]; omega
  | ⟨1, _⟩ => show win1_8.index t (1 : Fin 2) * 512 + 1 * (y 1).val = (y 1).val; rw [f13]; omega

/-- Window 9's block is its whole array at every point. -/
theorem whole_9 (c : Dev nD) (t : Fin cfg1.N) :
    (iblk1 V c 9 t : Vec Ideal S512 .f32) = (V c main_arg23 : Vec Ideal S512 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg23 _ = V c main_arg23 y
  refine congrArg (V c main_arg23) ?_
  funext a
  apply Fin.ext
  match a with
  | ⟨0, _⟩ => show win1_9.index t (0 : Fin 1) * 512 + 1 * (y 0).val = (y 0).val; rw [f14]; omega

/-- Window 10's block is its whole array at every point. -/
theorem whole_10 (c : Dev nD) (t : Fin cfg1.N) :
    (iblk1 V c 10 t : Vec Ideal S512x128 .f32) = (V c main_arg24 : Vec Ideal S512x128 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg24 _ = V c main_arg24 y
  refine congrArg (V c main_arg24) ?_
  funext a
  apply Fin.ext
  match a with
  | ⟨0, _⟩ => show win1_10.index t (0 : Fin 2) * 512 + 1 * (y 0).val = (y 0).val; rw [f15]; omega
  | ⟨1, _⟩ => show win1_10.index t (1 : Fin 2) * 128 + 1 * (y 1).val = (y 1).val; rw [f16]; omega

/-- Window 11's block is its whole array at every point. -/
theorem whole_11 (c : Dev nD) (t : Fin cfg1.N) :
    (iblk1 V c 11 t : Vec Ideal S128 .f32) = (V c main_arg25 : Vec Ideal S128 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg25 _ = V c main_arg25 y
  refine congrArg (V c main_arg25) ?_
  funext a
  apply Fin.ext
  match a with
  | ⟨0, _⟩ => show win1_11.index t (0 : Fin 1) * 128 + 1 * (y 0).val = (y 0).val; rw [f17]; omega

/-- Window 12's block is its whole array at every point. -/
theorem whole_12 (c : Dev nD) (t : Fin cfg1.N) :
    (iblk1 V c 12 t : Vec Ideal S128 .f32) = (V c main_arg26 : Vec Ideal S128 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg26 _ = V c main_arg26 y
  refine congrArg (V c main_arg26) ?_
  funext a
  apply Fin.ext
  match a with
  | ⟨0, _⟩ => show win1_12.index t (0 : Fin 1) * 128 + 1 * (y 0).val = (y 0).val; rw [f18]; omega

/-- Window 13's block is its whole array at every point. -/
theorem whole_13 (c : Dev nD) (t : Fin cfg1.N) :
    (iblk1 V c 13 t : Vec Ideal S128 .f32) = (V c main_arg27 : Vec Ideal S128 .f32) := by
  obtain ⟨f0, f1, f2, f3, f4, f5, f6, f7, f8, f9, f10, f11, f12, f13, f14, f15, f16, f17, f18, f19, f20, f21⟩ := idx_facts t
  funext y
  unfold iblk1
  rw [View.read_apply]
  show V c main_arg27 _ = V c main_arg27 y
  refine congrArg (V c main_arg27) ?_
  funext a
  apply Fin.ext
  match a with
  | ⟨0, _⟩ => show win1_13.index t (0 : Fin 1) * 128 + 1 * (y 0).val = (y 0).val; rw [f19]; omega

/-- The array the region leaves, as one function of the arrays it finds. -/
def arrayOut (c : Dev nD) : Mat 16384 128 :=
  nodeOut (V c main_arg1) (V c main_v21) (V c main_arg16) (V c main_arg17) (V c main_arg18) (V c main_arg19) (V c main_arg20) (V c main_arg21) (V c main_arg22) (V c main_arg23) (V c main_arg24) (V c main_arg25) (V c main_arg26) (V c main_arg27)

/-- One entry of a point's result, when the row-tiled blocks are the rows `base r` of their arrays: the array function's
    entry at row `base r` — every operation of the body works row by row, so a block's row sees only its own row. -/
theorem point_eq (hpay : RowLaw) (x0 : Vec Ideal S1024x512 .f32) (x1 : Vec Ideal S1024x512 .f32) (x2 : Vec Ideal S1024x512 .f32) (x3 : Vec Ideal S512 .f32) (x4 : Vec Ideal S512x512 .f32) (x5 : Vec Ideal S512 .f32) (x6 : Vec Ideal S512 .f32) (x7 : Vec Ideal S512 .f32) (x8 : Vec Ideal S512x512 .f32) (x9 : Vec Ideal S512 .f32) (x10 : Vec Ideal S512x128 .f32) (x11 : Vec Ideal S128 .f32) (x12 : Vec Ideal S128 .f32) (x13 : Vec Ideal S128 .f32)
    (A0 : Mat 16384 512) (A1 : Mat 16384 512) (base : Fin 1024 → Fin 16384)
    (h0 : ∀ (r : Fin 1024) (k : Fin 512), x0 (ix2 r k) = A0 (ix2 (base r) k))
    (h1 : ∀ (r : Fin 1024) (k : Fin 512), x1 (ix2 r k) = A1 (ix2 (base r) k))
    (r : Fin 1024) (j : Fin 128) :
    out1_14 (F := Ideal) x0 x1 x2 x3 x4 x5 x6 x7 x8 x9 x10 x11 x12 x13 (ix2 r j) = nodeOut A0 A1 x2 x3 x4 x5 x6 x7 x8 x9 x10 x11 x12 x13 (ix2 (base r) j) := by
  have e0 : rowOf x0 r = rowOf A0 (base r) := funext fun k => h0 r k
  have e1 : rowOf x1 r = rowOf A1 (base r) := funext fun k => h1 r k
  refine (hpay x0 x1 x2 x3 x4 x5 x6 x7 x8 x9 x10 x11 x12 x13 r j).trans ?_
  rw [nodeOut_apply, e0, e1]

/-- WHAT POINT `t` WRITES BACK is block `t` of the array function of the arrays as the region finds them. -/
theorem flushed_eq (hpay : RowLaw) (c : Dev nD) (t : Fin cfg1.N) :
    (dat1 V c).flushed 14 t = ((cfg1.win 14).blk t).view.read (Elt Ideal) (arrayOut V c) := by
  obtain ⟨f0, f1, f2, f3, f4, f5, f6, f7, f8, f9, f10, f11, f12, f13, f14, f15, f16, f17, f18, f19, f20, f21⟩ := idx_facts t
  show (cfg1.win 14).cut (grid1.coords t) ((dat1 V c).after 14 t) = _
  rw [after1_14]
  refine funext fun (y : S1024x128.Idx) => ?_
  obtain ⟨r, j, rfl⟩ : ∃ (r : Fin 1024) (j : Fin 128), y = ix2 r j := ⟨y 0, y 1, eq_ix2 y⟩
  have hemb : ((cfg1.win 14).blk t).view.emb (ix2 r j) = (ix2 (rowIx t r) j : S16384x128.Idx) := by
    funext a
    apply Fin.ext
    match a with
    | ⟨0, _⟩ => show win1_14.index t (0 : Fin 2) * 1024 + 1 * r.val = t.val * 1024 + r.val; rw [f20]; omega
    | ⟨1, _⟩ => show win1_14.index t (1 : Fin 2) * 128 + 1 * j.val = j.val; rw [f21]; omega
  show out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (ix2 r j) = arrayOut V c (((cfg1.win 14).blk t).view.emb (ix2 r j))
  rw [hemb, whole_2 V c t, whole_3 V c t, whole_4 V c t, whole_5 V c t, whole_6 V c t, whole_7 V c t, whole_8 V c t, whole_9 V c t, whole_10 V c t, whole_11 V c t, whole_12 V c t, whole_13 V c t]
  exact point_eq hpay (iblk1 V c 0 t) (iblk1 V c 1 t) (V c main_arg16) (V c main_arg17) (V c main_arg18) (V c main_arg19) (V c main_arg20) (V c main_arg21) (V c main_arg22) (V c main_arg23) (V c main_arg24) (V c main_arg25) (V c main_arg26) (V c main_arg27)
    (V c main_arg1) (V c main_v21) (rowIx t)
    (rows_0 V c t) (rows_1 V c t) r j

/-- Every entry of the array is in some point's block: row `n` lies in block `n / 1024`. -/
theorem covered (c : Dev nD) (i : S16384x128.Idx) :
    ∃ t : Fin cfg1.N, (cfg1.win 14).flush t = true ∧ i ∈ ((cfg1.win 14).blk t).view.set := by
  have hi0 : (i 0).val < 16384 := (i 0).isLt
  have hi1 : (i 1).val < 128 := (i 1).isLt
  have hN : cfg1.N = 16 := N_1
  have ht : (i 0).val / 1024 < cfg1.N := by rw [hN]; omega
  refine ⟨⟨(i 0).val / 1024, ht⟩, flush1_14 _, ?_⟩
  obtain ⟨f0, f1, f2, f3, f4, f5, f6, f7, f8, f9, f10, f11, f12, f13, f14, f15, f16, f17, f18, f19, f20, f21⟩ := idx_facts ⟨(i 0).val / 1024, ht⟩
  show i ∈ ((View.whole main_v22).slice (win1_14.rect ⟨(i 0).val / 1024, ht⟩)).set
  rw [View.set_slice_whole, Rect.mem_set_unit]
  intro a
  match a with
  | ⟨0, _⟩ =>
    show win1_14.index ⟨(i 0).val / 1024, ht⟩ (0 : Fin 2) * 1024 ≤ (i 0).val
      ∧ (i 0).val < win1_14.index ⟨(i 0).val / 1024, ht⟩ (0 : Fin 2) * 1024 + 1024
    rw [f20]; show (i 0).val / 1024 * 1024 ≤ (i 0).val ∧ (i 0).val < (i 0).val / 1024 * 1024 + 1024; omega
  | ⟨1, _⟩ =>
    show win1_14.index ⟨(i 0).val / 1024, ht⟩ (1 : Fin 2) * 128 ≤ (i 1).val
      ∧ (i 1).val < win1_14.index ⟨(i 0).val / 1024, ht⟩ (1 : Fin 2) * 128 + 128
    rw [f21]; omega

/-- THE ARRAY the region leaves in its result buffer: the array function of what it found. -/
theorem final (hpay : RowLaw) (c : Dev nD) : (dat1 V c).arrAt 14 cfg1.N = arrayOut V c :=
  (dat1 V c).arrAt_eq_of_cover 14 (arrayOut V c) (fun t _ => flushed_eq V hpay c t) (covered c)

end Cert.KernelIdeal.Node

end
-- ==== Proof.KernGlue.lean ====
/-
  The kernel program between its regions, and its result as one function of the arguments.

  Before the first region the host takes the receivers and the senders out of the edge index (rows 1 and 0), wraps
  negative entries by the table's length, and gathers the receivers' rows of the grid array and the senders' rows of the
  mesh array. Between the regions it sums the messages into their receivers' rows, starting from zeros. Each region
  leaves the row-wise function of the arrays it finds (the two region modules); the arguments are never written. So the
  result buffer ends at: node outputs of (grid array, segment sum of (messages of (edge attributes, gathered grid rows,
  gathered mesh rows))).
-/
import proofs.«111695_j88261577933428_1_alg».proof.Proof.Gen.KernelIdeal.Frame
import proofs.«111695_j88261577933428_1_alg».proof.Proof.Spec
import proofs.«111695_j88261577933428_1_alg».proof.Proof.KernEdge
import proofs.«111695_j88261577933428_1_alg».proof.Proof.KernNode
import Idealize.ShloMosaic.Lib.StableHlo.Run

set_option maxRecDepth 16384

noncomputable section

namespace Cert.KernelIdeal.Glue

open Cert.KernelIdeal Cert.KernelIdeal.Gen Cert.Spec
open Idealize.ShloMosaic Idealize.ShloMosaic.TcCoe Idealize.SL.Sem Idealize.ShloMosaic.StableHlo

section Terms
variable {F : FTy → Type} [FloatOps F]

/-- Row 1 of the edge index as a vector: each edge's receiver. -/
def receivers (a3 : (⟨S2x49152, .i32⟩ : BufTy).Contents (Elt F)) : (⟨S49152, .i32⟩ : BufTy).Contents (Elt F) :=
  shapeCast S49152 (extractStridedSlice S1x49152 ![1, 0] a3 slices_S2x49152_S1x49152_1_0) shapeCasts_S1x49152_S49152

/-- Row 0 of the edge index as a vector: each edge's sender. -/
def senders (a3 : (⟨S2x49152, .i32⟩ : BufTy).Contents (Elt F)) : (⟨S49152, .i32⟩ : BufTy).Contents (Elt F) :=
  shapeCast S49152 (extractStridedSlice S1x49152 ![0, 0] a3 slices_S2x49152_S1x49152_0_0) shapeCasts_S1x49152_S49152

/-- An index vector with its negative entries moved up by `n`, laid as a column. -/
def wrapCol (n : BitVec 32) (v : (⟨S49152, .i32⟩ : BufTy).Contents (Elt F)) : (⟨S49152x1, .i32⟩ : BufTy).Contents (Elt F) :=
  broadcastInDim S49152x1 ![0] bcast_S49152_S49152x1_0
    (select (cmpi .slt v (broadcastInDim S49152 ![] bcast_S_S49152 (constantI S_ 32 0#32)))
      (addi v (broadcastInDim S49152 ![] bcast_S_S49152 (constantI S_ 32 n))) v)

/-- The receivers' rows of the grid array, one per edge. -/
def gatherRecv (a1 : (⟨S16384x512, .f32⟩ : BufTy).Contents (Elt F)) (a3 : (⟨S2x49152, .i32⟩ : BufTy).Contents (Elt F)) :
    (⟨S49152x512, .f32⟩ : BufTy).Contents (Elt F) :=
  Host.gather gather_S16384x512_S49152x1_S49152x512_1_0_n_n_0_1_1512 a1 (wrapCol 16384#32 (receivers a3))

/-- The senders' rows of the mesh array, one per edge. -/
def gatherSend (a0 : (⟨S2562x512, .f32⟩ : BufTy).Contents (Elt F)) (a3 : (⟨S2x49152, .i32⟩ : BufTy).Contents (Elt F)) :
    (⟨S49152x512, .f32⟩ : BufTy).Contents (Elt F) :=
  Host.gather gather_S2562x512_S49152x1_S49152x512_1_0_n_n_0_1_1512 a0 (wrapCol 2562#32 (senders a3))

/-- The messages summed into their receivers' rows, from zeros. -/
def aggrOf (rv : (⟨S49152, .i32⟩ : BufTy).Contents (Elt F)) (msg : (⟨S49152x512, .f32⟩ : BufTy).Contents (Elt F)) :
    (⟨S16384x512, .f32⟩ : BufTy).Contents (Elt F) :=
  Host.scatterAdd scatter_S16384x512_S49152x1_S49152x512_1_0_0_1
    (broadcastInDim S16384x512 ![] bcast_S_S16384x512 (constant S_ .f32 0x00000000#32))
    (broadcastInDim S49152x1 ![0] bcast_S49152_S49152x1_0 rv) msg

def aggr (a3 : (⟨S2x49152, .i32⟩ : BufTy).Contents (Elt F)) (msg : (⟨S49152x512, .f32⟩ : BufTy).Contents (Elt F)) :
    (⟨S16384x512, .f32⟩ : BufTy).Contents (Elt F) :=
  aggrOf (receivers a3) msg

variable (m : (ℓ : Loc nD τ sig) → Buf (Elt F) ℓ) (ρ : Dev nD → PrngReg)

/-! ### The first region's entry: the launch memory after the gathers -/

theorem enter0_arg2 (c : Dev nD) : V1 m ρ c main_arg2 = m ((c : Thread nD τ).loc main_arg2) := by
  show StableHlo.after hostOps0 (W0 m ρ c) (Proc.devRef .tc main_arg2) = _
  after_results
theorem enter0_arg4 (c : Dev nD) : V1 m ρ c main_arg4 = m ((c : Thread nD τ).loc main_arg4) := by
  show StableHlo.after hostOps0 (W0 m ρ c) (Proc.devRef .tc main_arg4) = _
  after_results
theorem enter0_arg5 (c : Dev nD) : V1 m ρ c main_arg5 = m ((c : Thread nD τ).loc main_arg5) := by
  show StableHlo.after hostOps0 (W0 m ρ c) (Proc.devRef .tc main_arg5) = _
  after_results
theorem enter0_arg6 (c : Dev nD) : V1 m ρ c main_arg6 = m ((c : Thread nD τ).loc main_arg6) := by
  show StableHlo.after hostOps0 (W0 m ρ c) (Proc.devRef .tc main_arg6) = _
  after_results
theorem enter0_arg7 (c : Dev nD) : V1 m ρ c main_arg7 = m ((c : Thread nD τ).loc main_arg7) := by
  show StableHlo.after hostOps0 (W0 m ρ c) (Proc.devRef .tc main_arg7) = _
  after_results
theorem enter0_arg8 (c : Dev nD) : V1 m ρ c main_arg8 = m ((c : Thread nD τ).loc main_arg8) := by
  show StableHlo.after hostOps0 (W0 m ρ c) (Proc.devRef .tc main_arg8) = _
  after_results
theorem enter0_arg9 (c : Dev nD) : V1 m ρ c main_arg9 = m ((c : Thread nD τ).loc main_arg9) := by
  show StableHlo.after hostOps0 (W0 m ρ c) (Proc.devRef .tc main_arg9) = _
  after_results
theorem enter0_arg10 (c : Dev nD) : V1 m ρ c main_arg10 = m ((c : Thread nD τ).loc main_arg10) := by
  show StableHlo.after hostOps0 (W0 m ρ c) (Proc.devRef .tc main_arg10) = _
  after_results
theorem enter0_arg11 (c : Dev nD) : V1 m ρ c main_arg11 = m ((c : Thread nD τ).loc main_arg11) := by
  show StableHlo.after hostOps0 (W0 m ρ c) (Proc.devRef .tc main_arg11) = _
  after_results
theorem enter0_arg12 (c : Dev nD) : V1 m ρ c main_arg12 = m ((c : Thread nD τ).loc main_arg12) := by
  show StableHlo.after hostOps0 (W0 m ρ c) (Proc.devRef .tc main_arg12) = _
  after_results
theorem enter0_arg13 (c : Dev nD) : V1 m ρ c main_arg13 = m ((c : Thread nD τ).loc main_arg13) := by
  show StableHlo.after hostOps0 (W0 m ρ c) (Proc.devRef .tc main_arg13) = _
  after_results
theorem enter0_arg14 (c : Dev nD) : V1 m ρ c main_arg14 = m ((c : Thread nD τ).loc main_arg14) := by
  show StableHlo.after hostOps0 (W0 m ρ c) (Proc.devRef .tc main_arg14) = _
  after_results
theorem enter0_arg15 (c : Dev nD) : V1 m ρ c main_arg15 = m ((c : Thread nD τ).loc main_arg15) := by
  show StableHlo.after hostOps0 (W0 m ρ c) (Proc.devRef .tc main_arg15) = _
  after_results

theorem enter0_recvRows (c : Dev nD) :
    V1 m ρ c main_v10 = gatherRecv (m ((c : Thread nD τ).loc main_arg1)) (m ((c : Thread nD τ).loc main_arg3)) := by
  show StableHlo.after hostOps0 (W0 m ρ c) (Proc.devRef .tc main_v10) = _
  after_results
  rfl

theorem enter0_sendRows (c : Dev nD) :
    V1 m ρ c main_v17 = gatherSend (m ((c : Thread nD τ).loc main_arg0)) (m ((c : Thread nD τ).loc main_arg3)) := by
  show StableHlo.after hostOps0 (W0 m ρ c) (Proc.devRef .tc main_v17) = _
  after_results_simp
  rfl

theorem enter0_receivers (c : Dev nD) :
    W1 m ρ c (Proc.devRef .tc main_v3) = receivers (m ((c : Thread nD τ).loc main_arg3)) := by
  show StableHlo.after hostOps0 (W0 m ρ c) (Proc.devRef .tc main_v3) = _
  after_results
  rfl

/-! ### The second region's entry: the first region's arrays, then the segment sum -/

theorem enter1_arg1 (c : Dev nD) : V3 m ρ c main_arg1 = m ((c : Thread nD τ).loc main_arg1) :=
  (((W4_arr m ρ c 0).trans (((dat1 (V3 m ρ) c).arrAt_in 0 rfl _).trans (A_eq1 (V3 m ρ) c 0))).symm).trans (W4_main_arg1 m ρ c)
theorem enter1_arg16 (c : Dev nD) : V3 m ρ c main_arg16 = m ((c : Thread nD τ).loc main_arg16) :=
  (((W4_arr m ρ c 2).trans (((dat1 (V3 m ρ) c).arrAt_in 2 rfl _).trans (A_eq1 (V3 m ρ) c 2))).symm).trans (W4_main_arg16 m ρ c)
theorem enter1_arg17 (c : Dev nD) : V3 m ρ c main_arg17 = m ((c : Thread nD τ).loc main_arg17) :=
  (((W4_arr m ρ c 3).trans (((dat1 (V3 m ρ) c).arrAt_in 3 rfl _).trans (A_eq1 (V3 m ρ) c 3))).symm).trans (W4_main_arg17 m ρ c)
theorem enter1_arg18 (c : Dev nD) : V3 m ρ c main_arg18 = m ((c : Thread nD τ).loc main_arg18) :=
  (((W4_arr m ρ c 4).trans (((dat1 (V3 m ρ) c).arrAt_in 4 rfl _).trans (A_eq1 (V3 m ρ) c 4))).symm).trans (W4_main_arg18 m ρ c)
theorem enter1_arg19 (c : Dev nD) : V3 m ρ c main_arg19 = m ((c : Thread nD τ).loc main_arg19) :=
  (((W4_arr m ρ c 5).trans (((dat1 (V3 m ρ) c).arrAt_in 5 rfl _).trans (A_eq1 (V3 m ρ) c 5))).symm).trans (W4_main_arg19 m ρ c)
theorem enter1_arg20 (c : Dev nD) : V3 m ρ c main_arg20 = m ((c : Thread nD τ).loc main_arg20) :=
  (((W4_arr m ρ c 6).trans (((dat1 (V3 m ρ) c).arrAt_in 6 rfl _).trans (A_eq1 (V3 m ρ) c 6))).symm).trans (W4_main_arg20 m ρ c)
theorem enter1_arg21 (c : Dev nD) : V3 m ρ c main_arg21 = m ((c : Thread nD τ).loc main_arg21) :=
  (((W4_arr m ρ c 7).trans (((dat1 (V3 m ρ) c).arrAt_in 7 rfl _).trans (A_eq1 (V3 m ρ) c 7))).symm).trans (W4_main_arg21 m ρ c)
theorem enter1_arg22 (c : Dev nD) : V3 m ρ c main_arg22 = m ((c : Thread nD τ).loc main_arg22) :=
  (((W4_arr m ρ c 8).trans (((dat1 (V3 m ρ) c).arrAt_in 8 rfl _).trans (A_eq1 (V3 m ρ) c 8))).symm).trans (W4_main_arg22 m ρ c)
theorem enter1_arg23 (c : Dev nD) : V3 m ρ c main_arg23 = m ((c : Thread nD τ).loc main_arg23) :=
  (((W4_arr m ρ c 9).trans (((dat1 (V3 m ρ) c).arrAt_in 9 rfl _).trans (A_eq1 (V3 m ρ) c 9))).symm).trans (W4_main_arg23 m ρ c)
theorem enter1_arg24 (c : Dev nD) : V3 m ρ c main_arg24 = m ((c : Thread nD τ).loc main_arg24) :=
  (((W4_arr m ρ c 10).trans (((dat1 (V3 m ρ) c).arrAt_in 10 rfl _).trans (A_eq1 (V3 m ρ) c 10))).symm).trans (W4_main_arg24 m ρ c)
theorem enter1_arg25 (c : Dev nD) : V3 m ρ c main_arg25 = m ((c : Thread nD τ).loc main_arg25) :=
  (((W4_arr m ρ c 11).trans (((dat1 (V3 m ρ) c).arrAt_in 11 rfl _).trans (A_eq1 (V3 m ρ) c 11))).symm).trans (W4_main_arg25 m ρ c)
theorem enter1_arg26 (c : Dev nD) : V3 m ρ c main_arg26 = m ((c : Thread nD τ).loc main_arg26) :=
  (((W4_arr m ρ c 12).trans (((dat1 (V3 m ρ) c).arrAt_in 12 rfl _).trans (A_eq1 (V3 m ρ) c 12))).symm).trans (W4_main_arg26 m ρ c)
theorem enter1_arg27 (c : Dev nD) : V3 m ρ c main_arg27 = m ((c : Thread nD τ).loc main_arg27) :=
  (((W4_arr m ρ c 13).trans (((dat1 (V3 m ρ) c).arrAt_in 13 rfl _).trans (A_eq1 (V3 m ρ) c 13))).symm).trans (W4_main_arg27 m ρ c)

theorem enter1_aggr (c : Dev nD) :
    V3 m ρ c main_v21 = aggrOf (W2 m ρ c (Proc.devRef .tc main_v3)) (W2 m ρ c (Proc.devRef .tc main_v18)) := by
  show StableHlo.after hostOps1 (W2 m ρ c) (Proc.devRef .tc main_v21) = _
  after_results
  rfl

end Terms

/-! ### The result -/

variable (m : (ℓ : Loc nD τ sig) → Buf (Elt Ideal) ℓ) (ρ : Dev nD → PrngReg)

/-- The kernel program's result as a function of its arguments' launch contents. -/
def result (c : Dev nD) : Mat 16384 128 :=
  nodeOut (m ((c : Thread nD τ).loc main_arg1))
    (aggr (m ((c : Thread nD τ).loc main_arg3))
      (edgeMsg (m ((c : Thread nD τ).loc main_arg2))
        (gatherRecv (m ((c : Thread nD τ).loc main_arg1)) (m ((c : Thread nD τ).loc main_arg3)))
        (gatherSend (m ((c : Thread nD τ).loc main_arg0)) (m ((c : Thread nD τ).loc main_arg3)))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))))
    (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

set_option maxHeartbeats 1000000 in
/-- The message array the first region leaves: the messages of the edge attributes and the two gathered arrays. -/
theorem messages_eq (hE : Edge.RowLaw) (c : Dev nD) :
    W2 m ρ c (Proc.devRef .tc main_v18)
      = edgeMsg (m ((c : Thread nD τ).loc main_arg2))
        (gatherRecv (m ((c : Thread nD τ).loc main_arg1)) (m ((c : Thread nD τ).loc main_arg3)))
        (gatherSend (m ((c : Thread nD τ).loc main_arg0)) (m ((c : Thread nD τ).loc main_arg3)))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W2_arr m ρ c 15).trans ?_
  refine (Edge.final (V1 m ρ) hE c).trans ?_
  unfold Edge.arrayOut
  rw [enter0_arg2 m ρ c, enter0_recvRows m ρ c, enter0_sendRows m ρ c, enter0_arg4 m ρ c, enter0_arg5 m ρ c, enter0_arg6 m ρ c, enter0_arg7 m ρ c, enter0_arg8 m ρ c, enter0_arg9 m ρ c, enter0_arg10 m ρ c, enter0_arg11 m ρ c, enter0_arg12 m ρ c, enter0_arg13 m ρ c, enter0_arg14 m ρ c, enter0_arg15 m ρ c]

set_option maxHeartbeats 1000000 in
/-- The result buffer after the last stretch is `result`. -/
theorem result_eq (hE : Edge.RowLaw) (hN : Node.RowLaw) (c : Dev nD) :
    W4 m ρ c (Proc.devRef .tc main_v22) = result m c := by
  refine (W4_arr m ρ c 14).trans ?_
  refine (Node.final (V3 m ρ) hN c).trans ?_
  unfold Node.arrayOut result aggr
  rw [enter1_arg1 m ρ c, enter1_aggr m ρ c, enter1_arg16 m ρ c, enter1_arg17 m ρ c, enter1_arg18 m ρ c, enter1_arg19 m ρ c, enter1_arg20 m ρ c, enter1_arg21 m ρ c, enter1_arg22 m ρ c, enter1_arg23 m ρ c, enter1_arg24 m ρ c, enter1_arg25 m ρ c, enter1_arg26 m ρ c, enter1_arg27 m ρ c,
    messages_eq m ρ hE c, W2_of_ne m ρ c main_v3 (by decide), enter0_receivers m ρ c]

end Cert.KernelIdeal.Glue

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernStages.lean ====
/-
  The stages of a "linear, rectifier, linear, layer normalisation" block as a kernel body spells them on a whole
  [a, N] array, each read at an entry (r, j) as the specification's function of ROW r of its operand.

  A body works on all rows at once: a bias or gain vector [N] is viewed as [1, N] and repeated down the rows; a
  product x·W goes into a zero accumulator after a change of float format that is the identity on extended reals;
  a row's mean is the lane sum along axis 1, viewed as a column [a, 1], divided by the column holding the feature
  count's float word, and repeated along the row. Read at (r, j), every stage depends on row r of its operand only,
  and is the specification's `lin`, `relu`, `mean`, `layerNorm` of that row at j.
-/
import Idealize.ShloMosaic.Lib.ValueIdx
import Idealize.ShloMosaic.Lib.ValueLayout
import Idealize.ShloMosaic.Lib.Pipeline.Value
import Idealize.ShloMosaic.PureOps.Ideal.Laws
import proofs.«111695_j88261577933428_1_alg».proof.Proof.Spec
import proofs.«111695_j88261577933428_1_alg».proof.Proof.LibDot
import proofs.«111695_j88261577933428_1_alg».proof.Proof.LibRowSum
import proofs.«111695_j88261577933428_1_alg».proof.Proof.LibColumn

noncomputable section

namespace Cert.KernStages

open Idealize.ShloMosaic Idealize.ShloMosaic.ValueIdx Cert.Spec

/-- The float format of the sums, and the zero word as the neutral accumulator of a sum at it. -/
theorem fmt32 : FKind.Formats .f32 := .inl rfl
theorem accZero : (0x00000000#32 : BitVec 32) = FKind.add.neutral .f32 fmt32 := rfl
theorem bf16lt : FTy.bits .bf16 < FTy.bits .f32 := by decide

/-- The shape facts the row-wise stages of an [a, N] array carry: [N] is viewed as [1, N], which repeats down [a, N];
    [a, N] sums along axis 1 to [a], which is viewed as the column [a, 1], which repeats along [a, N]. -/
structure RowFacts (a N : ℕ) : Prop where
  sc : (⟨1, ![N]⟩ : Shape).ShapeCasts ⟨2, ![1, N]⟩
  bc : (⟨2, ![1, N]⟩ : Shape).Broadcasts ⟨2, ![a, N]⟩
  red : (⟨2, ![a, N]⟩ : Shape).Reduces [1] ⟨1, ![a]⟩
  col : (⟨1, ![a]⟩ : Shape).ShapeCasts ⟨2, ![a, 1]⟩
  cbc : (⟨2, ![a, 1]⟩ : Shape).Broadcasts ⟨2, ![a, N]⟩

variable {a K H N : ℕ}

/-! ## A vector repeated down the rows -/

/-- A vector [N] as every row of an [a, N] array. -/
def rowB (hf : RowFacts a N) (v : FVec Ideal ⟨1, ![N]⟩ .f32) : FVec Ideal ⟨2, ![a, N]⟩ .f32 :=
  broadcastTo ⟨2, ![a, N]⟩ (shapeCast ⟨2, ![1, N]⟩ v hf.sc) hf.bc

theorem rowB_apply (hf : RowFacts a N) (v : FVec Ideal ⟨1, ![N]⟩ .f32) (r : Fin a) (j : Fin N) :
    rowB hf v (ix2 r j) = v (ix1 j) :=
  (broadcastTo_1b_ab_apply _ hf.bc r j).trans (shapeCast_a_1a_apply v hf.sc 0 j)

/-! ## x·W + b and the rectifier -/

/-- `x·W + b` on every row: the product into the zero accumulator, plus the bias repeated down the rows. -/
def linK (d : DotDims ⟨2, ![a, K]⟩ ⟨2, ![K, N]⟩ ⟨2, ![a, N]⟩) (hf : RowFacts a N)
    (X : FVec Ideal ⟨2, ![a, K]⟩ .f32) (W : FVec Ideal ⟨2, ![K, N]⟩ .f32) (b : FVec Ideal ⟨1, ![N]⟩ .f32) :
    FVec Ideal ⟨2, ![a, N]⟩ .f32 :=
  addf (matmul d none (truncf .bf16 X bf16lt) (truncf .bf16 W bf16lt) (constant ⟨2, ![a, N]⟩ .f32 0x00000000#32))
    (rowB hf b)

theorem linK_apply {d : DotDims ⟨2, ![a, K]⟩ ⟨2, ![K, N]⟩ ⟨2, ![a, N]⟩} (hd : Cert.LibDot.Plain d) (hf : RowFacts a N)
    (X : FVec Ideal ⟨2, ![a, K]⟩ .f32) (W : FVec Ideal ⟨2, ![K, N]⟩ .f32) (b : FVec Ideal ⟨1, ![N]⟩ .f32)
    (r : Fin a) (j : Fin N) :
    linK d hf X W b (ix2 r j) = lin (fun k => X (ix2 r k)) (matOf W) (vecOf b) j := by
  refine (addf_apply _ _ _).trans ?_
  rw [Cert.LibDot.matmul_ix2 hd, rowB_apply]
  rfl

/-- The rectifier on every entry: the maximum with the zero word everywhere. -/
def reluK (h : FVec Ideal ⟨2, ![a, N]⟩ .f32) : FVec Ideal ⟨2, ![a, N]⟩ .f32 :=
  maximumf h (broadcast ⟨2, ![a, N]⟩ (Scalar.ofBits (F := Ideal) .f32 0x00000000#32))

theorem reluK_apply (h : FVec Ideal ⟨2, ![a, N]⟩ .f32) (r : Fin a) (j : Fin N) :
    reluK h (ix2 r j) = relu (fun c => h (ix2 r c)) j := by
  show max (h (ix2 r j)) (Ideal.ofBits .f32 0x00000000#32) = max (h (ix2 r j)) 0
  rw [Ideal.ofBits_zero_f32]

/-- Linear, rectifier, linear. -/
def lrlK (d1 : DotDims ⟨2, ![a, K]⟩ ⟨2, ![K, H]⟩ ⟨2, ![a, H]⟩) (d2 : DotDims ⟨2, ![a, H]⟩ ⟨2, ![H, N]⟩ ⟨2, ![a, N]⟩)
    (hfH : RowFacts a H) (hfN : RowFacts a N) (X : FVec Ideal ⟨2, ![a, K]⟩ .f32)
    (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) : FVec Ideal ⟨2, ![a, N]⟩ .f32 :=
  linK d2 hfN (reluK (linK d1 hfH X w1 b1)) w2 b2

theorem lrlK_apply {d1 : DotDims ⟨2, ![a, K]⟩ ⟨2, ![K, H]⟩ ⟨2, ![a, H]⟩}
    {d2 : DotDims ⟨2, ![a, H]⟩ ⟨2, ![H, N]⟩ ⟨2, ![a, N]⟩} (hd1 : Cert.LibDot.Plain d1) (hd2 : Cert.LibDot.Plain d2)
    (hfH : RowFacts a H) (hfN : RowFacts a N) (X : FVec Ideal ⟨2, ![a, K]⟩ .f32)
    (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (r : Fin a) (j : Fin N) :
    lrlK d1 d2 hfH hfN X w1 b1 w2 b2 (ix2 r j)
      = lin (relu (lin (fun k => X (ix2 r k)) (matOf w1) (vecOf b1))) (matOf w2) (vecOf b2) j := by
  refine (linK_apply hd2 hfN _ w2 b2 r j).trans ?_
  refine congrArg (fun x => lin x (matOf w2) (vecOf b2) j) (funext fun c => ?_)
  refine (reluK_apply _ r c).trans ?_
  exact congrArg (fun x => relu x c) (funext fun c' => linK_apply hd1 hfH X w1 b1 r c')

/-! ## The row's mean, the centred row, the variance plus ε -/

/-- The column [a, 1] of the rows' means: the lane sum from the zero word, as a column, over the feature count's word. -/
def meanCol (hf : RowFacts a N) (w : BitVec 32) (h : FVec Ideal ⟨2, ![a, N]⟩ .f32) : FVec Ideal ⟨2, ![a, 1]⟩ .f32 :=
  divf (shapeCast ⟨2, ![a, 1]⟩ (multiReduction .add [1] ⟨1, ![a]⟩ h 0x00000000#32 hf.red fmt32 accZero) hf.col)
    (broadcast ⟨2, ![a, 1]⟩ (Scalar.ofBits (F := Ideal) .f32 w))

theorem meanCol_apply (hf : RowFacts a N) (w : BitVec 32) (h : FVec Ideal ⟨2, ![a, N]⟩ .f32) (r : Fin a) (u : Fin 1) :
    meanCol hf w h (ix2 r u) = mean (Ideal.ofBits .f32 w) (fun c => h (ix2 r c)) := by
  refine (divf_apply _ _ _).trans ?_
  rw [shapeCast_a_a1_apply, multiReduction_add_rows_apply]
  rfl

/-- Every entry less its row's mean. -/
def centreK (hf : RowFacts a N) (w : BitVec 32) (h : FVec Ideal ⟨2, ![a, N]⟩ .f32) : FVec Ideal ⟨2, ![a, N]⟩ .f32 :=
  subf h (broadcastTo ⟨2, ![a, N]⟩ (meanCol hf w h) hf.cbc)

theorem centreK_apply (hf : RowFacts a N) (w : BitVec 32) (h : FVec Ideal ⟨2, ![a, N]⟩ .f32) (r : Fin a) (j : Fin N) :
    centreK hf w h (ix2 r j) = h (ix2 r j) - mean (Ideal.ofBits .f32 w) (fun c => h (ix2 r c)) := by
  refine (subf_apply _ _ _).trans ?_
  rw [broadcastTo_a1_ab_apply, meanCol_apply]

/-- The column of the rows' mean squares, plus the word `e` everywhere. -/
def varEpsK (hf : RowFacts a N) (w e : BitVec 32) (d : FVec Ideal ⟨2, ![a, N]⟩ .f32) : FVec Ideal ⟨2, ![a, 1]⟩ .f32 :=
  addf (meanCol hf w (mulf d d)) (broadcast ⟨2, ![a, 1]⟩ (Scalar.ofBits (F := Ideal) .f32 e))

theorem varEpsK_apply (hf : RowFacts a N) (w e : BitVec 32) (d : FVec Ideal ⟨2, ![a, N]⟩ .f32) (r : Fin a) (u : Fin 1) :
    varEpsK hf w e d (ix2 r u)
      = mean (Ideal.ofBits .f32 w) (fun c => d (ix2 r c) * d (ix2 r c)) + Ideal.ofBits .f32 e := by
  refine (addf_apply _ _ _).trans ?_
  rw [meanCol_apply]
  rfl

/-- The reciprocal square roots of a column, repeated along the rows. -/
def rsB (hf : RowFacts a N) (v : FVec Ideal ⟨2, ![a, 1]⟩ .f32) : FVec Ideal ⟨2, ![a, N]⟩ .f32 :=
  broadcastTo ⟨2, ![a, N]⟩ (rsqrt v) hf.cbc

theorem rsB_apply (hf : RowFacts a N) (v : FVec Ideal ⟨2, ![a, 1]⟩ .f32) (r : Fin a) (j : Fin N) :
    rsB hf v (ix2 r j) = Ideal.rsqrt (v (ix2 r (0 : Fin 1))) :=
  broadcastTo_a1_ab_apply _ hf.cbc r j

/-! ## The layer normalisation -/

/-- The normalised rows times the gain: centred, times the reciprocal root of variance plus ε, times the gain. -/
def lnScaledK (hf : RowFacts a N) (w : BitVec 32) (h : FVec Ideal ⟨2, ![a, N]⟩ .f32) (g : FVec Ideal ⟨1, ![N]⟩ .f32) :
    FVec Ideal ⟨2, ![a, N]⟩ .f32 :=
  mulf (mulf (centreK hf w h) (rsB hf (varEpsK hf w 0x3727C5AC#32 (centreK hf w h)))) (rowB hf g)

/-- The layer normalisation of every row. -/
def lnK (hf : RowFacts a N) (w : BitVec 32) (h : FVec Ideal ⟨2, ![a, N]⟩ .f32) (g beta : FVec Ideal ⟨1, ![N]⟩ .f32) :
    FVec Ideal ⟨2, ![a, N]⟩ .f32 :=
  addf (lnScaledK hf w h g) (rowB hf beta)

theorem lnK_apply (hf : RowFacts a N) (w : BitVec 32) (h : FVec Ideal ⟨2, ![a, N]⟩ .f32) (g beta : FVec Ideal ⟨1, ![N]⟩ .f32)
    (r : Fin a) (j : Fin N) :
    lnK hf w h g beta (ix2 r j) = layerNorm (Ideal.ofBits .f32 w) (fun c => h (ix2 r c)) (vecOf g) (vecOf beta) j := by
  show centreK hf w h (ix2 r j) * rsB hf (varEpsK hf w 0x3727C5AC#32 (centreK hf w h)) (ix2 r j) * rowB hf g (ix2 r j)
      + rowB hf beta (ix2 r j) = _
  rw [rsB_apply, varEpsK_apply, rowB_apply, rowB_apply, centreK_apply]
  simp only [centreK_apply]
  rfl

/-- The whole block on every row. -/
def mlpLnK (d1 : DotDims ⟨2, ![a, K]⟩ ⟨2, ![K, H]⟩ ⟨2, ![a, H]⟩) (d2 : DotDims ⟨2, ![a, H]⟩ ⟨2, ![H, N]⟩ ⟨2, ![a, N]⟩)
    (hfH : RowFacts a H) (hfN : RowFacts a N) (w : BitVec 32) (X : FVec Ideal ⟨2, ![a, K]⟩ .f32)
    (w1 : FVec Ideal ⟨2, ![K, H]⟩ .f32) (b1 : FVec Ideal ⟨1, ![H]⟩ .f32)
    (w2 : FVec Ideal ⟨2, ![H, N]⟩ .f32) (b2 g beta : FVec Ideal ⟨1, ![N]⟩ .f32) : FVec Ideal ⟨2, ![a, N]⟩ .f32 :=
  lnK hfN w (lrlK d1 d2 hfH hfN X w1 b1 w2 b2) g beta

theorem mlpLnK_apply {d1 : DotDims ⟨2, ![a, K]⟩ ⟨2, ![K, H]⟩ ⟨2, ![a, H]⟩}
    {d2 : DotDims ⟨2, ![a, H]⟩ ⟨2, ![H, N]⟩ ⟨2, ![a, N]⟩} (hd1 : Cert.LibDot.Plain d1) (hd2 : Cert.LibDot.Plain d2)
    (hfH : RowFacts a H) (hfN : RowFacts a N) (w : BitVec 32) (X : FVec Ideal ⟨2, ![a, K]⟩ .f32)
    (w1 : FVec Ideal ⟨2, ![K, H]⟩ .f32) (b1 : FVec Ideal ⟨1, ![H]⟩ .f32)
    (w2 : FVec Ideal ⟨2, ![H, N]⟩ .f32) (b2 g beta : FVec Ideal ⟨1, ![N]⟩ .f32) (r : Fin a) (j : Fin N) :
    mlpLnK d1 d2 hfH hfN w X w1 b1 w2 b2 g beta (ix2 r j)
      = mlpLn (Ideal.ofBits .f32 w) (fun k => X (ix2 r k)) (matOf w1) (vecOf b1) (matOf w2) (vecOf b2) (vecOf g) (vecOf beta) j := by
  refine (lnK_apply hfN w _ g beta r j).trans ?_
  exact congrArg (fun x => layerNorm (Ideal.ofBits .f32 w) x (vecOf g) (vecOf beta) j)
    (funext fun c => lrlK_apply hd1 hd2 hfH hfN X w1 b1 w2 b2 r c)

end Cert.KernStages

end
-- ==== Proof.LibConcatRows.lean ====
/-
  Rows laid end to end, read at an entry. A concatenation along the second axis of three [a, 512] arrays (or of two)
  has, in row i, the three (two) rows i of its pieces one after the other: at column k it reads the piece whose span
  holds k, at k less the widths before it. This is the specification's `cat3` / `cat2` of the pieces' rows.
-/
import Idealize.ShloMosaic.Lib.Pipeline.Value
import Idealize.ShloMosaic.Lib.ValueIdx
import proofs.«111695_j88261577933428_1_alg».proof.Proof.Spec

namespace Cert.LibConcatRows

open Idealize.ShloMosaic Idealize.ShloMosaic.ValueIdx Cert.Spec

/-- Three [a, 512] arrays concatenated along axis 1, at entry (i, k): the three rows i laid end to end, at k. -/
theorem concat3_rows_apply {a : ℕ} (x y z : (⟨2, ![a, 512]⟩ : Shape).Idx → EReal)
    (h : Shape.Concatenates (([⟨⟨2, ![a, 512]⟩, x⟩, ⟨⟨2, ![a, 512]⟩, y⟩, ⟨⟨2, ![a, 512]⟩, z⟩] :
      List ((s : Shape) × (s.Idx → EReal))).map (·.1)) ⟨2, ![a, 1536]⟩ 1)
    (i : Fin a) (k : Fin 1536) :
    concatenate ⟨2, ![a, 1536]⟩ 1 [⟨⟨2, ![a, 512]⟩, x⟩, ⟨⟨2, ![a, 512]⟩, y⟩, ⟨⟨2, ![a, 512]⟩, z⟩] h (ix2 i k)
      = cat3 (fun q => x (ix2 i q)) (fun q => y (ix2 i q)) (fun q => z (ix2 i q)) k := by
  unfold cat3
  by_cases h1 : k.val < 512
  · rw [dif_pos h1]
    refine concatenate_apply_piece 1 _ h (ix2 i k) 0 (by simp only [List.length_cons, List.length_nil]; omega) ⟨2, ![a, 512]⟩ x rfl rfl 0 rfl
      (ix2 i ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 1024
    · rw [dif_pos h2]
      refine concatenate_apply_piece 1 _ h (ix2 i k) 1 (by simp only [List.length_cons, List.length_nil]; omega) ⟨2, ![a, 512]⟩ y rfl rfl 512 rfl
        (ix2 i ⟨k.val - 512, by omega⟩) (fun b hb => ?_) ?_
      · match b with
        | ⟨0, _⟩ => rfl
        | ⟨1, _⟩ => exact absurd rfl hb
      · show 512 + (k.val - 512) = k.val
        omega
    · rw [dif_neg h2]
      refine concatenate_apply_piece 1 _ h (ix2 i k) 2 (by simp only [List.length_cons, List.length_nil]; omega) ⟨2, ![a, 512]⟩ z rfl rfl 1024 rfl
        (ix2 i ⟨k.val - 1024, by have := k.isLt; omega⟩) (fun b hb => ?_) ?_
      · match b with
        | ⟨0, _⟩ => rfl
        | ⟨1, _⟩ => exact absurd rfl hb
      · show 1024 + (k.val - 1024) = k.val
        omega

/-- Two [a, 512] arrays concatenated along axis 1, at entry (i, k): the two rows i laid end to end, at k. -/
theorem concat2_rows_apply {a : ℕ} (x y : (⟨2, ![a, 512]⟩ : Shape).Idx → EReal)
    (h : Shape.Concatenates (([⟨⟨2, ![a, 512]⟩, x⟩, ⟨⟨2, ![a, 512]⟩, y⟩] :
      List ((s : Shape) × (s.Idx → EReal))).map (·.1)) ⟨2, ![a, 1024]⟩ 1)
    (i : Fin a) (k : Fin 1024) :
    concatenate ⟨2, ![a, 1024]⟩ 1 [⟨⟨2, ![a, 512]⟩, x⟩, ⟨⟨2, ![a, 512]⟩, y⟩] h (ix2 i k)
      = cat2 (fun q => x (ix2 i q)) (fun q => y (ix2 i q)) k := by
  unfold cat2
  by_cases h1 : k.val < 512
  · rw [dif_pos h1]
    refine concatenate_apply_piece 1 _ h (ix2 i k) 0 (by simp only [List.length_cons, List.length_nil]; omega) ⟨2, ![a, 512]⟩ x rfl rfl 0 rfl
      (ix2 i ⟨k.val, h1⟩) (fun b hb => ?_) ?_
    · match b with
      | ⟨0, _⟩ => rfl
      | ⟨1, _⟩ => exact absurd rfl hb
    · show 0 + k.val = k.val
      omega
  · rw [dif_neg h1]
    refine concatenate_apply_piece 1 _ h (ix2 i k) 1 (by simp only [List.length_cons, List.length_nil]; omega) ⟨2, ![a, 512]⟩ y rfl rfl 512 rfl
      (ix2 i ⟨k.val - 512, by have := k.isLt; omega⟩) (fun b hb => ?_) ?_
    · match b with
      | ⟨0, _⟩ => rfl
      | ⟨1, _⟩ => exact absurd rfl hb
    · show 512 + (k.val - 512) = k.val
      omega

end Cert.LibConcatRows
-- ==== Proof.KernPay0.lean ====
/-
  The edge-message body's result, read at an entry (r, j): the message of edge r of the block at feature j.

  The body stores one whole [512, 512] block. Its stored value is the layer normalisation of "linear, rectifier,
  linear" applied to the concatenation, row by row, of the receivers' block, the senders' block and the embedding
  block, the embedding being the same four-stage block applied to the [512, 4] attribute block. Every stage reads
  row r of its operand only, so entry (r, j) is the specification's `edgeRow` of row r of the three data blocks.
-/
import proofs.«111695_j88261577933428_1_alg».proof.Proof.Gen.KernelIdeal.Frame
import proofs.«111695_j88261577933428_1_alg».proof.Proof.Spec
import proofs.«111695_j88261577933428_1_alg».proof.Proof.KernStages
import proofs.«111695_j88261577933428_1_alg».proof.Proof.LibConcatRows

noncomputable section

namespace Cert.KernelIdeal.Pay.Edge

open Idealize.ShloMosaic Idealize.ShloMosaic.ValueIdx Cert.KernelIdeal Cert.Spec Cert.KernStages

/-! ## The three products' dimension numbers are plain rows-by-columns ones; the [512, 512] shape facts -/

theorem plainAttr : Cert.LibDot.Plain dot_S512x4_S4x512_S512x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plainSquare : Cert.LibDot.Plain dot_S512x512_S512x512_S512x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plainWide : Cert.LibDot.Plain dot_S512x1536_S1536x512_S512x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem rows : RowFacts 512 512 := ⟨by decide, by decide, by decide, by decide, by decide⟩

theorem off2 : (![0, 0] : Fin 2 → Nat) = fun _ => 0 := funext fun a => by fin_cases a <;> rfl
theorem off1 : (![0] : Fin 1 → Nat) = fun _ => 0 := funext fun a => by fin_cases a <;> rfl

/-! ## The payloads as stages -/

/-- Receivers' block, senders' block and a third block, row by row end to end. -/
def catRows (x y z : FVec Ideal S512x512 .f32) : FVec Ideal S512x1536 .f32 :=
  concatenate S512x1536 1 [⟨S512x512, shapeCast S512x512 x Gen.shapeCasts_S512x512_S512x512⟩,
    ⟨S512x512, shapeCast S512x512 y Gen.shapeCasts_S512x512_S512x512⟩, ⟨S512x512, z⟩]
    Gen.concatenates_S512x512_S512x512_S512x512_S512x1536_d1

theorem catRows_apply (x y z : FVec Ideal S512x512 .f32) (r : Fin 512) (k : Fin 1536) :
    catRows x y z (ix2 r k) = cat3 (rowOf x r) (rowOf y r) (fun q => z (ix2 r q)) k := by
  refine (Cert.LibConcatRows.concat3_rows_apply _ _ _ _ r k).trans ?_
  rw [shapeCast_self, shapeCast_self]
  rfl

/-- The embedding block before its shift is added: normalised rows times the gain. -/
theorem pay2_eq (v0 : Vec Ideal S512x4 .f32) (v1 : Vec Ideal S4x512 .f32) (v2 : Vec Ideal S512 .f32)
    (v3 : Vec Ideal S512x512 .f32) (v4 v5 : Vec Ideal S512 .f32) :
    Gen.k0_pay2 (F := Ideal) v0 v1 v2 v3 v4 v5
      = lnScaledK rows 0x44000000#32
          (lrlK dot_S512x4_S4x512_S512x512_1_0_0_1_n_n dot_S512x512_S512x512_S512x512_1_0_0_1_n_n rows rows v0 v1 v2 v3 v4) v5 :=
  rfl

/-- The message block's centred rows. -/
theorem pay4_eq (v39 : FVec Ideal S512x512 .f32) (v6 : Vec Ideal S512 .f32) (v43 v45 : Vec Ideal S512x512 .f32)
    (v48 : Vec Ideal S1536x512 .f32) (v49 : Vec Ideal S512 .f32) (v50 : Vec Ideal S512x512 .f32) (v51 : Vec Ideal S512 .f32) :
    Gen.k0_pay4 (F := Ideal) v39 (Gen.k0_pay3 v6) v43 v45 v48 v49 v50 v51
      = centreK rows 0x44000000#32
          (lrlK dot_S512x1536_S1536x512_S512x512_1_0_0_1_n_n dot_S512x512_S512x512_S512x512_1_0_0_1_n_n rows rows
            (catRows v43 v45 (addf v39 (rowB rows v6))) v48 v49 v50 v51) :=
  rfl

/-- The column of the centred rows' mean squares plus ε. -/
theorem pay5_eq (v39 : FVec Ideal S512x512 .f32) (v40 : FVec Ideal S1x512 .f32) (v43 v45 : Vec Ideal S512x512 .f32)
    (v48 : Vec Ideal S1536x512 .f32) (v49 : Vec Ideal S512 .f32) (v50 : Vec Ideal S512x512 .f32) (v51 : Vec Ideal S512 .f32) :
    Gen.k0_pay5 (F := Ideal) v39 v40 v43 v45 v48 v49 v50 v51
      = varEpsK rows 0x44000000#32 0x3727C5AC#32 (Gen.k0_pay4 (F := Ideal) v39 v40 v43 v45 v48 v49 v50 v51) :=
  rfl

/-- The stored value: centred rows times the reciprocal root, times the gain, plus the shift. -/
theorem pay1_eq (v52 v53 : Vec Ideal S512 .f32) (v73 : FVec Ideal S512x512 .f32) (v80 : FVec Ideal S512x1 .f32) :
    Gen.k0_pay1 (F := Ideal) v52 v53 v73 v80
      = addf (mulf (mulf v73 (rsB rows v80)) (rowB rows v52)) (rowB rows v53) :=
  rfl

/-- The stored value of the whole body as the two blocks. -/
theorem stored_eq (x0 : Vec Ideal S512x4 .f32) (x1 x2 : Vec Ideal S512x512 .f32) (x3 : Vec Ideal S4x512 .f32)
    (x4 : Vec Ideal S512 .f32) (x5 : Vec Ideal S512x512 .f32) (x6 x7 x8 : Vec Ideal S512 .f32)
    (x9 : Vec Ideal S1536x512 .f32) (x10 : Vec Ideal S512 .f32) (x11 : Vec Ideal S512x512 .f32)
    (x12 x13 x14 : Vec Ideal S512 .f32) :
    Gen.k0_pay1 (F := Ideal) x13 x14
        (Gen.k0_pay4 (Gen.k0_pay2 x0 x3 x4 x5 x6 x7) (Gen.k0_pay3 x8) x1 x2 x9 x10 x11 x12)
        (Gen.k0_pay5 (Gen.k0_pay2 x0 x3 x4 x5 x6 x7) (Gen.k0_pay3 x8) x1 x2 x9 x10 x11 x12)
      = mlpLnK dot_S512x1536_S1536x512_S512x512_1_0_0_1_n_n dot_S512x512_S512x512_S512x512_1_0_0_1_n_n rows rows 0x44000000#32
          (catRows x1 x2
            (mlpLnK dot_S512x4_S4x512_S512x512_1_0_0_1_n_n dot_S512x512_S512x512_S512x512_1_0_0_1_n_n rows rows 0x44000000#32
              x0 x3 x4 x5 x6 x7 x8))
          x9 x10 x11 x12 x13 x14 := by
  rw [pay1_eq, pay5_eq, pay4_eq, pay2_eq]
  rfl

end Cert.KernelIdeal.Pay.Edge

namespace Cert.KernelIdeal.Pay

open Idealize.ShloMosaic Idealize.ShloMosaic.ValueIdx Cert.KernelIdeal Cert.Spec Cert.KernStages

/-- The edge-message body's block at entry (r, j) is the message of row r of its three data blocks, at feature j. -/
theorem out0_15_apply (x0 : Vec Ideal S512x4 .f32) (x1 x2 : Vec Ideal S512x512 .f32) (x3 : Vec Ideal S4x512 .f32)
    (x4 : Vec Ideal S512 .f32) (x5 : Vec Ideal S512x512 .f32) (x6 x7 x8 : Vec Ideal S512 .f32)
    (x9 : Vec Ideal S1536x512 .f32) (x10 : Vec Ideal S512 .f32) (x11 : Vec Ideal S512x512 .f32)
    (x12 x13 x14 : Vec Ideal S512 .f32) (r j : Fin 512) :
    Cert.KernelIdeal.Gen.out0_15 (F := Ideal) x0 x1 x2 x3 x4 x5 x6 x7 x8 x9 x10 x11 x12 x13 x14 (ix2 r j)
      = edgeRow (rowOf x0 r) (rowOf x1 r) (rowOf x2 r) x3 x4 x5 x6 x7 x8 x9 x10 x11 x12 x13 x14 j := by
  unfold Gen.out0_15
  rw [View.canon_unit_zero Edge.off2]
  simp only [View.ld_unit_zero (S := S512x4) Edge.off2, View.ld_unit_zero (S := S4x512) Edge.off2,
    View.ld_unit_zero (S := S512x512) Edge.off2, View.ld_unit_zero (S := S1536x512) Edge.off2,
    View.ld_unit_zero (S := S512) Edge.off1]
  rw [Edge.stored_eq]
  refine (mlpLnK_apply Edge.plainWide Edge.plainSquare Edge.rows Edge.rows _ _ x9 x10 x11 x12 x13 x14 r j).trans ?_
  unfold edgeRow
  refine congrArg (fun x => mlpLn w512 x (matOf x9) (vecOf x10) (matOf x11) (vecOf x12) (vecOf x13) (vecOf x14) j)
    (funext fun k => ?_)
  refine (Edge.catRows_apply x1 x2 _ r k).trans ?_
  refine congrArg (fun z => cat3 (rowOf x1 r) (rowOf x2 r) z k) (funext fun q => ?_)
  exact mlpLnK_apply Edge.plainAttr Edge.plainSquare Edge.rows Edge.rows _ x0 x3 x4 x5 x6 x7 x8 r q

end Cert.KernelIdeal.Pay

end
-- ==== Proof.KernPay1.lean ====
/-
  The node-update body's result, read at an entry (r, j): the output of grid node r of the block at feature j.

  The body stores one whole [1024, 128] block. Its stored value is the four-stage block "linear, rectifier, linear,
  layer normalisation" (into 128 features, normalised over 128) applied to the node rows plus an update, the update
  being the four-stage block (512 features) applied to each node row and its aggregated row laid end to end. Every
  stage reads row r of its operand only, so entry (r, j) is the specification's `nodeRow` of row r of the two data blocks.
-/
import proofs.«111695_j88261577933428_1_alg».proof.Proof.Gen.KernelIdeal.Frame
import proofs.«111695_j88261577933428_1_alg».proof.Proof.Spec
import proofs.«111695_j88261577933428_1_alg».proof.Proof.KernStages
import proofs.«111695_j88261577933428_1_alg».proof.Proof.LibConcatRows

noncomputable section

namespace Cert.KernelIdeal.Pay.Node

open Idealize.ShloMosaic Idealize.ShloMosaic.ValueIdx Cert.KernelIdeal Cert.Spec Cert.KernStages

/-! ## The three products' dimension numbers are plain rows-by-columns ones; the shape facts of the two widths -/

theorem plainPair : Cert.LibDot.Plain dot_S1024x1024_S1024x512_S1024x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plainSquare : Cert.LibDot.Plain dot_S1024x512_S512x512_S1024x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plainNarrow : Cert.LibDot.Plain dot_S1024x512_S512x128_S1024x128_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem rowsWide : RowFacts 1024 512 := ⟨by decide, by decide, by decide, by decide, by decide⟩
theorem rowsNarrow : RowFacts 1024 128 := ⟨by decide, by decide, by decide, by decide, by decide⟩

theorem off2 : (![0, 0] : Fin 2 → Nat) = fun _ => 0 := funext fun a => by fin_cases a <;> rfl
theorem off1 : (![0] : Fin 1 → Nat) = fun _ => 0 := funext fun a => by fin_cases a <;> rfl

/-! ## The payloads as stages -/

/-- The node rows and the aggregated rows, row by row end to end. -/
def catPair (x y : FVec Ideal S1024x512 .f32) : FVec Ideal S1024x1024 .f32 :=
  concatenate S1024x1024 1 [⟨S1024x512, x⟩, ⟨S1024x512, shapeCast S1024x512 y Gen.shapeCasts_S1024x512_S1024x512⟩]
    Gen.concatenates_S1024x512_S1024x512_S1024x1024_d1

theorem catPair_apply (x y : FVec Ideal S1024x512 .f32) (r : Fin 1024) (k : Fin 1024) :
    catPair x y (ix2 r k) = cat2 (rowOf x r) (rowOf y r) k := by
  refine (Cert.LibConcatRows.concat2_rows_apply _ _ _ r k).trans ?_
  rw [shapeCast_self]
  rfl

/-- The update block's centred rows. -/
theorem pay2_eq (v0 v1 v4 : Vec Ideal S1024x512 .f32) (v5 : Vec Ideal S512 .f32) (v6 : Vec Ideal S512x512 .f32)
    (v7 : Vec Ideal S512 .f32) :
    Gen.k1_pay2 (F := Ideal) v0 v1 v4 v5 v6 v7
      = centreK rowsWide 0x44000000#32
          (lrlK dot_S1024x1024_S1024x512_S1024x512_1_0_0_1_n_n dot_S1024x512_S512x512_S1024x512_1_0_0_1_n_n rowsWide rowsWide
            (catPair v0 v1) v4 v5 v6 v7) :=
  rfl

/-- The reciprocal roots of the centred rows' mean squares plus ε, repeated along the rows. -/
theorem pay3_eq (v0 v1 v4 : Vec Ideal S1024x512 .f32) (v5 : Vec Ideal S512 .f32) (v6 : Vec Ideal S512x512 .f32)
    (v7 : Vec Ideal S512 .f32) :
    Gen.k1_pay3 (F := Ideal) v0 v1 v4 v5 v6 v7
      = rsB rowsWide (varEpsK rowsWide 0x44000000#32 0x3727C5AC#32 (Gen.k1_pay2 (F := Ideal) v0 v1 v4 v5 v6 v7)) :=
  rfl

/-- The final block's normalised rows, before gain and shift, from the update block's centred rows and roots. -/
theorem pay4_eq (v0 : Vec Ideal S1024x512 .f32) (v8 v9 : Vec Ideal S512 .f32) (v29 v38 : FVec Ideal S1024x512 .f32)
    (v47 : Vec Ideal S512x512 .f32) (v48 : Vec Ideal S512 .f32) (v49 : Vec Ideal S512x128 .f32) (v50 : Vec Ideal S128 .f32) :
    Gen.k1_pay4 (F := Ideal) v0 v8 v9 v29 v38 v47 v48 v49 v50
      = mulf
          (centreK rowsNarrow 0x43000000#32
            (lrlK dot_S1024x512_S512x512_S1024x512_1_0_0_1_n_n dot_S1024x512_S512x128_S1024x128_1_0_0_1_n_n rowsWide rowsNarrow
              (addf v0 (addf (mulf (mulf v29 v38) (rowB rowsWide v8)) (rowB rowsWide v9))) v47 v48 v49 v50))
          (rsB rowsNarrow (varEpsK rowsNarrow 0x43000000#32 0x3727C5AC#32
            (centreK rowsNarrow 0x43000000#32
              (lrlK dot_S1024x512_S512x512_S1024x512_1_0_0_1_n_n dot_S1024x512_S512x128_S1024x128_1_0_0_1_n_n rowsWide rowsNarrow
                (addf v0 (addf (mulf (mulf v29 v38) (rowB rowsWide v8)) (rowB rowsWide v9))) v47 v48 v49 v50)))) :=
  rfl

/-- The stored value: the normalised rows times the gain, plus the shift. -/
theorem pay1_eq (v51 v52 : Vec Ideal S128 .f32) (v82 : FVec Ideal S1024x128 .f32) :
    Gen.k1_pay1 (F := Ideal) v51 v52 v82 = addf (mulf v82 (rowB rowsNarrow v51)) (rowB rowsNarrow v52) :=
  rfl

/-- The stored value of the whole body as the two blocks around the residual sum. -/
theorem stored_eq (x0 x1 x2 : Vec Ideal S1024x512 .f32) (x3 : Vec Ideal S512 .f32) (x4 : Vec Ideal S512x512 .f32)
    (x5 x6 x7 : Vec Ideal S512 .f32) (x8 : Vec Ideal S512x512 .f32) (x9 : Vec Ideal S512 .f32)
    (x10 : Vec Ideal S512x128 .f32) (x11 x12 x13 : Vec Ideal S128 .f32) :
    Gen.k1_pay1 (F := Ideal) x12 x13
        (Gen.k1_pay4 x0 x6 x7 (Gen.k1_pay2 x0 x1 x2 x3 x4 x5) (Gen.k1_pay3 x0 x1 x2 x3 x4 x5) x8 x9 x10 x11)
      = mlpLnK dot_S1024x512_S512x512_S1024x512_1_0_0_1_n_n dot_S1024x512_S512x128_S1024x128_1_0_0_1_n_n rowsWide rowsNarrow
          0x43000000#32
          (addf x0
            (mlpLnK dot_S1024x1024_S1024x512_S1024x512_1_0_0_1_n_n dot_S1024x512_S512x512_S1024x512_1_0_0_1_n_n rowsWide rowsWide
              0x44000000#32 (catPair x0 x1) x2 x3 x4 x5 x6 x7))
          x8 x9 x10 x11 x12 x13 := by
  rw [pay1_eq, pay4_eq, pay3_eq, pay2_eq]
  rfl

end Cert.KernelIdeal.Pay.Node

namespace Cert.KernelIdeal.Pay

open Idealize.ShloMosaic Idealize.ShloMosaic.ValueIdx Cert.KernelIdeal Cert.Spec Cert.KernStages

/-- The node-update body's block at entry (r, j) is the output of row r of its two data blocks, at feature j. -/
theorem out1_14_apply (x0 x1 : Vec Ideal S1024x512 .f32) (x2 : Vec Ideal S1024x512 .f32) (x3 : Vec Ideal S512 .f32)
    (x4 : Vec Ideal S512x512 .f32) (x5 x6 x7 : Vec Ideal S512 .f32) (x8 : Vec Ideal S512x512 .f32)
    (x9 : Vec Ideal S512 .f32) (x10 : Vec Ideal S512x128 .f32) (x11 x12 x13 : Vec Ideal S128 .f32)
    (r : Fin 1024) (j : Fin 128) :
    Cert.KernelIdeal.Gen.out1_14 (F := Ideal) x0 x1 x2 x3 x4 x5 x6 x7 x8 x9 x10 x11 x12 x13 (ix2 r j)
      = nodeRow (rowOf x0 r) (rowOf x1 r) x2 x3 x4 x5 x6 x7 x8 x9 x10 x11 x12 x13 j := by
  unfold Gen.out1_14
  rw [View.canon_unit_zero Node.off2]
  simp only [View.ld_unit_zero (S := S1024x512) Node.off2, View.ld_unit_zero (S := S512x512) Node.off2,
    View.ld_unit_zero (S := S512x128) Node.off2, View.ld_unit_zero (S := S512) Node.off1,
    View.ld_unit_zero (S := S128) Node.off1]
  rw [Node.stored_eq]
  refine (mlpLnK_apply Node.plainSquare Node.plainNarrow Node.rowsWide Node.rowsNarrow _ _ x8 x9 x10 x11 x12 x13 r j).trans ?_
  unfold nodeRow
  refine congrArg (fun x => mlpLn w128 x (matOf x8) (vecOf x9) (matOf x10) (vecOf x11) (vecOf x12) (vecOf x13) j)
    (funext fun k => ?_)
  refine (addf_apply _ _ _).trans ?_
  refine congrArg (fun z => rowOf x0 r k + z) ?_
  refine (mlpLnK_apply Node.plainPair Node.plainSquare Node.rowsWide Node.rowsWide _ _ x2 x3 x4 x5 x6 x7 r k).trans ?_
  exact congrArg (fun x => mlpLn w512 x (matOf x2) (vecOf x3) (matOf x4) (vecOf x5) (vecOf x6) (vecOf x7) k)
    (funext fun q => Node.catPair_apply x0 x1 r q)

end Cert.KernelIdeal.Pay

end
-- ==== Proof.RefTerm.lean ====
/-
  The reference program's result as a closed term in its arguments.

  Each definition below is the composition of host operations that the reference program applies, operation for
  operation: a linear layer (matrix product, bias row broadcast over the rows, sum), the rectifier (maximum with a
  broadcast zero), a second linear layer, and a layer normalisation spelled with keep-dimension means (row sum,
  column view, division by the broadcast feature-count word; variance likewise from the centred squares, guarded
  by a select on "count minus zero is positive"; inverse square root of variance plus epsilon; scale and shift).
  The four blocks of the program are this one composition at four sets of extents; the two row gathers and the
  segment sum are written with the program's own index arithmetic and dimension-number records.
-/
import proofs.«111695_j88261577933428_1_alg».proof.ReferenceIdeal

noncomputable section

namespace Cert.ReferenceIdeal.RefTerm

open Idealize.ShloMosaic Idealize.SL.Sem
open Cert.ReferenceIdeal

variable {F : FTy → Type} [FloatOps F]

/-- A rank-2 and a rank-1 literal shape, and the rank-0 one. -/
abbrev Sh2 (a b : ℕ) : Shape := ⟨2, ![a, b]⟩
abbrev Sh1 (a : ℕ) : Shape := ⟨1, ![a]⟩

/-- The shape relations one block's operations ask for: rows a, hidden width H, output width N. -/
structure BlockFacts (a H N : ℕ) : Prop where
  rowH : (Sh1 H).BroadcastsInDim (Sh2 1 H) (![1] : Fin 1 → Fin (Sh2 1 H).rank)
  rowsH : (Sh2 1 H).BroadcastsInDim (Sh2 a H) (![0, 1] : Fin 2 → Fin (Sh2 a H).rank)
  zeroH : S_.BroadcastsInDim (Sh2 a H) (![] : Fin 0 → Fin (Sh2 a H).rank)
  rowN : (Sh1 N).BroadcastsInDim (Sh2 1 N) (![1] : Fin 1 → Fin (Sh2 1 N).rank)
  rowsN : (Sh2 1 N).BroadcastsInDim (Sh2 a N) (![0, 1] : Fin 2 → Fin (Sh2 a N).rank)
  red : (Sh2 a N).ReducesTo [1] (Sh1 a)
  one : 0 < S_.numel
  col : (Sh1 a).BroadcastsInDim (Sh2 a 1) (![0] : Fin 1 → Fin (Sh2 a 1).rank)
  scal : S_.BroadcastsInDim (Sh2 a 1) (![] : Fin 0 → Fin (Sh2 a 1).rank)
  colN : (Sh2 a 1).BroadcastsInDim (Sh2 a N) (![0, 1] : Fin 2 → Fin (Sh2 a N).rank)

section Block

variable {a K H N : ℕ}

/-- A bias row [W] laid over a rows: [W] → [1, W] → [a, W]. -/
def biasRows {W : ℕ} (h1 : (Sh1 W).BroadcastsInDim (Sh2 1 W) (![1] : Fin 1 → Fin (Sh2 1 W).rank))
    (h2 : (Sh2 1 W).BroadcastsInDim (Sh2 a W) (![0, 1] : Fin 2 → Fin (Sh2 a W).rank))
    (b : FVec F (Sh1 W) .f32) : FVec F (Sh2 a W) .f32 :=
  broadcastInDim (Sh2 a W) ![0, 1] h2 (broadcastInDim (Sh2 1 W) ![1] h1 b)

/-- The keep-dimension mean of the rows of h: row sums as a column, divided by the broadcast word nf. -/
def meanCol (hf : BlockFacts a H N) (nf : BitVec 32) (h : FVec F (Sh2 a N) .f32) : FVec F (Sh2 a 1) .f32 :=
  Host.divf
    (broadcastInDim (Sh2 a 1) ![0] hf.col (Host.reduceAdd h (constant S_ .f32 0x00000000#32) hf.red hf.one))
    (broadcastInDim (Sh2 a 1) ![] hf.scal (constant S_ .f32 nf))

/-- The keep-dimension variance of the rows of h with zero degrees of freedom removed, as the program's helper
    function spells it. -/
def varCol (hf : BlockFacts a H N) (nf : BitVec 32) (h : FVec F (Sh2 a N) .f32) : FVec F (Sh2 a 1) .f32 :=
  let v5 : FVec F (Sh2 a N) .f32 := subf h (broadcastInDim (Sh2 a N) ![0, 1] hf.colN (meanCol hf nf h))
  let v8 : FVec F S_ .f32 := subf (constant S_ .f32 nf) (sitofp .f32 (constantI S_ 32 0#32))
  let v12 : FVec F (Sh2 a 1) .f32 :=
    Host.divf
      (broadcastInDim (Sh2 a 1) ![0] hf.col
        (Host.reduceAdd (mulf v5 v5) (constant S_ .f32 0x00000000#32) hf.red hf.one))
      (broadcastInDim (Sh2 a 1) ![] hf.scal v8)
  select (broadcastInDim (Sh2 a 1) ![] hf.scal (cmpf .ogt v8 (constant S_ .f32 0x00000000#32))) v12
    (broadcastInDim (Sh2 a 1) ![] hf.scal (id (constant S_ .f32 0x7FC00000#32)))

/-- Layer normalisation of the rows of h, as the program spells it. -/
def lnRows (hf : BlockFacts a H N) (nf : BitVec 32) (h : FVec F (Sh2 a N) .f32)
    (g beta : FVec F (Sh1 N) .f32) : FVec F (Sh2 a N) .f32 :=
  addf
    (mulf
      (mulf
        (subf h (broadcastInDim (Sh2 a N) ![0, 1] hf.colN (meanCol hf nf h)))
        (broadcastInDim (Sh2 a N) ![0, 1] hf.colN
          (Host.rsqrt (addf (varCol hf nf h)
            (broadcastInDim (Sh2 a 1) ![] hf.scal (constant S_ .f32 0x3727C5AC#32))))))
      (biasRows hf.rowN hf.rowsN g))
    (biasRows hf.rowN hf.rowsN beta)

/-- The second linear layer's output: product, bias, over the rectified first layer. -/
def hidden (hf : BlockFacts a H N) (d1 : DotDims (Sh2 a K) (Sh2 K H) (Sh2 a H))
    (x : FVec F (Sh2 a K) .f32) (w1 : FVec F (Sh2 K H) .f32) (b1 : FVec F (Sh1 H) .f32) : FVec F (Sh2 a H) .f32 :=
  maximumf (addf (Host.dotGeneral d1 none x w1) (biasRows hf.rowH hf.rowsH b1))
    (broadcastInDim (Sh2 a H) ![] hf.zeroH (constant S_ .f32 0x00000000#32))

def pre (hf : BlockFacts a H N) (d1 : DotDims (Sh2 a K) (Sh2 K H) (Sh2 a H))
    (d2 : DotDims (Sh2 a H) (Sh2 H N) (Sh2 a N))
    (x : FVec F (Sh2 a K) .f32) (w1 : FVec F (Sh2 K H) .f32) (b1 : FVec F (Sh1 H) .f32)
    (w2 : FVec F (Sh2 H N) .f32) (b2 : FVec F (Sh1 N) .f32) : FVec F (Sh2 a N) .f32 :=
  addf (Host.dotGeneral d2 none (hidden hf d1 x w1 b1) w2) (biasRows hf.rowN hf.rowsN b2)

/-- One block: linear, rectifier, linear, layer normalisation. -/
def block (hf : BlockFacts a H N) (d1 : DotDims (Sh2 a K) (Sh2 K H) (Sh2 a H))
    (d2 : DotDims (Sh2 a H) (Sh2 H N) (Sh2 a N)) (nf : BitVec 32)
    (x : FVec F (Sh2 a K) .f32) (w1 : FVec F (Sh2 K H) .f32) (b1 : FVec F (Sh1 H) .f32)
    (w2 : FVec F (Sh2 H N) .f32) (b2 g beta : FVec F (Sh1 N) .f32) : FVec F (Sh2 a N) .f32 :=
  lnRows hf nf (pre hf d1 d2 x w1 b1 w2 b2) g beta

end Block

variable [Facts]
open Facts₀ Facts

/-- The shape relations of the three blocks over the edges and of the two over the grid nodes. -/
theorem factsE : BlockFacts 49152 512 512 :=
  ⟨bcast_S512_S1x512_1, bcast_S1x512_S49152x512_0_1, bcast_S_S49152x512, bcast_S512_S1x512_1,
    bcast_S1x512_S49152x512_0_1, reducesTo_S49152x512_S49152_d1, h_S_, bcast_S49152_S49152x1_0, bcast_S_S49152x1,
    bcast_S49152x1_S49152x512_0_1⟩
theorem factsN : BlockFacts 16384 512 512 :=
  ⟨bcast_S512_S1x512_1, bcast_S1x512_S16384x512_0_1, bcast_S_S16384x512, bcast_S512_S1x512_1,
    bcast_S1x512_S16384x512_0_1, reducesTo_S16384x512_S16384_d1, h_S_, bcast_S16384_S16384x1_0, bcast_S_S16384x1,
    bcast_S16384x1_S16384x512_0_1⟩
theorem factsF : BlockFacts 16384 512 128 :=
  ⟨bcast_S512_S1x512_1, bcast_S1x512_S16384x512_0_1, bcast_S_S16384x512, bcast_S128_S1x128_1,
    bcast_S1x128_S16384x128_0_1, reducesTo_S16384x128_S16384_d1, h_S_, bcast_S16384_S16384x1_0, bcast_S_S16384x1,
    bcast_S16384x1_S16384x128_0_1⟩

/-- The receivers' and the senders' index vectors: row 1 and row 0 of the edge index array. -/
def recvIx (a3 : (⟨S2x49152, .i32⟩ : BufTy).Contents (Elt F)) : (⟨S49152, .i32⟩ : BufTy).Contents (Elt F) :=
  shapeCast S49152 (extractStridedSlice S1x49152 ![1, 0] a3 slices_S2x49152_S1x49152_1_0) shapeCasts_S1x49152_S49152
def sendIx (a3 : (⟨S2x49152, .i32⟩ : BufTy).Contents (Elt F)) : (⟨S49152, .i32⟩ : BufTy).Contents (Elt F) :=
  shapeCast S49152 (extractStridedSlice S1x49152 ![0, 0] a3 slices_S2x49152_S1x49152_0_0) shapeCasts_S1x49152_S49152

/-- An index vector with its negative entries wrapped by n, as a column. -/
def wrapCol (n : BitVec 32) (ix : (⟨S49152, .i32⟩ : BufTy).Contents (Elt F)) :
    (⟨S49152x1, .i32⟩ : BufTy).Contents (Elt F) :=
  broadcastInDim S49152x1 ![0] bcast_S49152_S49152x1_0
    (select (cmpi .slt ix (broadcastInDim S49152 ![] bcast_S_S49152 (constantI S_ 32 0#32)))
      (addi ix (broadcastInDim S49152 ![] bcast_S_S49152 (constantI S_ 32 n))) ix)

/-- The receivers' rows of the grid array, and the senders' rows of the mesh array. -/
def gatherRecv (a1 : (⟨S16384x512, .f32⟩ : BufTy).Contents (Elt F))
    (a3 : (⟨S2x49152, .i32⟩ : BufTy).Contents (Elt F)) : (⟨S49152x512, .f32⟩ : BufTy).Contents (Elt F) :=
  Host.gather gather_S16384x512_S49152x1_S49152x512_1_0_n_n_0_1_1512 a1 (wrapCol (F := F) 16384#32 (recvIx (F := F) a3))
def gatherSend (a0 : (⟨S2562x512, .f32⟩ : BufTy).Contents (Elt F))
    (a3 : (⟨S2x49152, .i32⟩ : BufTy).Contents (Elt F)) : (⟨S49152x512, .f32⟩ : BufTy).Contents (Elt F) :=
  Host.gather gather_S2562x512_S49152x1_S49152x512_1_0_n_n_0_1_1512 a0 (wrapCol (F := F) 2562#32 (sendIx (F := F) a3))

/-- The messages summed into their receivers' rows. -/
def aggr (a3 : (⟨S2x49152, .i32⟩ : BufTy).Contents (Elt F))
    (msg : (⟨S49152x512, .f32⟩ : BufTy).Contents (Elt F)) : (⟨S16384x512, .f32⟩ : BufTy).Contents (Elt F) :=
  Host.scatterAdd scatter_S16384x512_S49152x1_S49152x512_1_0_0_1
    (broadcastInDim S16384x512 ![] bcast_S_S16384x512 (constant S_ .f32 0x00000000#32))
    (broadcastInDim S49152x1 ![0] bcast_S49152_S49152x1_0 (recvIx (F := F) a3)) msg

/-- The edge-embedding block. -/
def emb (a2 : (⟨S49152x4, .f32⟩ : BufTy).Contents (Elt F)) (a4 : (⟨S4x512, .f32⟩ : BufTy).Contents (Elt F))
    (a5 : (⟨S512, .f32⟩ : BufTy).Contents (Elt F)) (a6 : (⟨S512x512, .f32⟩ : BufTy).Contents (Elt F))
    (a7 a8 a9 : (⟨S512, .f32⟩ : BufTy).Contents (Elt F)) : (⟨S49152x512, .f32⟩ : BufTy).Contents (Elt F) :=
  block factsE dot_S49152x4_S4x512_S49152x512_1_0_0_1_n_n dot_S49152x512_S512x512_S49152x512_1_0_0_1_n_n
    0x44000000#32 a2 a4 a5 a6 a7 a8 a9

/-- The message block over receiver row, sender row and embedding laid end to end. -/
def msg (xi xj e : (⟨S49152x512, .f32⟩ : BufTy).Contents (Elt F))
    (a10 : (⟨S1536x512, .f32⟩ : BufTy).Contents (Elt F)) (a11 : (⟨S512, .f32⟩ : BufTy).Contents (Elt F))
    (a12 : (⟨S512x512, .f32⟩ : BufTy).Contents (Elt F))
    (a13 a14 a15 : (⟨S512, .f32⟩ : BufTy).Contents (Elt F)) : (⟨S49152x512, .f32⟩ : BufTy).Contents (Elt F) :=
  block factsE dot_S49152x1536_S1536x512_S49152x512_1_0_0_1_n_n dot_S49152x512_S512x512_S49152x512_1_0_0_1_n_n
    0x44000000#32
    (concatenate S49152x1536 1 [⟨S49152x512, xi⟩, ⟨S49152x512, xj⟩, ⟨S49152x512, e⟩]
      concatenates_S49152x512_S49152x512_S49152x512_S49152x1536_d1)
    a10 a11 a12 a13 a14 a15

/-- The node block over the node's own row and its aggregate laid end to end. -/
def node (a1 ag : (⟨S16384x512, .f32⟩ : BufTy).Contents (Elt F))
    (a16 : (⟨S1024x512, .f32⟩ : BufTy).Contents (Elt F)) (a17 : (⟨S512, .f32⟩ : BufTy).Contents (Elt F))
    (a18 : (⟨S512x512, .f32⟩ : BufTy).Contents (Elt F))
    (a19 a20 a21 : (⟨S512, .f32⟩ : BufTy).Contents (Elt F)) : (⟨S16384x512, .f32⟩ : BufTy).Contents (Elt F) :=
  block factsN dot_S16384x1024_S1024x512_S16384x512_1_0_0_1_n_n dot_S16384x512_S512x512_S16384x512_1_0_0_1_n_n
    0x44000000#32
    (concatenate S16384x1024 1 [⟨S16384x512, a1⟩, ⟨S16384x512, ag⟩] concatenates_S16384x512_S16384x512_S16384x1024_d1)
    a16 a17 a18 a19 a20 a21

/-- The final block, of output width 128. -/
def fin (x : (⟨S16384x512, .f32⟩ : BufTy).Contents (Elt F)) (a22 : (⟨S512x512, .f32⟩ : BufTy).Contents (Elt F))
    (a23 : (⟨S512, .f32⟩ : BufTy).Contents (Elt F)) (a24 : (⟨S512x128, .f32⟩ : BufTy).Contents (Elt F))
    (a25 a26 a27 : (⟨S128, .f32⟩ : BufTy).Contents (Elt F)) : (⟨S16384x128, .f32⟩ : BufTy).Contents (Elt F) :=
  block factsF dot_S16384x512_S512x512_S16384x512_1_0_0_1_n_n dot_S16384x512_S512x128_S16384x128_1_0_0_1_n_n
    0x43000000#32 x a22 a23 a24 a25 a26 a27

/-- The program's result in its twenty-eight arguments. -/
def out (a0 : (⟨S2562x512, .f32⟩ : BufTy).Contents (Elt F)) (a1 : (⟨S16384x512, .f32⟩ : BufTy).Contents (Elt F))
    (a2 : (⟨S49152x4, .f32⟩ : BufTy).Contents (Elt F)) (a3 : (⟨S2x49152, .i32⟩ : BufTy).Contents (Elt F))
    (a4 : (⟨S4x512, .f32⟩ : BufTy).Contents (Elt F)) (a5 : (⟨S512, .f32⟩ : BufTy).Contents (Elt F))
    (a6 : (⟨S512x512, .f32⟩ : BufTy).Contents (Elt F)) (a7 a8 a9 : (⟨S512, .f32⟩ : BufTy).Contents (Elt F))
    (a10 : (⟨S1536x512, .f32⟩ : BufTy).Contents (Elt F)) (a11 : (⟨S512, .f32⟩ : BufTy).Contents (Elt F))
    (a12 : (⟨S512x512, .f32⟩ : BufTy).Contents (Elt F)) (a13 a14 a15 : (⟨S512, .f32⟩ : BufTy).Contents (Elt F))
    (a16 : (⟨S1024x512, .f32⟩ : BufTy).Contents (Elt F)) (a17 : (⟨S512, .f32⟩ : BufTy).Contents (Elt F))
    (a18 : (⟨S512x512, .f32⟩ : BufTy).Contents (Elt F)) (a19 a20 a21 : (⟨S512, .f32⟩ : BufTy).Contents (Elt F))
    (a22 : (⟨S512x512, .f32⟩ : BufTy).Contents (Elt F)) (a23 : (⟨S512, .f32⟩ : BufTy).Contents (Elt F))
    (a24 : (⟨S512x128, .f32⟩ : BufTy).Contents (Elt F)) (a25 a26 a27 : (⟨S128, .f32⟩ : BufTy).Contents (Elt F)) :
    (⟨S16384x128, .f32⟩ : BufTy).Contents (Elt F) :=
  fin (addf a1 (node a1 (aggr a3 (msg (gatherRecv a1 a3) (gatherSend a0 a3) (emb a2 a4 a5 a6 a7 a8 a9)
    a10 a11 a12 a13 a14 a15)) a16 a17 a18 a19 a20 a21)) a22 a23 a24 a25 a26 a27

end Cert.ReferenceIdeal.RefTerm

end
-- ==== Proof.Bridge.lean ====
/-
  The two programs gather and sum with the same host operations: the receivers' rows of the grid array, the senders'
  rows of the mesh array and the segment sum are the same functions whichever program's text one reads them from.
-/
import proofs.«111695_j88261577933428_1_alg».proof.Proof.KernGlue
import proofs.«111695_j88261577933428_1_alg».proof.Proof.RefTerm

noncomputable section

namespace Cert.Bridge

open Idealize.ShloMosaic

variable {F : FTy → Type} [FloatOps F] [Cert.ReferenceIdeal.Facts]

theorem gatherRecv_eq (a1 : (⟨Cert.KernelIdeal.S16384x512, .f32⟩ : BufTy).Contents (Elt F))
    (a3 : (⟨Cert.KernelIdeal.S2x49152, .i32⟩ : BufTy).Contents (Elt F)) :
    Cert.ReferenceIdeal.RefTerm.gatherRecv (F := F) a1 a3 = Cert.KernelIdeal.Glue.gatherRecv (F := F) a1 a3 := rfl

theorem gatherSend_eq (a0 : (⟨Cert.KernelIdeal.S2562x512, .f32⟩ : BufTy).Contents (Elt F))
    (a3 : (⟨Cert.KernelIdeal.S2x49152, .i32⟩ : BufTy).Contents (Elt F)) :
    Cert.ReferenceIdeal.RefTerm.gatherSend (F := F) a0 a3 = Cert.KernelIdeal.Glue.gatherSend (F := F) a0 a3 := rfl

theorem aggr_eq (a3 : (⟨Cert.KernelIdeal.S2x49152, .i32⟩ : BufTy).Contents (Elt F))
    (msg : (⟨Cert.KernelIdeal.S49152x512, .f32⟩ : BufTy).Contents (Elt F)) :
    Cert.ReferenceIdeal.RefTerm.aggr (F := F) a3 msg = Cert.KernelIdeal.Glue.aggr (F := F) a3 msg := rfl

end Cert.Bridge

end
-- ==== Proof.RefOps.lean ====
/-
  The reference function as one straight line of array operations.

  The function computes, for every edge, a block (linear layer, rectifier, linear layer, layer normalisation) of the
  edge's attributes, then the same kind of block of the receiver's row, the sender's row and that embedding laid end to
  end; it adds the messages arriving at each grid node, applies a block to the node's row and that sum laid end to end,
  adds the node's row, and applies a last block.  The rectifier (the zero word, its broadcast, the maximum) and the
  variance of a row (the row sum, its quotient by the feature count, the centred row, its square, the second row sum and
  quotient, and a select on the sign of the divisor) are separate functions of the program, each called four times;
  below, the operations of each call stand at the call's place, over that call's own buffers, so that the whole
  function is a list of operations each of which writes one buffer of its own.  The list is cut where the program's
  text is cut: `ops0`, `ops1`, `ops2`.
-/
import proofs.«111695_j88261577933428_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the edge embedding's block (a linear layer of the four attributes, the rectifier, a second linear layer, the
    normalisation with its mean and variance), the two gathers of node rows by the edge's end points, the three rows laid end to
    end, and the message block's first linear layer, rectifier and second matrix product. -/
abbrev ops0 : List (HloOp τ sig (Elt F)) :=
  [ StableHlo.binary main_arg2 main_arg4 main_v0 ((fun l r => Host.dotGeneral dot_S49152x4_S4x512_S49152x512_1_0_0_1_n_n none l r) : (⟨S49152x4, .f32⟩ : BufTy).Contents (Elt F) → (⟨S4x512, .f32⟩ : BufTy).Contents (Elt F) → (⟨S49152x512, .f32⟩ : BufTy).Contents (Elt F)),
    StableHlo.unary main_arg5 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S49152x512 ![0, 1] bcast_S1x512_S49152x512_0_1 : (⟨S1x512, .f32⟩ : BufTy).Contents (Elt F) → (⟨S49152x512, .f32⟩ : BufTy).Contents (Elt F)),
    StableHlo.binary main_v0 main_v2 main_v3 (addf : (⟨S49152x512, .f32⟩ : BufTy).Contents (Elt F) → (⟨S49152x512, .f32⟩ : BufTy).Contents (Elt F) → (⟨S49152x512, .f32⟩ : BufTy).Contents (Elt F)),
    StableHlo.TRef.nullary main_call0.cst (constant S_ .f32 0x00000000#32),
    StableHlo.TRef.unary main_call0.cst main_call0.v0 (broadcastInDim S49152x512 ![] bcast_S_S49152x512),
    StableHlo.TRef.binary (StableHlo.TRef.of main_v3 : StableHlo.TRef sig ⟨S49152x512, .f32⟩) main_call0.v0 main_call0.v1 maximumf,
    StableHlo.binary main_v4 main_arg6 main_v5 ((fun l r => Host.dotGeneral dot_S49152x512_S512x512_S49152x512_1_0_0_1_n_n none l r) : (⟨S49152x512, .f32⟩ : BufTy).Contents (Elt F) → (⟨S512x512, .f32⟩ : BufTy).Contents (Elt F) → (⟨S49152x512, .f32⟩ : BufTy).Contents (Elt F)),
    StableHlo.unary main_arg7 main_v6 (broadcastInDim S1x512 ![1] bcast_S512_S1x512_1 : (⟨S512, .f32⟩ : BufTy).Contents (Elt F) → (⟨S1x512, .f32⟩ : BufTy).Contents (Elt F)),
    StableHlo.unary main_v6 main_v7 (broadcastInDim S49152x512 ![0, 1] bcast_S1x512_S49152x512_0_1 : (⟨S1x512, .f32⟩ : BufTy).Contents (Elt F) → (⟨S49152x512, .f32⟩ : BufTy).Contents (Elt F)),
    StableHlo.binary main_v5 main_v7 main_v8 (addf : (⟨S49152x512, .f32⟩ : BufTy).Contents (Elt F) → (⟨S49152x512, .f32⟩ : BufTy).Contents (Elt F) → (⟨S49152x512, .f32⟩ : BufTy).Contents (Elt F)),
    StableHlo.nullary main_cst (constant S_ .f32 0x00000000#32),
    StableHlo.binary main_v8 main_cst main_v9 ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)),
    StableHlo.unary main_v9 main_v10 (broadcastInDim S49152x1 ![0] bcast_S49152_S49152x1_0 : (⟨S49152, .f32⟩ : BufTy).Contents (Elt F) → (⟨S49152x1, .f32⟩ : BufTy).Contents (Elt F)),
    StableHlo.nullary main_cst_0 (constant S_ .f32 0x44000000#32),
    StableHlo.unary main_cst_0 main_v11 (broadcastInDim S49152x1 ![] bcast_S_S49152x1 : (⟨S_, .f32⟩ : BufTy).Contents (Elt F) → (⟨S49152x1, .f32⟩ : BufTy).Contents (Elt F)),
    StableHlo.binary main_v10 main_v11 main_v12 (Host.divf : (⟨S49152x1, .f32⟩ : BufTy).Contents (Elt F) → (⟨S49152x1, .f32⟩ : BufTy).Contents (Elt F) → (⟨S49152x1, .f32⟩ : BufTy).Contents (Elt F)),
    StableHlo.nullary main_c (constantI S_ 32 0#32),
    StableHlo.TRef.nullary main_call1.cst (constant S_ .f32 0x00000000#32),
    StableHlo.TRef.binary (StableHlo.TRef.of main_v8 : StableHlo.TRef sig ⟨S49152x512, .f32⟩) main_call1.cst main_call1.v0 (fun x v => Host.reduceAdd x v reducesTo_S49152x512_S49152_d1 h_S_),
    StableHlo.TRef.unary main_call1.v0 main_call1.v1 (broadcastInDim S49152x1 ![0] bcast_S49152_S49152x1_0),
    StableHlo.TRef.nullary main_call1.cst_0 (constant S_ .f32 0x44000000#32),
    StableHlo.TRef.unary main_call1.cst_0 main_call1.v2 (broadcastInDim S49152x1 ![] bcast_S_S49152x1),
    StableHlo.TRef.binary main_call1.v1 main_call1.v2 main_call1.v3 Host.divf,
    StableHlo.TRef.unary main_call1.v3 main_call1.v4 (broadcastInDim S49152x512 ![0, 1] bcast_S49152x1_S49152x512_0_1),
    StableHlo.TRef.binary (StableHlo.TRef.of main_v8 : StableHlo.TRef sig ⟨S49152x512, .f32⟩) main_call1.v4 main_call1.v5 subf,
    StableHlo.TRef.binary main_call1.v5 main_call1.v5 main_call1.v6 mulf,
    StableHlo.TRef.unary (StableHlo.TRef.of main_c : StableHlo.TRef sig ⟨S_, .i32⟩) main_call1.v7 (sitofp .f32),
    StableHlo.TRef.nullary main_call1.cst_1 (constant S_ .f32 0x44000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S49152x512_S49152_d1 h_S_),
    StableHlo.TRef.unary main_call1.v9 main_call1.v10 (broadcastInDim S49152x1 ![0] bcast_S49152_S49152x1_0),
    StableHlo.TRef.unary main_call1.v8 main_call1.v11 (broadcastInDim S49152x1 ![] bcast_S_S49152x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S49152x1 ![] bcast_S_S49152x1),
    StableHlo.TRef.ternary main_call1.v13 main_call1.v12 main_call1.call0.v1 main_call1.call0.v2 (fun p a b => select (broadcastInDim S49152x1 ![] bcast_S_S49152x1 p) a b),
    StableHlo.unary main_v12 main_v14 (broadcastInDim S49152x512 ![0, 1] bcast_S49152x1_S49152x512_0_1 : (⟨S49152x1, .f32⟩ : BufTy).Contents (Elt F) → (⟨S49152x512, .f32⟩ : BufTy).Contents (Elt F)),
    StableHlo.binary main_v8 main_v14 main_v15 (subf : (⟨S49152x512, .f32⟩ : BufTy).Contents (Elt F) → (⟨S49152x512, .f32⟩ : BufTy).Contents (Elt F) → (⟨S49152x512, .f32⟩ : BufTy).Contents (Elt F)),
    StableHlo.nullary main_cst_1 (constant S_ .f32 0x3727C5AC#32),
    StableHlo.unary main_cst_1 main_v16 (broadcastInDim S49152x1 ![] bcast_S_S49152x1 : (⟨S_, .f32⟩ : BufTy).Contents (Elt F) → (⟨S49152x1, .f32⟩ : BufTy).Contents (Elt F)),
    StableHlo.binary main_v13 main_v16 main_v17 (addf : (⟨S49152x1, .f32⟩ : BufTy).Contents (Elt F) → (⟨S49152x1, .f32⟩ : BufTy).Contents (Elt F) → (⟨S49152x1, .f32⟩ : BufTy).Contents (Elt F)),
    StableHlo.unary main_v17 main_v18 (Host.rsqrt : (⟨S49152x1, .f32⟩ : BufTy).Contents (Elt F) → (⟨S49152x1, .f32⟩ : BufTy).Contents (Elt F)),
    StableHlo.unary main_v18 main_v19 (broadcastInDim S49152x512 ![0, 1] bcast_S49152x1_S49152x512_0_1 : (⟨S49152x1, .f32⟩ : BufTy).Contents (Elt F) → (⟨S49152x512, .f32⟩ : BufTy).Contents (Elt F)),
    StableHlo.binary main_v15 main_v19 main_v20 (mulf : (⟨S49152x512, .f32⟩ : BufTy).Contents (Elt F) → (⟨S49152x512, .f32⟩ : BufTy).Contents (Elt F) → (⟨S49152x512, .f32⟩ : BufTy).Contents (Elt F)),
    StableHlo.unary main_arg8 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S49152x512 ![0, 1] bcast_S1x512_S49152x512_0_1 : (⟨S1x512, .f32⟩ : BufTy).Contents (Elt F) → (⟨S49152x512, .f32⟩ : BufTy).Contents (Elt F)),
    StableHlo.binary main_v20 main_v22 main_v23 (mulf : (⟨S49152x512, .f32⟩ : BufTy).Contents (Elt F) → (⟨S49152x512, .f32⟩ : BufTy).Contents (Elt F) → (⟨S49152x512, .f32⟩ : BufTy).Contents (Elt F)),
    StableHlo.unary main_arg9 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S49152x512 ![0, 1] bcast_S1x512_S49152x512_0_1 : (⟨S1x512, .f32⟩ : BufTy).Contents (Elt F) → (⟨S49152x512, .f32⟩ : BufTy).Contents (Elt F)),
    StableHlo.binary main_v23 main_v25 main_v26 (addf : (⟨S49152x512, .f32⟩ : BufTy).Contents (Elt F) → (⟨S49152x512, .f32⟩ : BufTy).Contents (Elt F) → (⟨S49152x512, .f32⟩ : BufTy).Contents (Elt F)),
    StableHlo.unary main_arg3 main_v27 ((extractStridedSlice S1x49152 ![0, 0] · slices_S2x49152_S1x49152_0_0) : (⟨S2x49152, .i32⟩ : BufTy).Contents (Elt F) → (⟨S1x49152, .i32⟩ : BufTy).Contents (Elt F)),
    StableHlo.reshape main_v27 main_v28 rfl shapeCasts_S1x49152_S49152,
    StableHlo.unary main_arg3 main_v29 ((extractStridedSlice S1x49152 ![1, 0] · slices_S2x49152_S1x49152_1_0) : (⟨S2x49152, .i32⟩ : BufTy).Contents (Elt F) → (⟨S1x49152, .i32⟩ : BufTy).Contents (Elt F)),
    StableHlo.reshape main_v29 main_v30 rfl shapeCasts_S1x49152_S49152,
    StableHlo.nullary main_c_2 (constantI S_ 32 0#32),
    StableHlo.unary main_c_2 main_v31 (broadcastInDim S49152 ![] bcast_S_S49152 : (⟨S_, .i32⟩ : BufTy).Contents (Elt F) → (⟨S49152, .i32⟩ : BufTy).Contents (Elt F)),
    StableHlo.binary main_v30 main_v31 main_v32 (cmpi .slt : (⟨S49152, .i32⟩ : BufTy).Contents (Elt F) → (⟨S49152, .i32⟩ : BufTy).Contents (Elt F) → (⟨S49152, .i1⟩ : BufTy).Contents (Elt F)),
    StableHlo.nullary main_c_3 (constantI S_ 32 16384#32),
    StableHlo.unary main_c_3 main_v33 (broadcastInDim S49152 ![] bcast_S_S49152 : (⟨S_, .i32⟩ : BufTy).Contents (Elt F) → (⟨S49152, .i32⟩ : BufTy).Contents (Elt F)),
    StableHlo.binary main_v30 main_v33 main_v34 (addi : (⟨S49152, .i32⟩ : BufTy).Contents (Elt F) → (⟨S49152, .i32⟩ : BufTy).Contents (Elt F) → (⟨S49152, .i32⟩ : BufTy).Contents (Elt F)),
    StableHlo.ternary main_v32 main_v34 main_v30 main_v35 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v35 main_v36 (broadcastInDim S49152x1 ![0] bcast_S49152_S49152x1_0 : (⟨S49152, .i32⟩ : BufTy).Contents (Elt F) → (⟨S49152x1, .i32⟩ : BufTy).Contents (Elt F)),
    StableHlo.binary main_arg1 main_v36 main_v37 ((fun x i => Host.gather gather_S16384x512_S49152x1_S49152x512_1_0_n_n_0_1_1512 x i) : (⟨S16384x512, .f32⟩ : BufTy).Contents (Elt F) → (⟨S49152x1, .i32⟩ : BufTy).Contents (Elt F) → (⟨S49152x512, .f32⟩ : BufTy).Contents (Elt F)),
    StableHlo.nullary main_c_4 (constantI S_ 32 0#32),
    StableHlo.unary main_c_4 main_v38 (broadcastInDim S49152 ![] bcast_S_S49152 : (⟨S_, .i32⟩ : BufTy).Contents (Elt F) → (⟨S49152, .i32⟩ : BufTy).Contents (Elt F)),
    StableHlo.binary main_v28 main_v38 main_v39 (cmpi .slt : (⟨S49152, .i32⟩ : BufTy).Contents (Elt F) → (⟨S49152, .i32⟩ : BufTy).Contents (Elt F) → (⟨S49152, .i1⟩ : BufTy).Contents (Elt F)),
    StableHlo.nullary main_c_5 (constantI S_ 32 2562#32),
    StableHlo.unary main_c_5 main_v40 (broadcastInDim S49152 ![] bcast_S_S49152 : (⟨S_, .i32⟩ : BufTy).Contents (Elt F) → (⟨S49152, .i32⟩ : BufTy).Contents (Elt F)),
    StableHlo.binary main_v28 main_v40 main_v41 (addi : (⟨S49152, .i32⟩ : BufTy).Contents (Elt F) → (⟨S49152, .i32⟩ : BufTy).Contents (Elt F) → (⟨S49152, .i32⟩ : BufTy).Contents (Elt F)),
    StableHlo.ternary main_v39 main_v41 main_v28 main_v42 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v42 main_v43 (broadcastInDim S49152x1 ![0] bcast_S49152_S49152x1_0 : (⟨S49152, .i32⟩ : BufTy).Contents (Elt F) → (⟨S49152x1, .i32⟩ : BufTy).Contents (Elt F)),
    StableHlo.binary main_arg0 main_v43 main_v44 ((fun x i => Host.gather gather_S2562x512_S49152x1_S49152x512_1_0_n_n_0_1_1512 x i) : (⟨S2562x512, .f32⟩ : BufTy).Contents (Elt F) → (⟨S49152x1, .i32⟩ : BufTy).Contents (Elt F) → (⟨S49152x512, .f32⟩ : BufTy).Contents (Elt F)),
    StableHlo.nary ![main_v37, main_v44, main_v26] main_v45 (fun u => concatenate S49152x1536 1 [⟨S49152x512, u 0⟩, ⟨S49152x512, u 1⟩, ⟨S49152x512, u 2⟩] concatenates_S49152x512_S49152x512_S49152x512_S49152x1536_d1),
    StableHlo.binary main_v45 main_arg10 main_v46 ((fun l r => Host.dotGeneral dot_S49152x1536_S1536x512_S49152x512_1_0_0_1_n_n none l r) : (⟨S49152x1536, .f32⟩ : BufTy).Contents (Elt F) → (⟨S1536x512, .f32⟩ : BufTy).Contents (Elt F) → (⟨S49152x512, .f32⟩ : BufTy).Contents (Elt F)),
    StableHlo.unary main_arg11 main_v47 (broadcastInDim S1x512 ![1] bcast_S512_S1x512_1 : (⟨S512, .f32⟩ : BufTy).Contents (Elt F) → (⟨S1x512, .f32⟩ : BufTy).Contents (Elt F)),
    StableHlo.unary main_v47 main_v48 (broadcastInDim S49152x512 ![0, 1] bcast_S1x512_S49152x512_0_1 : (⟨S1x512, .f32⟩ : BufTy).Contents (Elt F) → (⟨S49152x512, .f32⟩ : BufTy).Contents (Elt F)),
    StableHlo.binary main_v46 main_v48 main_v49 (addf : (⟨S49152x512, .f32⟩ : BufTy).Contents (Elt F) → (⟨S49152x512, .f32⟩ : BufTy).Contents (Elt F) → (⟨S49152x512, .f32⟩ : BufTy).Contents (Elt F)),
    StableHlo.TRef.nullary main_call2.cst (constant S_ .f32 0x00000000#32),
    StableHlo.TRef.unary main_call2.cst main_call2.v0 (broadcastInDim S49152x512 ![] bcast_S_S49152x512),
    StableHlo.TRef.binary (StableHlo.TRef.of main_v49 : StableHlo.TRef sig ⟨S49152x512, .f32⟩) main_call2.v0 main_call2.v1 maximumf,
    StableHlo.binary main_v50 main_arg12 main_v51 ((fun l r => Host.dotGeneral dot_S49152x512_S512x512_S49152x512_1_0_0_1_n_n none l r) : (⟨S49152x512, .f32⟩ : BufTy).Contents (Elt F) → (⟨S512x512, .f32⟩ : BufTy).Contents (Elt F) → (⟨S49152x512, .f32⟩ : BufTy).Contents (Elt F)) ]

/-- The second stretch: the message block's bias and normalisation, the sum of the messages arriving at each grid node, the node block
    (linear layer of the node's row and that sum laid end to end, rectifier, linear layer, normalisation up to its scale and shift rows). -/
abbrev ops1 : List (HloOp τ sig (Elt F)) :=
  [ StableHlo.unary main_arg13 main_v52 (broadcastInDim S1x512 ![1] bcast_S512_S1x512_1 : (⟨S512, .f32⟩ : BufTy).Contents (Elt F) → (⟨S1x512, .f32⟩ : BufTy).Contents (Elt F)),
    StableHlo.unary main_v52 main_v53 (broadcastInDim S49152x512 ![0, 1] bcast_S1x512_S49152x512_0_1 : (⟨S1x512, .f32⟩ : BufTy).Contents (Elt F) → (⟨S49152x512, .f32⟩ : BufTy).Contents (Elt F)),
    StableHlo.binary main_v51 main_v53 main_v54 (addf : (⟨S49152x512, .f32⟩ : BufTy).Contents (Elt F) → (⟨S49152x512, .f32⟩ : BufTy).Contents (Elt F) → (⟨S49152x512, .f32⟩ : BufTy).Contents (Elt F)),
    StableHlo.nullary main_cst_6 (constant S_ .f32 0x00000000#32),
    StableHlo.binary main_v54 main_cst_6 main_v55 ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)),
    StableHlo.unary main_v55 main_v56 (broadcastInDim S49152x1 ![0] bcast_S49152_S49152x1_0 : (⟨S49152, .f32⟩ : BufTy).Contents (Elt F) → (⟨S49152x1, .f32⟩ : BufTy).Contents (Elt F)),
    StableHlo.nullary main_cst_7 (constant S_ .f32 0x44000000#32),
    StableHlo.unary main_cst_7 main_v57 (broadcastInDim S49152x1 ![] bcast_S_S49152x1 : (⟨S_, .f32⟩ : BufTy).Contents (Elt F) → (⟨S49152x1, .f32⟩ : BufTy).Contents (Elt F)),
    StableHlo.binary main_v56 main_v57 main_v58 (Host.divf : (⟨S49152x1, .f32⟩ : BufTy).Contents (Elt F) → (⟨S49152x1, .f32⟩ : BufTy).Contents (Elt F) → (⟨S49152x1, .f32⟩ : BufTy).Contents (Elt F)),
    StableHlo.nullary main_c_8 (constantI S_ 32 0#32),
    StableHlo.TRef.nullary main_call3.cst (constant S_ .f32 0x00000000#32),
    StableHlo.TRef.binary (StableHlo.TRef.of main_v54 : StableHlo.TRef sig ⟨S49152x512, .f32⟩) main_call3.cst main_call3.v0 (fun x v => Host.reduceAdd x v reducesTo_S49152x512_S49152_d1 h_S_),
    StableHlo.TRef.unary main_call3.v0 main_call3.v1 (broadcastInDim S49152x1 ![0] bcast_S49152_S49152x1_0),
    StableHlo.TRef.nullary main_call3.cst_0 (constant S_ .f32 0x44000000#32),
    StableHlo.TRef.unary main_call3.cst_0 main_call3.v2 (broadcastInDim S49152x1 ![] bcast_S_S49152x1),
    StableHlo.TRef.binary main_call3.v1 main_call3.v2 main_call3.v3 Host.divf,
    StableHlo.TRef.unary main_call3.v3 main_call3.v4 (broadcastInDim S49152x512 ![0, 1] bcast_S49152x1_S49152x512_0_1),
    StableHlo.TRef.binary (StableHlo.TRef.of main_v54 : StableHlo.TRef sig ⟨S49152x512, .f32⟩) main_call3.v4 main_call3.v5 subf,
    StableHlo.TRef.binary main_call3.v5 main_call3.v5 main_call3.v6 mulf,
    StableHlo.TRef.unary (StableHlo.TRef.of main_c_8 : StableHlo.TRef sig ⟨S_, .i32⟩) main_call3.v7 (sitofp .f32),
    StableHlo.TRef.nullary main_call3.cst_1 (constant S_ .f32 0x44000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S49152x512_S49152_d1 h_S_),
    StableHlo.TRef.unary main_call3.v9 main_call3.v10 (broadcastInDim S49152x1 ![0] bcast_S49152_S49152x1_0),
    StableHlo.TRef.unary main_call3.v8 main_call3.v11 (broadcastInDim S49152x1 ![] bcast_S_S49152x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S49152x1 ![] bcast_S_S49152x1),
    StableHlo.TRef.ternary main_call3.v13 main_call3.v12 main_call3.call0.v1 main_call3.call0.v2 (fun p a b => select (broadcastInDim S49152x1 ![] bcast_S_S49152x1 p) a b),
    StableHlo.unary main_v58 main_v60 (broadcastInDim S49152x512 ![0, 1] bcast_S49152x1_S49152x512_0_1 : (⟨S49152x1, .f32⟩ : BufTy).Contents (Elt F) → (⟨S49152x512, .f32⟩ : BufTy).Contents (Elt F)),
    StableHlo.binary main_v54 main_v60 main_v61 (subf : (⟨S49152x512, .f32⟩ : BufTy).Contents (Elt F) → (⟨S49152x512, .f32⟩ : BufTy).Contents (Elt F) → (⟨S49152x512, .f32⟩ : BufTy).Contents (Elt F)),
    StableHlo.nullary main_cst_9 (constant S_ .f32 0x3727C5AC#32),
    StableHlo.unary main_cst_9 main_v62 (broadcastInDim S49152x1 ![] bcast_S_S49152x1 : (⟨S_, .f32⟩ : BufTy).Contents (Elt F) → (⟨S49152x1, .f32⟩ : BufTy).Contents (Elt F)),
    StableHlo.binary main_v59 main_v62 main_v63 (addf : (⟨S49152x1, .f32⟩ : BufTy).Contents (Elt F) → (⟨S49152x1, .f32⟩ : BufTy).Contents (Elt F) → (⟨S49152x1, .f32⟩ : BufTy).Contents (Elt F)),
    StableHlo.unary main_v63 main_v64 (Host.rsqrt : (⟨S49152x1, .f32⟩ : BufTy).Contents (Elt F) → (⟨S49152x1, .f32⟩ : BufTy).Contents (Elt F)),
    StableHlo.unary main_v64 main_v65 (broadcastInDim S49152x512 ![0, 1] bcast_S49152x1_S49152x512_0_1 : (⟨S49152x1, .f32⟩ : BufTy).Contents (Elt F) → (⟨S49152x512, .f32⟩ : BufTy).Contents (Elt F)),
    StableHlo.binary main_v61 main_v65 main_v66 (mulf : (⟨S49152x512, .f32⟩ : BufTy).Contents (Elt F) → (⟨S49152x512, .f32⟩ : BufTy).Contents (Elt F) → (⟨S49152x512, .f32⟩ : BufTy).Contents (Elt F)),
    StableHlo.unary main_arg14 main_v67 (broadcastInDim S1x512 ![1] bcast_S512_S1x512_1 : (⟨S512, .f32⟩ : BufTy).Contents (Elt F) → (⟨S1x512, .f32⟩ : BufTy).Contents (Elt F)),
    StableHlo.unary main_v67 main_v68 (broadcastInDim S49152x512 ![0, 1] bcast_S1x512_S49152x512_0_1 : (⟨S1x512, .f32⟩ : BufTy).Contents (Elt F) → (⟨S49152x512, .f32⟩ : BufTy).Contents (Elt F)),
    StableHlo.binary main_v66 main_v68 main_v69 (mulf : (⟨S49152x512, .f32⟩ : BufTy).Contents (Elt F) → (⟨S49152x512, .f32⟩ : BufTy).Contents (Elt F) → (⟨S49152x512, .f32⟩ : BufTy).Contents (Elt F)),
    StableHlo.unary main_arg15 main_v70 (broadcastInDim S1x512 ![1] bcast_S512_S1x512_1 : (⟨S512, .f32⟩ : BufTy).Contents (Elt F) → (⟨S1x512, .f32⟩ : BufTy).Contents (Elt F)),
    StableHlo.unary main_v70 main_v71 (broadcastInDim S49152x512 ![0, 1] bcast_S1x512_S49152x512_0_1 : (⟨S1x512, .f32⟩ : BufTy).Contents (Elt F) → (⟨S49152x512, .f32⟩ : BufTy).Contents (Elt F)),
    StableHlo.binary main_v69 main_v71 main_v72 (addf : (⟨S49152x512, .f32⟩ : BufTy).Contents (Elt F) → (⟨S49152x512, .f32⟩ : BufTy).Contents (Elt F) → (⟨S49152x512, .f32⟩ : BufTy).Contents (Elt F)),
    StableHlo.nullary main_cst_10 (constant S_ .f32 0x00000000#32),
    StableHlo.unary main_cst_10 main_v73 (broadcastInDim S16384x512 ![] bcast_S_S16384x512 : (⟨S_, .f32⟩ : BufTy).Contents (Elt F) → (⟨S16384x512, .f32⟩ : BufTy).Contents (Elt F)),
    StableHlo.unary main_v30 main_v74 (broadcastInDim S49152x1 ![0] bcast_S49152_S49152x1_0 : (⟨S49152, .i32⟩ : BufTy).Contents (Elt F) → (⟨S49152x1, .i32⟩ : BufTy).Contents (Elt F)),
    StableHlo.ternary main_v73 main_v74 main_v72 main_v75 ((fun x i u => Host.scatterAdd scatter_S16384x512_S49152x1_S49152x512_1_0_0_1 x i u) : (⟨S16384x512, .f32⟩ : BufTy).Contents (Elt F) → (⟨S49152x1, .i32⟩ : BufTy).Contents (Elt F) → (⟨S49152x512, .f32⟩ : BufTy).Contents (Elt F) → (⟨S16384x512, .f32⟩ : BufTy).Contents (Elt F)),
    StableHlo.binary main_arg1 main_v75 main_v76 ((fun a b => concatenate S16384x1024 1 [⟨S16384x512, a⟩, ⟨S16384x512, b⟩] concatenates_S16384x512_S16384x512_S16384x1024_d1) : (⟨S16384x512, .f32⟩ : BufTy).Contents (Elt F) → (⟨S16384x512, .f32⟩ : BufTy).Contents (Elt F) → (⟨S16384x1024, .f32⟩ : BufTy).Contents (Elt F)),
    StableHlo.binary main_v76 main_arg16 main_v77 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg17 main_v78 (broadcastInDim S1x512 ![1] bcast_S512_S1x512_1 : (⟨S512, .f32⟩ : BufTy).Contents (Elt F) → (⟨S1x512, .f32⟩ : BufTy).Contents (Elt F)),
    StableHlo.unary main_v78 main_v79 (broadcastInDim S16384x512 ![0, 1] bcast_S1x512_S16384x512_0_1 : (⟨S1x512, .f32⟩ : BufTy).Contents (Elt F) → (⟨S16384x512, .f32⟩ : BufTy).Contents (Elt F)),
    StableHlo.binary main_v77 main_v79 main_v80 (addf : (⟨S16384x512, .f32⟩ : BufTy).Contents (Elt F) → (⟨S16384x512, .f32⟩ : BufTy).Contents (Elt F) → (⟨S16384x512, .f32⟩ : BufTy).Contents (Elt F)),
    StableHlo.TRef.nullary main_call4.cst (constant S_ .f32 0x00000000#32),
    StableHlo.TRef.unary main_call4.cst main_call4.v0 (broadcastInDim S16384x512 ![] bcast_S_S16384x512),
    StableHlo.TRef.binary (StableHlo.TRef.of main_v80 : StableHlo.TRef sig ⟨S16384x512, .f32⟩) main_call4.v0 main_call4.v1 maximumf,
    StableHlo.binary main_v81 main_arg18 main_v82 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg19 main_v83 (broadcastInDim S1x512 ![1] bcast_S512_S1x512_1 : (⟨S512, .f32⟩ : BufTy).Contents (Elt F) → (⟨S1x512, .f32⟩ : BufTy).Contents (Elt F)),
    StableHlo.unary main_v83 main_v84 (broadcastInDim S16384x512 ![0, 1] bcast_S1x512_S16384x512_0_1 : (⟨S1x512, .f32⟩ : BufTy).Contents (Elt F) → (⟨S16384x512, .f32⟩ : BufTy).Contents (Elt F)),
    StableHlo.binary main_v82 main_v84 main_v85 (addf : (⟨S16384x512, .f32⟩ : BufTy).Contents (Elt F) → (⟨S16384x512, .f32⟩ : BufTy).Contents (Elt F) → (⟨S16384x512, .f32⟩ : BufTy).Contents (Elt F)),
    StableHlo.nullary main_cst_11 (constant S_ .f32 0x00000000#32),
    StableHlo.binary main_v85 main_cst_11 main_v86 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.unary main_v86 main_v87 (broadcastInDim S16384x1 ![0] bcast_S16384_S16384x1_0 : (⟨S16384, .f32⟩ : BufTy).Contents (Elt F) → (⟨S16384x1, .f32⟩ : BufTy).Contents (Elt F)),
    StableHlo.nullary main_cst_12 (constant S_ .f32 0x44000000#32),
    StableHlo.unary main_cst_12 main_v88 (broadcastInDim S16384x1 ![] bcast_S_S16384x1 : (⟨S_, .f32⟩ : BufTy).Contents (Elt F) → (⟨S16384x1, .f32⟩ : BufTy).Contents (Elt F)),
    StableHlo.binary main_v87 main_v88 main_v89 (Host.divf : (⟨S16384x1, .f32⟩ : BufTy).Contents (Elt F) → (⟨S16384x1, .f32⟩ : BufTy).Contents (Elt F) → (⟨S16384x1, .f32⟩ : BufTy).Contents (Elt F)),
    StableHlo.nullary main_c_13 (constantI S_ 32 0#32),
    StableHlo.TRef.nullary main_call5.cst (constant S_ .f32 0x00000000#32),
    StableHlo.TRef.binary (StableHlo.TRef.of main_v85 : StableHlo.TRef sig ⟨S16384x512, .f32⟩) main_call5.cst main_call5.v0 (fun x v => Host.reduceAdd x v reducesTo_S16384x512_S16384_d1 h_S_),
    StableHlo.TRef.unary main_call5.v0 main_call5.v1 (broadcastInDim S16384x1 ![0] bcast_S16384_S16384x1_0),
    StableHlo.TRef.nullary main_call5.cst_0 (constant S_ .f32 0x44000000#32),
    StableHlo.TRef.unary main_call5.cst_0 main_call5.v2 (broadcastInDim S16384x1 ![] bcast_S_S16384x1),
    StableHlo.TRef.binary main_call5.v1 main_call5.v2 main_call5.v3 Host.divf,
    StableHlo.TRef.unary main_call5.v3 main_call5.v4 (broadcastInDim S16384x512 ![0, 1] bcast_S16384x1_S16384x512_0_1),
    StableHlo.TRef.binary (StableHlo.TRef.of main_v85 : StableHlo.TRef sig ⟨S16384x512, .f32⟩) main_call5.v4 main_call5.v5 subf,
    StableHlo.TRef.binary main_call5.v5 main_call5.v5 main_call5.v6 mulf,
    StableHlo.TRef.unary (StableHlo.TRef.of main_c_13 : StableHlo.TRef sig ⟨S_, .i32⟩) main_call5.v7 (sitofp .f32),
    StableHlo.TRef.nullary main_call5.cst_1 (constant S_ .f32 0x44000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S16384x512_S16384_d1 h_S_),
    StableHlo.TRef.unary main_call5.v9 main_call5.v10 (broadcastInDim S16384x1 ![0] bcast_S16384_S16384x1_0),
    StableHlo.TRef.unary main_call5.v8 main_call5.v11 (broadcastInDim S16384x1 ![] bcast_S_S16384x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S16384x1 ![] bcast_S_S16384x1),
    StableHlo.TRef.ternary main_call5.v13 main_call5.v12 main_call5.call0.v1 main_call5.call0.v2 (fun p a b => select (broadcastInDim S16384x1 ![] bcast_S_S16384x1 p) a b),
    StableHlo.unary main_v89 main_v91 (broadcastInDim S16384x512 ![0, 1] bcast_S16384x1_S16384x512_0_1 : (⟨S16384x1, .f32⟩ : BufTy).Contents (Elt F) → (⟨S16384x512, .f32⟩ : BufTy).Contents (Elt F)),
    StableHlo.binary main_v85 main_v91 main_v92 (subf : (⟨S16384x512, .f32⟩ : BufTy).Contents (Elt F) → (⟨S16384x512, .f32⟩ : BufTy).Contents (Elt F) → (⟨S16384x512, .f32⟩ : BufTy).Contents (Elt F)),
    StableHlo.nullary main_cst_14 (constant S_ .f32 0x3727C5AC#32),
    StableHlo.unary main_cst_14 main_v93 (broadcastInDim S16384x1 ![] bcast_S_S16384x1 : (⟨S_, .f32⟩ : BufTy).Contents (Elt F) → (⟨S16384x1, .f32⟩ : BufTy).Contents (Elt F)),
    StableHlo.binary main_v90 main_v93 main_v94 (addf : (⟨S16384x1, .f32⟩ : BufTy).Contents (Elt F) → (⟨S16384x1, .f32⟩ : BufTy).Contents (Elt F) → (⟨S16384x1, .f32⟩ : BufTy).Contents (Elt F)),
    StableHlo.unary main_v94 main_v95 (Host.rsqrt : (⟨S16384x1, .f32⟩ : BufTy).Contents (Elt F) → (⟨S16384x1, .f32⟩ : BufTy).Contents (Elt F)),
    StableHlo.unary main_v95 main_v96 (broadcastInDim S16384x512 ![0, 1] bcast_S16384x1_S16384x512_0_1 : (⟨S16384x1, .f32⟩ : BufTy).Contents (Elt F) → (⟨S16384x512, .f32⟩ : BufTy).Contents (Elt F)),
    StableHlo.binary main_v92 main_v96 main_v97 (mulf : (⟨S16384x512, .f32⟩ : BufTy).Contents (Elt F) → (⟨S16384x512, .f32⟩ : BufTy).Contents (Elt F) → (⟨S16384x512, .f32⟩ : BufTy).Contents (Elt F)),
    StableHlo.unary main_arg20 main_v98 (broadcastInDim S1x512 ![1] bcast_S512_S1x512_1 : (⟨S512, .f32⟩ : BufTy).Contents (Elt F) → (⟨S1x512, .f32⟩ : BufTy).Contents (Elt F)),
    StableHlo.unary main_v98 main_v99 (broadcastInDim S16384x512 ![0, 1] bcast_S1x512_S16384x512_0_1 : (⟨S1x512, .f32⟩ : BufTy).Contents (Elt F) → (⟨S16384x512, .f32⟩ : BufTy).Contents (Elt F)),
    StableHlo.binary main_v97 main_v99 main_v100 (mulf : (⟨S16384x512, .f32⟩ : BufTy).Contents (Elt F) → (⟨S16384x512, .f32⟩ : BufTy).Contents (Elt F) → (⟨S16384x512, .f32⟩ : BufTy).Contents (Elt F)),
    StableHlo.unary main_arg21 main_v101 (broadcastInDim S1x512 ![1] bcast_S512_S1x512_1 : (⟨S512, .f32⟩ : BufTy).Contents (Elt F) → (⟨S1x512, .f32⟩ : BufTy).Contents (Elt F)),
    StableHlo.unary main_v101 main_v102 (broadcastInDim S16384x512 ![0, 1] bcast_S1x512_S16384x512_0_1 : (⟨S1x512, .f32⟩ : BufTy).Contents (Elt F) → (⟨S16384x512, .f32⟩ : BufTy).Contents (Elt F)) ]

/-- The third stretch: the end of the node block's normalisation, the node's row added, and the last block (linear layer, rectifier, linear
    layer to 128 features, normalisation over 128 features). -/
abbrev ops2 : List (HloOp τ sig (Elt F)) :=
  [ StableHlo.binary main_v100 main_v102 main_v103 (addf : (⟨S16384x512, .f32⟩ : BufTy).Contents (Elt F) → (⟨S16384x512, .f32⟩ : BufTy).Contents (Elt F) → (⟨S16384x512, .f32⟩ : BufTy).Contents (Elt F)),
    StableHlo.binary main_arg1 main_v103 main_v104 (addf : (⟨S16384x512, .f32⟩ : BufTy).Contents (Elt F) → (⟨S16384x512, .f32⟩ : BufTy).Contents (Elt F) → (⟨S16384x512, .f32⟩ : BufTy).Contents (Elt F)),
    StableHlo.binary main_v104 main_arg22 main_v105 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg23 main_v106 (broadcastInDim S1x512 ![1] bcast_S512_S1x512_1 : (⟨S512, .f32⟩ : BufTy).Contents (Elt F) → (⟨S1x512, .f32⟩ : BufTy).Contents (Elt F)),
    StableHlo.unary main_v106 main_v107 (broadcastInDim S16384x512 ![0, 1] bcast_S1x512_S16384x512_0_1 : (⟨S1x512, .f32⟩ : BufTy).Contents (Elt F) → (⟨S16384x512, .f32⟩ : BufTy).Contents (Elt F)),
    StableHlo.binary main_v105 main_v107 main_v108 (addf : (⟨S16384x512, .f32⟩ : BufTy).Contents (Elt F) → (⟨S16384x512, .f32⟩ : BufTy).Contents (Elt F) → (⟨S16384x512, .f32⟩ : BufTy).Contents (Elt F)),
    StableHlo.TRef.nullary main_call6.cst (constant S_ .f32 0x00000000#32),
    StableHlo.TRef.unary main_call6.cst main_call6.v0 (broadcastInDim S16384x512 ![] bcast_S_S16384x512),
    StableHlo.TRef.binary (StableHlo.TRef.of main_v108 : StableHlo.TRef sig ⟨S16384x512, .f32⟩) main_call6.v0 main_call6.v1 maximumf,
    StableHlo.binary main_v109 main_arg24 main_v110 ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)),
    StableHlo.unary main_arg25 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S16384x128 ![0, 1] bcast_S1x128_S16384x128_0_1 : (⟨S1x128, .f32⟩ : BufTy).Contents (Elt F) → (⟨S16384x128, .f32⟩ : BufTy).Contents (Elt F)),
    StableHlo.binary main_v110 main_v112 main_v113 (addf : (⟨S16384x128, .f32⟩ : BufTy).Contents (Elt F) → (⟨S16384x128, .f32⟩ : BufTy).Contents (Elt F) → (⟨S16384x128, .f32⟩ : BufTy).Contents (Elt F)),
    StableHlo.nullary main_cst_15 (constant S_ .f32 0x00000000#32),
    StableHlo.binary main_v113 main_cst_15 main_v114 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v114 main_v115 (broadcastInDim S16384x1 ![0] bcast_S16384_S16384x1_0 : (⟨S16384, .f32⟩ : BufTy).Contents (Elt F) → (⟨S16384x1, .f32⟩ : BufTy).Contents (Elt F)),
    StableHlo.nullary main_cst_16 (constant S_ .f32 0x43000000#32),
    StableHlo.unary main_cst_16 main_v116 (broadcastInDim S16384x1 ![] bcast_S_S16384x1 : (⟨S_, .f32⟩ : BufTy).Contents (Elt F) → (⟨S16384x1, .f32⟩ : BufTy).Contents (Elt F)),
    StableHlo.binary main_v115 main_v116 main_v117 (Host.divf : (⟨S16384x1, .f32⟩ : BufTy).Contents (Elt F) → (⟨S16384x1, .f32⟩ : BufTy).Contents (Elt F) → (⟨S16384x1, .f32⟩ : BufTy).Contents (Elt F)),
    StableHlo.nullary main_c_17 (constantI S_ 32 0#32),
    StableHlo.TRef.nullary main_call7.cst (constant S_ .f32 0x00000000#32),
    StableHlo.TRef.binary (StableHlo.TRef.of main_v113 : StableHlo.TRef sig ⟨S16384x128, .f32⟩) main_call7.cst main_call7.v0 (fun x v => Host.reduceAdd x v reducesTo_S16384x128_S16384_d1 h_S_),
    StableHlo.TRef.unary main_call7.v0 main_call7.v1 (broadcastInDim S16384x1 ![0] bcast_S16384_S16384x1_0),
    StableHlo.TRef.nullary main_call7.cst_0 (constant S_ .f32 0x43000000#32),
    StableHlo.TRef.unary main_call7.cst_0 main_call7.v2 (broadcastInDim S16384x1 ![] bcast_S_S16384x1),
    StableHlo.TRef.binary main_call7.v1 main_call7.v2 main_call7.v3 Host.divf,
    StableHlo.TRef.unary main_call7.v3 main_call7.v4 (broadcastInDim S16384x128 ![0, 1] bcast_S16384x1_S16384x128_0_1),
    StableHlo.TRef.binary (StableHlo.TRef.of main_v113 : StableHlo.TRef sig ⟨S16384x128, .f32⟩) main_call7.v4 main_call7.v5 subf,
    StableHlo.TRef.binary main_call7.v5 main_call7.v5 main_call7.v6 mulf,
    StableHlo.TRef.unary (StableHlo.TRef.of main_c_17 : StableHlo.TRef sig ⟨S_, .i32⟩) main_call7.v7 (sitofp .f32),
    StableHlo.TRef.nullary main_call7.cst_1 (constant S_ .f32 0x43000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S16384x128_S16384_d1 h_S_),
    StableHlo.TRef.unary main_call7.v9 main_call7.v10 (broadcastInDim S16384x1 ![0] bcast_S16384_S16384x1_0),
    StableHlo.TRef.unary main_call7.v8 main_call7.v11 (broadcastInDim S16384x1 ![] bcast_S_S16384x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S16384x1 ![] bcast_S_S16384x1),
    StableHlo.TRef.ternary main_call7.v13 main_call7.v12 main_call7.call0.v1 main_call7.call0.v2 (fun p a b => select (broadcastInDim S16384x1 ![] bcast_S_S16384x1 p) a b),
    StableHlo.unary main_v117 main_v119 (broadcastInDim S16384x128 ![0, 1] bcast_S16384x1_S16384x128_0_1 : (⟨S16384x1, .f32⟩ : BufTy).Contents (Elt F) → (⟨S16384x128, .f32⟩ : BufTy).Contents (Elt F)),
    StableHlo.binary main_v113 main_v119 main_v120 (subf : (⟨S16384x128, .f32⟩ : BufTy).Contents (Elt F) → (⟨S16384x128, .f32⟩ : BufTy).Contents (Elt F) → (⟨S16384x128, .f32⟩ : BufTy).Contents (Elt F)),
    StableHlo.nullary main_cst_18 (constant S_ .f32 0x3727C5AC#32),
    StableHlo.unary main_cst_18 main_v121 (broadcastInDim S16384x1 ![] bcast_S_S16384x1 : (⟨S_, .f32⟩ : BufTy).Contents (Elt F) → (⟨S16384x1, .f32⟩ : BufTy).Contents (Elt F)),
    StableHlo.binary main_v118 main_v121 main_v122 (addf : (⟨S16384x1, .f32⟩ : BufTy).Contents (Elt F) → (⟨S16384x1, .f32⟩ : BufTy).Contents (Elt F) → (⟨S16384x1, .f32⟩ : BufTy).Contents (Elt F)),
    StableHlo.unary main_v122 main_v123 (Host.rsqrt : (⟨S16384x1, .f32⟩ : BufTy).Contents (Elt F) → (⟨S16384x1, .f32⟩ : BufTy).Contents (Elt F)),
    StableHlo.unary main_v123 main_v124 (broadcastInDim S16384x128 ![0, 1] bcast_S16384x1_S16384x128_0_1 : (⟨S16384x1, .f32⟩ : BufTy).Contents (Elt F) → (⟨S16384x128, .f32⟩ : BufTy).Contents (Elt F)),
    StableHlo.binary main_v120 main_v124 main_v125 (mulf : (⟨S16384x128, .f32⟩ : BufTy).Contents (Elt F) → (⟨S16384x128, .f32⟩ : BufTy).Contents (Elt F) → (⟨S16384x128, .f32⟩ : BufTy).Contents (Elt F)),
    StableHlo.unary main_arg26 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S16384x128 ![0, 1] bcast_S1x128_S16384x128_0_1 : (⟨S1x128, .f32⟩ : BufTy).Contents (Elt F) → (⟨S16384x128, .f32⟩ : BufTy).Contents (Elt F)),
    StableHlo.binary main_v125 main_v127 main_v128 (mulf : (⟨S16384x128, .f32⟩ : BufTy).Contents (Elt F) → (⟨S16384x128, .f32⟩ : BufTy).Contents (Elt F) → (⟨S16384x128, .f32⟩ : BufTy).Contents (Elt F)),
    StableHlo.unary main_arg27 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S16384x128 ![0, 1] bcast_S1x128_S16384x128_0_1 : (⟨S1x128, .f32⟩ : BufTy).Contents (Elt F) → (⟨S16384x128, .f32⟩ : BufTy).Contents (Elt F)),
    StableHlo.binary main_v128 main_v130 main_v131 (addf : (⟨S16384x128, .f32⟩ : BufTy).Contents (Elt F) → (⟨S16384x128, .f32⟩ : BufTy).Contents (Elt F) → (⟨S16384x128, .f32⟩ : BufTy).Contents (Elt F)) ]

/-- The whole function: the three stretches one after the other. -/
abbrev ops : List (HloOp τ sig (Elt F)) := ops0 ++ ops1 ++ ops2

end Cert.ReferenceIdeal.RefRun

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.RefRun.lean ====
/-
  The reference function's run.

  The program's text is the straight line `ops` (the called functions unfolded at their calls, sequencing reassociated);
  a straight line of array operations over buffers none of which is scoped terminates from any memory with zero
  counters, and ends with every buffer at the fold of the operations' results over the launch contents.  Each operation
  writes one buffer of its own and none writes an argument, so the twenty-eight arguments end as they began.
-/
import proofs.«111695_j88261577933428_1_alg».proof.Proof.RefOps
import proofs.«111695_j88261577933428_1_alg».proof.Proof.LibLineOfOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the line -/

-- a stretch is a chain of about a hundred binds: comparing the two chains recurses once per statement
set_option maxRecDepth 8192 in
/-- Each stretch of the program is its stretch of the line: the called functions' definitions unfold at their calls, the
    records at their fields, and both sides are one chain of steps once sequencing is reassociated — by computation. -/
theorem part0_eq (c : Dev nD) : main_part0 (F := F) c = seq ops0 := rfl
set_option maxRecDepth 8192 in
theorem part1_eq (c : Dev nD) : main_part1 (F := F) c = seq ops1 := rfl
set_option maxRecDepth 8192 in
theorem part2_eq (c : Dev nD) : main_part2 (F := F) c = seq ops2 := rfl

/-- The program runs its three stretches in order; a line run after a line is their concatenation run as one. -/
theorem main_eq (c : Dev nD) : main (F := F) c = seq ops := by
  have e : main (F := F) c = (seq ops0 >>= fun _ => seq ops1 >>= fun _ => seq ops2) := by
    rw [← part0_eq c, ← part1_eq c, ← part2_eq c]; rfl
  rw [e, seq_append, seq_append, bind_assoc]

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of stretch 0 touches buffers of the TensorCore only. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., binary_bufs_sub .., unary_bufs_sub .., unary_bufs_sub .., binary_bufs_sub .., nullary_bufs_sub ..,
    unary_bufs_sub .., binary_bufs_sub .., binary_bufs_sub ..⟩

set_option maxRecDepth 8192 in
/-- Every operation of stretch 1 touches buffers of the TensorCore only. -/
theorem ops1_sub : (ops1 : List (HloOp τ sig (Elt F))).Forall fun op => op.bufs ⊆ tcRefs τ sig :=
  ⟨unary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..⟩

set_option maxRecDepth 8192 in
/-- Every operation of stretch 2 touches buffers of the TensorCore only. -/
theorem ops2_sub : (ops2 : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

theorem ops_sub : (ops : List (HloOp τ sig (Elt F))).Forall fun op => op.bufs ⊆ tcRefs τ sig :=
  List.forall_append.2 ⟨List.forall_append.2 ⟨ops0_sub, ops1_sub⟩, ops2_sub⟩

set_option maxRecDepth 8192 in
/-- Every operation of stretch 0 determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

set_option maxRecDepth 8192 in
/-- Every operation of stretch 1 determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- Every operation of stretch 2 determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

theorem ops_fresh : ∀ op ∈ (ops : List (HloOp τ sig (Elt F))), op.fresh = ∅ :=
  List.forall_iff_forall_mem.1 (List.forall_append.2 ⟨List.forall_append.2 ⟨ops0_fresh, ops1_fresh⟩, ops2_fresh⟩)

/-! ## The run -/

/-- On every device, for any float values, from any memory with zero counters: every weakly fair execution of the
    program terminates, and every final state has each buffer at the fold of the line over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each operation writes; the arguments are written by none -/

/-- The buffers stretch 0 writes, in order. -/
abbrev wr0 : List (Ref sig .tc) :=
  [main_v0, main_v1, main_v2, main_v3, main_call0_cst, main_call0_v0, main_v4, main_v5, main_v6, main_v7, main_v8,
   main_cst, main_v9, main_v10, main_cst_0, main_v11, main_v12, main_c, main_call1_cst, main_call1_v0, main_call1_v1,
   main_call1_cst_0, main_call1_v2, main_call1_v3, main_call1_v4, main_call1_v5, main_call1_v6, main_call1_v7,
   main_call1_cst_1, main_call1_v8, main_call1_cst_2, main_call1_v9, main_call1_v10, main_call1_v11, main_call1_v12,
   main_call1_cst_3, main_call1_v13, main_call1_cst_4, main_call1_call0_v0, main_call1_call0_v1, main_v13, main_v14,
   main_v15, main_cst_1, main_v16, main_v17, main_v18, main_v19, main_v20, main_v21, main_v22, main_v23, main_v24,
   main_v25, main_v26, main_v27, main_v28, main_v29, main_v30, main_c_2, main_v31, main_v32, main_c_3, main_v33, main_v34,
   main_v35, main_v36, main_v37, main_c_4, main_v38, main_v39, main_c_5, main_v40, main_v41, main_v42, main_v43, main_v44,
   main_v45, main_v46, main_v47, main_v48, main_v49, main_call2_cst, main_call2_v0, main_v50, main_v51]

/-- The buffers stretch 1 writes, in order. -/
abbrev wr1 : List (Ref sig .tc) :=
  [main_v52, main_v53, main_v54, main_cst_6, main_v55, main_v56, main_cst_7, main_v57, main_v58, main_c_8, main_call3_cst,
   main_call3_v0, main_call3_v1, main_call3_cst_0, main_call3_v2, main_call3_v3, main_call3_v4, main_call3_v5,
   main_call3_v6, main_call3_v7, main_call3_cst_1, main_call3_v8, main_call3_cst_2, main_call3_v9, main_call3_v10,
   main_call3_v11, main_call3_v12, main_call3_cst_3, main_call3_v13, main_call3_cst_4, main_call3_call0_v0,
   main_call3_call0_v1, main_v59, main_v60, main_v61, main_cst_9, main_v62, main_v63, main_v64, main_v65, main_v66,
   main_v67, main_v68, main_v69, main_v70, main_v71, main_v72, main_cst_10, main_v73, main_v74, main_v75, main_v76,
   main_v77, main_v78, main_v79, main_v80, main_call4_cst, main_call4_v0, main_v81, main_v82, main_v83, main_v84,
   main_v85, main_cst_11, main_v86, main_v87, main_cst_12, main_v88, main_v89, main_c_13, main_call5_cst, main_call5_v0,
   main_call5_v1, main_call5_cst_0, main_call5_v2, main_call5_v3, main_call5_v4, main_call5_v5, main_call5_v6,
   main_call5_v7, main_call5_cst_1, main_call5_v8, main_call5_cst_2, main_call5_v9, main_call5_v10, main_call5_v11,
   main_call5_v12, main_call5_cst_3, main_call5_v13, main_call5_cst_4, main_call5_call0_v0, main_call5_call0_v1, main_v90,
   main_v91, main_v92, main_cst_14, main_v93, main_v94, main_v95, main_v96, main_v97, main_v98, main_v99, main_v100,
   main_v101, main_v102]

/-- The buffers stretch 2 writes, in order. -/
abbrev wr2 : List (Ref sig .tc) :=
  [main_v103, main_v104, main_v105, main_v106, main_v107, main_v108, main_call6_cst, main_call6_v0, main_v109, main_v110,
   main_v111, main_v112, main_v113, main_cst_15, main_v114, main_v115, main_cst_16, main_v116, main_v117, main_c_17,
   main_call7_cst, main_call7_v0, main_call7_v1, main_call7_cst_0, main_call7_v2, main_call7_v3, main_call7_v4,
   main_call7_v5, main_call7_v6, main_call7_v7, main_call7_cst_1, main_call7_v8, main_call7_cst_2, main_call7_v9,
   main_call7_v10, main_call7_v11, main_call7_v12, main_call7_cst_3, main_call7_v13, main_call7_cst_4,
   main_call7_call0_v0, main_call7_call0_v1, main_v118, main_v119, main_v120, main_cst_18, main_v121, main_v122,
   main_v123, main_v124, main_v125, main_v126, main_v127, main_v128, main_v129, main_v130, main_v131]

/-- The buffers the line writes, in order. -/
abbrev wr : List (Ref sig .tc) := wr0 ++ wr1 ++ wr2

theorem writes0 : WritesEach (ops0 : List (HloOp τ sig (Elt F))) wr0 := by
  repeat (first | exact List.Forall₂.nil | refine List.Forall₂.cons rfl ?_)

theorem writes1 : WritesEach (ops1 : List (HloOp τ sig (Elt F))) wr1 := by
  repeat (first | exact List.Forall₂.nil | refine List.Forall₂.cons rfl ?_)

theorem writes2 : WritesEach (ops2 : List (HloOp τ sig (Elt F))) wr2 := by
  repeat (first | exact List.Forall₂.nil | refine List.Forall₂.cons rfl ?_)

/-- The k-th operation of the line writes exactly the k-th buffer of `wr`. -/
theorem writesEach : WritesEach (ops : List (HloOp τ sig (Elt F))) wr :=
  List.rel_append (List.rel_append writes0 writes1) writes2

/-- A buffer not among the written ones ends as it began. -/
theorem after_of_not_wr (V : Valuation τ sig (Elt F)) (r : Ref sig .tc) (hr : r ∉ wr) :
    after ops V (r : DevRef τ sig) = V (r : DevRef τ sig) :=
  after_of_not_written writesEach V r hr

theorem after_arg0 (V : Valuation τ sig (Elt F)) : after ops V (main_arg0 : DevRef τ sig) = V (main_arg0 : DevRef τ sig) :=
  after_of_not_wr V main_arg0 (by decide)
theorem after_arg1 (V : Valuation τ sig (Elt F)) : after ops V (main_arg1 : DevRef τ sig) = V (main_arg1 : DevRef τ sig) :=
  after_of_not_wr V main_arg1 (by decide)
theorem after_arg2 (V : Valuation τ sig (Elt F)) : after ops V (main_arg2 : DevRef τ sig) = V (main_arg2 : DevRef τ sig) :=
  after_of_not_wr V main_arg2 (by decide)
theorem after_arg3 (V : Valuation τ sig (Elt F)) : after ops V (main_arg3 : DevRef τ sig) = V (main_arg3 : DevRef τ sig) :=
  after_of_not_wr V main_arg3 (by decide)
theorem after_arg4 (V : Valuation τ sig (Elt F)) : after ops V (main_arg4 : DevRef τ sig) = V (main_arg4 : DevRef τ sig) :=
  after_of_not_wr V main_arg4 (by decide)
theorem after_arg5 (V : Valuation τ sig (Elt F)) : after ops V (main_arg5 : DevRef τ sig) = V (main_arg5 : DevRef τ sig) :=
  after_of_not_wr V main_arg5 (by decide)
theorem after_arg6 (V : Valuation τ sig (Elt F)) : after ops V (main_arg6 : DevRef τ sig) = V (main_arg6 : DevRef τ sig) :=
  after_of_not_wr V main_arg6 (by decide)
theorem after_arg7 (V : Valuation τ sig (Elt F)) : after ops V (main_arg7 : DevRef τ sig) = V (main_arg7 : DevRef τ sig) :=
  after_of_not_wr V main_arg7 (by decide)
theorem after_arg8 (V : Valuation τ sig (Elt F)) : after ops V (main_arg8 : DevRef τ sig) = V (main_arg8 : DevRef τ sig) :=
  after_of_not_wr V main_arg8 (by decide)
theorem after_arg9 (V : Valuation τ sig (Elt F)) : after ops V (main_arg9 : DevRef τ sig) = V (main_arg9 : DevRef τ sig) :=
  after_of_not_wr V main_arg9 (by decide)
theorem after_arg10 (V : Valuation τ sig (Elt F)) : after ops V (main_arg10 : DevRef τ sig) = V (main_arg10 : DevRef τ sig) :=
  after_of_not_wr V main_arg10 (by decide)
theorem after_arg11 (V : Valuation τ sig (Elt F)) : after ops V (main_arg11 : DevRef τ sig) = V (main_arg11 : DevRef τ sig) :=
  after_of_not_wr V main_arg11 (by decide)
theorem after_arg12 (V : Valuation τ sig (Elt F)) : after ops V (main_arg12 : DevRef τ sig) = V (main_arg12 : DevRef τ sig) :=
  after_of_not_wr V main_arg12 (by decide)
theorem after_arg13 (V : Valuation τ sig (Elt F)) : after ops V (main_arg13 : DevRef τ sig) = V (main_arg13 : DevRef τ sig) :=
  after_of_not_wr V main_arg13 (by decide)
theorem after_arg14 (V : Valuation τ sig (Elt F)) : after ops V (main_arg14 : DevRef τ sig) = V (main_arg14 : DevRef τ sig) :=
  after_of_not_wr V main_arg14 (by decide)
theorem after_arg15 (V : Valuation τ sig (Elt F)) : after ops V (main_arg15 : DevRef τ sig) = V (main_arg15 : DevRef τ sig) :=
  after_of_not_wr V main_arg15 (by decide)
theorem after_arg16 (V : Valuation τ sig (Elt F)) : after ops V (main_arg16 : DevRef τ sig) = V (main_arg16 : DevRef τ sig) :=
  after_of_not_wr V main_arg16 (by decide)
theorem after_arg17 (V : Valuation τ sig (Elt F)) : after ops V (main_arg17 : DevRef τ sig) = V (main_arg17 : DevRef τ sig) :=
  after_of_not_wr V main_arg17 (by decide)
theorem after_arg18 (V : Valuation τ sig (Elt F)) : after ops V (main_arg18 : DevRef τ sig) = V (main_arg18 : DevRef τ sig) :=
  after_of_not_wr V main_arg18 (by decide)
theorem after_arg19 (V : Valuation τ sig (Elt F)) : after ops V (main_arg19 : DevRef τ sig) = V (main_arg19 : DevRef τ sig) :=
  after_of_not_wr V main_arg19 (by decide)
theorem after_arg20 (V : Valuation τ sig (Elt F)) : after ops V (main_arg20 : DevRef τ sig) = V (main_arg20 : DevRef τ sig) :=
  after_of_not_wr V main_arg20 (by decide)
theorem after_arg21 (V : Valuation τ sig (Elt F)) : after ops V (main_arg21 : DevRef τ sig) = V (main_arg21 : DevRef τ sig) :=
  after_of_not_wr V main_arg21 (by decide)
theorem after_arg22 (V : Valuation τ sig (Elt F)) : after ops V (main_arg22 : DevRef τ sig) = V (main_arg22 : DevRef τ sig) :=
  after_of_not_wr V main_arg22 (by decide)
theorem after_arg23 (V : Valuation τ sig (Elt F)) : after ops V (main_arg23 : DevRef τ sig) = V (main_arg23 : DevRef τ sig) :=
  after_of_not_wr V main_arg23 (by decide)
theorem after_arg24 (V : Valuation τ sig (Elt F)) : after ops V (main_arg24 : DevRef τ sig) = V (main_arg24 : DevRef τ sig) :=
  after_of_not_wr V main_arg24 (by decide)
theorem after_arg25 (V : Valuation τ sig (Elt F)) : after ops V (main_arg25 : DevRef τ sig) = V (main_arg25 : DevRef τ sig) :=
  after_of_not_wr V main_arg25 (by decide)
theorem after_arg26 (V : Valuation τ sig (Elt F)) : after ops V (main_arg26 : DevRef τ sig) = V (main_arg26 : DevRef τ sig) :=
  after_of_not_wr V main_arg26 (by decide)
theorem after_arg27 (V : Valuation τ sig (Elt F)) : after ops V (main_arg27 : DevRef τ sig) = V (main_arg27 : DevRef τ sig) :=
  after_of_not_wr V main_arg27 (by decide)

end Cert.ReferenceIdeal.RefRun

end
-- ==== Proof.RefEqs0.lean ====
/-
  One equation per operation of stretch 0 of the reference function's line: what the operation's result buffer holds after
  the whole line is the operation's function of what its operand buffers hold after the whole line (the operands are
  written earlier, the result by no later operation).
-/
import proofs.«111695_j88261577933428_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation of any number of operands, the k-th of a line whose k-th operation writes the k-th reference of `wr`: its
    result buffer, not written later, holds after the whole line the operation's function of what its operand buffers
    hold after the whole line (each operand is not written from position k on). -/
theorem after_nary {τ : Topo} {sig : RefSig} {Val : EltTy → Type} {ops : List (HloOp τ sig Val)} {wr : List (Ref sig .tc)}
    (h : WritesEach ops wr) (V : Valuation τ sig Val) (k : ℕ) {n : ℕ} (xs : Fin n → Ref sig .tc) (y : Ref sig .tc)
    (f : ((j : Fin n) → (xs j).ty.Contents Val) → y.ty.Contents Val) (hxs hy)
    (hk : ops[k]? = some (nary xs y f hxs hy)) (hy' : y ∉ wr.drop (k + 1)) (hx' : ∀ j, xs j ∉ wr.drop k) :
    after ops V (Proc.devRef .tc y) = f (fun j => after ops V (Proc.devRef .tc (xs j))) := by
  rw [after_at h V k _ y hk hy', nary_result]
  congr 1
  funext j
  exact (after_eq_after_take h V k (xs j) (hx' j)).symm

theorem eq_main_v0 (V : Valuation τ sig (Elt F)) :
    after ops V (main_v0 : DevRef τ sig)
      = ((fun l r => Host.dotGeneral dot_S49152x4_S4x512_S49152x512_1_0_0_1_n_n none l r) : (⟨S49152x4, .f32⟩ : BufTy).Contents (Elt F) → (⟨S4x512, .f32⟩ : BufTy).Contents (Elt F) → (⟨S49152x512, .f32⟩ : BufTy).Contents (Elt F)) (after ops V (main_arg2 : DevRef τ sig)) (after ops V (main_arg4 : DevRef τ sig)) :=
  (after_binary writesEach V 0 main_arg2 main_arg4 main_v0 _ _ _ _ rfl (by decide) (by decide) (by decide)).trans rfl

theorem eq_main_v1 (V : Valuation τ sig (Elt F)) :
    after ops V (main_v1 : DevRef τ sig)
      = (broadcastInDim S1x512 ![1] bcast_S512_S1x512_1 : (⟨S512, .f32⟩ : BufTy).Contents (Elt F) → (⟨S1x512, .f32⟩ : BufTy).Contents (Elt F)) (after ops V (main_arg5 : DevRef τ sig)) :=
  (after_unary writesEach V 1 main_arg5 main_v1 _ _ _ rfl (by decide) (by decide)).trans rfl

theorem eq_main_v2 (V : Valuation τ sig (Elt F)) :
    after ops V (main_v2 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v1 : DevRef τ sig)) :=
  (after_unary writesEach V 2 main_v1 main_v2 _ _ _ rfl (by decide) (by decide)).trans rfl

theorem eq_main_v3 (V : Valuation τ sig (Elt F)) :
    after ops V (main_v3 : DevRef τ sig)
      = (addf : (⟨S49152x512, .f32⟩ : BufTy).Contents (Elt F) → (⟨S49152x512, .f32⟩ : BufTy).Contents (Elt F) → (⟨S49152x512, .f32⟩ : BufTy).Contents (Elt F)) (after ops V (main_v0 : DevRef τ sig)) (after ops V (main_v2 : DevRef τ sig)) :=
  (after_binary writesEach V 3 main_v0 main_v2 main_v3 _ _ _ _ rfl (by decide) (by decide) (by decide)).trans rfl

theorem eq_main_call0_cst (V : Valuation τ sig (Elt F)) :
    after ops V (main_call0_cst : DevRef τ sig)
      = ((constant S_ .f32 0x00000000#32) : (⟨S_, .f32⟩ : BufTy).Contents (Elt F)) :=
  (after_nullary writesEach V 4 main_call0_cst _ _ rfl (by decide)).trans rfl

theorem eq_main_call0_v0 (V : Valuation τ sig (Elt F)) :
    after ops V (main_call0_v0 : DevRef τ sig)
      = ((broadcastInDim S49152x512 ![] bcast_S_S49152x512) : (⟨S_, .f32⟩ : BufTy).Contents (Elt F) → (⟨S49152x512, .f32⟩ : BufTy).Contents (Elt F)) (after ops V (main_call0_cst : DevRef τ sig)) :=
  (after_unary writesEach V 5 main_call0_cst main_call0_v0 _ _ _ rfl (by decide) (by decide)).trans rfl

theorem eq_main_v4 (V : Valuation τ sig (Elt F)) :
    after ops V (main_v4 : DevRef τ sig)
      = ((maximumf) : (⟨S49152x512, .f32⟩ : BufTy).Contents (Elt F) → (⟨S49152x512, .f32⟩ : BufTy).Contents (Elt F) → (⟨S49152x512, .f32⟩ : BufTy).Contents (Elt F)) (after ops V (main_v3 : DevRef τ sig)) (after ops V (main_call0_v0 : DevRef τ sig)) :=
  (after_binary writesEach V 6 main_v3 main_call0_v0 main_v4 _ _ _ _ rfl (by decide) (by decide) (by decide)).trans rfl

theorem eq_main_v5 (V : Valuation τ sig (Elt F)) :
    after ops V (main_v5 : DevRef τ sig)
      = ((fun l r => Host.dotGeneral dot_S49152x512_S512x512_S49152x512_1_0_0_1_n_n none l r) : (⟨S49152x512, .f32⟩ : BufTy).Contents (Elt F) → (⟨S512x512, .f32⟩ : BufTy).Contents (Elt F) → (⟨S49152x512, .f32⟩ : BufTy).Contents (Elt F)) (after ops V (main_v4 : DevRef τ sig)) (after ops V (main_arg6 : DevRef τ sig)) :=
  (after_binary writesEach V 7 main_v4 main_arg6 main_v5 _ _ _ _ rfl (by decide) (by decide) (by decide)).trans rfl

theorem eq_main_v6 (V : Valuation τ sig (Elt F)) :
    after ops V (main_v6 : DevRef τ sig)
      = (broadcastInDim S1x512 ![1] bcast_S512_S1x512_1 : (⟨S512, .f32⟩ : BufTy).Contents (Elt F) → (⟨S1x512, .f32⟩ : BufTy).Contents (Elt F)) (after ops V (main_arg7 : DevRef τ sig)) :=
  (after_unary writesEach V 8 main_arg7 main_v6 _ _ _ rfl (by decide) (by decide)).trans rfl

theorem eq_main_v7 (V : Valuation τ sig (Elt F)) :
    after ops V (main_v7 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v6 : DevRef τ sig)) :=
  (after_unary writesEach V 9 main_v6 main_v7 _ _ _ rfl (by decide) (by decide)).trans rfl

theorem eq_main_v8 (V : Valuation τ sig (Elt F)) :
    after ops V (main_v8 : DevRef τ sig)
      = (addf : (⟨S49152x512, .f32⟩ : BufTy).Contents (Elt F) → (⟨S49152x512, .f32⟩ : BufTy).Contents (Elt F) → (⟨S49152x512, .f32⟩ : BufTy).Contents (Elt F)) (after ops V (main_v5 : DevRef τ sig)) (after ops V (main_v7 : DevRef τ sig)) :=
  (after_binary writesEach V 10 main_v5 main_v7 main_v8 _ _ _ _ rfl (by decide) (by decide) (by decide)).trans rfl

theorem eq_main_cst (V : Valuation τ sig (Elt F)) :
    after ops V (main_cst : DevRef τ sig)
      = ((constant S_ .f32 0x00000000#32) : (⟨S_, .f32⟩ : BufTy).Contents (Elt F)) :=
  (after_nullary writesEach V 11 main_cst _ _ rfl (by decide)).trans rfl

theorem eq_main_v9 (V : Valuation τ sig (Elt F)) :
    after ops V (main_v9 : DevRef τ sig)
      = ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) (after ops V (main_v8 : DevRef τ sig)) (after ops V (main_cst : DevRef τ sig)) :=
  (after_binary writesEach V 12 main_v8 main_cst main_v9 _ _ _ _ rfl (by decide) (by decide) (by decide)).trans rfl

theorem eq_main_v10 (V : Valuation τ sig (Elt F)) :
    after ops V (main_v10 : DevRef τ sig)
      = (broadcastInDim S49152x1 ![0] bcast_S49152_S49152x1_0 : (⟨S49152, .f32⟩ : BufTy).Contents (Elt F) → (⟨S49152x1, .f32⟩ : BufTy).Contents (Elt F)) (after ops V (main_v9 : DevRef τ sig)) :=
  (after_unary writesEach V 13 main_v9 main_v10 _ _ _ rfl (by decide) (by decide)).trans rfl

theorem eq_main_cst_0 (V : Valuation τ sig (Elt F)) :
    after ops V (main_cst_0 : DevRef τ sig)
      = ((constant S_ .f32 0x44000000#32) : (⟨S_, .f32⟩ : BufTy).Contents (Elt F)) :=
  (after_nullary writesEach V 14 main_cst_0 _ _ rfl (by decide)).trans rfl

theorem eq_main_v11 (V : Valuation τ sig (Elt F)) :
    after ops V (main_v11 : DevRef τ sig)
      = (broadcastInDim S49152x1 ![] bcast_S_S49152x1 : (⟨S_, .f32⟩ : BufTy).Contents (Elt F) → (⟨S49152x1, .f32⟩ : BufTy).Contents (Elt F)) (after ops V (main_cst_0 : DevRef τ sig)) :=
  (after_unary writesEach V 15 main_cst_0 main_v11 _ _ _ rfl (by decide) (by decide)).trans rfl

theorem eq_main_v12 (V : Valuation τ sig (Elt F)) :
    after ops V (main_v12 : DevRef τ sig)
      = (Host.divf : (⟨S49152x1, .f32⟩ : BufTy).Contents (Elt F) → (⟨S49152x1, .f32⟩ : BufTy).Contents (Elt F) → (⟨S49152x1, .f32⟩ : BufTy).Contents (Elt F)) (after ops V (main_v10 : DevRef τ sig)) (after ops V (main_v11 : DevRef τ sig)) :=
  (after_binary writesEach V 16 main_v10 main_v11 main_v12 _ _ _ _ rfl (by decide) (by decide) (by decide)).trans rfl

theorem eq_main_c (V : Valuation τ sig (Elt F)) :
    after ops V (main_c : DevRef τ sig)
      = ((constantI S_ 32 0#32) : (⟨S_, .i32⟩ : BufTy).Contents (Elt F)) :=
  (after_nullary writesEach V 17 main_c _ _ rfl (by decide)).trans rfl

theorem eq_main_call1_cst (V : Valuation τ sig (Elt F)) :
    after ops V (main_call1_cst : DevRef τ sig)
      = ((constant S_ .f32 0x00000000#32) : (⟨S_, .f32⟩ : BufTy).Contents (Elt F)) :=
  (after_nullary writesEach V 18 main_call1_cst _ _ rfl (by decide)).trans rfl

theorem eq_main_call1_v0 (V : Valuation τ sig (Elt F)) :
    after ops V (main_call1_v0 : DevRef τ sig)
      = ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) (after ops V (main_v8 : DevRef τ sig)) (after ops V (main_call1_cst : DevRef τ sig)) :=
  (after_binary writesEach V 19 main_v8 main_call1_cst main_call1_v0 _ _ _ _ rfl (by decide) (by decide) (by decide)).trans rfl

theorem eq_main_call1_v1 (V : Valuation τ sig (Elt F)) :
    after ops V (main_call1_v1 : DevRef τ sig)
      = ((broadcastInDim S49152x1 ![0] bcast_S49152_S49152x1_0) : (⟨S49152, .f32⟩ : BufTy).Contents (Elt F) → (⟨S49152x1, .f32⟩ : BufTy).Contents (Elt F)) (after ops V (main_call1_v0 : DevRef τ sig)) :=
  (after_unary writesEach V 20 main_call1_v0 main_call1_v1 _ _ _ rfl (by decide) (by decide)).trans rfl

theorem eq_main_call1_cst_0 (V : Valuation τ sig (Elt F)) :
    after ops V (main_call1_cst_0 : DevRef τ sig)
      = ((constant S_ .f32 0x44000000#32) : (⟨S_, .f32⟩ : BufTy).Contents (Elt F)) :=
  (after_nullary writesEach V 21 main_call1_cst_0 _ _ rfl (by decide)).trans rfl

theorem eq_main_call1_v2 (V : Valuation τ sig (Elt F)) :
    after ops V (main_call1_v2 : DevRef τ sig)
      = ((broadcastInDim S49152x1 ![] bcast_S_S49152x1) : (⟨S_, .f32⟩ : BufTy).Contents (Elt F) → (⟨S49152x1, .f32⟩ : BufTy).Contents (Elt F)) (after ops V (main_call1_cst_0 : DevRef τ sig)) :=
  (after_unary writesEach V 22 main_call1_cst_0 main_call1_v2 _ _ _ rfl (by decide) (by decide)).trans rfl

theorem eq_main_call1_v3 (V : Valuation τ sig (Elt F)) :
    after ops V (main_call1_v3 : DevRef τ sig)
      = ((Host.divf) : (⟨S49152x1, .f32⟩ : BufTy).Contents (Elt F) → (⟨S49152x1, .f32⟩ : BufTy).Contents (Elt F) → (⟨S49152x1, .f32⟩ : BufTy).Contents (Elt F)) (after ops V (main_call1_v1 : DevRef τ sig)) (after ops V (main_call1_v2 : DevRef τ sig)) :=
  (after_binary writesEach V 23 main_call1_v1 main_call1_v2 main_call1_v3 _ _ _ _ rfl (by decide) (by decide) (by decide)).trans rfl

theorem eq_main_call1_v4 (V : Valuation τ sig (Elt F)) :
    after ops V (main_call1_v4 : DevRef τ sig)
      = ((broadcastInDim S49152x512 ![0, 1] bcast_S49152x1_S49152x512_0_1) : (⟨S49152x1, .f32⟩ : BufTy).Contents (Elt F) → (⟨S49152x512, .f32⟩ : BufTy).Contents (Elt F)) (after ops V (main_call1_v3 : DevRef τ sig)) :=
  (after_unary writesEach V 24 main_call1_v3 main_call1_v4 _ _ _ rfl (by decide) (by decide)).trans rfl

theorem eq_main_call1_v5 (V : Valuation τ sig (Elt F)) :
    after ops V (main_call1_v5 : DevRef τ sig)
      = ((subf) : (⟨S49152x512, .f32⟩ : BufTy).Contents (Elt F) → (⟨S49152x512, .f32⟩ : BufTy).Contents (Elt F) → (⟨S49152x512, .f32⟩ : BufTy).Contents (Elt F)) (after ops V (main_v8 : DevRef τ sig)) (after ops V (main_call1_v4 : DevRef τ sig)) :=
  (after_binary writesEach V 25 main_v8 main_call1_v4 main_call1_v5 _ _ _ _ rfl (by decide) (by decide) (by decide)).trans rfl

theorem eq_main_call1_v6 (V : Valuation τ sig (Elt F)) :
    after ops V (main_call1_v6 : DevRef τ sig)
      = ((mulf) : (⟨S49152x512, .f32⟩ : BufTy).Contents (Elt F) → (⟨S49152x512, .f32⟩ : BufTy).Contents (Elt F) → (⟨S49152x512, .f32⟩ : BufTy).Contents (Elt F)) (after ops V (main_call1_v5 : DevRef τ sig)) (after ops V (main_call1_v5 : DevRef τ sig)) :=
  (after_binary writesEach V 26 main_call1_v5 main_call1_v5 main_call1_v6 _ _ _ _ rfl (by decide) (by decide) (by decide)).trans rfl

theorem eq_main_call1_v7 (V : Valuation τ sig (Elt F)) :
    after ops V (main_call1_v7 : DevRef τ sig)
      = ((sitofp .f32) : (⟨S_, .i32⟩ : BufTy).Contents (Elt F) → (⟨S_, .f32⟩ : BufTy).Contents (Elt F)) (after ops V (main_c : DevRef τ sig)) :=
  (after_unary writesEach V 27 main_c main_call1_v7 _ _ _ rfl (by decide) (by decide)).trans rfl

theorem eq_main_call1_cst_1 (V : Valuation τ sig (Elt F)) :
    after ops V (main_call1_cst_1 : DevRef τ sig)
      = ((constant S_ .f32 0x44000000#32) : (⟨S_, .f32⟩ : BufTy).Contents (Elt F)) :=
  (after_nullary writesEach V 28 main_call1_cst_1 _ _ rfl (by decide)).trans rfl

theorem eq_main_call1_v8 (V : Valuation τ sig (Elt F)) :
    after ops V (main_call1_v8 : DevRef τ sig)
      = ((subf) : (⟨S_, .f32⟩ : BufTy).Contents (Elt F) → (⟨S_, .f32⟩ : BufTy).Contents (Elt F) → (⟨S_, .f32⟩ : BufTy).Contents (Elt F)) (after ops V (main_call1_cst_1 : DevRef τ sig)) (after ops V (main_call1_v7 : DevRef τ sig)) :=
  (after_binary writesEach V 29 main_call1_cst_1 main_call1_v7 main_call1_v8 _ _ _ _ rfl (by decide) (by decide) (by decide)).trans rfl

theorem eq_main_call1_cst_2 (V : Valuation τ sig (Elt F)) :
    after ops V (main_call1_cst_2 : DevRef τ sig)
      = ((constant S_ .f32 0x00000000#32) : (⟨S_, .f32⟩ : BufTy).Contents (Elt F)) :=
  (after_nullary writesEach V 30 main_call1_cst_2 _ _ rfl (by decide)).trans rfl

theorem eq_main_call1_v9 (V : Valuation τ sig (Elt F)) :
    after ops V (main_call1_v9 : DevRef τ sig)
      = ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) (after ops V (main_call1_v6 : DevRef τ sig)) (after ops V (main_call1_cst_2 : DevRef τ sig)) :=
  (after_binary writesEach V 31 main_call1_v6 main_call1_cst_2 main_call1_v9 _ _ _ _ rfl (by decide) (by decide) (by decide)).trans rfl

theorem eq_main_call1_v10 (V : Valuation τ sig (Elt F)) :
    after ops V (main_call1_v10 : DevRef τ sig)
      = ((broadcastInDim S49152x1 ![0] bcast_S49152_S49152x1_0) : (⟨S49152, .f32⟩ : BufTy).Contents (Elt F) → (⟨S49152x1, .f32⟩ : BufTy).Contents (Elt F)) (after ops V (main_call1_v9 : DevRef τ sig)) :=
  (after_unary writesEach V 32 main_call1_v9 main_call1_v10 _ _ _ rfl (by decide) (by decide)).trans rfl

theorem eq_main_call1_v11 (V : Valuation τ sig (Elt F)) :
    after ops V (main_call1_v11 : DevRef τ sig)
      = ((broadcastInDim S49152x1 ![] bcast_S_S49152x1) : (⟨S_, .f32⟩ : BufTy).Contents (Elt F) → (⟨S49152x1, .f32⟩ : BufTy).Contents (Elt F)) (after ops V (main_call1_v8 : DevRef τ sig)) :=
  (after_unary writesEach V 33 main_call1_v8 main_call1_v11 _ _ _ rfl (by decide) (by decide)).trans rfl

theorem eq_main_call1_v12 (V : Valuation τ sig (Elt F)) :
    after ops V (main_call1_v12 : DevRef τ sig)
      = ((Host.divf) : (⟨S49152x1, .f32⟩ : BufTy).Contents (Elt F) → (⟨S49152x1, .f32⟩ : BufTy).Contents (Elt F) → (⟨S49152x1, .f32⟩ : BufTy).Contents (Elt F)) (after ops V (main_call1_v10 : DevRef τ sig)) (after ops V (main_call1_v11 : DevRef τ sig)) :=
  (after_binary writesEach V 34 main_call1_v10 main_call1_v11 main_call1_v12 _ _ _ _ rfl (by decide) (by decide) (by decide)).trans rfl

theorem eq_main_call1_cst_3 (V : Valuation τ sig (Elt F)) :
    after ops V (main_call1_cst_3 : DevRef τ sig)
      = ((constant S_ .f32 0x00000000#32) : (⟨S_, .f32⟩ : BufTy).Contents (Elt F)) :=
  (after_nullary writesEach V 35 main_call1_cst_3 _ _ rfl (by decide)).trans rfl

theorem eq_main_call1_v13 (V : Valuation τ sig (Elt F)) :
    after ops V (main_call1_v13 : DevRef τ sig)
      = ((cmpf .ogt) : (⟨S_, .f32⟩ : BufTy).Contents (Elt F) → (⟨S_, .f32⟩ : BufTy).Contents (Elt F) → (⟨S_, .i1⟩ : BufTy).Contents (Elt F)) (after ops V (main_call1_v8 : DevRef τ sig)) (after ops V (main_call1_cst_3 : DevRef τ sig)) :=
  (after_binary writesEach V 36 main_call1_v8 main_call1_cst_3 main_call1_v13 _ _ _ _ rfl (by decide) (by decide) (by decide)).trans rfl

theorem eq_main_call1_cst_4 (V : Valuation τ sig (Elt F)) :
    after ops V (main_call1_cst_4 : DevRef τ sig)
      = ((constant S_ .f32 0x7FC00000#32) : (⟨S_, .f32⟩ : BufTy).Contents (Elt F)) :=
  (after_nullary writesEach V 37 main_call1_cst_4 _ _ rfl (by decide)).trans rfl

theorem eq_main_call1_call0_v0 (V : Valuation τ sig (Elt F)) :
    after ops V (main_call1_call0_v0 : DevRef τ sig)
      = ((id) : (⟨S_, .f32⟩ : BufTy).Contents (Elt F) → (⟨S_, .f32⟩ : BufTy).Contents (Elt F)) (after ops V (main_call1_cst_4 : DevRef τ sig)) :=
  (after_unary writesEach V 38 main_call1_cst_4 main_call1_call0_v0 _ _ _ rfl (by decide) (by decide)).trans rfl

theorem eq_main_call1_call0_v1 (V : Valuation τ sig (Elt F)) :
    after ops V (main_call1_call0_v1 : DevRef τ sig)
      = ((broadcastInDim S49152x1 ![] bcast_S_S49152x1) : (⟨S_, .f32⟩ : BufTy).Contents (Elt F) → (⟨S49152x1, .f32⟩ : BufTy).Contents (Elt F)) (after ops V (main_call1_call0_v0 : DevRef τ sig)) :=
  (after_unary writesEach V 39 main_call1_call0_v0 main_call1_call0_v1 _ _ _ rfl (by decide) (by decide)).trans rfl

theorem eq_main_v13 (V : Valuation τ sig (Elt F)) :
    after ops V (main_v13 : DevRef τ sig)
      = ((fun p a b => select (broadcastInDim S49152x1 ![] bcast_S_S49152x1 p) a b) : (⟨S_, .i1⟩ : BufTy).Contents (Elt F) → (⟨S49152x1, .f32⟩ : BufTy).Contents (Elt F) → (⟨S49152x1, .f32⟩ : BufTy).Contents (Elt F) → (⟨S49152x1, .f32⟩ : BufTy).Contents (Elt F)) (after ops V (main_call1_v13 : DevRef τ sig)) (after ops V (main_call1_v12 : DevRef τ sig)) (after ops V (main_call1_call0_v1 : DevRef τ sig)) :=
  (after_ternary writesEach V 40 main_call1_v13 main_call1_v12 main_call1_call0_v1 main_v13 _ _ _ _ _ rfl (by decide) (by decide) (by decide) (by decide)).trans rfl

theorem eq_main_v14 (V : Valuation τ sig (Elt F)) :
    after ops V (main_v14 : DevRef τ sig)
      = (broadcastInDim S49152x512 ![0, 1] bcast_S49152x1_S49152x512_0_1 : (⟨S49152x1, .f32⟩ : BufTy).Contents (Elt F) → (⟨S49152x512, .f32⟩ : BufTy).Contents (Elt F)) (after ops V (main_v12 : DevRef τ sig)) :=
  (after_unary writesEach V 41 main_v12 main_v14 _ _ _ rfl (by decide) (by decide)).trans rfl

theorem eq_main_v15 (V : Valuation τ sig (Elt F)) :
    after ops V (main_v15 : DevRef τ sig)
      = (subf : (⟨S49152x512, .f32⟩ : BufTy).Contents (Elt F) → (⟨S49152x512, .f32⟩ : BufTy).Contents (Elt F) → (⟨S49152x512, .f32⟩ : BufTy).Contents (Elt F)) (after ops V (main_v8 : DevRef τ sig)) (after ops V (main_v14 : DevRef τ sig)) :=
  (after_binary writesEach V 42 main_v8 main_v14 main_v15 _ _ _ _ rfl (by decide) (by decide) (by decide)).trans rfl

theorem eq_main_cst_1 (V : Valuation τ sig (Elt F)) :
    after ops V (main_cst_1 : DevRef τ sig)
      = ((constant S_ .f32 0x3727C5AC#32) : (⟨S_, .f32⟩ : BufTy).Contents (Elt F)) :=
  (after_nullary writesEach V 43 main_cst_1 _ _ rfl (by decide)).trans rfl

theorem eq_main_v16 (V : Valuation τ sig (Elt F)) :
    after ops V (main_v16 : DevRef τ sig)
      = (broadcastInDim S49152x1 ![] bcast_S_S49152x1 : (⟨S_, .f32⟩ : BufTy).Contents (Elt F) → (⟨S49152x1, .f32⟩ : BufTy).Contents (Elt F)) (after ops V (main_cst_1 : DevRef τ sig)) :=
  (after_unary writesEach V 44 main_cst_1 main_v16 _ _ _ rfl (by decide) (by decide)).trans rfl

theorem eq_main_v17 (V : Valuation τ sig (Elt F)) :
    after ops V (main_v17 : DevRef τ sig)
      = (addf : (⟨S49152x1, .f32⟩ : BufTy).Contents (Elt F) → (⟨S49152x1, .f32⟩ : BufTy).Contents (Elt F) → (⟨S49152x1, .f32⟩ : BufTy).Contents (Elt F)) (after ops V (main_v13 : DevRef τ sig)) (after ops V (main_v16 : DevRef τ sig)) :=
  (after_binary writesEach V 45 main_v13 main_v16 main_v17 _ _ _ _ rfl (by decide) (by decide) (by decide)).trans rfl

theorem eq_main_v18 (V : Valuation τ sig (Elt F)) :
    after ops V (main_v18 : DevRef τ sig)
      = (Host.rsqrt : (⟨S49152x1, .f32⟩ : BufTy).Contents (Elt F) → (⟨S49152x1, .f32⟩ : BufTy).Contents (Elt F)) (after ops V (main_v17 : DevRef τ sig)) :=
  (after_unary writesEach V 46 main_v17 main_v18 _ _ _ rfl (by decide) (by decide)).trans rfl

theorem eq_main_v19 (V : Valuation τ sig (Elt F)) :
    after ops V (main_v19 : DevRef τ sig)
      = (broadcastInDim S49152x512 ![0, 1] bcast_S49152x1_S49152x512_0_1 : (⟨S49152x1, .f32⟩ : BufTy).Contents (Elt F) → (⟨S49152x512, .f32⟩ : BufTy).Contents (Elt F)) (after ops V (main_v18 : DevRef τ sig)) :=
  (after_unary writesEach V 47 main_v18 main_v19 _ _ _ rfl (by decide) (by decide)).trans rfl

theorem eq_main_v20 (V : Valuation τ sig (Elt F)) :
    after ops V (main_v20 : DevRef τ sig)
      = (mulf : (⟨S49152x512, .f32⟩ : BufTy).Contents (Elt F) → (⟨S49152x512, .f32⟩ : BufTy).Contents (Elt F) → (⟨S49152x512, .f32⟩ : BufTy).Contents (Elt F)) (after ops V (main_v15 : DevRef τ sig)) (after ops V (main_v19 : DevRef τ sig)) :=
  (after_binary writesEach V 48 main_v15 main_v19 main_v20 _ _ _ _ rfl (by decide) (by decide) (by decide)).trans rfl

theorem eq_main_v21 (V : Valuation τ sig (Elt F)) :
    after ops V (main_v21 : DevRef τ sig)
      = (broadcastInDim S1x512 ![1] bcast_S512_S1x512_1 : (⟨S512, .f32⟩ : BufTy).Contents (Elt F) → (⟨S1x512, .f32⟩ : BufTy).Contents (Elt F)) (after ops V (main_arg8 : DevRef τ sig)) :=
  (after_unary writesEach V 49 main_arg8 main_v21 _ _ _ rfl (by decide) (by decide)).trans rfl

theorem eq_main_v22 (V : Valuation τ sig (Elt F)) :
    after ops V (main_v22 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v21 : DevRef τ sig)) :=
  (after_unary writesEach V 50 main_v21 main_v22 _ _ _ rfl (by decide) (by decide)).trans rfl

theorem eq_main_v23 (V : Valuation τ sig (Elt F)) :
    after ops V (main_v23 : DevRef τ sig)
      = (mulf : (⟨S49152x512, .f32⟩ : BufTy).Contents (Elt F) → (⟨S49152x512, .f32⟩ : BufTy).Contents (Elt F) → (⟨S49152x512, .f32⟩ : BufTy).Contents (Elt F)) (after ops V (main_v20 : DevRef τ sig)) (after ops V (main_v22 : DevRef τ sig)) :=
  (after_binary writesEach V 51 main_v20 main_v22 main_v23 _ _ _ _ rfl (by decide) (by decide) (by decide)).trans rfl

theorem eq_main_v24 (V : Valuation τ sig (Elt F)) :
    after ops V (main_v24 : DevRef τ sig)
      = (broadcastInDim S1x512 ![1] bcast_S512_S1x512_1 : (⟨S512, .f32⟩ : BufTy).Contents (Elt F) → (⟨S1x512, .f32⟩ : BufTy).Contents (Elt F)) (after ops V (main_arg9 : DevRef τ sig)) :=
  (after_unary writesEach V 52 main_arg9 main_v24 _ _ _ rfl (by decide) (by decide)).trans rfl

theorem eq_main_v25 (V : Valuation τ sig (Elt F)) :
    after ops V (main_v25 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v24 : DevRef τ sig)) :=
  (after_unary writesEach V 53 main_v24 main_v25 _ _ _ rfl (by decide) (by decide)).trans rfl

theorem eq_main_v26 (V : Valuation τ sig (Elt F)) :
    after ops V (main_v26 : DevRef τ sig)
      = (addf : (⟨S49152x512, .f32⟩ : BufTy).Contents (Elt F) → (⟨S49152x512, .f32⟩ : BufTy).Contents (Elt F) → (⟨S49152x512, .f32⟩ : BufTy).Contents (Elt F)) (after ops V (main_v23 : DevRef τ sig)) (after ops V (main_v25 : DevRef τ sig)) :=
  (after_binary writesEach V 54 main_v23 main_v25 main_v26 _ _ _ _ rfl (by decide) (by decide) (by decide)).trans rfl

theorem eq_main_v27 (V : Valuation τ sig (Elt F)) :
    after ops V (main_v27 : DevRef τ sig)
      = ((extractStridedSlice S1x49152 ![0, 0] · slices_S2x49152_S1x49152_0_0) : (⟨S2x49152, .i32⟩ : BufTy).Contents (Elt F) → (⟨S1x49152, .i32⟩ : BufTy).Contents (Elt F)) (after ops V (main_arg3 : DevRef τ sig)) :=
  (after_unary writesEach V 55 main_arg3 main_v27 _ _ _ rfl (by decide) (by decide)).trans rfl

theorem eq_main_v28 (V : Valuation τ sig (Elt F)) :
    after ops V (main_v28 : DevRef τ sig)
      = shapeCast S49152 (after ops V (main_v27 : DevRef τ sig)) shapeCasts_S1x49152_S49152 :=
  (after_reshape writesEach V 56 main_v27 main_v28 _ _ _ _ rfl (by decide) (by decide)).trans rfl

theorem eq_main_v29 (V : Valuation τ sig (Elt F)) :
    after ops V (main_v29 : DevRef τ sig)
      = ((extractStridedSlice S1x49152 ![1, 0] · slices_S2x49152_S1x49152_1_0) : (⟨S2x49152, .i32⟩ : BufTy).Contents (Elt F) → (⟨S1x49152, .i32⟩ : BufTy).Contents (Elt F)) (after ops V (main_arg3 : DevRef τ sig)) :=
  (after_unary writesEach V 57 main_arg3 main_v29 _ _ _ rfl (by decide) (by decide)).trans rfl

theorem eq_main_v30 (V : Valuation τ sig (Elt F)) :
    after ops V (main_v30 : DevRef τ sig)
      = shapeCast S49152 (after ops V (main_v29 : DevRef τ sig)) shapeCasts_S1x49152_S49152 :=
  (after_reshape writesEach V 58 main_v29 main_v30 _ _ _ _ rfl (by decide) (by decide)).trans rfl

theorem eq_main_c_2 (V : Valuation τ sig (Elt F)) :
    after ops V (main_c_2 : DevRef τ sig)
      = ((constantI S_ 32 0#32) : (⟨S_, .i32⟩ : BufTy).Contents (Elt F)) :=
  (after_nullary writesEach V 59 main_c_2 _ _ rfl (by decide)).trans rfl

theorem eq_main_v31 (V : Valuation τ sig (Elt F)) :
    after ops V (main_v31 : DevRef τ sig)
      = (broadcastInDim S49152 ![] bcast_S_S49152 : (⟨S_, .i32⟩ : BufTy).Contents (Elt F) → (⟨S49152, .i32⟩ : BufTy).Contents (Elt F)) (after ops V (main_c_2 : DevRef τ sig)) :=
  (after_unary writesEach V 60 main_c_2 main_v31 _ _ _ rfl (by decide) (by decide)).trans rfl

theorem eq_main_v32 (V : Valuation τ sig (Elt F)) :
    after ops V (main_v32 : DevRef τ sig)
      = (cmpi .slt : (⟨S49152, .i32⟩ : BufTy).Contents (Elt F) → (⟨S49152, .i32⟩ : BufTy).Contents (Elt F) → (⟨S49152, .i1⟩ : BufTy).Contents (Elt F)) (after ops V (main_v30 : DevRef τ sig)) (after ops V (main_v31 : DevRef τ sig)) :=
  (after_binary writesEach V 61 main_v30 main_v31 main_v32 _ _ _ _ rfl (by decide) (by decide) (by decide)).trans rfl

theorem eq_main_c_3 (V : Valuation τ sig (Elt F)) :
    after ops V (main_c_3 : DevRef τ sig)
      = ((constantI S_ 32 16384#32) : (⟨S_, .i32⟩ : BufTy).Contents (Elt F)) :=
  (after_nullary writesEach V 62 main_c_3 _ _ rfl (by decide)).trans rfl

theorem eq_main_v33 (V : Valuation τ sig (Elt F)) :
    after ops V (main_v33 : DevRef τ sig)
      = (broadcastInDim S49152 ![] bcast_S_S49152 : (⟨S_, .i32⟩ : BufTy).Contents (Elt F) → (⟨S49152, .i32⟩ : BufTy).Contents (Elt F)) (after ops V (main_c_3 : DevRef τ sig)) :=
  (after_unary writesEach V 63 main_c_3 main_v33 _ _ _ rfl (by decide) (by decide)).trans rfl

theorem eq_main_v34 (V : Valuation τ sig (Elt F)) :
    after ops V (main_v34 : DevRef τ sig)
      = (addi : (⟨S49152, .i32⟩ : BufTy).Contents (Elt F) → (⟨S49152, .i32⟩ : BufTy).Contents (Elt F) → (⟨S49152, .i32⟩ : BufTy).Contents (Elt F)) (after ops V (main_v30 : DevRef τ sig)) (after ops V (main_v33 : DevRef τ sig)) :=
  (after_binary writesEach V 64 main_v30 main_v33 main_v34 _ _ _ _ rfl (by decide) (by decide) (by decide)).trans rfl

theorem eq_main_v35 (V : Valuation τ sig (Elt F)) :
    after ops V (main_v35 : DevRef τ sig)
      = (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)) (after ops V (main_v32 : DevRef τ sig)) (after ops V (main_v34 : DevRef τ sig)) (after ops V (main_v30 : DevRef τ sig)) :=
  (after_ternary writesEach V 65 main_v32 main_v34 main_v30 main_v35 _ _ _ _ _ rfl (by decide) (by decide) (by decide) (by decide)).trans rfl

theorem eq_main_v36 (V : Valuation τ sig (Elt F)) :
    after ops V (main_v36 : DevRef τ sig)
      = (broadcastInDim S49152x1 ![0] bcast_S49152_S49152x1_0 : (⟨S49152, .i32⟩ : BufTy).Contents (Elt F) → (⟨S49152x1, .i32⟩ : BufTy).Contents (Elt F)) (after ops V (main_v35 : DevRef τ sig)) :=
  (after_unary writesEach V 66 main_v35 main_v36 _ _ _ rfl (by decide) (by decide)).trans rfl

theorem eq_main_v37 (V : Valuation τ sig (Elt F)) :
    after ops V (main_v37 : DevRef τ sig)
      = ((fun x i => Host.gather gather_S16384x512_S49152x1_S49152x512_1_0_n_n_0_1_1512 x i) : (⟨S16384x512, .f32⟩ : BufTy).Contents (Elt F) → (⟨S49152x1, .i32⟩ : BufTy).Contents (Elt F) → (⟨S49152x512, .f32⟩ : BufTy).Contents (Elt F)) (after ops V (main_arg1 : DevRef τ sig)) (after ops V (main_v36 : DevRef τ sig)) :=
  (after_binary writesEach V 67 main_arg1 main_v36 main_v37 _ _ _ _ rfl (by decide) (by decide) (by decide)).trans rfl

theorem eq_main_c_4 (V : Valuation τ sig (Elt F)) :
    after ops V (main_c_4 : DevRef τ sig)
      = ((constantI S_ 32 0#32) : (⟨S_, .i32⟩ : BufTy).Contents (Elt F)) :=
  (after_nullary writesEach V 68 main_c_4 _ _ rfl (by decide)).trans rfl

theorem eq_main_v38 (V : Valuation τ sig (Elt F)) :
    after ops V (main_v38 : DevRef τ sig)
      = (broadcastInDim S49152 ![] bcast_S_S49152 : (⟨S_, .i32⟩ : BufTy).Contents (Elt F) → (⟨S49152, .i32⟩ : BufTy).Contents (Elt F)) (after ops V (main_c_4 : DevRef τ sig)) :=
  (after_unary writesEach V 69 main_c_4 main_v38 _ _ _ rfl (by decide) (by decide)).trans rfl

theorem eq_main_v39 (V : Valuation τ sig (Elt F)) :
    after ops V (main_v39 : DevRef τ sig)
      = (cmpi .slt : (⟨S49152, .i32⟩ : BufTy).Contents (Elt F) → (⟨S49152, .i32⟩ : BufTy).Contents (Elt F) → (⟨S49152, .i1⟩ : BufTy).Contents (Elt F)) (after ops V (main_v28 : DevRef τ sig)) (after ops V (main_v38 : DevRef τ sig)) :=
  (after_binary writesEach V 70 main_v28 main_v38 main_v39 _ _ _ _ rfl (by decide) (by decide) (by decide)).trans rfl

theorem eq_main_c_5 (V : Valuation τ sig (Elt F)) :
    after ops V (main_c_5 : DevRef τ sig)
      = ((constantI S_ 32 2562#32) : (⟨S_, .i32⟩ : BufTy).Contents (Elt F)) :=
  (after_nullary writesEach V 71 main_c_5 _ _ rfl (by decide)).trans rfl

theorem eq_main_v40 (V : Valuation τ sig (Elt F)) :
    after ops V (main_v40 : DevRef τ sig)
      = (broadcastInDim S49152 ![] bcast_S_S49152 : (⟨S_, .i32⟩ : BufTy).Contents (Elt F) → (⟨S49152, .i32⟩ : BufTy).Contents (Elt F)) (after ops V (main_c_5 : DevRef τ sig)) :=
  (after_unary writesEach V 72 main_c_5 main_v40 _ _ _ rfl (by decide) (by decide)).trans rfl

theorem eq_main_v41 (V : Valuation τ sig (Elt F)) :
    after ops V (main_v41 : DevRef τ sig)
      = (addi : (⟨S49152, .i32⟩ : BufTy).Contents (Elt F) → (⟨S49152, .i32⟩ : BufTy).Contents (Elt F) → (⟨S49152, .i32⟩ : BufTy).Contents (Elt F)) (after ops V (main_v28 : DevRef τ sig)) (after ops V (main_v40 : DevRef τ sig)) :=
  (after_binary writesEach V 73 main_v28 main_v40 main_v41 _ _ _ _ rfl (by decide) (by decide) (by decide)).trans rfl

theorem eq_main_v42 (V : Valuation τ sig (Elt F)) :
    after ops V (main_v42 : DevRef τ sig)
      = (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)) (after ops V (main_v39 : DevRef τ sig)) (after ops V (main_v41 : DevRef τ sig)) (after ops V (main_v28 : DevRef τ sig)) :=
  (after_ternary writesEach V 74 main_v39 main_v41 main_v28 main_v42 _ _ _ _ _ rfl (by decide) (by decide) (by decide) (by decide)).trans rfl

theorem eq_main_v43 (V : Valuation τ sig (Elt F)) :
    after ops V (main_v43 : DevRef τ sig)
      = (broadcastInDim S49152x1 ![0] bcast_S49152_S49152x1_0 : (⟨S49152, .i32⟩ : BufTy).Contents (Elt F) → (⟨S49152x1, .i32⟩ : BufTy).Contents (Elt F)) (after ops V (main_v42 : DevRef τ sig)) :=
  (after_unary writesEach V 75 main_v42 main_v43 _ _ _ rfl (by decide) (by decide)).trans rfl

theorem eq_main_v44 (V : Valuation τ sig (Elt F)) :
    after ops V (main_v44 : DevRef τ sig)
      = ((fun x i => Host.gather gather_S2562x512_S49152x1_S49152x512_1_0_n_n_0_1_1512 x i) : (⟨S2562x512, .f32⟩ : BufTy).Contents (Elt F) → (⟨S49152x1, .i32⟩ : BufTy).Contents (Elt F) → (⟨S49152x512, .f32⟩ : BufTy).Contents (Elt F)) (after ops V (main_arg0 : DevRef τ sig)) (after ops V (main_v43 : DevRef τ sig)) :=
  (after_binary writesEach V 76 main_arg0 main_v43 main_v44 _ _ _ _ rfl (by decide) (by decide) (by decide)).trans rfl

theorem eq_main_v45 (V : Valuation τ sig (Elt F)) :
    after ops V (main_v45 : DevRef τ sig)
      = concatenate S49152x1536 1 [⟨S49152x512, after ops V (main_v37 : DevRef τ sig)⟩, ⟨S49152x512, after ops V (main_v44 : DevRef τ sig)⟩, ⟨S49152x512, after ops V (main_v26 : DevRef τ sig)⟩] concatenates_S49152x512_S49152x512_S49152x512_S49152x1536_d1 :=
  (after_nary writesEach V 77 ![main_v37, main_v44, main_v26] main_v45 _ _ _ rfl (by decide) (by decide)).trans rfl

theorem eq_main_v46 (V : Valuation τ sig (Elt F)) :
    after ops V (main_v46 : DevRef τ sig)
      = ((fun l r => Host.dotGeneral dot_S49152x1536_S1536x512_S49152x512_1_0_0_1_n_n none l r) : (⟨S49152x1536, .f32⟩ : BufTy).Contents (Elt F) → (⟨S1536x512, .f32⟩ : BufTy).Contents (Elt F) → (⟨S49152x512, .f32⟩ : BufTy).Contents (Elt F)) (after ops V (main_v45 : DevRef τ sig)) (after ops V (main_arg10 : DevRef τ sig)) :=
  (after_binary writesEach V 78 main_v45 main_arg10 main_v46 _ _ _ _ rfl (by decide) (by decide) (by decide)).trans rfl

theorem eq_main_v47 (V : Valuation τ sig (Elt F)) :
    after ops V (main_v47 : DevRef τ sig)
      = (broadcastInDim S1x512 ![1] bcast_S512_S1x512_1 : (⟨S512, .f32⟩ : BufTy).Contents (Elt F) → (⟨S1x512, .f32⟩ : BufTy).Contents (Elt F)) (after ops V (main_arg11 : DevRef τ sig)) :=
  (after_unary writesEach V 79 main_arg11 main_v47 _ _ _ rfl (by decide) (by decide)).trans rfl

theorem eq_main_v48 (V : Valuation τ sig (Elt F)) :
    after ops V (main_v48 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v47 : DevRef τ sig)) :=
  (after_unary writesEach V 80 main_v47 main_v48 _ _ _ rfl (by decide) (by decide)).trans rfl

theorem eq_main_v49 (V : Valuation τ sig (Elt F)) :
    after ops V (main_v49 : DevRef τ sig)
      = (addf : (⟨S49152x512, .f32⟩ : BufTy).Contents (Elt F) → (⟨S49152x512, .f32⟩ : BufTy).Contents (Elt F) → (⟨S49152x512, .f32⟩ : BufTy).Contents (Elt F)) (after ops V (main_v46 : DevRef τ sig)) (after ops V (main_v48 : DevRef τ sig)) :=
  (after_binary writesEach V 81 main_v46 main_v48 main_v49 _ _ _ _ rfl (by decide) (by decide) (by decide)).trans rfl

theorem eq_main_call2_cst (V : Valuation τ sig (Elt F)) :
    after ops V (main_call2_cst : DevRef τ sig)
      = ((constant S_ .f32 0x00000000#32) : (⟨S_, .f32⟩ : BufTy).Contents (Elt F)) :=
  (after_nullary writesEach V 82 main_call2_cst _ _ rfl (by decide)).trans rfl

theorem eq_main_call2_v0 (V : Valuation τ sig (Elt F)) :
    after ops V (main_call2_v0 : DevRef τ sig)
      = ((broadcastInDim S49152x512 ![] bcast_S_S49152x512) : (⟨S_, .f32⟩ : BufTy).Contents (Elt F) → (⟨S49152x512, .f32⟩ : BufTy).Contents (Elt F)) (after ops V (main_call2_cst : DevRef τ sig)) :=
  (after_unary writesEach V 83 main_call2_cst main_call2_v0 _ _ _ rfl (by decide) (by decide)).trans rfl

theorem eq_main_v50 (V : Valuation τ sig (Elt F)) :
    after ops V (main_v50 : DevRef τ sig)
      = ((maximumf) : (⟨S49152x512, .f32⟩ : BufTy).Contents (Elt F) → (⟨S49152x512, .f32⟩ : BufTy).Contents (Elt F) → (⟨S49152x512, .f32⟩ : BufTy).Contents (Elt F)) (after ops V (main_v49 : DevRef τ sig)) (after ops V (main_call2_v0 : DevRef τ sig)) :=
  (after_binary writesEach V 84 main_v49 main_call2_v0 main_v50 _ _ _ _ rfl (by decide) (by decide) (by decide)).trans rfl

theorem eq_main_v51 (V : Valuation τ sig (Elt F)) :
    after ops V (main_v51 : DevRef τ sig)
      = ((fun l r => Host.dotGeneral dot_S49152x512_S512x512_S49152x512_1_0_0_1_n_n none l r) : (⟨S49152x512, .f32⟩ : BufTy).Contents (Elt F) → (⟨S512x512, .f32⟩ : BufTy).Contents (Elt F) → (⟨S49152x512, .f32⟩ : BufTy).Contents (Elt F)) (after ops V (main_v50 : DevRef τ sig)) (after ops V (main_arg12 : DevRef τ sig)) :=
  (after_binary writesEach V 85 main_v50 main_arg12 main_v51 _ _ _ _ rfl (by decide) (by decide) (by decide)).trans rfl

end Cert.ReferenceIdeal.RefRun

end
-- ==== Proof.RefEqs1.lean ====
/-
  One equation per operation of stretch 1 of the reference function's line: what the operation's result buffer holds after
  the whole line is the operation's function of what its operand buffers hold after the whole line (the operands are
  written earlier, the result by no later operation).
-/
import proofs.«111695_j88261577933428_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v52 (V : Valuation τ sig (Elt F)) :
    after ops V (main_v52 : DevRef τ sig)
      = (broadcastInDim S1x512 ![1] bcast_S512_S1x512_1 : (⟨S512, .f32⟩ : BufTy).Contents (Elt F) → (⟨S1x512, .f32⟩ : BufTy).Contents (Elt F)) (after ops V (main_arg13 : DevRef τ sig)) :=
  (after_unary writesEach V 86 main_arg13 main_v52 _ _ _ rfl (by decide) (by decide)).trans rfl

theorem eq_main_v53 (V : Valuation τ sig (Elt F)) :
    after ops V (main_v53 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v52 : DevRef τ sig)) :=
  (after_unary writesEach V 87 main_v52 main_v53 _ _ _ rfl (by decide) (by decide)).trans rfl

theorem eq_main_v54 (V : Valuation τ sig (Elt F)) :
    after ops V (main_v54 : DevRef τ sig)
      = (addf : (⟨S49152x512, .f32⟩ : BufTy).Contents (Elt F) → (⟨S49152x512, .f32⟩ : BufTy).Contents (Elt F) → (⟨S49152x512, .f32⟩ : BufTy).Contents (Elt F)) (after ops V (main_v51 : DevRef τ sig)) (after ops V (main_v53 : DevRef τ sig)) :=
  (after_binary writesEach V 88 main_v51 main_v53 main_v54 _ _ _ _ rfl (by decide) (by decide) (by decide)).trans rfl

theorem eq_main_cst_6 (V : Valuation τ sig (Elt F)) :
    after ops V (main_cst_6 : DevRef τ sig)
      = ((constant S_ .f32 0x00000000#32) : (⟨S_, .f32⟩ : BufTy).Contents (Elt F)) :=
  (after_nullary writesEach V 89 main_cst_6 _ _ rfl (by decide)).trans rfl

theorem eq_main_v55 (V : Valuation τ sig (Elt F)) :
    after ops V (main_v55 : DevRef τ sig)
      = ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) (after ops V (main_v54 : DevRef τ sig)) (after ops V (main_cst_6 : DevRef τ sig)) :=
  (after_binary writesEach V 90 main_v54 main_cst_6 main_v55 _ _ _ _ rfl (by decide) (by decide) (by decide)).trans rfl

theorem eq_main_v56 (V : Valuation τ sig (Elt F)) :
    after ops V (main_v56 : DevRef τ sig)
      = (broadcastInDim S49152x1 ![0] bcast_S49152_S49152x1_0 : (⟨S49152, .f32⟩ : BufTy).Contents (Elt F) → (⟨S49152x1, .f32⟩ : BufTy).Contents (Elt F)) (after ops V (main_v55 : DevRef τ sig)) :=
  (after_unary writesEach V 91 main_v55 main_v56 _ _ _ rfl (by decide) (by decide)).trans rfl

theorem eq_main_cst_7 (V : Valuation τ sig (Elt F)) :
    after ops V (main_cst_7 : DevRef τ sig)
      = ((constant S_ .f32 0x44000000#32) : (⟨S_, .f32⟩ : BufTy).Contents (Elt F)) :=
  (after_nullary writesEach V 92 main_cst_7 _ _ rfl (by decide)).trans rfl

theorem eq_main_v57 (V : Valuation τ sig (Elt F)) :
    after ops V (main_v57 : DevRef τ sig)
      = (broadcastInDim S49152x1 ![] bcast_S_S49152x1 : (⟨S_, .f32⟩ : BufTy).Contents (Elt F) → (⟨S49152x1, .f32⟩ : BufTy).Contents (Elt F)) (after ops V (main_cst_7 : DevRef τ sig)) :=
  (after_unary writesEach V 93 main_cst_7 main_v57 _ _ _ rfl (by decide) (by decide)).trans rfl

theorem eq_main_v58 (V : Valuation τ sig (Elt F)) :
    after ops V (main_v58 : DevRef τ sig)
      = (Host.divf : (⟨S49152x1, .f32⟩ : BufTy).Contents (Elt F) → (⟨S49152x1, .f32⟩ : BufTy).Contents (Elt F) → (⟨S49152x1, .f32⟩ : BufTy).Contents (Elt F)) (after ops V (main_v56 : DevRef τ sig)) (after ops V (main_v57 : DevRef τ sig)) :=
  (after_binary writesEach V 94 main_v56 main_v57 main_v58 _ _ _ _ rfl (by decide) (by decide) (by decide)).trans rfl

theorem eq_main_c_8 (V : Valuation τ sig (Elt F)) :
    after ops V (main_c_8 : DevRef τ sig)
      = ((constantI S_ 32 0#32) : (⟨S_, .i32⟩ : BufTy).Contents (Elt F)) :=
  (after_nullary writesEach V 95 main_c_8 _ _ rfl (by decide)).trans rfl

theorem eq_main_call3_cst (V : Valuation τ sig (Elt F)) :
    after ops V (main_call3_cst : DevRef τ sig)
      = ((constant S_ .f32 0x00000000#32) : (⟨S_, .f32⟩ : BufTy).Contents (Elt F)) :=
  (after_nullary writesEach V 96 main_call3_cst _ _ rfl (by decide)).trans rfl

theorem eq_main_call3_v0 (V : Valuation τ sig (Elt F)) :
    after ops V (main_call3_v0 : DevRef τ sig)
      = ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) (after ops V (main_v54 : DevRef τ sig)) (after ops V (main_call3_cst : DevRef τ sig)) :=
  (after_binary writesEach V 97 main_v54 main_call3_cst main_call3_v0 _ _ _ _ rfl (by decide) (by decide) (by decide)).trans rfl

theorem eq_main_call3_v1 (V : Valuation τ sig (Elt F)) :
    after ops V (main_call3_v1 : DevRef τ sig)
      = ((broadcastInDim S49152x1 ![0] bcast_S49152_S49152x1_0) : (⟨S49152, .f32⟩ : BufTy).Contents (Elt F) → (⟨S49152x1, .f32⟩ : BufTy).Contents (Elt F)) (after ops V (main_call3_v0 : DevRef τ sig)) :=
  (after_unary writesEach V 98 main_call3_v0 main_call3_v1 _ _ _ rfl (by decide) (by decide)).trans rfl

theorem eq_main_call3_cst_0 (V : Valuation τ sig (Elt F)) :
    after ops V (main_call3_cst_0 : DevRef τ sig)
      = ((constant S_ .f32 0x44000000#32) : (⟨S_, .f32⟩ : BufTy).Contents (Elt F)) :=
  (after_nullary writesEach V 99 main_call3_cst_0 _ _ rfl (by decide)).trans rfl

theorem eq_main_call3_v2 (V : Valuation τ sig (Elt F)) :
    after ops V (main_call3_v2 : DevRef τ sig)
      = ((broadcastInDim S49152x1 ![] bcast_S_S49152x1) : (⟨S_, .f32⟩ : BufTy).Contents (Elt F) → (⟨S49152x1, .f32⟩ : BufTy).Contents (Elt F)) (after ops V (main_call3_cst_0 : DevRef τ sig)) :=
  (after_unary writesEach V 100 main_call3_cst_0 main_call3_v2 _ _ _ rfl (by decide) (by decide)).trans rfl

theorem eq_main_call3_v3 (V : Valuation τ sig (Elt F)) :
    after ops V (main_call3_v3 : DevRef τ sig)
      = ((Host.divf) : (⟨S49152x1, .f32⟩ : BufTy).Contents (Elt F) → (⟨S49152x1, .f32⟩ : BufTy).Contents (Elt F) → (⟨S49152x1, .f32⟩ : BufTy).Contents (Elt F)) (after ops V (main_call3_v1 : DevRef τ sig)) (after ops V (main_call3_v2 : DevRef τ sig)) :=
  (after_binary writesEach V 101 main_call3_v1 main_call3_v2 main_call3_v3 _ _ _ _ rfl (by decide) (by decide) (by decide)).trans rfl

theorem eq_main_call3_v4 (V : Valuation τ sig (Elt F)) :
    after ops V (main_call3_v4 : DevRef τ sig)
      = ((broadcastInDim S49152x512 ![0, 1] bcast_S49152x1_S49152x512_0_1) : (⟨S49152x1, .f32⟩ : BufTy).Contents (Elt F) → (⟨S49152x512, .f32⟩ : BufTy).Contents (Elt F)) (after ops V (main_call3_v3 : DevRef τ sig)) :=
  (after_unary writesEach V 102 main_call3_v3 main_call3_v4 _ _ _ rfl (by decide) (by decide)).trans rfl

theorem eq_main_call3_v5 (V : Valuation τ sig (Elt F)) :
    after ops V (main_call3_v5 : DevRef τ sig)
      = ((subf) : (⟨S49152x512, .f32⟩ : BufTy).Contents (Elt F) → (⟨S49152x512, .f32⟩ : BufTy).Contents (Elt F) → (⟨S49152x512, .f32⟩ : BufTy).Contents (Elt F)) (after ops V (main_v54 : DevRef τ sig)) (after ops V (main_call3_v4 : DevRef τ sig)) :=
  (after_binary writesEach V 103 main_v54 main_call3_v4 main_call3_v5 _ _ _ _ rfl (by decide) (by decide) (by decide)).trans rfl

theorem eq_main_call3_v6 (V : Valuation τ sig (Elt F)) :
    after ops V (main_call3_v6 : DevRef τ sig)
      = ((mulf) : (⟨S49152x512, .f32⟩ : BufTy).Contents (Elt F) → (⟨S49152x512, .f32⟩ : BufTy).Contents (Elt F) → (⟨S49152x512, .f32⟩ : BufTy).Contents (Elt F)) (after ops V (main_call3_v5 : DevRef τ sig)) (after ops V (main_call3_v5 : DevRef τ sig)) :=
  (after_binary writesEach V 104 main_call3_v5 main_call3_v5 main_call3_v6 _ _ _ _ rfl (by decide) (by decide) (by decide)).trans rfl

theorem eq_main_call3_v7 (V : Valuation τ sig (Elt F)) :
    after ops V (main_call3_v7 : DevRef τ sig)
      = ((sitofp .f32) : (⟨S_, .i32⟩ : BufTy).Contents (Elt F) → (⟨S_, .f32⟩ : BufTy).Contents (Elt F)) (after ops V (main_c_8 : DevRef τ sig)) :=
  (after_unary writesEach V 105 main_c_8 main_call3_v7 _ _ _ rfl (by decide) (by decide)).trans rfl

theorem eq_main_call3_cst_1 (V : Valuation τ sig (Elt F)) :
    after ops V (main_call3_cst_1 : DevRef τ sig)
      = ((constant S_ .f32 0x44000000#32) : (⟨S_, .f32⟩ : BufTy).Contents (Elt F)) :=
  (after_nullary writesEach V 106 main_call3_cst_1 _ _ rfl (by decide)).trans rfl

theorem eq_main_call3_v8 (V : Valuation τ sig (Elt F)) :
    after ops V (main_call3_v8 : DevRef τ sig)
      = ((subf) : (⟨S_, .f32⟩ : BufTy).Contents (Elt F) → (⟨S_, .f32⟩ : BufTy).Contents (Elt F) → (⟨S_, .f32⟩ : BufTy).Contents (Elt F)) (after ops V (main_call3_cst_1 : DevRef τ sig)) (after ops V (main_call3_v7 : DevRef τ sig)) :=
  (after_binary writesEach V 107 main_call3_cst_1 main_call3_v7 main_call3_v8 _ _ _ _ rfl (by decide) (by decide) (by decide)).trans rfl

theorem eq_main_call3_cst_2 (V : Valuation τ sig (Elt F)) :
    after ops V (main_call3_cst_2 : DevRef τ sig)
      = ((constant S_ .f32 0x00000000#32) : (⟨S_, .f32⟩ : BufTy).Contents (Elt F)) :=
  (after_nullary writesEach V 108 main_call3_cst_2 _ _ rfl (by decide)).trans rfl

theorem eq_main_call3_v9 (V : Valuation τ sig (Elt F)) :
    after ops V (main_call3_v9 : DevRef τ sig)
      = ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) (after ops V (main_call3_v6 : DevRef τ sig)) (after ops V (main_call3_cst_2 : DevRef τ sig)) :=
  (after_binary writesEach V 109 main_call3_v6 main_call3_cst_2 main_call3_v9 _ _ _ _ rfl (by decide) (by decide) (by decide)).trans rfl

theorem eq_main_call3_v10 (V : Valuation τ sig (Elt F)) :
    after ops V (main_call3_v10 : DevRef τ sig)
      = ((broadcastInDim S49152x1 ![0] bcast_S49152_S49152x1_0) : (⟨S49152, .f32⟩ : BufTy).Contents (Elt F) → (⟨S49152x1, .f32⟩ : BufTy).Contents (Elt F)) (after ops V (main_call3_v9 : DevRef τ sig)) :=
  (after_unary writesEach V 110 main_call3_v9 main_call3_v10 _ _ _ rfl (by decide) (by decide)).trans rfl

theorem eq_main_call3_v11 (V : Valuation τ sig (Elt F)) :
    after ops V (main_call3_v11 : DevRef τ sig)
      = ((broadcastInDim S49152x1 ![] bcast_S_S49152x1) : (⟨S_, .f32⟩ : BufTy).Contents (Elt F) → (⟨S49152x1, .f32⟩ : BufTy).Contents (Elt F)) (after ops V (main_call3_v8 : DevRef τ sig)) :=
  (after_unary writesEach V 111 main_call3_v8 main_call3_v11 _ _ _ rfl (by decide) (by decide)).trans rfl

theorem eq_main_call3_v12 (V : Valuation τ sig (Elt F)) :
    after ops V (main_call3_v12 : DevRef τ sig)
      = ((Host.divf) : (⟨S49152x1, .f32⟩ : BufTy).Contents (Elt F) → (⟨S49152x1, .f32⟩ : BufTy).Contents (Elt F) → (⟨S49152x1, .f32⟩ : BufTy).Contents (Elt F)) (after ops V (main_call3_v10 : DevRef τ sig)) (after ops V (main_call3_v11 : DevRef τ sig)) :=
  (after_binary writesEach V 112 main_call3_v10 main_call3_v11 main_call3_v12 _ _ _ _ rfl (by decide) (by decide) (by decide)).trans rfl

theorem eq_main_call3_cst_3 (V : Valuation τ sig (Elt F)) :
    after ops V (main_call3_cst_3 : DevRef τ sig)
      = ((constant S_ .f32 0x00000000#32) : (⟨S_, .f32⟩ : BufTy).Contents (Elt F)) :=
  (after_nullary writesEach V 113 main_call3_cst_3 _ _ rfl (by decide)).trans rfl

theorem eq_main_call3_v13 (V : Valuation τ sig (Elt F)) :
    after ops V (main_call3_v13 : DevRef τ sig)
      = ((cmpf .ogt) : (⟨S_, .f32⟩ : BufTy).Contents (Elt F) → (⟨S_, .f32⟩ : BufTy).Contents (Elt F) → (⟨S_, .i1⟩ : BufTy).Contents (Elt F)) (after ops V (main_call3_v8 : DevRef τ sig)) (after ops V (main_call3_cst_3 : DevRef τ sig)) :=
  (after_binary writesEach V 114 main_call3_v8 main_call3_cst_3 main_call3_v13 _ _ _ _ rfl (by decide) (by decide) (by decide)).trans rfl

theorem eq_main_call3_cst_4 (V : Valuation τ sig (Elt F)) :
    after ops V (main_call3_cst_4 : DevRef τ sig)
      = ((constant S_ .f32 0x7FC00000#32) : (⟨S_, .f32⟩ : BufTy).Contents (Elt F)) :=
  (after_nullary writesEach V 115 main_call3_cst_4 _ _ rfl (by decide)).trans rfl

theorem eq_main_call3_call0_v0 (V : Valuation τ sig (Elt F)) :
    after ops V (main_call3_call0_v0 : DevRef τ sig)
      = ((id) : (⟨S_, .f32⟩ : BufTy).Contents (Elt F) → (⟨S_, .f32⟩ : BufTy).Contents (Elt F)) (after ops V (main_call3_cst_4 : DevRef τ sig)) :=
  (after_unary writesEach V 116 main_call3_cst_4 main_call3_call0_v0 _ _ _ rfl (by decide) (by decide)).trans rfl

theorem eq_main_call3_call0_v1 (V : Valuation τ sig (Elt F)) :
    after ops V (main_call3_call0_v1 : DevRef τ sig)
      = ((broadcastInDim S49152x1 ![] bcast_S_S49152x1) : (⟨S_, .f32⟩ : BufTy).Contents (Elt F) → (⟨S49152x1, .f32⟩ : BufTy).Contents (Elt F)) (after ops V (main_call3_call0_v0 : DevRef τ sig)) :=
  (after_unary writesEach V 117 main_call3_call0_v0 main_call3_call0_v1 _ _ _ rfl (by decide) (by decide)).trans rfl

theorem eq_main_v59 (V : Valuation τ sig (Elt F)) :
    after ops V (main_v59 : DevRef τ sig)
      = ((fun p a b => select (broadcastInDim S49152x1 ![] bcast_S_S49152x1 p) a b) : (⟨S_, .i1⟩ : BufTy).Contents (Elt F) → (⟨S49152x1, .f32⟩ : BufTy).Contents (Elt F) → (⟨S49152x1, .f32⟩ : BufTy).Contents (Elt F) → (⟨S49152x1, .f32⟩ : BufTy).Contents (Elt F)) (after ops V (main_call3_v13 : DevRef τ sig)) (after ops V (main_call3_v12 : DevRef τ sig)) (after ops V (main_call3_call0_v1 : DevRef τ sig)) :=
  (after_ternary writesEach V 118 main_call3_v13 main_call3_v12 main_call3_call0_v1 main_v59 _ _ _ _ _ rfl (by decide) (by decide) (by decide) (by decide)).trans rfl

theorem eq_main_v60 (V : Valuation τ sig (Elt F)) :
    after ops V (main_v60 : DevRef τ sig)
      = (broadcastInDim S49152x512 ![0, 1] bcast_S49152x1_S49152x512_0_1 : (⟨S49152x1, .f32⟩ : BufTy).Contents (Elt F) → (⟨S49152x512, .f32⟩ : BufTy).Contents (Elt F)) (after ops V (main_v58 : DevRef τ sig)) :=
  (after_unary writesEach V 119 main_v58 main_v60 _ _ _ rfl (by decide) (by decide)).trans rfl

theorem eq_main_v61 (V : Valuation τ sig (Elt F)) :
    after ops V (main_v61 : DevRef τ sig)
      = (subf : (⟨S49152x512, .f32⟩ : BufTy).Contents (Elt F) → (⟨S49152x512, .f32⟩ : BufTy).Contents (Elt F) → (⟨S49152x512, .f32⟩ : BufTy).Contents (Elt F)) (after ops V (main_v54 : DevRef τ sig)) (after ops V (main_v60 : DevRef τ sig)) :=
  (after_binary writesEach V 120 main_v54 main_v60 main_v61 _ _ _ _ rfl (by decide) (by decide) (by decide)).trans rfl

theorem eq_main_cst_9 (V : Valuation τ sig (Elt F)) :
    after ops V (main_cst_9 : DevRef τ sig)
      = ((constant S_ .f32 0x3727C5AC#32) : (⟨S_, .f32⟩ : BufTy).Contents (Elt F)) :=
  (after_nullary writesEach V 121 main_cst_9 _ _ rfl (by decide)).trans rfl

theorem eq_main_v62 (V : Valuation τ sig (Elt F)) :
    after ops V (main_v62 : DevRef τ sig)
      = (broadcastInDim S49152x1 ![] bcast_S_S49152x1 : (⟨S_, .f32⟩ : BufTy).Contents (Elt F) → (⟨S49152x1, .f32⟩ : BufTy).Contents (Elt F)) (after ops V (main_cst_9 : DevRef τ sig)) :=
  (after_unary writesEach V 122 main_cst_9 main_v62 _ _ _ rfl (by decide) (by decide)).trans rfl

theorem eq_main_v63 (V : Valuation τ sig (Elt F)) :
    after ops V (main_v63 : DevRef τ sig)
      = (addf : (⟨S49152x1, .f32⟩ : BufTy).Contents (Elt F) → (⟨S49152x1, .f32⟩ : BufTy).Contents (Elt F) → (⟨S49152x1, .f32⟩ : BufTy).Contents (Elt F)) (after ops V (main_v59 : DevRef τ sig)) (after ops V (main_v62 : DevRef τ sig)) :=
  (after_binary writesEach V 123 main_v59 main_v62 main_v63 _ _ _ _ rfl (by decide) (by decide) (by decide)).trans rfl

theorem eq_main_v64 (V : Valuation τ sig (Elt F)) :
    after ops V (main_v64 : DevRef τ sig)
      = (Host.rsqrt : (⟨S49152x1, .f32⟩ : BufTy).Contents (Elt F) → (⟨S49152x1, .f32⟩ : BufTy).Contents (Elt F)) (after ops V (main_v63 : DevRef τ sig)) :=
  (after_unary writesEach V 124 main_v63 main_v64 _ _ _ rfl (by decide) (by decide)).trans rfl

theorem eq_main_v65 (V : Valuation τ sig (Elt F)) :
    after ops V (main_v65 : DevRef τ sig)
      = (broadcastInDim S49152x512 ![0, 1] bcast_S49152x1_S49152x512_0_1 : (⟨S49152x1, .f32⟩ : BufTy).Contents (Elt F) → (⟨S49152x512, .f32⟩ : BufTy).Contents (Elt F)) (after ops V (main_v64 : DevRef τ sig)) :=
  (after_unary writesEach V 125 main_v64 main_v65 _ _ _ rfl (by decide) (by decide)).trans rfl

theorem eq_main_v66 (V : Valuation τ sig (Elt F)) :
    after ops V (main_v66 : DevRef τ sig)
      = (mulf : (⟨S49152x512, .f32⟩ : BufTy).Contents (Elt F) → (⟨S49152x512, .f32⟩ : BufTy).Contents (Elt F) → (⟨S49152x512, .f32⟩ : BufTy).Contents (Elt F)) (after ops V (main_v61 : DevRef τ sig)) (after ops V (main_v65 : DevRef τ sig)) :=
  (after_binary writesEach V 126 main_v61 main_v65 main_v66 _ _ _ _ rfl (by decide) (by decide) (by decide)).trans rfl

theorem eq_main_v67 (V : Valuation τ sig (Elt F)) :
    after ops V (main_v67 : DevRef τ sig)
      = (broadcastInDim S1x512 ![1] bcast_S512_S1x512_1 : (⟨S512, .f32⟩ : BufTy).Contents (Elt F) → (⟨S1x512, .f32⟩ : BufTy).Contents (Elt F)) (after ops V (main_arg14 : DevRef τ sig)) :=
  (after_unary writesEach V 127 main_arg14 main_v67 _ _ _ rfl (by decide) (by decide)).trans rfl

theorem eq_main_v68 (V : Valuation τ sig (Elt F)) :
    after ops V (main_v68 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v67 : DevRef τ sig)) :=
  (after_unary writesEach V 128 main_v67 main_v68 _ _ _ rfl (by decide) (by decide)).trans rfl

theorem eq_main_v69 (V : Valuation τ sig (Elt F)) :
    after ops V (main_v69 : DevRef τ sig)
      = (mulf : (⟨S49152x512, .f32⟩ : BufTy).Contents (Elt F) → (⟨S49152x512, .f32⟩ : BufTy).Contents (Elt F) → (⟨S49152x512, .f32⟩ : BufTy).Contents (Elt F)) (after ops V (main_v66 : DevRef τ sig)) (after ops V (main_v68 : DevRef τ sig)) :=
  (after_binary writesEach V 129 main_v66 main_v68 main_v69 _ _ _ _ rfl (by decide) (by decide) (by decide)).trans rfl

theorem eq_main_v70 (V : Valuation τ sig (Elt F)) :
    after ops V (main_v70 : DevRef τ sig)
      = (broadcastInDim S1x512 ![1] bcast_S512_S1x512_1 : (⟨S512, .f32⟩ : BufTy).Contents (Elt F) → (⟨S1x512, .f32⟩ : BufTy).Contents (Elt F)) (after ops V (main_arg15 : DevRef τ sig)) :=
  (after_unary writesEach V 130 main_arg15 main_v70 _ _ _ rfl (by decide) (by decide)).trans rfl

theorem eq_main_v71 (V : Valuation τ sig (Elt F)) :
    after ops V (main_v71 : DevRef τ sig)
      = (broadcastInDim S49152x512 ![0, 1] bcast_S1x512_S49152x512_0_1 : (⟨S1x512, .f32⟩ : BufTy).Contents (Elt F) → (⟨S49152x512, .f32⟩ : BufTy).Contents (Elt F)) (after ops V (main_v70 : DevRef τ sig)) :=
  (after_unary writesEach V 131 main_v70 main_v71 _ _ _ rfl (by decide) (by decide)).trans rfl

theorem eq_main_v72 (V : Valuation τ sig (Elt F)) :
    after ops V (main_v72 : DevRef τ sig)
      = (addf : (⟨S49152x512, .f32⟩ : BufTy).Contents (Elt F) → (⟨S49152x512, .f32⟩ : BufTy).Contents (Elt F) → (⟨S49152x512, .f32⟩ : BufTy).Contents (Elt F)) (after ops V (main_v69 : DevRef τ sig)) (after ops V (main_v71 : DevRef τ sig)) :=
  (after_binary writesEach V 132 main_v69 main_v71 main_v72 _ _ _ _ rfl (by decide) (by decide) (by decide)).trans rfl

theorem eq_main_cst_10 (V : Valuation τ sig (Elt F)) :
    after ops V (main_cst_10 : DevRef τ sig)
      = ((constant S_ .f32 0x00000000#32) : (⟨S_, .f32⟩ : BufTy).Contents (Elt F)) :=
  (after_nullary writesEach V 133 main_cst_10 _ _ rfl (by decide)).trans rfl

theorem eq_main_v73 (V : Valuation τ sig (Elt F)) :
    after ops V (main_v73 : DevRef τ sig)
      = (broadcastInDim S16384x512 ![] bcast_S_S16384x512 : (⟨S_, .f32⟩ : BufTy).Contents (Elt F) → (⟨S16384x512, .f32⟩ : BufTy).Contents (Elt F)) (after ops V (main_cst_10 : DevRef τ sig)) :=
  (after_unary writesEach V 134 main_cst_10 main_v73 _ _ _ rfl (by decide) (by decide)).trans rfl

theorem eq_main_v74 (V : Valuation τ sig (Elt F)) :
    after ops V (main_v74 : DevRef τ sig)
      = (broadcastInDim S49152x1 ![0] bcast_S49152_S49152x1_0 : (⟨S49152, .i32⟩ : BufTy).Contents (Elt F) → (⟨S49152x1, .i32⟩ : BufTy).Contents (Elt F)) (after ops V (main_v30 : DevRef τ sig)) :=
  (after_unary writesEach V 135 main_v30 main_v74 _ _ _ rfl (by decide) (by decide)).trans rfl

theorem eq_main_v75 (V : Valuation τ sig (Elt F)) :
    after ops V (main_v75 : DevRef τ sig)
      = ((fun x i u => Host.scatterAdd scatter_S16384x512_S49152x1_S49152x512_1_0_0_1 x i u) : (⟨S16384x512, .f32⟩ : BufTy).Contents (Elt F) → (⟨S49152x1, .i32⟩ : BufTy).Contents (Elt F) → (⟨S49152x512, .f32⟩ : BufTy).Contents (Elt F) → (⟨S16384x512, .f32⟩ : BufTy).Contents (Elt F)) (after ops V (main_v73 : DevRef τ sig)) (after ops V (main_v74 : DevRef τ sig)) (after ops V (main_v72 : DevRef τ sig)) :=
  (after_ternary writesEach V 136 main_v73 main_v74 main_v72 main_v75 _ _ _ _ _ rfl (by decide) (by decide) (by decide) (by decide)).trans rfl

theorem eq_main_v76 (V : Valuation τ sig (Elt F)) :
    after ops V (main_v76 : DevRef τ sig)
      = ((fun a b => concatenate S16384x1024 1 [⟨S16384x512, a⟩, ⟨S16384x512, b⟩] concatenates_S16384x512_S16384x512_S16384x1024_d1) : (⟨S16384x512, .f32⟩ : BufTy).Contents (Elt F) → (⟨S16384x512, .f32⟩ : BufTy).Contents (Elt F) → (⟨S16384x1024, .f32⟩ : BufTy).Contents (Elt F)) (after ops V (main_arg1 : DevRef τ sig)) (after ops V (main_v75 : DevRef τ sig)) :=
  (after_binary writesEach V 137 main_arg1 main_v75 main_v76 _ _ _ _ rfl (by decide) (by decide) (by decide)).trans rfl

theorem eq_main_v77 (V : Valuation τ sig (Elt F)) :
    after ops V (main_v77 : DevRef τ sig)
      = ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)) (after ops V (main_v76 : DevRef τ sig)) (after ops V (main_arg16 : DevRef τ sig)) :=
  (after_binary writesEach V 138 main_v76 main_arg16 main_v77 _ _ _ _ rfl (by decide) (by decide) (by decide)).trans rfl

theorem eq_main_v78 (V : Valuation τ sig (Elt F)) :
    after ops V (main_v78 : DevRef τ sig)
      = (broadcastInDim S1x512 ![1] bcast_S512_S1x512_1 : (⟨S512, .f32⟩ : BufTy).Contents (Elt F) → (⟨S1x512, .f32⟩ : BufTy).Contents (Elt F)) (after ops V (main_arg17 : DevRef τ sig)) :=
  (after_unary writesEach V 139 main_arg17 main_v78 _ _ _ rfl (by decide) (by decide)).trans rfl

theorem eq_main_v79 (V : Valuation τ sig (Elt F)) :
    after ops V (main_v79 : DevRef τ sig)
      = (broadcastInDim S16384x512 ![0, 1] bcast_S1x512_S16384x512_0_1 : (⟨S1x512, .f32⟩ : BufTy).Contents (Elt F) → (⟨S16384x512, .f32⟩ : BufTy).Contents (Elt F)) (after ops V (main_v78 : DevRef τ sig)) :=
  (after_unary writesEach V 140 main_v78 main_v79 _ _ _ rfl (by decide) (by decide)).trans rfl

theorem eq_main_v80 (V : Valuation τ sig (Elt F)) :
    after ops V (main_v80 : DevRef τ sig)
      = (addf : (⟨S16384x512, .f32⟩ : BufTy).Contents (Elt F) → (⟨S16384x512, .f32⟩ : BufTy).Contents (Elt F) → (⟨S16384x512, .f32⟩ : BufTy).Contents (Elt F)) (after ops V (main_v77 : DevRef τ sig)) (after ops V (main_v79 : DevRef τ sig)) :=
  (after_binary writesEach V 141 main_v77 main_v79 main_v80 _ _ _ _ rfl (by decide) (by decide) (by decide)).trans rfl

theorem eq_main_call4_cst (V : Valuation τ sig (Elt F)) :
    after ops V (main_call4_cst : DevRef τ sig)
      = ((constant S_ .f32 0x00000000#32) : (⟨S_, .f32⟩ : BufTy).Contents (Elt F)) :=
  (after_nullary writesEach V 142 main_call4_cst _ _ rfl (by decide)).trans rfl

theorem eq_main_call4_v0 (V : Valuation τ sig (Elt F)) :
    after ops V (main_call4_v0 : DevRef τ sig)
      = ((broadcastInDim S16384x512 ![] bcast_S_S16384x512) : (⟨S_, .f32⟩ : BufTy).Contents (Elt F) → (⟨S16384x512, .f32⟩ : BufTy).Contents (Elt F)) (after ops V (main_call4_cst : DevRef τ sig)) :=
  (after_unary writesEach V 143 main_call4_cst main_call4_v0 _ _ _ rfl (by decide) (by decide)).trans rfl

theorem eq_main_v81 (V : Valuation τ sig (Elt F)) :
    after ops V (main_v81 : DevRef τ sig)
      = ((maximumf) : (⟨S16384x512, .f32⟩ : BufTy).Contents (Elt F) → (⟨S16384x512, .f32⟩ : BufTy).Contents (Elt F) → (⟨S16384x512, .f32⟩ : BufTy).Contents (Elt F)) (after ops V (main_v80 : DevRef τ sig)) (after ops V (main_call4_v0 : DevRef τ sig)) :=
  (after_binary writesEach V 144 main_v80 main_call4_v0 main_v81 _ _ _ _ rfl (by decide) (by decide) (by decide)).trans rfl

theorem eq_main_v82 (V : Valuation τ sig (Elt F)) :
    after ops V (main_v82 : DevRef τ sig)
      = ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)) (after ops V (main_v81 : DevRef τ sig)) (after ops V (main_arg18 : DevRef τ sig)) :=
  (after_binary writesEach V 145 main_v81 main_arg18 main_v82 _ _ _ _ rfl (by decide) (by decide) (by decide)).trans rfl

theorem eq_main_v83 (V : Valuation τ sig (Elt F)) :
    after ops V (main_v83 : DevRef τ sig)
      = (broadcastInDim S1x512 ![1] bcast_S512_S1x512_1 : (⟨S512, .f32⟩ : BufTy).Contents (Elt F) → (⟨S1x512, .f32⟩ : BufTy).Contents (Elt F)) (after ops V (main_arg19 : DevRef τ sig)) :=
  (after_unary writesEach V 146 main_arg19 main_v83 _ _ _ rfl (by decide) (by decide)).trans rfl

theorem eq_main_v84 (V : Valuation τ sig (Elt F)) :
    after ops V (main_v84 : DevRef τ sig)
      = (broadcastInDim S16384x512 ![0, 1] bcast_S1x512_S16384x512_0_1 : (⟨S1x512, .f32⟩ : BufTy).Contents (Elt F) → (⟨S16384x512, .f32⟩ : BufTy).Contents (Elt F)) (after ops V (main_v83 : DevRef τ sig)) :=
  (after_unary writesEach V 147 main_v83 main_v84 _ _ _ rfl (by decide) (by decide)).trans rfl

theorem eq_main_v85 (V : Valuation τ sig (Elt F)) :
    after ops V (main_v85 : DevRef τ sig)
      = (addf : (⟨S16384x512, .f32⟩ : BufTy).Contents (Elt F) → (⟨S16384x512, .f32⟩ : BufTy).Contents (Elt F) → (⟨S16384x512, .f32⟩ : BufTy).Contents (Elt F)) (after ops V (main_v82 : DevRef τ sig)) (after ops V (main_v84 : DevRef τ sig)) :=
  (after_binary writesEach V 148 main_v82 main_v84 main_v85 _ _ _ _ rfl (by decide) (by decide) (by decide)).trans rfl

theorem eq_main_cst_11 (V : Valuation τ sig (Elt F)) :
    after ops V (main_cst_11 : DevRef τ sig)
      = ((constant S_ .f32 0x00000000#32) : (⟨S_, .f32⟩ : BufTy).Contents (Elt F)) :=
  (after_nullary writesEach V 149 main_cst_11 _ _ rfl (by decide)).trans rfl

theorem eq_main_v86 (V : Valuation τ sig (Elt F)) :
    after ops V (main_v86 : DevRef τ sig)
      = ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) (after ops V (main_v85 : DevRef τ sig)) (after ops V (main_cst_11 : DevRef τ sig)) :=
  (after_binary writesEach V 150 main_v85 main_cst_11 main_v86 _ _ _ _ rfl (by decide) (by decide) (by decide)).trans rfl

theorem eq_main_v87 (V : Valuation τ sig (Elt F)) :
    after ops V (main_v87 : DevRef τ sig)
      = (broadcastInDim S16384x1 ![0] bcast_S16384_S16384x1_0 : (⟨S16384, .f32⟩ : BufTy).Contents (Elt F) → (⟨S16384x1, .f32⟩ : BufTy).Contents (Elt F)) (after ops V (main_v86 : DevRef τ sig)) :=
  (after_unary writesEach V 151 main_v86 main_v87 _ _ _ rfl (by decide) (by decide)).trans rfl

theorem eq_main_cst_12 (V : Valuation τ sig (Elt F)) :
    after ops V (main_cst_12 : DevRef τ sig)
      = ((constant S_ .f32 0x44000000#32) : (⟨S_, .f32⟩ : BufTy).Contents (Elt F)) :=
  (after_nullary writesEach V 152 main_cst_12 _ _ rfl (by decide)).trans rfl

theorem eq_main_v88 (V : Valuation τ sig (Elt F)) :
    after ops V (main_v88 : DevRef τ sig)
      = (broadcastInDim S16384x1 ![] bcast_S_S16384x1 : (⟨S_, .f32⟩ : BufTy).Contents (Elt F) → (⟨S16384x1, .f32⟩ : BufTy).Contents (Elt F)) (after ops V (main_cst_12 : DevRef τ sig)) :=
  (after_unary writesEach V 153 main_cst_12 main_v88 _ _ _ rfl (by decide) (by decide)).trans rfl

theorem eq_main_v89 (V : Valuation τ sig (Elt F)) :
    after ops V (main_v89 : DevRef τ sig)
      = (Host.divf : (⟨S16384x1, .f32⟩ : BufTy).Contents (Elt F) → (⟨S16384x1, .f32⟩ : BufTy).Contents (Elt F) → (⟨S16384x1, .f32⟩ : BufTy).Contents (Elt F)) (after ops V (main_v87 : DevRef τ sig)) (after ops V (main_v88 : DevRef τ sig)) :=
  (after_binary writesEach V 154 main_v87 main_v88 main_v89 _ _ _ _ rfl (by decide) (by decide) (by decide)).trans rfl

theorem eq_main_c_13 (V : Valuation τ sig (Elt F)) :
    after ops V (main_c_13 : DevRef τ sig)
      = ((constantI S_ 32 0#32) : (⟨S_, .i32⟩ : BufTy).Contents (Elt F)) :=
  (after_nullary writesEach V 155 main_c_13 _ _ rfl (by decide)).trans rfl

theorem eq_main_call5_cst (V : Valuation τ sig (Elt F)) :
    after ops V (main_call5_cst : DevRef τ sig)
      = ((constant S_ .f32 0x00000000#32) : (⟨S_, .f32⟩ : BufTy).Contents (Elt F)) :=
  (after_nullary writesEach V 156 main_call5_cst _ _ rfl (by decide)).trans rfl

theorem eq_main_call5_v0 (V : Valuation τ sig (Elt F)) :
    after ops V (main_call5_v0 : DevRef τ sig)
      = ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) (after ops V (main_v85 : DevRef τ sig)) (after ops V (main_call5_cst : DevRef τ sig)) :=
  (after_binary writesEach V 157 main_v85 main_call5_cst main_call5_v0 _ _ _ _ rfl (by decide) (by decide) (by decide)).trans rfl

theorem eq_main_call5_v1 (V : Valuation τ sig (Elt F)) :
    after ops V (main_call5_v1 : DevRef τ sig)
      = ((broadcastInDim S16384x1 ![0] bcast_S16384_S16384x1_0) : (⟨S16384, .f32⟩ : BufTy).Contents (Elt F) → (⟨S16384x1, .f32⟩ : BufTy).Contents (Elt F)) (after ops V (main_call5_v0 : DevRef τ sig)) :=
  (after_unary writesEach V 158 main_call5_v0 main_call5_v1 _ _ _ rfl (by decide) (by decide)).trans rfl

theorem eq_main_call5_cst_0 (V : Valuation τ sig (Elt F)) :
    after ops V (main_call5_cst_0 : DevRef τ sig)
      = ((constant S_ .f32 0x44000000#32) : (⟨S_, .f32⟩ : BufTy).Contents (Elt F)) :=
  (after_nullary writesEach V 159 main_call5_cst_0 _ _ rfl (by decide)).trans rfl

theorem eq_main_call5_v2 (V : Valuation τ sig (Elt F)) :
    after ops V (main_call5_v2 : DevRef τ sig)
      = ((broadcastInDim S16384x1 ![] bcast_S_S16384x1) : (⟨S_, .f32⟩ : BufTy).Contents (Elt F) → (⟨S16384x1, .f32⟩ : BufTy).Contents (Elt F)) (after ops V (main_call5_cst_0 : DevRef τ sig)) :=
  (after_unary writesEach V 160 main_call5_cst_0 main_call5_v2 _ _ _ rfl (by decide) (by decide)).trans rfl

theorem eq_main_call5_v3 (V : Valuation τ sig (Elt F)) :
    after ops V (main_call5_v3 : DevRef τ sig)
      = ((Host.divf) : (⟨S16384x1, .f32⟩ : BufTy).Contents (Elt F) → (⟨S16384x1, .f32⟩ : BufTy).Contents (Elt F) → (⟨S16384x1, .f32⟩ : BufTy).Contents (Elt F)) (after ops V (main_call5_v1 : DevRef τ sig)) (after ops V (main_call5_v2 : DevRef τ sig)) :=
  (after_binary writesEach V 161 main_call5_v1 main_call5_v2 main_call5_v3 _ _ _ _ rfl (by decide) (by decide) (by decide)).trans rfl

theorem eq_main_call5_v4 (V : Valuation τ sig (Elt F)) :
    after ops V (main_call5_v4 : DevRef τ sig)
      = ((broadcastInDim S16384x512 ![0, 1] bcast_S16384x1_S16384x512_0_1) : (⟨S16384x1, .f32⟩ : BufTy).Contents (Elt F) → (⟨S16384x512, .f32⟩ : BufTy).Contents (Elt F)) (after ops V (main_call5_v3 : DevRef τ sig)) :=
  (after_unary writesEach V 162 main_call5_v3 main_call5_v4 _ _ _ rfl (by decide) (by decide)).trans rfl

theorem eq_main_call5_v5 (V : Valuation τ sig (Elt F)) :
    after ops V (main_call5_v5 : DevRef τ sig)
      = ((subf) : (⟨S16384x512, .f32⟩ : BufTy).Contents (Elt F) → (⟨S16384x512, .f32⟩ : BufTy).Contents (Elt F) → (⟨S16384x512, .f32⟩ : BufTy).Contents (Elt F)) (after ops V (main_v85 : DevRef τ sig)) (after ops V (main_call5_v4 : DevRef τ sig)) :=
  (after_binary writesEach V 163 main_v85 main_call5_v4 main_call5_v5 _ _ _ _ rfl (by decide) (by decide) (by decide)).trans rfl

theorem eq_main_call5_v6 (V : Valuation τ sig (Elt F)) :
    after ops V (main_call5_v6 : DevRef τ sig)
      = ((mulf) : (⟨S16384x512, .f32⟩ : BufTy).Contents (Elt F) → (⟨S16384x512, .f32⟩ : BufTy).Contents (Elt F) → (⟨S16384x512, .f32⟩ : BufTy).Contents (Elt F)) (after ops V (main_call5_v5 : DevRef τ sig)) (after ops V (main_call5_v5 : DevRef τ sig)) :=
  (after_binary writesEach V 164 main_call5_v5 main_call5_v5 main_call5_v6 _ _ _ _ rfl (by decide) (by decide) (by decide)).trans rfl

theorem eq_main_call5_v7 (V : Valuation τ sig (Elt F)) :
    after ops V (main_call5_v7 : DevRef τ sig)
      = ((sitofp .f32) : (⟨S_, .i32⟩ : BufTy).Contents (Elt F) → (⟨S_, .f32⟩ : BufTy).Contents (Elt F)) (after ops V (main_c_13 : DevRef τ sig)) :=
  (after_unary writesEach V 165 main_c_13 main_call5_v7 _ _ _ rfl (by decide) (by decide)).trans rfl

theorem eq_main_call5_cst_1 (V : Valuation τ sig (Elt F)) :
    after ops V (main_call5_cst_1 : DevRef τ sig)
      = ((constant S_ .f32 0x44000000#32) : (⟨S_, .f32⟩ : BufTy).Contents (Elt F)) :=
  (after_nullary writesEach V 166 main_call5_cst_1 _ _ rfl (by decide)).trans rfl

theorem eq_main_call5_v8 (V : Valuation τ sig (Elt F)) :
    after ops V (main_call5_v8 : DevRef τ sig)
      = ((subf) : (⟨S_, .f32⟩ : BufTy).Contents (Elt F) → (⟨S_, .f32⟩ : BufTy).Contents (Elt F) → (⟨S_, .f32⟩ : BufTy).Contents (Elt F)) (after ops V (main_call5_cst_1 : DevRef τ sig)) (after ops V (main_call5_v7 : DevRef τ sig)) :=
  (after_binary writesEach V 167 main_call5_cst_1 main_call5_v7 main_call5_v8 _ _ _ _ rfl (by decide) (by decide) (by decide)).trans rfl

theorem eq_main_call5_cst_2 (V : Valuation τ sig (Elt F)) :
    after ops V (main_call5_cst_2 : DevRef τ sig)
      = ((constant S_ .f32 0x00000000#32) : (⟨S_, .f32⟩ : BufTy).Contents (Elt F)) :=
  (after_nullary writesEach V 168 main_call5_cst_2 _ _ rfl (by decide)).trans rfl

theorem eq_main_call5_v9 (V : Valuation τ sig (Elt F)) :
    after ops V (main_call5_v9 : DevRef τ sig)
      = ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) (after ops V (main_call5_v6 : DevRef τ sig)) (after ops V (main_call5_cst_2 : DevRef τ sig)) :=
  (after_binary writesEach V 169 main_call5_v6 main_call5_cst_2 main_call5_v9 _ _ _ _ rfl (by decide) (by decide) (by decide)).trans rfl

theorem eq_main_call5_v10 (V : Valuation τ sig (Elt F)) :
    after ops V (main_call5_v10 : DevRef τ sig)
      = ((broadcastInDim S16384x1 ![0] bcast_S16384_S16384x1_0) : (⟨S16384, .f32⟩ : BufTy).Contents (Elt F) → (⟨S16384x1, .f32⟩ : BufTy).Contents (Elt F)) (after ops V (main_call5_v9 : DevRef τ sig)) :=
  (after_unary writesEach V 170 main_call5_v9 main_call5_v10 _ _ _ rfl (by decide) (by decide)).trans rfl

theorem eq_main_call5_v11 (V : Valuation τ sig (Elt F)) :
    after ops V (main_call5_v11 : DevRef τ sig)
      = ((broadcastInDim S16384x1 ![] bcast_S_S16384x1) : (⟨S_, .f32⟩ : BufTy).Contents (Elt F) → (⟨S16384x1, .f32⟩ : BufTy).Contents (Elt F)) (after ops V (main_call5_v8 : DevRef τ sig)) :=
  (after_unary writesEach V 171 main_call5_v8 main_call5_v11 _ _ _ rfl (by decide) (by decide)).trans rfl

theorem eq_main_call5_v12 (V : Valuation τ sig (Elt F)) :
    after ops V (main_call5_v12 : DevRef τ sig)
      = ((Host.divf) : (⟨S16384x1, .f32⟩ : BufTy).Contents (Elt F) → (⟨S16384x1, .f32⟩ : BufTy).Contents (Elt F) → (⟨S16384x1, .f32⟩ : BufTy).Contents (Elt F)) (after ops V (main_call5_v10 : DevRef τ sig)) (after ops V (main_call5_v11 : DevRef τ sig)) :=
  (after_binary writesEach V 172 main_call5_v10 main_call5_v11 main_call5_v12 _ _ _ _ rfl (by decide) (by decide) (by decide)).trans rfl

theorem eq_main_call5_cst_3 (V : Valuation τ sig (Elt F)) :
    after ops V (main_call5_cst_3 : DevRef τ sig)
      = ((constant S_ .f32 0x00000000#32) : (⟨S_, .f32⟩ : BufTy).Contents (Elt F)) :=
  (after_nullary writesEach V 173 main_call5_cst_3 _ _ rfl (by decide)).trans rfl

theorem eq_main_call5_v13 (V : Valuation τ sig (Elt F)) :
    after ops V (main_call5_v13 : DevRef τ sig)
      = ((cmpf .ogt) : (⟨S_, .f32⟩ : BufTy).Contents (Elt F) → (⟨S_, .f32⟩ : BufTy).Contents (Elt F) → (⟨S_, .i1⟩ : BufTy).Contents (Elt F)) (after ops V (main_call5_v8 : DevRef τ sig)) (after ops V (main_call5_cst_3 : DevRef τ sig)) :=
  (after_binary writesEach V 174 main_call5_v8 main_call5_cst_3 main_call5_v13 _ _ _ _ rfl (by decide) (by decide) (by decide)).trans rfl

theorem eq_main_call5_cst_4 (V : Valuation τ sig (Elt F)) :
    after ops V (main_call5_cst_4 : DevRef τ sig)
      = ((constant S_ .f32 0x7FC00000#32) : (⟨S_, .f32⟩ : BufTy).Contents (Elt F)) :=
  (after_nullary writesEach V 175 main_call5_cst_4 _ _ rfl (by decide)).trans rfl

theorem eq_main_call5_call0_v0 (V : Valuation τ sig (Elt F)) :
    after ops V (main_call5_call0_v0 : DevRef τ sig)
      = ((id) : (⟨S_, .f32⟩ : BufTy).Contents (Elt F) → (⟨S_, .f32⟩ : BufTy).Contents (Elt F)) (after ops V (main_call5_cst_4 : DevRef τ sig)) :=
  (after_unary writesEach V 176 main_call5_cst_4 main_call5_call0_v0 _ _ _ rfl (by decide) (by decide)).trans rfl

theorem eq_main_call5_call0_v1 (V : Valuation τ sig (Elt F)) :
    after ops V (main_call5_call0_v1 : DevRef τ sig)
      = ((broadcastInDim S16384x1 ![] bcast_S_S16384x1) : (⟨S_, .f32⟩ : BufTy).Contents (Elt F) → (⟨S16384x1, .f32⟩ : BufTy).Contents (Elt F)) (after ops V (main_call5_call0_v0 : DevRef τ sig)) :=
  (after_unary writesEach V 177 main_call5_call0_v0 main_call5_call0_v1 _ _ _ rfl (by decide) (by decide)).trans rfl

theorem eq_main_v90 (V : Valuation τ sig (Elt F)) :
    after ops V (main_v90 : DevRef τ sig)
      = ((fun p a b => select (broadcastInDim S16384x1 ![] bcast_S_S16384x1 p) a b) : (⟨S_, .i1⟩ : BufTy).Contents (Elt F) → (⟨S16384x1, .f32⟩ : BufTy).Contents (Elt F) → (⟨S16384x1, .f32⟩ : BufTy).Contents (Elt F) → (⟨S16384x1, .f32⟩ : BufTy).Contents (Elt F)) (after ops V (main_call5_v13 : DevRef τ sig)) (after ops V (main_call5_v12 : DevRef τ sig)) (after ops V (main_call5_call0_v1 : DevRef τ sig)) :=
  (after_ternary writesEach V 178 main_call5_v13 main_call5_v12 main_call5_call0_v1 main_v90 _ _ _ _ _ rfl (by decide) (by decide) (by decide) (by decide)).trans rfl

theorem eq_main_v91 (V : Valuation τ sig (Elt F)) :
    after ops V (main_v91 : DevRef τ sig)
      = (broadcastInDim S16384x512 ![0, 1] bcast_S16384x1_S16384x512_0_1 : (⟨S16384x1, .f32⟩ : BufTy).Contents (Elt F) → (⟨S16384x512, .f32⟩ : BufTy).Contents (Elt F)) (after ops V (main_v89 : DevRef τ sig)) :=
  (after_unary writesEach V 179 main_v89 main_v91 _ _ _ rfl (by decide) (by decide)).trans rfl

theorem eq_main_v92 (V : Valuation τ sig (Elt F)) :
    after ops V (main_v92 : DevRef τ sig)
      = (subf : (⟨S16384x512, .f32⟩ : BufTy).Contents (Elt F) → (⟨S16384x512, .f32⟩ : BufTy).Contents (Elt F) → (⟨S16384x512, .f32⟩ : BufTy).Contents (Elt F)) (after ops V (main_v85 : DevRef τ sig)) (after ops V (main_v91 : DevRef τ sig)) :=
  (after_binary writesEach V 180 main_v85 main_v91 main_v92 _ _ _ _ rfl (by decide) (by decide) (by decide)).trans rfl

theorem eq_main_cst_14 (V : Valuation τ sig (Elt F)) :
    after ops V (main_cst_14 : DevRef τ sig)
      = ((constant S_ .f32 0x3727C5AC#32) : (⟨S_, .f32⟩ : BufTy).Contents (Elt F)) :=
  (after_nullary writesEach V 181 main_cst_14 _ _ rfl (by decide)).trans rfl

theorem eq_main_v93 (V : Valuation τ sig (Elt F)) :
    after ops V (main_v93 : DevRef τ sig)
      = (broadcastInDim S16384x1 ![] bcast_S_S16384x1 : (⟨S_, .f32⟩ : BufTy).Contents (Elt F) → (⟨S16384x1, .f32⟩ : BufTy).Contents (Elt F)) (after ops V (main_cst_14 : DevRef τ sig)) :=
  (after_unary writesEach V 182 main_cst_14 main_v93 _ _ _ rfl (by decide) (by decide)).trans rfl

theorem eq_main_v94 (V : Valuation τ sig (Elt F)) :
    after ops V (main_v94 : DevRef τ sig)
      = (addf : (⟨S16384x1, .f32⟩ : BufTy).Contents (Elt F) → (⟨S16384x1, .f32⟩ : BufTy).Contents (Elt F) → (⟨S16384x1, .f32⟩ : BufTy).Contents (Elt F)) (after ops V (main_v90 : DevRef τ sig)) (after ops V (main_v93 : DevRef τ sig)) :=
  (after_binary writesEach V 183 main_v90 main_v93 main_v94 _ _ _ _ rfl (by decide) (by decide) (by decide)).trans rfl

theorem eq_main_v95 (V : Valuation τ sig (Elt F)) :
    after ops V (main_v95 : DevRef τ sig)
      = (Host.rsqrt : (⟨S16384x1, .f32⟩ : BufTy).Contents (Elt F) → (⟨S16384x1, .f32⟩ : BufTy).Contents (Elt F)) (after ops V (main_v94 : DevRef τ sig)) :=
  (after_unary writesEach V 184 main_v94 main_v95 _ _ _ rfl (by decide) (by decide)).trans rfl

theorem eq_main_v96 (V : Valuation τ sig (Elt F)) :
    after ops V (main_v96 : DevRef τ sig)
      = (broadcastInDim S16384x512 ![0, 1] bcast_S16384x1_S16384x512_0_1 : (⟨S16384x1, .f32⟩ : BufTy).Contents (Elt F) → (⟨S16384x512, .f32⟩ : BufTy).Contents (Elt F)) (after ops V (main_v95 : DevRef τ sig)) :=
  (after_unary writesEach V 185 main_v95 main_v96 _ _ _ rfl (by decide) (by decide)).trans rfl

theorem eq_main_v97 (V : Valuation τ sig (Elt F)) :
    after ops V (main_v97 : DevRef τ sig)
      = (mulf : (⟨S16384x512, .f32⟩ : BufTy).Contents (Elt F) → (⟨S16384x512, .f32⟩ : BufTy).Contents (Elt F) → (⟨S16384x512, .f32⟩ : BufTy).Contents (Elt F)) (after ops V (main_v92 : DevRef τ sig)) (after ops V (main_v96 : DevRef τ sig)) :=
  (after_binary writesEach V 186 main_v92 main_v96 main_v97 _ _ _ _ rfl (by decide) (by decide) (by decide)).trans rfl

theorem eq_main_v98 (V : Valuation τ sig (Elt F)) :
    after ops V (main_v98 : DevRef τ sig)
      = (broadcastInDim S1x512 ![1] bcast_S512_S1x512_1 : (⟨S512, .f32⟩ : BufTy).Contents (Elt F) → (⟨S1x512, .f32⟩ : BufTy).Contents (Elt F)) (after ops V (main_arg20 : DevRef τ sig)) :=
  (after_unary writesEach V 187 main_arg20 main_v98 _ _ _ rfl (by decide) (by decide)).trans rfl

theorem eq_main_v99 (V : Valuation τ sig (Elt F)) :
    after ops V (main_v99 : DevRef τ sig)
      = (broadcastInDim S16384x512 ![0, 1] bcast_S1x512_S16384x512_0_1 : (⟨S1x512, .f32⟩ : BufTy).Contents (Elt F) → (⟨S16384x512, .f32⟩ : BufTy).Contents (Elt F)) (after ops V (main_v98 : DevRef τ sig)) :=
  (after_unary writesEach V 188 main_v98 main_v99 _ _ _ rfl (by decide) (by decide)).trans rfl

theorem eq_main_v100 (V : Valuation τ sig (Elt F)) :
    after ops V (main_v100 : DevRef τ sig)
      = (mulf : (⟨S16384x512, .f32⟩ : BufTy).Contents (Elt F) → (⟨S16384x512, .f32⟩ : BufTy).Contents (Elt F) → (⟨S16384x512, .f32⟩ : BufTy).Contents (Elt F)) (after ops V (main_v97 : DevRef τ sig)) (after ops V (main_v99 : DevRef τ sig)) :=
  (after_binary writesEach V 189 main_v97 main_v99 main_v100 _ _ _ _ rfl (by decide) (by decide) (by decide)).trans rfl

theorem eq_main_v101 (V : Valuation τ sig (Elt F)) :
    after ops V (main_v101 : DevRef τ sig)
      = (broadcastInDim S1x512 ![1] bcast_S512_S1x512_1 : (⟨S512, .f32⟩ : BufTy).Contents (Elt F) → (⟨S1x512, .f32⟩ : BufTy).Contents (Elt F)) (after ops V (main_arg21 : DevRef τ sig)) :=
  (after_unary writesEach V 190 main_arg21 main_v101 _ _ _ rfl (by decide) (by decide)).trans rfl

theorem eq_main_v102 (V : Valuation τ sig (Elt F)) :
    after ops V (main_v102 : DevRef τ sig)
      = (broadcastInDim S16384x512 ![0, 1] bcast_S1x512_S16384x512_0_1 : (⟨S1x512, .f32⟩ : BufTy).Contents (Elt F) → (⟨S16384x512, .f32⟩ : BufTy).Contents (Elt F)) (after ops V (main_v101 : DevRef τ sig)) :=
  (after_unary writesEach V 191 main_v101 main_v102 _ _ _ rfl (by decide) (by decide)).trans rfl

end Cert.ReferenceIdeal.RefRun

end
-- ==== Proof.RefEqs2.lean ====
/-
  One equation per operation of stretch 2 of the reference function's line: what the operation's result buffer holds after
  the whole line is the operation's function of what its operand buffers hold after the whole line (the operands are
  written earlier, the result by no later operation).
-/
import proofs.«111695_j88261577933428_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem eq_main_v103 (V : Valuation τ sig (Elt F)) :
    after ops V (main_v103 : DevRef τ sig)
      = (addf : (⟨S16384x512, .f32⟩ : BufTy).Contents (Elt F) → (⟨S16384x512, .f32⟩ : BufTy).Contents (Elt F) → (⟨S16384x512, .f32⟩ : BufTy).Contents (Elt F)) (after ops V (main_v100 : DevRef τ sig)) (after ops V (main_v102 : DevRef τ sig)) :=
  (after_binary writesEach V 192 main_v100 main_v102 main_v103 _ _ _ _ rfl (by decide) (by decide) (by decide)).trans rfl

theorem eq_main_v104 (V : Valuation τ sig (Elt F)) :
    after ops V (main_v104 : DevRef τ sig)
      = (addf : (⟨S16384x512, .f32⟩ : BufTy).Contents (Elt F) → (⟨S16384x512, .f32⟩ : BufTy).Contents (Elt F) → (⟨S16384x512, .f32⟩ : BufTy).Contents (Elt F)) (after ops V (main_arg1 : DevRef τ sig)) (after ops V (main_v103 : DevRef τ sig)) :=
  (after_binary writesEach V 193 main_arg1 main_v103 main_v104 _ _ _ _ rfl (by decide) (by decide) (by decide)).trans rfl

theorem eq_main_v105 (V : Valuation τ sig (Elt F)) :
    after ops V (main_v105 : DevRef τ sig)
      = ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)) (after ops V (main_v104 : DevRef τ sig)) (after ops V (main_arg22 : DevRef τ sig)) :=
  (after_binary writesEach V 194 main_v104 main_arg22 main_v105 _ _ _ _ rfl (by decide) (by decide) (by decide)).trans rfl

theorem eq_main_v106 (V : Valuation τ sig (Elt F)) :
    after ops V (main_v106 : DevRef τ sig)
      = (broadcastInDim S1x512 ![1] bcast_S512_S1x512_1 : (⟨S512, .f32⟩ : BufTy).Contents (Elt F) → (⟨S1x512, .f32⟩ : BufTy).Contents (Elt F)) (after ops V (main_arg23 : DevRef τ sig)) :=
  (after_unary writesEach V 195 main_arg23 main_v106 _ _ _ rfl (by decide) (by decide)).trans rfl

theorem eq_main_v107 (V : Valuation τ sig (Elt F)) :
    after ops V (main_v107 : DevRef τ sig)
      = (broadcastInDim S16384x512 ![0, 1] bcast_S1x512_S16384x512_0_1 : (⟨S1x512, .f32⟩ : BufTy).Contents (Elt F) → (⟨S16384x512, .f32⟩ : BufTy).Contents (Elt F)) (after ops V (main_v106 : DevRef τ sig)) :=
  (after_unary writesEach V 196 main_v106 main_v107 _ _ _ rfl (by decide) (by decide)).trans rfl

theorem eq_main_v108 (V : Valuation τ sig (Elt F)) :
    after ops V (main_v108 : DevRef τ sig)
      = (addf : (⟨S16384x512, .f32⟩ : BufTy).Contents (Elt F) → (⟨S16384x512, .f32⟩ : BufTy).Contents (Elt F) → (⟨S16384x512, .f32⟩ : BufTy).Contents (Elt F)) (after ops V (main_v105 : DevRef τ sig)) (after ops V (main_v107 : DevRef τ sig)) :=
  (after_binary writesEach V 197 main_v105 main_v107 main_v108 _ _ _ _ rfl (by decide) (by decide) (by decide)).trans rfl

theorem eq_main_call6_cst (V : Valuation τ sig (Elt F)) :
    after ops V (main_call6_cst : DevRef τ sig)
      = ((constant S_ .f32 0x00000000#32) : (⟨S_, .f32⟩ : BufTy).Contents (Elt F)) :=
  (after_nullary writesEach V 198 main_call6_cst _ _ rfl (by decide)).trans rfl

theorem eq_main_call6_v0 (V : Valuation τ sig (Elt F)) :
    after ops V (main_call6_v0 : DevRef τ sig)
      = ((broadcastInDim S16384x512 ![] bcast_S_S16384x512) : (⟨S_, .f32⟩ : BufTy).Contents (Elt F) → (⟨S16384x512, .f32⟩ : BufTy).Contents (Elt F)) (after ops V (main_call6_cst : DevRef τ sig)) :=
  (after_unary writesEach V 199 main_call6_cst main_call6_v0 _ _ _ rfl (by decide) (by decide)).trans rfl

theorem eq_main_v109 (V : Valuation τ sig (Elt F)) :
    after ops V (main_v109 : DevRef τ sig)
      = ((maximumf) : (⟨S16384x512, .f32⟩ : BufTy).Contents (Elt F) → (⟨S16384x512, .f32⟩ : BufTy).Contents (Elt F) → (⟨S16384x512, .f32⟩ : BufTy).Contents (Elt F)) (after ops V (main_v108 : DevRef τ sig)) (after ops V (main_call6_v0 : DevRef τ sig)) :=
  (after_binary writesEach V 200 main_v108 main_call6_v0 main_v109 _ _ _ _ rfl (by decide) (by decide) (by decide)).trans rfl

theorem eq_main_v110 (V : Valuation τ sig (Elt F)) :
    after ops V (main_v110 : DevRef τ sig)
      = ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)) (after ops V (main_v109 : DevRef τ sig)) (after ops V (main_arg24 : DevRef τ sig)) :=
  (after_binary writesEach V 201 main_v109 main_arg24 main_v110 _ _ _ _ rfl (by decide) (by decide) (by decide)).trans rfl

theorem eq_main_v111 (V : Valuation τ sig (Elt F)) :
    after ops V (main_v111 : DevRef τ sig)
      = (broadcastInDim S1x128 ![1] bcast_S128_S1x128_1 : (⟨S128, .f32⟩ : BufTy).Contents (Elt F) → (⟨S1x128, .f32⟩ : BufTy).Contents (Elt F)) (after ops V (main_arg25 : DevRef τ sig)) :=
  (after_unary writesEach V 202 main_arg25 main_v111 _ _ _ rfl (by decide) (by decide)).trans rfl

theorem eq_main_v112 (V : Valuation τ sig (Elt F)) :
    after ops V (main_v112 : DevRef τ sig)
      = (broadcastInDim S16384x128 ![0, 1] bcast_S1x128_S16384x128_0_1 : (⟨S1x128, .f32⟩ : BufTy).Contents (Elt F) → (⟨S16384x128, .f32⟩ : BufTy).Contents (Elt F)) (after ops V (main_v111 : DevRef τ sig)) :=
  (after_unary writesEach V 203 main_v111 main_v112 _ _ _ rfl (by decide) (by decide)).trans rfl

theorem eq_main_v113 (V : Valuation τ sig (Elt F)) :
    after ops V (main_v113 : DevRef τ sig)
      = (addf : (⟨S16384x128, .f32⟩ : BufTy).Contents (Elt F) → (⟨S16384x128, .f32⟩ : BufTy).Contents (Elt F) → (⟨S16384x128, .f32⟩ : BufTy).Contents (Elt F)) (after ops V (main_v110 : DevRef τ sig)) (after ops V (main_v112 : DevRef τ sig)) :=
  (after_binary writesEach V 204 main_v110 main_v112 main_v113 _ _ _ _ rfl (by decide) (by decide) (by decide)).trans rfl

theorem eq_main_cst_15 (V : Valuation τ sig (Elt F)) :
    after ops V (main_cst_15 : DevRef τ sig)
      = ((constant S_ .f32 0x00000000#32) : (⟨S_, .f32⟩ : BufTy).Contents (Elt F)) :=
  (after_nullary writesEach V 205 main_cst_15 _ _ rfl (by decide)).trans rfl

theorem eq_main_v114 (V : Valuation τ sig (Elt F)) :
    after ops V (main_v114 : DevRef τ sig)
      = ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)) (after ops V (main_v113 : DevRef τ sig)) (after ops V (main_cst_15 : DevRef τ sig)) :=
  (after_binary writesEach V 206 main_v113 main_cst_15 main_v114 _ _ _ _ rfl (by decide) (by decide) (by decide)).trans rfl

theorem eq_main_v115 (V : Valuation τ sig (Elt F)) :
    after ops V (main_v115 : DevRef τ sig)
      = (broadcastInDim S16384x1 ![0] bcast_S16384_S16384x1_0 : (⟨S16384, .f32⟩ : BufTy).Contents (Elt F) → (⟨S16384x1, .f32⟩ : BufTy).Contents (Elt F)) (after ops V (main_v114 : DevRef τ sig)) :=
  (after_unary writesEach V 207 main_v114 main_v115 _ _ _ rfl (by decide) (by decide)).trans rfl

theorem eq_main_cst_16 (V : Valuation τ sig (Elt F)) :
    after ops V (main_cst_16 : DevRef τ sig)
      = ((constant S_ .f32 0x43000000#32) : (⟨S_, .f32⟩ : BufTy).Contents (Elt F)) :=
  (after_nullary writesEach V 208 main_cst_16 _ _ rfl (by decide)).trans rfl

theorem eq_main_v116 (V : Valuation τ sig (Elt F)) :
    after ops V (main_v116 : DevRef τ sig)
      = (broadcastInDim S16384x1 ![] bcast_S_S16384x1 : (⟨S_, .f32⟩ : BufTy).Contents (Elt F) → (⟨S16384x1, .f32⟩ : BufTy).Contents (Elt F)) (after ops V (main_cst_16 : DevRef τ sig)) :=
  (after_unary writesEach V 209 main_cst_16 main_v116 _ _ _ rfl (by decide) (by decide)).trans rfl

theorem eq_main_v117 (V : Valuation τ sig (Elt F)) :
    after ops V (main_v117 : DevRef τ sig)
      = (Host.divf : (⟨S16384x1, .f32⟩ : BufTy).Contents (Elt F) → (⟨S16384x1, .f32⟩ : BufTy).Contents (Elt F) → (⟨S16384x1, .f32⟩ : BufTy).Contents (Elt F)) (after ops V (main_v115 : DevRef τ sig)) (after ops V (main_v116 : DevRef τ sig)) :=
  (after_binary writesEach V 210 main_v115 main_v116 main_v117 _ _ _ _ rfl (by decide) (by decide) (by decide)).trans rfl

theorem eq_main_c_17 (V : Valuation τ sig (Elt F)) :
    after ops V (main_c_17 : DevRef τ sig)
      = ((constantI S_ 32 0#32) : (⟨S_, .i32⟩ : BufTy).Contents (Elt F)) :=
  (after_nullary writesEach V 211 main_c_17 _ _ rfl (by decide)).trans rfl

theorem eq_main_call7_cst (V : Valuation τ sig (Elt F)) :
    after ops V (main_call7_cst : DevRef τ sig)
      = ((constant S_ .f32 0x00000000#32) : (⟨S_, .f32⟩ : BufTy).Contents (Elt F)) :=
  (after_nullary writesEach V 212 main_call7_cst _ _ rfl (by decide)).trans rfl

theorem eq_main_call7_v0 (V : Valuation τ sig (Elt F)) :
    after ops V (main_call7_v0 : DevRef τ sig)
      = ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)) (after ops V (main_v113 : DevRef τ sig)) (after ops V (main_call7_cst : DevRef τ sig)) :=
  (after_binary writesEach V 213 main_v113 main_call7_cst main_call7_v0 _ _ _ _ rfl (by decide) (by decide) (by decide)).trans rfl

theorem eq_main_call7_v1 (V : Valuation τ sig (Elt F)) :
    after ops V (main_call7_v1 : DevRef τ sig)
      = ((broadcastInDim S16384x1 ![0] bcast_S16384_S16384x1_0) : (⟨S16384, .f32⟩ : BufTy).Contents (Elt F) → (⟨S16384x1, .f32⟩ : BufTy).Contents (Elt F)) (after ops V (main_call7_v0 : DevRef τ sig)) :=
  (after_unary writesEach V 214 main_call7_v0 main_call7_v1 _ _ _ rfl (by decide) (by decide)).trans rfl

theorem eq_main_call7_cst_0 (V : Valuation τ sig (Elt F)) :
    after ops V (main_call7_cst_0 : DevRef τ sig)
      = ((constant S_ .f32 0x43000000#32) : (⟨S_, .f32⟩ : BufTy).Contents (Elt F)) :=
  (after_nullary writesEach V 215 main_call7_cst_0 _ _ rfl (by decide)).trans rfl

theorem eq_main_call7_v2 (V : Valuation τ sig (Elt F)) :
    after ops V (main_call7_v2 : DevRef τ sig)
      = ((broadcastInDim S16384x1 ![] bcast_S_S16384x1) : (⟨S_, .f32⟩ : BufTy).Contents (Elt F) → (⟨S16384x1, .f32⟩ : BufTy).Contents (Elt F)) (after ops V (main_call7_cst_0 : DevRef τ sig)) :=
  (after_unary writesEach V 216 main_call7_cst_0 main_call7_v2 _ _ _ rfl (by decide) (by decide)).trans rfl

theorem eq_main_call7_v3 (V : Valuation τ sig (Elt F)) :
    after ops V (main_call7_v3 : DevRef τ sig)
      = ((Host.divf) : (⟨S16384x1, .f32⟩ : BufTy).Contents (Elt F) → (⟨S16384x1, .f32⟩ : BufTy).Contents (Elt F) → (⟨S16384x1, .f32⟩ : BufTy).Contents (Elt F)) (after ops V (main_call7_v1 : DevRef τ sig)) (after ops V (main_call7_v2 : DevRef τ sig)) :=
  (after_binary writesEach V 217 main_call7_v1 main_call7_v2 main_call7_v3 _ _ _ _ rfl (by decide) (by decide) (by decide)).trans rfl

theorem eq_main_call7_v4 (V : Valuation τ sig (Elt F)) :
    after ops V (main_call7_v4 : DevRef τ sig)
      = ((broadcastInDim S16384x128 ![0, 1] bcast_S16384x1_S16384x128_0_1) : (⟨S16384x1, .f32⟩ : BufTy).Contents (Elt F) → (⟨S16384x128, .f32⟩ : BufTy).Contents (Elt F)) (after ops V (main_call7_v3 : DevRef τ sig)) :=
  (after_unary writesEach V 218 main_call7_v3 main_call7_v4 _ _ _ rfl (by decide) (by decide)).trans rfl

theorem eq_main_call7_v5 (V : Valuation τ sig (Elt F)) :
    after ops V (main_call7_v5 : DevRef τ sig)
      = ((subf) : (⟨S16384x128, .f32⟩ : BufTy).Contents (Elt F) → (⟨S16384x128, .f32⟩ : BufTy).Contents (Elt F) → (⟨S16384x128, .f32⟩ : BufTy).Contents (Elt F)) (after ops V (main_v113 : DevRef τ sig)) (after ops V (main_call7_v4 : DevRef τ sig)) :=
  (after_binary writesEach V 219 main_v113 main_call7_v4 main_call7_v5 _ _ _ _ rfl (by decide) (by decide) (by decide)).trans rfl

theorem eq_main_call7_v6 (V : Valuation τ sig (Elt F)) :
    after ops V (main_call7_v6 : DevRef τ sig)
      = ((mulf) : (⟨S16384x128, .f32⟩ : BufTy).Contents (Elt F) → (⟨S16384x128, .f32⟩ : BufTy).Contents (Elt F) → (⟨S16384x128, .f32⟩ : BufTy).Contents (Elt F)) (after ops V (main_call7_v5 : DevRef τ sig)) (after ops V (main_call7_v5 : DevRef τ sig)) :=
  (after_binary writesEach V 220 main_call7_v5 main_call7_v5 main_call7_v6 _ _ _ _ rfl (by decide) (by decide) (by decide)).trans rfl

theorem eq_main_call7_v7 (V : Valuation τ sig (Elt F)) :
    after ops V (main_call7_v7 : DevRef τ sig)
      = ((sitofp .f32) : (⟨S_, .i32⟩ : BufTy).Contents (Elt F) → (⟨S_, .f32⟩ : BufTy).Contents (Elt F)) (after ops V (main_c_17 : DevRef τ sig)) :=
  (after_unary writesEach V 221 main_c_17 main_call7_v7 _ _ _ rfl (by decide) (by decide)).trans rfl

theorem eq_main_call7_cst_1 (V : Valuation τ sig (Elt F)) :
    after ops V (main_call7_cst_1 : DevRef τ sig)
      = ((constant S_ .f32 0x43000000#32) : (⟨S_, .f32⟩ : BufTy).Contents (Elt F)) :=
  (after_nullary writesEach V 222 main_call7_cst_1 _ _ rfl (by decide)).trans rfl

theorem eq_main_call7_v8 (V : Valuation τ sig (Elt F)) :
    after ops V (main_call7_v8 : DevRef τ sig)
      = ((subf) : (⟨S_, .f32⟩ : BufTy).Contents (Elt F) → (⟨S_, .f32⟩ : BufTy).Contents (Elt F) → (⟨S_, .f32⟩ : BufTy).Contents (Elt F)) (after ops V (main_call7_cst_1 : DevRef τ sig)) (after ops V (main_call7_v7 : DevRef τ sig)) :=
  (after_binary writesEach V 223 main_call7_cst_1 main_call7_v7 main_call7_v8 _ _ _ _ rfl (by decide) (by decide) (by decide)).trans rfl

theorem eq_main_call7_cst_2 (V : Valuation τ sig (Elt F)) :
    after ops V (main_call7_cst_2 : DevRef τ sig)
      = ((constant S_ .f32 0x00000000#32) : (⟨S_, .f32⟩ : BufTy).Contents (Elt F)) :=
  (after_nullary writesEach V 224 main_call7_cst_2 _ _ rfl (by decide)).trans rfl

theorem eq_main_call7_v9 (V : Valuation τ sig (Elt F)) :
    after ops V (main_call7_v9 : DevRef τ sig)
      = ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)) (after ops V (main_call7_v6 : DevRef τ sig)) (after ops V (main_call7_cst_2 : DevRef τ sig)) :=
  (after_binary writesEach V 225 main_call7_v6 main_call7_cst_2 main_call7_v9 _ _ _ _ rfl (by decide) (by decide) (by decide)).trans rfl

theorem eq_main_call7_v10 (V : Valuation τ sig (Elt F)) :
    after ops V (main_call7_v10 : DevRef τ sig)
      = ((broadcastInDim S16384x1 ![0] bcast_S16384_S16384x1_0) : (⟨S16384, .f32⟩ : BufTy).Contents (Elt F) → (⟨S16384x1, .f32⟩ : BufTy).Contents (Elt F)) (after ops V (main_call7_v9 : DevRef τ sig)) :=
  (after_unary writesEach V 226 main_call7_v9 main_call7_v10 _ _ _ rfl (by decide) (by decide)).trans rfl

theorem eq_main_call7_v11 (V : Valuation τ sig (Elt F)) :
    after ops V (main_call7_v11 : DevRef τ sig)
      = ((broadcastInDim S16384x1 ![] bcast_S_S16384x1) : (⟨S_, .f32⟩ : BufTy).Contents (Elt F) → (⟨S16384x1, .f32⟩ : BufTy).Contents (Elt F)) (after ops V (main_call7_v8 : DevRef τ sig)) :=
  (after_unary writesEach V 227 main_call7_v8 main_call7_v11 _ _ _ rfl (by decide) (by decide)).trans rfl

theorem eq_main_call7_v12 (V : Valuation τ sig (Elt F)) :
    after ops V (main_call7_v12 : DevRef τ sig)
      = ((Host.divf) : (⟨S16384x1, .f32⟩ : BufTy).Contents (Elt F) → (⟨S16384x1, .f32⟩ : BufTy).Contents (Elt F) → (⟨S16384x1, .f32⟩ : BufTy).Contents (Elt F)) (after ops V (main_call7_v10 : DevRef τ sig)) (after ops V (main_call7_v11 : DevRef τ sig)) :=
  (after_binary writesEach V 228 main_call7_v10 main_call7_v11 main_call7_v12 _ _ _ _ rfl (by decide) (by decide) (by decide)).trans rfl

theorem eq_main_call7_cst_3 (V : Valuation τ sig (Elt F)) :
    after ops V (main_call7_cst_3 : DevRef τ sig)
      = ((constant S_ .f32 0x00000000#32) : (⟨S_, .f32⟩ : BufTy).Contents (Elt F)) :=
  (after_nullary writesEach V 229 main_call7_cst_3 _ _ rfl (by decide)).trans rfl

theorem eq_main_call7_v13 (V : Valuation τ sig (Elt F)) :
    after ops V (main_call7_v13 : DevRef τ sig)
      = ((cmpf .ogt) : (⟨S_, .f32⟩ : BufTy).Contents (Elt F) → (⟨S_, .f32⟩ : BufTy).Contents (Elt F) → (⟨S_, .i1⟩ : BufTy).Contents (Elt F)) (after ops V (main_call7_v8 : DevRef τ sig)) (after ops V (main_call7_cst_3 : DevRef τ sig)) :=
  (after_binary writesEach V 230 main_call7_v8 main_call7_cst_3 main_call7_v13 _ _ _ _ rfl (by decide) (by decide) (by decide)).trans rfl

theorem eq_main_call7_cst_4 (V : Valuation τ sig (Elt F)) :
    after ops V (main_call7_cst_4 : DevRef τ sig)
      = ((constant S_ .f32 0x7FC00000#32) : (⟨S_, .f32⟩ : BufTy).Contents (Elt F)) :=
  (after_nullary writesEach V 231 main_call7_cst_4 _ _ rfl (by decide)).trans rfl

theorem eq_main_call7_call0_v0 (V : Valuation τ sig (Elt F)) :
    after ops V (main_call7_call0_v0 : DevRef τ sig)
      = ((id) : (⟨S_, .f32⟩ : BufTy).Contents (Elt F) → (⟨S_, .f32⟩ : BufTy).Contents (Elt F)) (after ops V (main_call7_cst_4 : DevRef τ sig)) :=
  (after_unary writesEach V 232 main_call7_cst_4 main_call7_call0_v0 _ _ _ rfl (by decide) (by decide)).trans rfl

theorem eq_main_call7_call0_v1 (V : Valuation τ sig (Elt F)) :
    after ops V (main_call7_call0_v1 : DevRef τ sig)
      = ((broadcastInDim S16384x1 ![] bcast_S_S16384x1) : (⟨S_, .f32⟩ : BufTy).Contents (Elt F) → (⟨S16384x1, .f32⟩ : BufTy).Contents (Elt F)) (after ops V (main_call7_call0_v0 : DevRef τ sig)) :=
  (after_unary writesEach V 233 main_call7_call0_v0 main_call7_call0_v1 _ _ _ rfl (by decide) (by decide)).trans rfl

theorem eq_main_v118 (V : Valuation τ sig (Elt F)) :
    after ops V (main_v118 : DevRef τ sig)
      = ((fun p a b => select (broadcastInDim S16384x1 ![] bcast_S_S16384x1 p) a b) : (⟨S_, .i1⟩ : BufTy).Contents (Elt F) → (⟨S16384x1, .f32⟩ : BufTy).Contents (Elt F) → (⟨S16384x1, .f32⟩ : BufTy).Contents (Elt F) → (⟨S16384x1, .f32⟩ : BufTy).Contents (Elt F)) (after ops V (main_call7_v13 : DevRef τ sig)) (after ops V (main_call7_v12 : DevRef τ sig)) (after ops V (main_call7_call0_v1 : DevRef τ sig)) :=
  (after_ternary writesEach V 234 main_call7_v13 main_call7_v12 main_call7_call0_v1 main_v118 _ _ _ _ _ rfl (by decide) (by decide) (by decide) (by decide)).trans rfl

theorem eq_main_v119 (V : Valuation τ sig (Elt F)) :
    after ops V (main_v119 : DevRef τ sig)
      = (broadcastInDim S16384x128 ![0, 1] bcast_S16384x1_S16384x128_0_1 : (⟨S16384x1, .f32⟩ : BufTy).Contents (Elt F) → (⟨S16384x128, .f32⟩ : BufTy).Contents (Elt F)) (after ops V (main_v117 : DevRef τ sig)) :=
  (after_unary writesEach V 235 main_v117 main_v119 _ _ _ rfl (by decide) (by decide)).trans rfl

theorem eq_main_v120 (V : Valuation τ sig (Elt F)) :
    after ops V (main_v120 : DevRef τ sig)
      = (subf : (⟨S16384x128, .f32⟩ : BufTy).Contents (Elt F) → (⟨S16384x128, .f32⟩ : BufTy).Contents (Elt F) → (⟨S16384x128, .f32⟩ : BufTy).Contents (Elt F)) (after ops V (main_v113 : DevRef τ sig)) (after ops V (main_v119 : DevRef τ sig)) :=
  (after_binary writesEach V 236 main_v113 main_v119 main_v120 _ _ _ _ rfl (by decide) (by decide) (by decide)).trans rfl

theorem eq_main_cst_18 (V : Valuation τ sig (Elt F)) :
    after ops V (main_cst_18 : DevRef τ sig)
      = ((constant S_ .f32 0x3727C5AC#32) : (⟨S_, .f32⟩ : BufTy).Contents (Elt F)) :=
  (after_nullary writesEach V 237 main_cst_18 _ _ rfl (by decide)).trans rfl

theorem eq_main_v121 (V : Valuation τ sig (Elt F)) :
    after ops V (main_v121 : DevRef τ sig)
      = (broadcastInDim S16384x1 ![] bcast_S_S16384x1 : (⟨S_, .f32⟩ : BufTy).Contents (Elt F) → (⟨S16384x1, .f32⟩ : BufTy).Contents (Elt F)) (after ops V (main_cst_18 : DevRef τ sig)) :=
  (after_unary writesEach V 238 main_cst_18 main_v121 _ _ _ rfl (by decide) (by decide)).trans rfl

theorem eq_main_v122 (V : Valuation τ sig (Elt F)) :
    after ops V (main_v122 : DevRef τ sig)
      = (addf : (⟨S16384x1, .f32⟩ : BufTy).Contents (Elt F) → (⟨S16384x1, .f32⟩ : BufTy).Contents (Elt F) → (⟨S16384x1, .f32⟩ : BufTy).Contents (Elt F)) (after ops V (main_v118 : DevRef τ sig)) (after ops V (main_v121 : DevRef τ sig)) :=
  (after_binary writesEach V 239 main_v118 main_v121 main_v122 _ _ _ _ rfl (by decide) (by decide) (by decide)).trans rfl

theorem eq_main_v123 (V : Valuation τ sig (Elt F)) :
    after ops V (main_v123 : DevRef τ sig)
      = (Host.rsqrt : (⟨S16384x1, .f32⟩ : BufTy).Contents (Elt F) → (⟨S16384x1, .f32⟩ : BufTy).Contents (Elt F)) (after ops V (main_v122 : DevRef τ sig)) :=
  (after_unary writesEach V 240 main_v122 main_v123 _ _ _ rfl (by decide) (by decide)).trans rfl

theorem eq_main_v124 (V : Valuation τ sig (Elt F)) :
    after ops V (main_v124 : DevRef τ sig)
      = (broadcastInDim S16384x128 ![0, 1] bcast_S16384x1_S16384x128_0_1 : (⟨S16384x1, .f32⟩ : BufTy).Contents (Elt F) → (⟨S16384x128, .f32⟩ : BufTy).Contents (Elt F)) (after ops V (main_v123 : DevRef τ sig)) :=
  (after_unary writesEach V 241 main_v123 main_v124 _ _ _ rfl (by decide) (by decide)).trans rfl

theorem eq_main_v125 (V : Valuation τ sig (Elt F)) :
    after ops V (main_v125 : DevRef τ sig)
      = (mulf : (⟨S16384x128, .f32⟩ : BufTy).Contents (Elt F) → (⟨S16384x128, .f32⟩ : BufTy).Contents (Elt F) → (⟨S16384x128, .f32⟩ : BufTy).Contents (Elt F)) (after ops V (main_v120 : DevRef τ sig)) (after ops V (main_v124 : DevRef τ sig)) :=
  (after_binary writesEach V 242 main_v120 main_v124 main_v125 _ _ _ _ rfl (by decide) (by decide) (by decide)).trans rfl

theorem eq_main_v126 (V : Valuation τ sig (Elt F)) :
    after ops V (main_v126 : DevRef τ sig)
      = (broadcastInDim S1x128 ![1] bcast_S128_S1x128_1 : (⟨S128, .f32⟩ : BufTy).Contents (Elt F) → (⟨S1x128, .f32⟩ : BufTy).Contents (Elt F)) (after ops V (main_arg26 : DevRef τ sig)) :=
  (after_unary writesEach V 243 main_arg26 main_v126 _ _ _ rfl (by decide) (by decide)).trans rfl

theorem eq_main_v127 (V : Valuation τ sig (Elt F)) :
    after ops V (main_v127 : DevRef τ sig)
      = (broadcastInDim S16384x128 ![0, 1] bcast_S1x128_S16384x128_0_1 : (⟨S1x128, .f32⟩ : BufTy).Contents (Elt F) → (⟨S16384x128, .f32⟩ : BufTy).Contents (Elt F)) (after ops V (main_v126 : DevRef τ sig)) :=
  (after_unary writesEach V 244 main_v126 main_v127 _ _ _ rfl (by decide) (by decide)).trans rfl

theorem eq_main_v128 (V : Valuation τ sig (Elt F)) :
    after ops V (main_v128 : DevRef τ sig)
      = (mulf : (⟨S16384x128, .f32⟩ : BufTy).Contents (Elt F) → (⟨S16384x128, .f32⟩ : BufTy).Contents (Elt F) → (⟨S16384x128, .f32⟩ : BufTy).Contents (Elt F)) (after ops V (main_v125 : DevRef τ sig)) (after ops V (main_v127 : DevRef τ sig)) :=
  (after_binary writesEach V 245 main_v125 main_v127 main_v128 _ _ _ _ rfl (by decide) (by decide) (by decide)).trans rfl

theorem eq_main_v129 (V : Valuation τ sig (Elt F)) :
    after ops V (main_v129 : DevRef τ sig)
      = (broadcastInDim S1x128 ![1] bcast_S128_S1x128_1 : (⟨S128, .f32⟩ : BufTy).Contents (Elt F) → (⟨S1x128, .f32⟩ : BufTy).Contents (Elt F)) (after ops V (main_arg27 : DevRef τ sig)) :=
  (after_unary writesEach V 246 main_arg27 main_v129 _ _ _ rfl (by decide) (by decide)).trans rfl

theorem eq_main_v130 (V : Valuation τ sig (Elt F)) :
    after ops V (main_v130 : DevRef τ sig)
      = (broadcastInDim S16384x128 ![0, 1] bcast_S1x128_S16384x128_0_1 : (⟨S1x128, .f32⟩ : BufTy).Contents (Elt F) → (⟨S16384x128, .f32⟩ : BufTy).Contents (Elt F)) (after ops V (main_v129 : DevRef τ sig)) :=
  (after_unary writesEach V 247 main_v129 main_v130 _ _ _ rfl (by decide) (by decide)).trans rfl

theorem eq_main_v131 (V : Valuation τ sig (Elt F)) :
    after ops V (main_v131 : DevRef τ sig)
      = (addf : (⟨S16384x128, .f32⟩ : BufTy).Contents (Elt F) → (⟨S16384x128, .f32⟩ : BufTy).Contents (Elt F) → (⟨S16384x128, .f32⟩ : BufTy).Contents (Elt F)) (after ops V (main_v128 : DevRef τ sig)) (after ops V (main_v130 : DevRef τ sig)) :=
  (after_binary writesEach V 248 main_v128 main_v130 main_v131 _ _ _ _ rfl (by decide) (by decide) (by decide)).trans rfl

end Cert.ReferenceIdeal.RefRun

end
-- ==== Proof.RefOut.lean ====
/-
  The reference function's result as the closed term of its arguments.

  After the whole line each block's buffers hold the block's composition of what its inputs hold: the linear layer,
  rectifier and second linear layer (`pre`), then the normalisation (`lnRows`: the centred row times the inverse square
  root of variance plus ε, scaled and shifted), for the edge embedding, the message, the node block and the last block;
  between them the two gathers of node rows, the sum of the messages at their receivers, and the node's row added.  Each
  stage is read off the line one operation at a time (every operand is written earlier, the result by no later
  operation) and is then the stated composition by unfolding definitions; the stages composed are `RefTerm.out`.
-/
import proofs.«111695_j88261577933428_1_alg».proof.Proof.RefEqs0
import proofs.«111695_j88261577933428_1_alg».proof.Proof.RefEqs1
import proofs.«111695_j88261577933428_1_alg».proof.Proof.RefEqs2
import proofs.«111695_j88261577933428_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The edge embedding before its normalisation: linear layer of the four attributes, rectifier, second linear layer. -/
theorem st_pre_emb (V : Valuation τ sig (Elt F)) :
    after ops V (main_v8 : DevRef τ sig)
      = RefTerm.pre RefTerm.factsE dot_S49152x4_S4x512_S49152x512_1_0_0_1_n_n dot_S49152x512_S512x512_S49152x512_1_0_0_1_n_n (V (main_arg2 : DevRef τ sig)) (V (main_arg4 : DevRef τ sig)) (V (main_arg5 : DevRef τ sig)) (V (main_arg6 : DevRef τ sig)) (V (main_arg7 : DevRef τ sig)) := by
  rw [eq_main_v8, eq_main_v7, eq_main_v6, eq_main_v5, eq_main_v4, eq_main_call0_v0, eq_main_call0_cst, eq_main_v3,
    eq_main_v2, eq_main_v1, eq_main_v0]
  rw [after_arg2, after_arg4, after_arg5, after_arg6, after_arg7]
  rfl

/-- The edge embedding: the normalisation of that, with its mean, its variance, scale and shift. -/
theorem st_ln_emb (V : Valuation τ sig (Elt F)) :
    after ops V (main_v26 : DevRef τ sig)
      = RefTerm.lnRows RefTerm.factsE 0x44000000#32 (after ops V (main_v8 : DevRef τ sig)) (V (main_arg8 : DevRef τ sig)) (V (main_arg9 : DevRef τ sig)) := by
  rw [eq_main_v26, eq_main_v25, eq_main_v24, eq_main_v23, eq_main_v22, eq_main_v21, eq_main_v20, eq_main_v19,
    eq_main_v18, eq_main_v17, eq_main_v16, eq_main_cst_1, eq_main_v15, eq_main_v14, eq_main_v13,
    eq_main_call1_call0_v1, eq_main_call1_call0_v0, eq_main_call1_cst_4, eq_main_call1_v13, eq_main_call1_cst_3,
    eq_main_call1_v12, eq_main_call1_v11, eq_main_call1_v10, eq_main_call1_v9, eq_main_call1_cst_2, eq_main_call1_v8,
    eq_main_call1_cst_1, eq_main_call1_v7, eq_main_call1_v6, eq_main_call1_v5, eq_main_call1_v4, eq_main_call1_v3,
    eq_main_call1_v2, eq_main_call1_cst_0, eq_main_call1_v1, eq_main_call1_v0, eq_main_call1_cst, eq_main_c,
    eq_main_v12, eq_main_v11, eq_main_cst_0, eq_main_v10, eq_main_v9, eq_main_cst]
  rw [after_arg8, after_arg9]
  rfl

/-- The receivers' rows of the grid array. -/
theorem st_gather_recv (V : Valuation τ sig (Elt F)) :
    after ops V (main_v37 : DevRef τ sig)
      = RefTerm.gatherRecv (V (main_arg1 : DevRef τ sig)) (V (main_arg3 : DevRef τ sig)) := by
  rw [eq_main_v37, eq_main_v36, eq_main_v35, eq_main_v34, eq_main_v33, eq_main_c_3, eq_main_v32, eq_main_v31,
    eq_main_c_2, eq_main_v30, eq_main_v29]
  rw [after_arg1, after_arg3]
  rfl

/-- The senders' rows of the mesh array. -/
theorem st_gather_send (V : Valuation τ sig (Elt F)) :
    after ops V (main_v44 : DevRef τ sig)
      = RefTerm.gatherSend (V (main_arg0 : DevRef τ sig)) (V (main_arg3 : DevRef τ sig)) := by
  rw [eq_main_v44, eq_main_v43, eq_main_v42, eq_main_v41, eq_main_v40, eq_main_c_5, eq_main_v39, eq_main_v38,
    eq_main_c_4, eq_main_v28, eq_main_v27]
  rw [after_arg0, after_arg3]
  rfl

/-- The message before its normalisation: the two gathered rows and the embedding laid end to end, linear layer, rectifier, linear layer. -/
theorem st_pre_msg (V : Valuation τ sig (Elt F)) :
    after ops V (main_v54 : DevRef τ sig)
      = RefTerm.pre RefTerm.factsE dot_S49152x1536_S1536x512_S49152x512_1_0_0_1_n_n dot_S49152x512_S512x512_S49152x512_1_0_0_1_n_n
          (concatenate S49152x1536 1 [⟨S49152x512, (after ops V (main_v37 : DevRef τ sig))⟩, ⟨S49152x512, (after ops V (main_v44 : DevRef τ sig))⟩, ⟨S49152x512, (after ops V (main_v26 : DevRef τ sig))⟩]
            concatenates_S49152x512_S49152x512_S49152x512_S49152x1536_d1)
          (V (main_arg10 : DevRef τ sig)) (V (main_arg11 : DevRef τ sig)) (V (main_arg12 : DevRef τ sig)) (V (main_arg13 : DevRef τ sig)) := by
  rw [eq_main_v54, eq_main_v53, eq_main_v52, eq_main_v51, eq_main_v50, eq_main_call2_v0, eq_main_call2_cst,
    eq_main_v49, eq_main_v48, eq_main_v47, eq_main_v46, eq_main_v45]
  rw [after_arg10, after_arg11, after_arg12, after_arg13]
  rfl

/-- The message: the normalisation of that. -/
theorem st_ln_msg (V : Valuation τ sig (Elt F)) :
    after ops V (main_v72 : DevRef τ sig)
      = RefTerm.lnRows RefTerm.factsE 0x44000000#32 (after ops V (main_v54 : DevRef τ sig)) (V (main_arg14 : DevRef τ sig)) (V (main_arg15 : DevRef τ sig)) := by
  rw [eq_main_v72, eq_main_v71, eq_main_v70, eq_main_v69, eq_main_v68, eq_main_v67, eq_main_v66, eq_main_v65,
    eq_main_v64, eq_main_v63, eq_main_v62, eq_main_cst_9, eq_main_v61, eq_main_v60, eq_main_v59,
    eq_main_call3_call0_v1, eq_main_call3_call0_v0, eq_main_call3_cst_4, eq_main_call3_v13, eq_main_call3_cst_3,
    eq_main_call3_v12, eq_main_call3_v11, eq_main_call3_v10, eq_main_call3_v9, eq_main_call3_cst_2, eq_main_call3_v8,
    eq_main_call3_cst_1, eq_main_call3_v7, eq_main_call3_v6, eq_main_call3_v5, eq_main_call3_v4, eq_main_call3_v3,
    eq_main_call3_v2, eq_main_call3_cst_0, eq_main_call3_v1, eq_main_call3_v0, eq_main_call3_cst, eq_main_c_8,
    eq_main_v58, eq_main_v57, eq_main_cst_7, eq_main_v56, eq_main_v55, eq_main_cst_6]
  rw [after_arg14, after_arg15]
  rfl

/-- The messages summed into their receivers' rows. -/
theorem st_aggr (V : Valuation τ sig (Elt F)) :
    after ops V (main_v75 : DevRef τ sig)
      = RefTerm.aggr (V (main_arg3 : DevRef τ sig)) (after ops V (main_v72 : DevRef τ sig)) := by
  rw [eq_main_v75, eq_main_v74, eq_main_v73, eq_main_cst_10, eq_main_v30, eq_main_v29]
  rw [after_arg3]
  rfl

/-- The node block before its normalisation: the node's row and the summed messages laid end to end, linear layer, rectifier, linear layer. -/
theorem st_pre_node (V : Valuation τ sig (Elt F)) :
    after ops V (main_v85 : DevRef τ sig)
      = RefTerm.pre RefTerm.factsN dot_S16384x1024_S1024x512_S16384x512_1_0_0_1_n_n dot_S16384x512_S512x512_S16384x512_1_0_0_1_n_n
          (concatenate S16384x1024 1 [⟨S16384x512, (V (main_arg1 : DevRef τ sig))⟩, ⟨S16384x512, (after ops V (main_v75 : DevRef τ sig))⟩] concatenates_S16384x512_S16384x512_S16384x1024_d1)
          (V (main_arg16 : DevRef τ sig)) (V (main_arg17 : DevRef τ sig)) (V (main_arg18 : DevRef τ sig)) (V (main_arg19 : DevRef τ sig)) := by
  rw [eq_main_v85, eq_main_v84, eq_main_v83, eq_main_v82, eq_main_v81, eq_main_call4_v0, eq_main_call4_cst,
    eq_main_v80, eq_main_v79, eq_main_v78, eq_main_v77, eq_main_v76]
  rw [after_arg1, after_arg16, after_arg17, after_arg18, after_arg19]
  rfl

/-- The node block: the normalisation of that. -/
theorem st_ln_node (V : Valuation τ sig (Elt F)) :
    after ops V (main_v103 : DevRef τ sig)
      = RefTerm.lnRows RefTerm.factsN 0x44000000#32 (after ops V (main_v85 : DevRef τ sig)) (V (main_arg20 : DevRef τ sig)) (V (main_arg21 : DevRef τ sig)) := by
  rw [eq_main_v103, eq_main_v102, eq_main_v101, eq_main_v100, eq_main_v99, eq_main_v98, eq_main_v97, eq_main_v96,
    eq_main_v95, eq_main_v94, eq_main_v93, eq_main_cst_14, eq_main_v92, eq_main_v91, eq_main_v90,
    eq_main_call5_call0_v1, eq_main_call5_call0_v0, eq_main_call5_cst_4, eq_main_call5_v13, eq_main_call5_cst_3,
    eq_main_call5_v12, eq_main_call5_v11, eq_main_call5_v10, eq_main_call5_v9, eq_main_call5_cst_2, eq_main_call5_v8,
    eq_main_call5_cst_1, eq_main_call5_v7, eq_main_call5_v6, eq_main_call5_v5, eq_main_call5_v4, eq_main_call5_v3,
    eq_main_call5_v2, eq_main_call5_cst_0, eq_main_call5_v1, eq_main_call5_v0, eq_main_call5_cst, eq_main_c_13,
    eq_main_v89, eq_main_v88, eq_main_cst_12, eq_main_v87, eq_main_v86, eq_main_cst_11]
  rw [after_arg20, after_arg21]
  rfl

/-- The node's row added to the node block. -/
theorem st_residual (V : Valuation τ sig (Elt F)) :
    after ops V (main_v104 : DevRef τ sig)
      = addf (V (main_arg1 : DevRef τ sig)) (after ops V (main_v103 : DevRef τ sig)) := by
  rw [eq_main_v104]
  rw [after_arg1]

/-- The last block before its normalisation: linear layer, rectifier, linear layer to 128 features. -/
theorem st_pre_fin (V : Valuation τ sig (Elt F)) :
    after ops V (main_v113 : DevRef τ sig)
      = RefTerm.pre RefTerm.factsF dot_S16384x512_S512x512_S16384x512_1_0_0_1_n_n dot_S16384x512_S512x128_S16384x128_1_0_0_1_n_n (after ops V (main_v104 : DevRef τ sig)) (V (main_arg22 : DevRef τ sig)) (V (main_arg23 : DevRef τ sig)) (V (main_arg24 : DevRef τ sig)) (V (main_arg25 : DevRef τ sig)) := by
  rw [eq_main_v113, eq_main_v112, eq_main_v111, eq_main_v110, eq_main_v109, eq_main_call6_v0, eq_main_call6_cst,
    eq_main_v108, eq_main_v107, eq_main_v106, eq_main_v105]
  rw [after_arg22, after_arg23, after_arg24, after_arg25]
  rfl

/-- The result: the normalisation of that over 128 features. -/
theorem st_ln_fin (V : Valuation τ sig (Elt F)) :
    after ops V (main_v131 : DevRef τ sig)
      = RefTerm.lnRows RefTerm.factsF 0x43000000#32 (after ops V (main_v113 : DevRef τ sig)) (V (main_arg26 : DevRef τ sig)) (V (main_arg27 : DevRef τ sig)) := by
  rw [eq_main_v131, eq_main_v130, eq_main_v129, eq_main_v128, eq_main_v127, eq_main_v126, eq_main_v125, eq_main_v124,
    eq_main_v123, eq_main_v122, eq_main_v121, eq_main_cst_18, eq_main_v120, eq_main_v119, eq_main_v118,
    eq_main_call7_call0_v1, eq_main_call7_call0_v0, eq_main_call7_cst_4, eq_main_call7_v13, eq_main_call7_cst_3,
    eq_main_call7_v12, eq_main_call7_v11, eq_main_call7_v10, eq_main_call7_v9, eq_main_call7_cst_2, eq_main_call7_v8,
    eq_main_call7_cst_1, eq_main_call7_v7, eq_main_call7_v6, eq_main_call7_v5, eq_main_call7_v4, eq_main_call7_v3,
    eq_main_call7_v2, eq_main_call7_cst_0, eq_main_call7_v1, eq_main_call7_v0, eq_main_call7_cst, eq_main_c_17,
    eq_main_v117, eq_main_v116, eq_main_cst_16, eq_main_v115, eq_main_v114, eq_main_cst_15]
  rw [after_arg26, after_arg27]
  rfl

/-! ## The result -/

/-- The result buffer after the whole line is the closed term of the arguments' launch contents. -/
theorem after_out (V : Valuation τ sig (Elt F)) :
    after ops V (main_v131 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig))
          (V (main_arg18 : DevRef τ sig)) (V (main_arg19 : DevRef τ sig)) (V (main_arg20 : DevRef τ sig))
          (V (main_arg21 : DevRef τ sig)) (V (main_arg22 : DevRef τ sig)) (V (main_arg23 : DevRef τ sig))
          (V (main_arg24 : DevRef τ sig)) (V (main_arg25 : DevRef τ sig)) (V (main_arg26 : DevRef τ sig))
          (V (main_arg27 : DevRef τ sig)) := by
  rw [st_ln_fin, st_pre_fin, st_residual, st_ln_node, st_pre_node, st_aggr, st_ln_msg, st_pre_msg, st_gather_send,
    st_gather_recv, st_ln_emb, st_pre_emb]
  rfl

/-- On every device, for any float values, from any memory with zero counters: every weakly fair execution of the
    reference function terminates with the result buffer at the closed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131)
        = RefTerm.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
            (m ((c.tc : Thread nD τ).loc main_arg18)) (m ((c.tc : Thread nD τ).loc main_arg19))
            (m ((c.tc : Thread nD τ).loc main_arg20)) (m ((c.tc : Thread nD τ).loc main_arg21))
            (m ((c.tc : Thread nD τ).loc main_arg22)) (m ((c.tc : Thread nD τ).loc main_arg23))
            (m ((c.tc : Thread nD τ).loc main_arg24)) (m ((c.tc : Thread nD τ).loc main_arg25))
            (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v131).trans (after_out _),
(h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _),
      (h c main_arg9).trans (after_arg9 _), (h c main_arg10).trans (after_arg10 _),
      (h c main_arg11).trans (after_arg11 _), (h c main_arg12).trans (after_arg12 _),
      (h c main_arg13).trans (after_arg13 _), (h c main_arg14).trans (after_arg14 _),
      (h c main_arg15).trans (after_arg15 _), (h c main_arg16).trans (after_arg16 _),
      (h c main_arg17).trans (after_arg17 _), (h c main_arg18).trans (after_arg18 _),
      (h c main_arg19).trans (after_arg19 _), (h c main_arg20).trans (after_arg20 _),
      (h c main_arg21).trans (after_arg21 _), (h c main_arg22).trans (after_arg22 _),
      (h c main_arg23).trans (after_arg23 _), (h c main_arg24).trans (after_arg24 _),
      (h c main_arg25).trans (after_arg25 _), (h c main_arg26).trans (after_arg26 _),
      (h c main_arg27).trans (after_arg27 _)⟩)
    (run_fold m ρ)

end Cert.ReferenceIdeal.RefRun

end
-- ==== Proof.LibLastAxis.lean ====
/-
  Arrays whose LAST axis is the one that moves, read at an index written by its coordinates.

  * a slice along the last axis of a rank-4 array: at (a, b, c, j) it reads the source at (a, b, c, o + j);
  * a trailing unit axis dropped or added by a shape cast ([a,b,c,1] ↔ [a,b,c], [a] → [a,1]), and a trailing unit axis
    broadcast ([a,b,c,1] → [a,b,c,d], as a vector broadcast and as the host's broadcast_in_dim), the host's
    broadcast_in_dim that adds the trailing unit axis, and a scalar broadcast to any shape;
  * four [a,b,c,1] arrays joined along the last axis: channel k of the result is the k-th operand;
  * a sum over all indices of a rank-3 / rank-4 shape is the iterated sum over the coordinates;
  * a sum-reduction along the last axis (rank 4 → 3, rank 3 → 2) and of an [a,1] column along axis 0, from the zero
    word, over the extended reals.
-/
import Idealize.ShloMosaic.Lib.ValueIdx
import Idealize.ShloMosaic.Lib.Pipeline.Value
import Idealize.ShloMosaic.PureOps.Ideal.Laws

namespace Idealize.ShloMosaic.ValueIdx

open Idealize.ShloMosaic

variable {α : Type}

/-! ## Indices named by their coordinates -/

/-- An index of a rank-3 shape is the one with the same three coordinates. -/
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- An index of a rank-4 shape is the one with the same four coordinates. -/
theorem idx4_eq {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d :=
  funext fun e => Fin.ext (by
    match e with | ⟨0, _⟩ => exact h0 | ⟨1, _⟩ => exact h1 | ⟨2, _⟩ => exact h2 | ⟨3, _⟩ => exact h3)

/-- An index of a rank-2 shape is the one with the same two coordinates. -/
theorem idx2_eq {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-! ## A slice along the last axis -/

/-- The slice stays inside the source's last axis. -/
theorem slice4_axis3_lt {n0 n1 n2 n3 m o : Nat}
    (h : (⟨4, ![n0, n1, n2, n3]⟩ : Shape).Slices ![0, 0, 0, o] ⟨4, ![n0, n1, n2, m]⟩) (j : Fin m) : o + j.val < n3 := by
  have h3 : o + m ≤ n3 := h.2 (3 : Fin 4)
  have := j.isLt
  omega

/-- A rank-4 array cut along its last axis from `o` reads, at `(a, b, c, j)`, the source at `(a, b, c, o + j)`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, slice4_axis3_lt h j⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-! ## A trailing unit axis -/

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An `[a]` array cast to `[a, 1]` reads, at `(i, u)`, the operand at `i`. -/
theorem shapeCast_a_a1_apply' {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, b, c, 1]` array broadcast to `[a, b, c, d]` reads, at `(i, j, k, l)`, the operand at `(i, j, k, 0)`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- The host's `broadcast_in_dim` of an `[a, b, c, 1]` array to `[a, b, c, d]` along the identity: the same reading. -/
theorem broadcastInDim_abc1_abcd_apply {a b c d : ℕ} (x : (⟨4, ![a, b, c, 1]⟩ : Shape).Idx → α)
    (h : (⟨4, ![a, b, c, 1]⟩ : Shape).BroadcastsInDim ⟨4, ![a, b, c, d]⟩ ![0, 1, 2, 3])
    (i : Fin a) (j : Fin b) (k : Fin c) (l : Fin d) :
    broadcastInDim ⟨4, ![a, b, c, d]⟩ (no_index ![0, 1, 2, 3]) h x (ix4 i j k l) = x (ix4 i j k (0 : Fin 1)) := by
  refine broadcastInDim_apply ![0, 1, 2, 3] h x (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- The host's `broadcast_in_dim` of an `[a, b, c]` array to `[a, b, c, 1]` (a new trailing unit axis) reads, at
    `(i, j, k, u)`, the operand at `(i, j, k)`. -/
theorem broadcastInDim_abc_abc1_apply {a b c : ℕ} (x : (⟨3, ![a, b, c]⟩ : Shape).Idx → α)
    (h : (⟨3, ![a, b, c]⟩ : Shape).BroadcastsInDim ⟨4, ![a, b, c, 1]⟩ ![0, 1, 2])
    (i : Fin a) (j : Fin b) (k : Fin c) (u : Fin 1) :
    broadcastInDim ⟨4, ![a, b, c, 1]⟩ (no_index ![0, 1, 2]) h x (ix4 i j k u) = x (ix3 i j k) := by
  refine broadcastInDim_apply ![0, 1, 2] h x (ix4 i j k u) (ix3 i j k) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A scalar broadcast by the host to any shape reads the scalar everywhere. -/
theorem broadcastInDim_scalar_apply {t : Shape} (x : (⟨0, ![]⟩ : Shape).Idx → α)
    (dims : Fin (⟨0, ![]⟩ : Shape).rank → Fin t.rank) (h : (⟨0, ![]⟩ : Shape).BroadcastsInDim t dims) (j : t.Idx) :
    broadcastInDim t (no_index dims) h x j = x ix0 :=
  broadcastInDim_apply dims h x j ix0 (fun ax => ax.elim0)

/-! ## Four unit-channel arrays joined along the last axis -/

/-- Four `[a, b, c, 1]` arrays joined along the last axis: channel `k` of the result is the `k`-th operand. -/
theorem concatenate4_last_apply {a b c : ℕ} (x0 x1 x2 x3 : (⟨4, ![a, b, c, 1]⟩ : Shape).Idx → α)
    (h : Shape.Concatenates (([⟨⟨4, ![a, b, c, 1]⟩, x0⟩, ⟨⟨4, ![a, b, c, 1]⟩, x1⟩, ⟨⟨4, ![a, b, c, 1]⟩, x2⟩,
      ⟨⟨4, ![a, b, c, 1]⟩, x3⟩] : List ((s : Shape) × (s.Idx → α))).map (·.1)) ⟨4, ![a, b, c, 4]⟩ (3 : Fin 4))
    (i : Fin a) (j : Fin b) (k : Fin c) (l : Fin 4) :
    concatenate ⟨4, ![a, b, c, 4]⟩ (3 : Fin 4) [⟨⟨4, ![a, b, c, 1]⟩, x0⟩, ⟨⟨4, ![a, b, c, 1]⟩, x1⟩,
        ⟨⟨4, ![a, b, c, 1]⟩, x2⟩, ⟨⟨4, ![a, b, c, 1]⟩, x3⟩] h (ix4 i j k l)
      = ![x0 (ix4 i j k (0 : Fin 1)), x1 (ix4 i j k (0 : Fin 1)), x2 (ix4 i j k (0 : Fin 1)),
          x3 (ix4 i j k (0 : Fin 1))] l := by
  have hi : ∀ bx : Fin (⟨4, ![a, b, c, 1]⟩ : Shape).rank, bx.cast rfl ≠ (3 : Fin 4) →
      ((ix4 i j k (0 : Fin 1)) bx).val = ((ix4 i j k l) (bx.cast rfl)).val := fun bx hb => by
    match bx with
    | ⟨0, _⟩ => rfl
    | ⟨1, _⟩ => rfl
    | ⟨2, _⟩ => rfl
    | ⟨3, _⟩ => exact absurd rfl hb
  let xs : List ((s : Shape) × (s.Idx → α)) := [⟨⟨4, ![a, b, c, 1]⟩, x0⟩, ⟨⟨4, ![a, b, c, 1]⟩, x1⟩,
    ⟨⟨4, ![a, b, c, 1]⟩, x2⟩, ⟨⟨4, ![a, b, c, 1]⟩, x3⟩]
  match l with
  | ⟨0, hl⟩ =>
    exact concatenate_apply_piece (3 : Fin 4) xs h (ix4 i j k ⟨0, hl⟩) 0 (by show (0 : Nat) < 4; decide) _ x0 rfl rfl 0 rfl (ix4 i j k (0 : Fin 1)) hi (by rfl)
  | ⟨1, hl⟩ =>
    exact concatenate_apply_piece (3 : Fin 4) xs h (ix4 i j k ⟨1, hl⟩) 1 (by show (1 : Nat) < 4; decide) _ x1 rfl rfl 1 rfl (ix4 i j k (0 : Fin 1)) hi (by rfl)
  | ⟨2, hl⟩ =>
    exact concatenate_apply_piece (3 : Fin 4) xs h (ix4 i j k ⟨2, hl⟩) 2 (by show (2 : Nat) < 4; decide) _ x2 rfl rfl 2 rfl (ix4 i j k (0 : Fin 1)) hi (by rfl)
  | ⟨3, hl⟩ =>
    exact concatenate_apply_piece (3 : Fin 4) xs h (ix4 i j k ⟨3, hl⟩) 3 (by show (3 : Nat) < 4; decide) _ x3 rfl rfl 3 rfl (ix4 i j k (0 : Fin 1)) hi (by rfl)

/-! ## Sums over all indices -/

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## Sum-reductions from the zero word, over the extended reals

The accumulator's neutrality is stated as the printed operations carry it: the zero word equals itself. -/

/-- A sum along the last axis of an `[a, b, c, K]` array read at `(i, j, k)`: `∑ l, src (i, j, k, l)`. -/
theorem multiReduction_add_last4_apply {a b c K : ℕ} (src : FVec Ideal ⟨4, ![a, b, c, K]⟩ .f32)
    (hr : (⟨4, ![a, b, c, K]⟩ : Shape).Reduces [3] ⟨3, ![a, b, c]⟩) (hφ : FKind.Formats .f32)
    (hacc : (0x00000000#32 : BitVec 32) = 0x00000000#32) (i : Fin a) (j : Fin b) (k : Fin c) :
    multiReduction .add [3] ⟨3, ![a, b, c]⟩ src 0x00000000#32 hr hφ hacc (ix3 i j k)
      = ∑ l : Fin K, src (ix4 i j k l) :=
  (Ideal.multiReduction_add_single src _ hr hφ hacc (ix3 i j k)).trans
    (Finset.sum_congr rfl fun l _ => congrArg src (idx4_eq _ i j k l rfl rfl rfl rfl))

/-- A sum along the last axis of an `[a, b, K]` array read at `(i, j)`: `∑ l, src (i, j, l)`. -/
theorem multiReduction_add_last3_apply {a b K : ℕ} (src : FVec Ideal ⟨3, ![a, b, K]⟩ .f32)
    (hr : (⟨3, ![a, b, K]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 hr hφ hacc (ix2 i j) = ∑ l : Fin K, src (ix3 i j l) :=
  (Ideal.multiReduction_add_single src _ hr hφ hacc (ix2 i j)).trans
    (Finset.sum_congr rfl fun l _ => congrArg src (idx3_eq _ i j l rfl rfl rfl))

/-- A sum along the last axis of an `[a, K]` array read at `i`: `∑ l, src (i, l)`. -/
theorem multiReduction_add_last2_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 hr hφ hacc (ix1 i) = ∑ l : Fin K, src (ix2 i l) :=
  (Ideal.multiReduction_add_single src _ hr hφ hacc (ix1 i)).trans
    (Finset.sum_congr rfl fun l _ => congrArg src (idx2_eq _ i l rfl rfl))

/-- A sum down an `[a, 1]` column (axis 0) read at its one index: `∑ i, src (i, 0)`. -/
theorem multiReduction_add_col_apply {a : ℕ} (src : FVec Ideal ⟨2, ![a, 1]⟩ .f32)
    (hr : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 hr hφ hacc (ix1 u) = ∑ i : Fin a, src (ix2 i (0 : Fin 1)) :=
  (Ideal.multiReduction_add_single src _ hr hφ hacc (ix1 u)).trans
    (Finset.sum_congr rfl fun i _ => congrArg src (idx2_eq _ i (0 : Fin 1) rfl (by
      have h1 : ((hr.lift (ix1 u) i) 1).val < 1 := ((hr.lift (ix1 u) i) 1).isLt
      show ((hr.lift (ix1 u) i) 1).val = 0
      omega)))

/-! ## Summing a whole array one axis at a time

A rank-3 (rank-4) array is summed entirely by reducing its last axis repeatedly down to a vector, casting the vector to
a column, reducing the column and casting the one entry to a 1×1 matrix: that entry is the iterated sum. -/

/-- Every entry of an `[a, b, c]` array, summed axis by axis into a 1×1 matrix. -/
theorem sumAll3_apply {a b c : ℕ} (v : FVec Ideal ⟨3, ![a, b, c]⟩ .f32)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩) (h0 : (⟨2, ![a, 1]⟩ : Shape).Reduces [0] ⟨1, ![1]⟩)
    (hc' : (⟨1, ![1]⟩ : Shape).ShapeCasts ⟨2, ![1, 1]⟩) (hφ : FKind.Formats .f32)
    (hacc : (0x00000000#32 : BitVec 32) = 0x00000000#32) :
    shapeCast ⟨2, ![1, 1]⟩ (multiReduction .add [0] ⟨1, ![1]⟩ (shapeCast ⟨2, ![a, 1]⟩
        (multiReduction .add [1] ⟨1, ![a]⟩ (multiReduction .add [2] ⟨2, ![a, b]⟩ v 0x00000000#32 h2 hφ hacc)
          0x00000000#32 h1 hφ hacc) hc) 0x00000000#32 h0 hφ hacc) hc' (ix2 (0 : Fin 1) (0 : Fin 1))
      = ∑ i : Fin a, ∑ j : Fin b, ∑ k : Fin c, v (ix3 i j k) := by
  rw [shapeCast_a_a1_apply', multiReduction_add_col_apply]
  refine Finset.sum_congr rfl fun i _ => ?_
  rw [shapeCast_a_a1_apply', multiReduction_add_last2_apply]
  refine Finset.sum_congr rfl fun j _ => ?_
  rw [multiReduction_add_last3_apply]

/-- Every entry of an `[a, b, c, d]` array, summed axis by axis into a 1×1 matrix. -/
theorem sumAll4_apply {a b c d : ℕ} (v : FVec Ideal ⟨4, ![a, b, c, d]⟩ .f32)
    (h3 : (⟨4, ![a, b, c, d]⟩ : Shape).Reduces [3] ⟨3, ![a, b, c]⟩)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩) (h0 : (⟨2, ![a, 1]⟩ : Shape).Reduces [0] ⟨1, ![1]⟩)
    (hc' : (⟨1, ![1]⟩ : Shape).ShapeCasts ⟨2, ![1, 1]⟩) (hφ : FKind.Formats .f32)
    (hacc : (0x00000000#32 : BitVec 32) = 0x00000000#32) :
    shapeCast ⟨2, ![1, 1]⟩ (multiReduction .add [0] ⟨1, ![1]⟩ (shapeCast ⟨2, ![a, 1]⟩
        (multiReduction .add [1] ⟨1, ![a]⟩ (multiReduction .add [2] ⟨2, ![a, b]⟩
          (multiReduction .add [3] ⟨3, ![a, b, c]⟩ v 0x00000000#32 h3 hφ hacc) 0x00000000#32 h2 hφ hacc)
          0x00000000#32 h1 hφ hacc) hc) 0x00000000#32 h0 hφ hacc) hc' (ix2 (0 : Fin 1) (0 : Fin 1))
      = ∑ i : Fin a, ∑ j : Fin b, ∑ k : Fin c, ∑ l : Fin d, v (ix4 i j k l) := by
  rw [shapeCast_a_a1_apply', multiReduction_add_col_apply]
  refine Finset.sum_congr rfl fun i _ => ?_
  rw [shapeCast_a_a1_apply', multiReduction_add_last2_apply]
  refine Finset.sum_congr rfl fun j _ => ?_
  rw [multiReduction_add_last3_apply]
  refine Finset.sum_congr rfl fun k _ => ?_
  rw [multiReduction_add_last4_apply]

/-! ## The host's pointwise operations at an index (definitional) -/

section Pointwise
variable {F : FTy → Type} [FloatOps F] {s : Shape} {φ : FTy}

theorem hostDivf_apply (x y : FVec F s φ) (i : s.Idx) : Host.divf x y i = FloatOps.hostDivf (x i) (y i) := rfl
theorem hostSqrt_apply (x : FVec F s φ) (i : s.Idx) : Host.sqrt x i = FloatOps.hostUnary .sqrt (x i) := rfl
theorem sqrt_apply (x : FVec F s φ) (i : s.Idx) : sqrt x i = FloatOps.sqrt (x i) := rfl
theorem uitofp_apply {w : Nat} (x : IVec s w) (i : s.Idx) : (uitofp φ x : FVec F s φ) i = FloatOps.uitofp φ (x i) := rfl

end Pointwise

end Idealize.ShloMosaic.ValueIdx
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.RefBlock.lean ====
/-
  One block of the reference — linear layer, rectifier, linear layer, layer normalisation, as the host spells them —
  read at an entry (i, j) over the extended reals: it is the specification's block applied to row i of the input.

  Each host operation is read at an index: a bias row laid over the rows reads the bias at the column; a scalar
  broadcast reads the scalar; a row sum viewed as a column and broadcast back reads the row's sum; the matrix
  products are sums over the contracted coordinate. The variance helper's guard compares "feature count minus the
  integer zero" with zero: the feature-count word denotes a positive real, so the guard keeps the quotient.
-/
import Mathlib
import Idealize.ShloMosaic.Lib.ValueIdx
import Idealize.ShloMosaic.Lib.Pipeline.Value
import Idealize.ShloMosaic.PureOps.Ideal.Laws
import proofs.«111695_j88261577933428_1_alg».proof.Proof.Spec
import proofs.«111695_j88261577933428_1_alg».proof.Proof.LibDot
import proofs.«111695_j88261577933428_1_alg».proof.Proof.LibRowSum
import proofs.«111695_j88261577933428_1_alg».proof.Proof.LibLastAxis
import proofs.«111695_j88261577933428_1_alg».proof.Proof.LibRealMask
import proofs.«111695_j88261577933428_1_alg».proof.Proof.RefTerm

noncomputable section

namespace Cert.ReferenceIdeal.RefValue

open Idealize.ShloMosaic Idealize.ShloMosaic.ValueIdx
open Cert.ReferenceIdeal Cert.ReferenceIdeal.RefTerm

variable {α : Type}

/-! ## Layout operations read at an index -/

/-- A row [W] laid over a rows reads, at (i, j), the row at j. -/
theorem biasRows_apply {a W : ℕ} (h1 : (Sh1 W).BroadcastsInDim (Sh2 1 W) (![1] : Fin 1 → Fin (Sh2 1 W).rank))
    (h2 : (Sh2 1 W).BroadcastsInDim (Sh2 a W) (![0, 1] : Fin 2 → Fin (Sh2 a W).rank))
    (b : FVec Ideal (Sh1 W) .f32) (i : Fin a) (j : Fin W) :
    biasRows (F := Ideal) h1 h2 b (ix2 i j) = b (ix1 j) := by
  unfold biasRows
  rw [broadcastInDim_apply ![0, 1] h2 _ (ix2 i j) (ix2 (0 : Fin 1) j) (fun ax => by
    match ax with
    | ⟨0, _⟩ => rfl
    | ⟨1, _⟩ =>
      show j.val = if W = 1 then 0 else j.val
      split
      · have := j.isLt; omega
      · rfl)]
  exact broadcastInDim_apply ![1] h1 b (ix2 (0 : Fin 1) j) (ix1 j) (fun ax => by
    match ax with
    | ⟨0, _⟩ =>
      show j.val = if W = 1 then 0 else j.val
      split
      · have := j.isLt; omega
      · rfl)

/-- A vector [a] viewed as the column [a, 1] reads, at (i, u), the vector at i. -/
theorem col_apply {a : ℕ} (h : (Sh1 a).BroadcastsInDim (Sh2 a 1) (![0] : Fin 1 → Fin (Sh2 a 1).rank))
    (v : (Sh1 a).Idx → α) (i : Fin a) (u : Fin 1) :
    broadcastInDim (Sh2 a 1) ![0] h v (ix2 i u) = v (ix1 i) :=
  broadcastInDim_apply ![0] h v (ix2 i u) (ix1 i) (fun ax => by
    match ax with
    | ⟨0, _⟩ =>
      show i.val = if a = 1 then 0 else i.val
      split
      · have := i.isLt; omega
      · rfl)

/-- A column [a, 1] broadcast along the rows to [a, N] reads, at (i, j), the column at i. -/
theorem colN_apply {a N : ℕ} (h : (Sh2 a 1).BroadcastsInDim (Sh2 a N) (![0, 1] : Fin 2 → Fin (Sh2 a N).rank))
    (c : (Sh2 a 1).Idx → α) (i : Fin a) (j : Fin N) :
    broadcastInDim (Sh2 a N) ![0, 1] h c (ix2 i j) = c (ix2 i (0 : Fin 1)) :=
  broadcastInDim_apply ![0, 1] h c (ix2 i j) (ix2 i (0 : Fin 1)) (fun ax => by
    match ax with
    | ⟨0, _⟩ =>
      show i.val = if a = 1 then 0 else i.val
      split
      · have := i.isLt; omega
      · rfl
    | ⟨1, _⟩ => rfl)

/-- A scalar broadcast to any shape reads the scalar. -/
theorem scal_apply {t : Shape} (h : S_.BroadcastsInDim t (![] : Fin 0 → Fin t.rank)) (x : S_.Idx → α) (j : t.Idx) :
    broadcastInDim t ![] h x j = x ix0 :=
  broadcastInDim_apply ![] h x j ix0 (fun ax => ax.elim0)

/-- A host sum along the second axis from the zero word, read at row i: the sum of the row's entries. -/
theorem rowSum_apply {a N : ℕ} (hr : (Sh2 a N).ReducesTo [1] (Sh1 a)) (h1 : 0 < S_.numel)
    (h : FVec Ideal (Sh2 a N) .f32) (i : Fin a) :
    Host.reduceAdd h (constant S_ .f32 0x00000000#32) hr h1 (ix1 i) = ∑ c : Fin N, h (ix2 i c) := by
  have hR : (Sh2 a N).Reduces [1] (Sh1 a) := ⟨hr.1, Nat.one_pos, hr.2⟩
  show Ideal.hostReduceAdd hr h (Ideal.ofBits .f32 0x00000000#32) (ix1 i) = _
  rw [Ideal.hostReduceAdd_single hr hR, Ideal.ofBits_zero_f32, zero_add]
  exact Finset.sum_congr rfl fun k _ => congrArg h (idx2_ext _ i k rfl rfl)

/-! ## The feature-count words -/

/-- A word that denotes a positive real. -/
def PosWord (nf : BitVec 32) : Prop := ∃ r : ℝ, 0 < r ∧ Ideal.ofBits .f32 nf = ((r : ℝ) : EReal)

/-- The word of 512.0 denotes 512, the word of 128.0 denotes 128. -/
theorem w512_eq : Ideal.ofBits .f32 0x44000000#32 = ((512 : ℝ) : EReal) := by
  simp [Ideal.ofBits, Ideal.ieee]
  rw [← EReal.coe_mul]
  congr 1
  norm_num
theorem w128_eq : Ideal.ofBits .f32 0x43000000#32 = ((128 : ℝ) : EReal) := by
  simp [Ideal.ofBits, Ideal.ieee]
  rw [← EReal.coe_mul]
  congr 1
  norm_num
theorem posWord512 : PosWord 0x44000000#32 := ⟨512, by norm_num, w512_eq⟩
theorem posWord128 : PosWord 0x43000000#32 := ⟨128, by norm_num, w128_eq⟩

/-! ## The normalisation read at an entry -/

theorem hostRsqrt_apply {s : Shape} (x : FVec Ideal s .f32) (i : s.Idx) : Host.rsqrt x i = Ideal.rsqrt (x i) := rfl

section Block

variable {a K H N : ℕ}

/-- The keep-dimension mean at row i is the specification's mean of that row. -/
theorem meanCol_apply (hf : BlockFacts a H N) (nf : BitVec 32) (h : FVec Ideal (Sh2 a N) .f32) (i : Fin a) (u : Fin 1) :
    meanCol (F := Ideal) hf nf h (ix2 i u) = Spec.mean (Ideal.ofBits .f32 nf) (fun c => h (ix2 i c)) := by
  unfold meanCol Spec.mean
  rw [hostDivf_apply, col_apply, rowSum_apply, scal_apply]
  rfl

/-- The variance helper at row i: the guard holds, so it is the mean of the centred squares. -/
theorem varCol_apply (hf : BlockFacts a H N) (nf : BitVec 32) (hnf : PosWord nf) (h : FVec Ideal (Sh2 a N) .f32)
    (i : Fin a) (u : Fin 1) :
    varCol (F := Ideal) hf nf h (ix2 i u)
      = Ideal.div (∑ c : Fin N, (h (ix2 i c) - Spec.mean (Ideal.ofBits .f32 nf) (fun c => h (ix2 i c)))
          * (h (ix2 i c) - Spec.mean (Ideal.ofBits .f32 nf) (fun c => h (ix2 i c)))) (Ideal.ofBits .f32 nf) := by
  obtain ⟨r, hr, hw⟩ := hnf
  have h8 : (subf (constant S_ .f32 nf) (sitofp .f32 (constantI S_ 32 0#32)) : FVec Ideal S_ .f32) ix0
      = Ideal.ofBits .f32 nf := by
    show Ideal.ofBits .f32 nf - (((0#32 : BitVec 32).toInt : ℝ) : EReal) = _
    simp
  have hc : FloatOps.cmpf (F := Ideal) (φ := .f32) .ogt (Ideal.ofBits .f32 nf) (Ideal.ofBits .f32 0x00000000#32) = 1#1 := by
    show Ideal.cmp .ogt _ _ = _
    rw [hw, Ideal.ofBits_zero_f32, ← EReal.coe_zero, LibRealMask.cmp_ogt_coe]
    simp [hr]
  unfold varCol
  dsimp only
  rw [select_apply, scal_apply, cmpf_apply, h8, constant_apply, hc, select_one]
  rw [hostDivf_apply, col_apply, rowSum_apply, scal_apply, h8]
  show Ideal.div _ _ = _
  congr 1
  refine Finset.sum_congr rfl fun c _ => ?_
  rw [mulf_apply, subf_apply, colN_apply, meanCol_apply]

/-- The host's layer normalisation at (i, j) is the specification's, of row i. -/
theorem lnRows_apply (hf : BlockFacts a H N) (nf : BitVec 32) (hnf : PosWord nf) (h : FVec Ideal (Sh2 a N) .f32)
    (g beta : FVec Ideal (Sh1 N) .f32) (i : Fin a) (j : Fin N) :
    lnRows (F := Ideal) hf nf h g beta (ix2 i j)
      = Spec.layerNorm (Ideal.ofBits .f32 nf) (fun c => h (ix2 i c)) (Spec.vecOf g) (Spec.vecOf beta) j := by
  unfold lnRows
  rw [addf_apply, mulf_apply, mulf_apply, subf_apply, colN_apply, colN_apply, meanCol_apply, biasRows_apply,
    biasRows_apply, hostRsqrt_apply, addf_apply, varCol_apply hf nf hnf, scal_apply]
  rfl

/-- The rectified first layer at (i, k). -/
theorem hidden_apply (hf : BlockFacts a H N) (d1 : DotDims (Sh2 a K) (Sh2 K H) (Sh2 a H)) (hd1 : LibDot.Plain d1)
    (x : FVec Ideal (Sh2 a K) .f32) (w1 : FVec Ideal (Sh2 K H) .f32) (b1 : FVec Ideal (Sh1 H) .f32)
    (i : Fin a) (k : Fin H) :
    RefTerm.hidden (F := Ideal) hf d1 x w1 b1 (ix2 i k)
      = Spec.relu (Spec.lin (fun q => x (ix2 i q)) (Spec.matOf w1) (Spec.vecOf b1)) k := by
  unfold RefTerm.hidden
  rw [maximumf_apply, addf_apply, LibDot.dotGeneral_ix2 hd1, biasRows_apply, scal_apply, constant_apply,
    Ideal.ofBits_zero_f32]
  rfl

/-- The second layer's output at (i, j). -/
theorem pre_apply (hf : BlockFacts a H N) (d1 : DotDims (Sh2 a K) (Sh2 K H) (Sh2 a H))
    (d2 : DotDims (Sh2 a H) (Sh2 H N) (Sh2 a N)) (hd1 : LibDot.Plain d1) (hd2 : LibDot.Plain d2)
    (x : FVec Ideal (Sh2 a K) .f32) (w1 : FVec Ideal (Sh2 K H) .f32) (b1 : FVec Ideal (Sh1 H) .f32)
    (w2 : FVec Ideal (Sh2 H N) .f32) (b2 : FVec Ideal (Sh1 N) .f32) (i : Fin a) (j : Fin N) :
    pre (F := Ideal) hf d1 d2 x w1 b1 w2 b2 (ix2 i j)
      = Spec.lin (Spec.relu (Spec.lin (fun q => x (ix2 i q)) (Spec.matOf w1) (Spec.vecOf b1))) (Spec.matOf w2)
          (Spec.vecOf b2) j := by
  unfold pre
  rw [addf_apply, LibDot.dotGeneral_ix2 hd2, biasRows_apply]
  refine congrArg₂ (· + ·) (Finset.sum_congr rfl fun k _ => ?_) rfl
  rw [hidden_apply hf d1 hd1]
  rfl

/-- One block at (i, j) is the specification's block of row i. -/
theorem block_apply (hf : BlockFacts a H N) (d1 : DotDims (Sh2 a K) (Sh2 K H) (Sh2 a H))
    (d2 : DotDims (Sh2 a H) (Sh2 H N) (Sh2 a N)) (hd1 : LibDot.Plain d1) (hd2 : LibDot.Plain d2)
    (nf : BitVec 32) (hnf : PosWord nf)
    (x : FVec Ideal (Sh2 a K) .f32) (w1 : FVec Ideal (Sh2 K H) .f32) (b1 : FVec Ideal (Sh1 H) .f32)
    (w2 : FVec Ideal (Sh2 H N) .f32) (b2 g beta : FVec Ideal (Sh1 N) .f32) (i : Fin a) (j : Fin N) :
    block (F := Ideal) hf d1 d2 nf x w1 b1 w2 b2 g beta (ix2 i j)
      = Spec.mlpLn (Ideal.ofBits .f32 nf) (fun q => x (ix2 i q)) (Spec.matOf w1) (Spec.vecOf b1) (Spec.matOf w2)
          (Spec.vecOf b2) (Spec.vecOf g) (Spec.vecOf beta) j := by
  have hp : (fun c => pre (F := Ideal) hf d1 d2 x w1 b1 w2 b2 (ix2 i c))
      = Spec.lin (Spec.relu (Spec.lin (fun q => x (ix2 i q)) (Spec.matOf w1) (Spec.vecOf b1))) (Spec.matOf w2)
          (Spec.vecOf b2) := funext fun c => pre_apply hf d1 d2 hd1 hd2 x w1 b1 w2 b2 i c
  unfold block
  rw [lnRows_apply hf nf hnf, hp]
  rfl

end Block

end Cert.ReferenceIdeal.RefValue

end
-- ==== Proof.RefValue.lean ====
/-
  The reference's result, entry by entry, is the specification's.

  The four blocks of the program are one composition of host operations at four sets of extents; read at an entry
  each is the specification's block applied to a row of its input. The input of the message block is three arrays
  laid side by side, whose row is the three rows end to end; the node block's likewise with two. The two row gathers
  and the segment sum are the same terms on both sides and are never opened.
-/
import proofs.«111695_j88261577933428_1_alg».proof.Proof.RefBlock
import proofs.«111695_j88261577933428_1_alg».proof.Proof.LibConcatRows

noncomputable section

namespace Cert.ReferenceIdeal.RefValue

open Idealize.ShloMosaic Idealize.ShloMosaic.ValueIdx
open Cert.ReferenceIdeal Cert.ReferenceIdeal.RefTerm

variable [Facts]
open Facts₀ Facts

/-! ## The six products' dimension numbers are plain rows-by-columns ones -/

theorem plainE1 : LibDot.Plain dot_S49152x4_S4x512_S49152x512_1_0_0_1_n_n :=
  ⟨rfl, rfl, fun _ _ => rfl, fun j k => DotDims.lhsIdx_val_of_single _ rfl j k,
    fun j k => DotDims.rhsIdx_val_of_single _ rfl j k, fun _ _ => rfl⟩
theorem plainE2 : LibDot.Plain dot_S49152x512_S512x512_S49152x512_1_0_0_1_n_n :=
  ⟨rfl, rfl, fun _ _ => rfl, fun j k => DotDims.lhsIdx_val_of_single _ rfl j k,
    fun j k => DotDims.rhsIdx_val_of_single _ rfl j k, fun _ _ => rfl⟩
theorem plainM1 : LibDot.Plain dot_S49152x1536_S1536x512_S49152x512_1_0_0_1_n_n :=
  ⟨rfl, rfl, fun _ _ => rfl, fun j k => DotDims.lhsIdx_val_of_single _ rfl j k,
    fun j k => DotDims.rhsIdx_val_of_single _ rfl j k, fun _ _ => rfl⟩
theorem plainN1 : LibDot.Plain dot_S16384x1024_S1024x512_S16384x512_1_0_0_1_n_n :=
  ⟨rfl, rfl, fun _ _ => rfl, fun j k => DotDims.lhsIdx_val_of_single _ rfl j k,
    fun j k => DotDims.rhsIdx_val_of_single _ rfl j k, fun _ _ => rfl⟩
theorem plainN2 : LibDot.Plain dot_S16384x512_S512x512_S16384x512_1_0_0_1_n_n :=
  ⟨rfl, rfl, fun _ _ => rfl, fun j k => DotDims.lhsIdx_val_of_single _ rfl j k,
    fun j k => DotDims.rhsIdx_val_of_single _ rfl j k, fun _ _ => rfl⟩
theorem plainF2 : LibDot.Plain dot_S16384x512_S512x128_S16384x128_1_0_0_1_n_n :=
  ⟨rfl, rfl, fun _ _ => rfl, fun j k => DotDims.lhsIdx_val_of_single _ rfl j k,
    fun j k => DotDims.rhsIdx_val_of_single _ rfl j k, fun _ _ => rfl⟩

/-! ## The four blocks at an entry -/

/-- The edge embedding at (e, j). -/
theorem emb_apply (a2 : (⟨S49152x4, .f32⟩ : BufTy).Contents (Elt Ideal)) (a4 : (⟨S4x512, .f32⟩ : BufTy).Contents (Elt Ideal)) (a5 : (⟨S512, .f32⟩ : BufTy).Contents (Elt Ideal)) (a6 : (⟨S512x512, .f32⟩ : BufTy).Contents (Elt Ideal))
    (a7 a8 a9 : (⟨S512, .f32⟩ : BufTy).Contents (Elt Ideal)) (e : Fin 49152) (j : Fin 512) :
    emb (F := Ideal) a2 a4 a5 a6 a7 a8 a9 (ix2 e j)
      = Spec.mlpLn Spec.w512 (Spec.rowOf a2 e) (Spec.matOf a4) (Spec.vecOf a5) (Spec.matOf a6) (Spec.vecOf a7)
          (Spec.vecOf a8) (Spec.vecOf a9) j :=
  block_apply factsE _ _ plainE1 plainE2 _ posWord512 a2 a4 a5 a6 a7 a8 a9 e j

/-- The messages, as a whole array, are the specification's. -/
theorem msg_eq (xi xj : (⟨S49152x512, .f32⟩ : BufTy).Contents (Elt Ideal)) (a2 : (⟨S49152x4, .f32⟩ : BufTy).Contents (Elt Ideal)) (a4 : (⟨S4x512, .f32⟩ : BufTy).Contents (Elt Ideal)) (a5 : (⟨S512, .f32⟩ : BufTy).Contents (Elt Ideal))
    (a6 : (⟨S512x512, .f32⟩ : BufTy).Contents (Elt Ideal)) (a7 a8 a9 : (⟨S512, .f32⟩ : BufTy).Contents (Elt Ideal)) (a10 : (⟨S1536x512, .f32⟩ : BufTy).Contents (Elt Ideal)) (a11 : (⟨S512, .f32⟩ : BufTy).Contents (Elt Ideal))
    (a12 : (⟨S512x512, .f32⟩ : BufTy).Contents (Elt Ideal)) (a13 a14 a15 : (⟨S512, .f32⟩ : BufTy).Contents (Elt Ideal)) :
    msg (F := Ideal) xi xj (emb (F := Ideal) a2 a4 a5 a6 a7 a8 a9) a10 a11 a12 a13 a14 a15
      = Spec.edgeMsg a2 xi xj a4 a5 a6 a7 a8 a9 a10 a11 a12 a13 a14 a15 := by
  funext idx
  obtain ⟨e, j, rfl⟩ : ∃ e j, idx = ix2 e j := ⟨idx 0, idx 1, eq_ix2 idx⟩
  have he : (fun q => emb (F := Ideal) a2 a4 a5 a6 a7 a8 a9 (ix2 e q))
      = Spec.mlpLn Spec.w512 (Spec.rowOf a2 e) (Spec.matOf a4) (Spec.vecOf a5) (Spec.matOf a6) (Spec.vecOf a7)
          (Spec.vecOf a8) (Spec.vecOf a9) := funext fun q => emb_apply a2 a4 a5 a6 a7 a8 a9 e q
  have hrow : (fun q => concatenate S49152x1536 1
        [⟨S49152x512, xi⟩, ⟨S49152x512, xj⟩, ⟨S49152x512, emb (F := Ideal) a2 a4 a5 a6 a7 a8 a9⟩]
        concatenates_S49152x512_S49152x512_S49152x512_S49152x1536_d1 (ix2 e q))
      = Spec.cat3 (Spec.rowOf xi e) (Spec.rowOf xj e)
          (Spec.mlpLn Spec.w512 (Spec.rowOf a2 e) (Spec.matOf a4) (Spec.vecOf a5) (Spec.matOf a6) (Spec.vecOf a7)
            (Spec.vecOf a8) (Spec.vecOf a9)) := by
    funext q
    rw [LibConcatRows.concat3_rows_apply, he]
    rfl
  rw [Spec.edgeMsg_apply]
  unfold msg Spec.edgeRow
  rw [block_apply factsE _ _ plainM1 plainE2 _ posWord512, hrow]

/-- The node block at (n, k). -/
theorem node_apply (a1 ag : (⟨S16384x512, .f32⟩ : BufTy).Contents (Elt Ideal)) (a16 : (⟨S1024x512, .f32⟩ : BufTy).Contents (Elt Ideal)) (a17 : (⟨S512, .f32⟩ : BufTy).Contents (Elt Ideal))
    (a18 : (⟨S512x512, .f32⟩ : BufTy).Contents (Elt Ideal)) (a19 a20 a21 : (⟨S512, .f32⟩ : BufTy).Contents (Elt Ideal)) (n : Fin 16384) (k : Fin 512) :
    node (F := Ideal) a1 ag a16 a17 a18 a19 a20 a21 (ix2 n k)
      = Spec.mlpLn Spec.w512 (Spec.cat2 (Spec.rowOf a1 n) (Spec.rowOf ag n)) (Spec.matOf a16) (Spec.vecOf a17)
          (Spec.matOf a18) (Spec.vecOf a19) (Spec.vecOf a20) (Spec.vecOf a21) k := by
  have hrow : (fun q => concatenate S16384x1024 1 [⟨S16384x512, a1⟩, ⟨S16384x512, ag⟩]
        concatenates_S16384x512_S16384x512_S16384x1024_d1 (ix2 n q))
      = Spec.cat2 (Spec.rowOf a1 n) (Spec.rowOf ag n) := by
    funext q
    rw [LibConcatRows.concat2_rows_apply]
    rfl
  unfold node
  rw [block_apply factsN _ _ plainN1 plainN2 _ posWord512, hrow]

/-! ## The whole result -/

/-- The reference's result is the specification's node output of the grid array and the aggregated messages. -/
theorem out_eq (a0 : (⟨S2562x512, .f32⟩ : BufTy).Contents (Elt Ideal)) (a1 : (⟨S16384x512, .f32⟩ : BufTy).Contents (Elt Ideal)) (a2 : (⟨S49152x4, .f32⟩ : BufTy).Contents (Elt Ideal))
    (a3 : (⟨S2x49152, .i32⟩ : BufTy).Contents (Elt Ideal)) (a4 : (⟨S4x512, .f32⟩ : BufTy).Contents (Elt Ideal)) (a5 : (⟨S512, .f32⟩ : BufTy).Contents (Elt Ideal))
    (a6 : (⟨S512x512, .f32⟩ : BufTy).Contents (Elt Ideal)) (a7 a8 a9 : (⟨S512, .f32⟩ : BufTy).Contents (Elt Ideal)) (a10 : (⟨S1536x512, .f32⟩ : BufTy).Contents (Elt Ideal)) (a11 : (⟨S512, .f32⟩ : BufTy).Contents (Elt Ideal))
    (a12 : (⟨S512x512, .f32⟩ : BufTy).Contents (Elt Ideal)) (a13 a14 a15 : (⟨S512, .f32⟩ : BufTy).Contents (Elt Ideal)) (a16 : (⟨S1024x512, .f32⟩ : BufTy).Contents (Elt Ideal)) (a17 : (⟨S512, .f32⟩ : BufTy).Contents (Elt Ideal))
    (a18 : (⟨S512x512, .f32⟩ : BufTy).Contents (Elt Ideal)) (a19 a20 a21 : (⟨S512, .f32⟩ : BufTy).Contents (Elt Ideal)) (a22 : (⟨S512x512, .f32⟩ : BufTy).Contents (Elt Ideal)) (a23 : (⟨S512, .f32⟩ : BufTy).Contents (Elt Ideal))
    (a24 : (⟨S512x128, .f32⟩ : BufTy).Contents (Elt Ideal)) (a25 a26 a27 : (⟨S128, .f32⟩ : BufTy).Contents (Elt Ideal)) :
    RefTerm.out (F := Ideal) a0 a1 a2 a3 a4 a5 a6 a7 a8 a9 a10 a11 a12 a13 a14 a15 a16 a17 a18 a19 a20 a21 a22 a23 a24
        a25 a26 a27
      = Spec.nodeOut a1
          (RefTerm.aggr (F := Ideal) a3
            (Spec.edgeMsg a2 (RefTerm.gatherRecv (F := Ideal) a1 a3) (RefTerm.gatherSend (F := Ideal) a0 a3)
              a4 a5 a6 a7 a8 a9 a10 a11 a12 a13 a14 a15))
          a16 a17 a18 a19 a20 a21 a22 a23 a24 a25 a26 a27 := by
  funext idx
  obtain ⟨n, j, rfl⟩ : ∃ n j, idx = ix2 n j := ⟨idx 0, idx 1, eq_ix2 idx⟩
  rw [Spec.nodeOut_apply]
  unfold RefTerm.out RefTerm.fin Spec.nodeRow
  rw [block_apply factsF _ _ plainN2 plainF2 _ posWord128, msg_eq]
  refine congrArg (fun x => Spec.mlpLn Spec.w128 x (Spec.matOf a22) (Spec.vecOf a23) (Spec.matOf a24) (Spec.vecOf a25)
    (Spec.vecOf a26) (Spec.vecOf a27) j) (funext fun k => ?_)
  rw [addf_apply, node_apply]
  rfl

end Cert.ReferenceIdeal.RefValue

end
-- ==== Proof.lean ====
/-
  The claim: the kernel program and the reference compute one function of the arguments on the extended reals.

  Both are a graph-network layer. Per edge: embed its four attributes (linear, rectifier, linear, layer normalisation),
  lay the receiver's grid row, the sender's mesh row and that embedding end to end, and apply a second such block: the
  edge's message. Per grid node: sum the messages arriving at it, lay its own row and that sum end to end, apply a
  third block, add the node's row, apply a fourth block of width 128.

  The kernel program runs the two row-wise parts as two pipelined regions (96 blocks of 512 edges, 16 blocks of 1024
  nodes) with the gathers before and the segment sum between them on the host; the reference is host operations
  throughout. Every stage acts row by row, so a block of rows of the result is the stage's function of the same block
  of rows of its inputs, and the blocks tile the arrays: each region leaves the row-wise function
  (`Cert.Spec.edgeMsg`, `Cert.Spec.nodeOut`) of the arrays it finds. The reference's operations, read at an index, are
  the same row functions; the gathers and the segment sum are literally the same host operations on both sides and are
  never opened. The two matrix products differ only in how they are spelt (a product into a zero accumulator against a
  general product: both the plain sum over the contracted axis), a row mean is a row sum divided by the same float word
  on both sides, the reference's variance divides by `512 − 0` under a guard `512 − 0 > 0` that holds; no step moves a
  factor across a sum, so no finiteness of the inputs is used.

  The three frames: the two kernel programs' are the generated frame certificates; the reference's is its run with
  the result dropped. The idealisation rewrote nothing, so `preserves` is trivial.
-/
import proofs.«111695_j88261577933428_1_alg».proof.Defs
import proofs.«111695_j88261577933428_1_alg».proof.Proof.Gen.Kernel
import proofs.«111695_j88261577933428_1_alg».proof.Proof.Gen.Kernel.Frame
import proofs.«111695_j88261577933428_1_alg».proof.Proof.Gen.KernelIdeal
import proofs.«111695_j88261577933428_1_alg».proof.Proof.Gen.KernelIdeal.Frame
import proofs.«111695_j88261577933428_1_alg».proof.Proof.Gen.ReferenceIdeal
import proofs.«111695_j88261577933428_1_alg».proof.Proof.Gen.Pre_finite_inputs
import proofs.«111695_j88261577933428_1_alg».proof.Proof.KernRun
import proofs.«111695_j88261577933428_1_alg».proof.Proof.KernGlue
import proofs.«111695_j88261577933428_1_alg».proof.Proof.KernPay0
import proofs.«111695_j88261577933428_1_alg».proof.Proof.KernPay1
import proofs.«111695_j88261577933428_1_alg».proof.Proof.Bridge
import proofs.«111695_j88261577933428_1_alg».proof.Proof.RefOut
import proofs.«111695_j88261577933428_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

set_option maxHeartbeats 1000000 in
/-- Both programs end with the node outputs of the grid array and the segment sum of the messages of the edge
    attributes and the two gathered arrays. -/
theorem algebraic : Cert.algebraic_KernelIdeal_ReferenceIdeal := by
  intro m ρ m' ρ' _ hagree
  refine ⟨fun c => Cert.KernelIdeal.Glue.result m c, ?_, ?_⟩
  · exact (θ_run Cert.KernelIdeal.defs _ _).mono
      (fun r h c => ⟨(h c).1.trans (Cert.KernelIdeal.Glue.result_eq m ρ
        Cert.KernelIdeal.Pay.out0_15_apply Cert.KernelIdeal.Pay.out1_14_apply c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18, e19, e20, e21, e22, e23, e24, e25, e26, e27⟩ := hagree c
    rw [e0, e1, e2, e3, e4, e5, e6, e7, e8, e9, e10, e11, e12, e13, e14, e15, e16, e17, e18, e19, e20, e21, e22, e23, e24, e25, e26, e27, Cert.ReferenceIdeal.RefValue.out_eq,
      Cert.Bridge.gatherRecv_eq, Cert.Bridge.gatherSend_eq, Cert.Bridge.aggr_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
